-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x2 : Shape := ⟨2, ![8192, 2]⟩
abbrev S8x4 : Shape := ⟨2, ![8, 4]⟩
abbrev S8x1 : Shape := ⟨2, ![8, 1]⟩
abbrev S2048x8192 : Shape := ⟨2, ![2048, 8192]⟩
abbrev S8192x2048 : Shape := ⟨2, ![8192, 2048]⟩
abbrev S2048x8 : Shape := ⟨2, ![2048, 8]⟩
abbrev S134x256 : Shape := ⟨2, ![134, 256]⟩
abbrev S256 : Shape := ⟨1, ![256]⟩
abbrev S256x128 : Shape := ⟨2, ![256, 128]⟩
abbrev S128 : Shape := ⟨1, ![128]⟩
abbrev S130x128 : Shape := ⟨2, ![130, 128]⟩
abbrev S128x128 : Shape := ⟨2, ![128, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x2 : S_.BroadcastsInDim S8192x2 (![] : Fin 0 → Fin S8192x2.rank)
  reducesTo_S8192x2_S_d0_1 : S8192x2.ReducesTo [0, 1] S_
  bcast_S_S8x4 : S_.BroadcastsInDim S8x4 (![] : Fin 0 → Fin S8x4.rank)
  reducesTo_S8x4_S_d0_1 : S8x4.ReducesTo [0, 1] S_
  bcast_S_S2048x8192 : S_.BroadcastsInDim S2048x8192 (![] : Fin 0 → Fin S2048x8192.rank)
  reducesTo_S2048x8192_S_d0_1 : S2048x8192.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S2048x8 : S_.BroadcastsInDim S2048x8 (![] : Fin 0 → Fin S2048x8.rank)
  reducesTo_S2048x8_S_d0_1 : S2048x8.ReducesTo [0, 1] S_
  bcast_S_S134x256 : S_.BroadcastsInDim S134x256 (![] : Fin 0 → Fin S134x256.rank)
  reducesTo_S134x256_S_d0_1 : S134x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S130x128 : S_.BroadcastsInDim S130x128 (![] : Fin 0 → Fin S130x128.rank)
  reducesTo_S130x128_S_d0_1 : S130x128.ReducesTo [0, 1] S_
  bcast_S_S128x128 : S_.BroadcastsInDim S128x128 (![] : Fin 0 → Fin S128x128.rank)
  reducesTo_S128x128_S_d0_1 : S128x128.ReducesTo [0, 1] S_

variable [Facts]

def fn_part7 {F : FTy → Type} [FloatOps F] (main_arg26 : FVec F S128x128 .f32) (main_arg27 : FVec F S128 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128x128 .f32 := Host.absf main_arg26
  let main_cst_48 : FVec F S_ .f32 := constant S_ .f32 0x7F800000#32
  let main_v125 : FVec F S128x128 .f32 := broadcastInDim S128x128 ![] bcast_S_S128x128 main_cst_48
  let main_v126 : IVec S128x128 1 := cmpf .olt main_v124 main_v125
  let main_c_49 : IVec S_ 1 := constantI S_ 1 1#1
  let main_v127 : IVec S_ 1 := (fun x v => Host.reduce IntOp.andi x v reducesTo_S128x128_S_d0_1 h_S_) main_v126 main_c_49
  let main_v128 : IVec S_ 1 := andi main_v123 main_v127
  let main_v129 : FVec F S128 .f32 := Host.absf main_arg27
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  main_v133

def fn_part6 {F : FTy → Type} [FloatOps F] (main_arg22 : FVec F S256x128 .f32) (main_arg23 : FVec F S128 .f32) (main_arg24 : FVec F S130x128 .f32) (main_arg25 : FVec F S128 .f32) (main_arg26 : FVec F S128x128 .f32) (main_arg27 : FVec F S128 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256x128 .f32 := Host.absf main_arg22
  let main_cst_40 : FVec F S_ .f32 := constant S_ .f32 0x7F800000#32
  let main_v105 : FVec F S256x128 .f32 := broadcastInDim S256x128 ![] bcast_S_S256x128 main_cst_40
  let main_v106 : IVec S256x128 1 := cmpf .olt main_v104 main_v105
  let main_c_41 : IVec S_ 1 := constantI S_ 1 1#1
  let main_v107 : IVec S_ 1 := (fun x v => Host.reduce IntOp.andi x v reducesTo_S256x128_S_d0_1 h_S_) main_v106 main_c_41
  let main_v108 : IVec S_ 1 := andi main_v103 main_v107
  let main_v109 : FVec F S128 .f32 := Host.absf main_arg23
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S130x128 .f32 := Host.absf main_arg24
  let main_cst_44 : FVec F S_ .f32 := constant S_ .f32 0x7F800000#32
  let main_v115 : FVec F S130x128 .f32 := broadcastInDim S130x128 ![] bcast_S_S130x128 main_cst_44
  let main_v116 : IVec S130x128 1 := cmpf .olt main_v114 main_v115
  let main_c_45 : IVec S_ 1 := constantI S_ 1 1#1
  let main_v117 : IVec S_ 1 := (fun x v => Host.reduce IntOp.andi x v reducesTo_S130x128_S_d0_1 h_S_) main_v116 main_c_45
  let main_v118 : IVec S_ 1 := andi main_v113 main_v117
  let main_v119 : FVec F S128 .f32 := Host.absf main_arg25
  fn_part7 (F := F) main_arg26 main_arg27 main_v118 main_v119

def fn_part5 {F : FTy → Type} [FloatOps F] (main_arg19 : FVec F S128 .f32) (main_arg20 : FVec F S134x256 .f32) (main_arg21 : FVec F S256 .f32) (main_arg22 : FVec F S256x128 .f32) (main_arg23 : FVec F S128 .f32) (main_arg24 : FVec F S130x128 .f32) (main_arg25 : FVec F S128 .f32) (main_arg26 : FVec F S128x128 .f32) (main_arg27 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S134x256 .f32 := Host.absf main_arg20
  let main_cst_36 : FVec F S_ .f32 := constant S_ .f32 0x7F800000#32
  let main_v95 : FVec F S134x256 .f32 := broadcastInDim S134x256 ![] bcast_S_S134x256 main_cst_36
  let main_v96 : IVec S134x256 1 := cmpf .olt main_v94 main_v95
  let main_c_37 : IVec S_ 1 := constantI S_ 1 1#1
  let main_v97 : IVec S_ 1 := (fun x v => Host.reduce IntOp.andi x v reducesTo_S134x256_S_d0_1 h_S_) main_v96 main_c_37
  let main_v98 : IVec S_ 1 := andi main_v93 main_v97
  let main_v99 : FVec F S256 .f32 := Host.absf main_arg21
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg22 main_arg23 main_arg24 main_arg25 main_arg26 main_arg27 main_v98 main_v101 main_c_39

def fn_part4 {F : FTy → Type} [FloatOps F] (main_arg15 : FVec F S128 .f32) (main_arg16 : FVec F S130x128 .f32) (main_arg17 : FVec F S128 .f32) (main_arg18 : FVec F S128x128 .f32) (main_arg19 : FVec F S128 .f32) (main_arg20 : FVec F S134x256 .f32) (main_arg21 : FVec F S256 .f32) (main_arg22 : FVec F S256x128 .f32) (main_arg23 : FVec F S128 .f32) (main_arg24 : FVec F S130x128 .f32) (main_arg25 : FVec F S128 .f32) (main_arg26 : FVec F S128x128 .f32) (main_arg27 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S130x128 .f32 := Host.absf main_arg16
  let main_cst_28 : FVec F S_ .f32 := constant S_ .f32 0x7F800000#32
  let main_v75 : FVec F S130x128 .f32 := broadcastInDim S130x128 ![] bcast_S_S130x128 main_cst_28
  let main_v76 : IVec S130x128 1 := cmpf .olt main_v74 main_v75
  let main_c_29 : IVec S_ 1 := constantI S_ 1 1#1
  let main_v77 : IVec S_ 1 := (fun x v => Host.reduce IntOp.andi x v reducesTo_S130x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_v83 main_v84 main_cst_32

def fn_part3 {F : FTy → Type} [FloatOps F] (main_arg12 : FVec F S134x256 .f32) (main_arg13 : FVec F S256 .f32) (main_arg14 : FVec F S256x128 .f32) (main_arg15 : FVec F S128 .f32) (main_arg16 : FVec F S130x128 .f32) (main_arg17 : FVec F S128 .f32) (main_arg18 : FVec F S128x128 .f32) (main_arg19 : FVec F S128 .f32) (main_arg20 : FVec F S134x256 .f32) (main_arg21 : FVec F S256 .f32) (main_arg22 : FVec F S256x128 .f32) (main_arg23 : FVec F S128 .f32) (main_arg24 : FVec F S130x128 .f32) (main_arg25 : FVec F S128 .f32) (main_arg26 : FVec F S128x128 .f32) (main_arg27 : FVec F S128 .f32) (main_v48 : IVec S_ 1) (main_v49 : FVec F S2048x8 .f32) (main_v50 : FVec F S2048x8 .f32) : IVec S_ 1 :=
  let main_v51 : IVec S2048x8 1 := cmpf .olt main_v49 main_v50
  let main_c_19 : IVec S_ 1 := constantI S_ 1 1#1
  let main_v52 : IVec S_ 1 := (fun x v => Host.reduce IntOp.andi x v reducesTo_S2048x8_S_d0_1 h_S_) main_v51 main_c_19
  let main_v53 : IVec S_ 1 := andi main_v48 main_v52
  let main_v54 : FVec F S134x256 .f32 := Host.absf main_arg12
  let main_cst_20 : FVec F S_ .f32 := constant S_ .f32 0x7F800000#32
  let main_v55 : FVec F S134x256 .f32 := broadcastInDim S134x256 ![] bcast_S_S134x256 main_cst_20
  let main_v56 : IVec S134x256 1 := cmpf .olt main_v54 main_v55
  let main_c_21 : IVec S_ 1 := constantI S_ 1 1#1
  let main_v57 : IVec S_ 1 := (fun x v => Host.reduce IntOp.andi x v reducesTo_S134x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x128 .f32 := Host.absf main_arg14
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg15 main_arg16 main_arg17 main_arg18 main_arg19 main_arg20 main_arg21 main_arg22 main_arg23 main_arg24 main_arg25 main_arg26 main_arg27 main_v63 main_v67

def fn_part2 {F : FTy → Type} [FloatOps F] (main_arg8 : FVec F S8192x2048 .f32) (main_arg9 : FVec F S2048x8192 .f32) (main_arg10 : FVec F S8192x2048 .f32) (main_arg11 : FVec F S2048x8 .f32) (main_arg12 : FVec F S134x256 .f32) (main_arg13 : FVec F S256 .f32) (main_arg14 : FVec F S256x128 .f32) (main_arg15 : FVec F S128 .f32) (main_arg16 : FVec F S130x128 .f32) (main_arg17 : FVec F S128 .f32) (main_arg18 : FVec F S128x128 .f32) (main_arg19 : FVec F S128 .f32) (main_arg20 : FVec F S134x256 .f32) (main_arg21 : FVec F S256 .f32) (main_arg22 : FVec F S256x128 .f32) (main_arg23 : FVec F S128 .f32) (main_arg24 : FVec F S130x128 .f32) (main_arg25 : FVec F S128 .f32) (main_arg26 : FVec F S128x128 .f32) (main_arg27 : FVec F S128 .f32) (main_v33 : IVec S_ 1) : IVec S_ 1 :=
  let main_v34 : FVec F S8192x2048 .f32 := Host.absf main_arg8
  let main_cst_12 : FVec F S_ .f32 := constant S_ .f32 0x7F800000#32
  let main_v35 : FVec F S8192x2048 .f32 := broadcastInDim S8192x2048 ![] bcast_S_S8192x2048 main_cst_12
  let main_v36 : IVec S8192x2048 1 := cmpf .olt main_v34 main_v35
  let main_c_13 : IVec S_ 1 := constantI S_ 1 1#1
  let main_v37 : IVec S_ 1 := (fun x v => Host.reduce IntOp.andi x v reducesTo_S8192x2048_S_d0_1 h_S_) main_v36 main_c_13
  let main_v38 : IVec S_ 1 := andi main_v33 main_v37
  let main_v39 : FVec F S2048x8192 .f32 := Host.absf main_arg9
  let main_cst_14 : FVec F S_ .f32 := constant S_ .f32 0x7F800000#32
  let main_v40 : FVec F S2048x8192 .f32 := broadcastInDim S2048x8192 ![] bcast_S_S2048x8192 main_cst_14
  let main_v41 : IVec S2048x8192 1 := cmpf .olt main_v39 main_v40
  let main_c_15 : IVec S_ 1 := constantI S_ 1 1#1
  let main_v42 : IVec S_ 1 := (fun x v => Host.reduce IntOp.andi x v reducesTo_S2048x8192_S_d0_1 h_S_) main_v41 main_c_15
  let main_v43 : IVec S_ 1 := andi main_v38 main_v42
  let main_v44 : FVec F S8192x2048 .f32 := Host.absf main_arg10
  let main_cst_16 : FVec F S_ .f32 := constant S_ .f32 0x7F800000#32
  let main_v45 : FVec F S8192x2048 .f32 := broadcastInDim S8192x2048 ![] bcast_S_S8192x2048 main_cst_16
  let main_v46 : IVec S8192x2048 1 := cmpf .olt main_v44 main_v45
  let main_c_17 : IVec S_ 1 := constantI S_ 1 1#1
  let main_v47 : IVec S_ 1 := (fun x v => Host.reduce IntOp.andi x v reducesTo_S8192x2048_S_d0_1 h_S_) main_v46 main_c_17
  let main_v48 : IVec S_ 1 := andi main_v43 main_v47
  let main_v49 : FVec F S2048x8 .f32 := Host.absf main_arg11
  let main_cst_18 : FVec F S_ .f32 := constant S_ .f32 0x7F800000#32
  let main_v50 : FVec F S2048x8 .f32 := broadcastInDim S2048x8 ![] bcast_S_S2048x8 main_cst_18
  fn_part3 (F := F) main_arg12 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg4 : FVec F S8192x2 .f32) (main_arg5 : FVec F S8x4 .f32) (main_arg7 : FVec F S2048x8192 .f32) (main_arg8 : FVec F S8192x2048 .f32) (main_arg9 : FVec F S2048x8192 .f32) (main_arg10 : FVec F S8192x2048 .f32) (main_arg11 : FVec F S2048x8 .f32) (main_arg12 : FVec F S134x256 .f32) (main_arg13 : FVec F S256 .f32) (main_arg14 : FVec F S256x128 .f32) (main_arg15 : FVec F S128 .f32) (main_arg16 : FVec F S130x128 .f32) (main_arg17 : FVec F S128 .f32) (main_arg18 : FVec F S128x128 .f32) (main_arg19 : FVec F S128 .f32) (main_arg20 : FVec F S134x256 .f32) (main_arg21 : FVec F S256 .f32) (main_arg22 : FVec F S256x128 .f32) (main_arg23 : FVec F S128 .f32) (main_arg24 : FVec F S130x128 .f32) (main_arg25 : FVec F S128 .f32) (main_arg26 : FVec F S128x128 .f32) (main_arg27 : FVec F S128 .f32) (main_v13 : IVec S_ 1) (main_v16 : IVec S8192x128 1) : IVec S_ 1 :=
  let main_c_5 : IVec S_ 1 := constantI S_ 1 1#1
  let main_v17 : IVec S_ 1 := (fun x v => Host.reduce IntOp.andi x v reducesTo_S8192x128_S_d0_1 h_S_) main_v16 main_c_5
  let main_v18 : IVec S_ 1 := andi main_v13 main_v17
  let main_v19 : FVec F S8192x2 .f32 := Host.absf main_arg4
  let main_cst_6 : FVec F S_ .f32 := constant S_ .f32 0x7F800000#32
  let main_v20 : FVec F S8192x2 .f32 := broadcastInDim S8192x2 ![] bcast_S_S8192x2 main_cst_6
  let main_v21 : IVec S8192x2 1 := cmpf .olt main_v19 main_v20
  let main_c_7 : IVec S_ 1 := constantI S_ 1 1#1
  let main_v22 : IVec S_ 1 := (fun x v => Host.reduce IntOp.andi x v reducesTo_S8192x2_S_d0_1 h_S_) main_v21 main_c_7
  let main_v23 : IVec S_ 1 := andi main_v18 main_v22
  let main_v24 : FVec F S8x4 .f32 := Host.absf main_arg5
  let main_cst_8 : FVec F S_ .f32 := constant S_ .f32 0x7F800000#32
  let main_v25 : FVec F S8x4 .f32 := broadcastInDim S8x4 ![] bcast_S_S8x4 main_cst_8
  let main_v26 : IVec S8x4 1 := cmpf .olt main_v24 main_v25
  let main_c_9 : IVec S_ 1 := constantI S_ 1 1#1
  let main_v27 : IVec S_ 1 := (fun x v => Host.reduce IntOp.andi x v reducesTo_S8x4_S_d0_1 h_S_) main_v26 main_c_9
  let main_v28 : IVec S_ 1 := andi main_v23 main_v27
  let main_v29 : FVec F S2048x8192 .f32 := Host.absf main_arg7
  let main_cst_10 : FVec F S_ .f32 := constant S_ .f32 0x7F800000#32
  let main_v30 : FVec F S2048x8192 .f32 := broadcastInDim S2048x8192 ![] bcast_S_S2048x8192 main_cst_10
  let main_v31 : IVec S2048x8192 1 := cmpf .olt main_v29 main_v30
  let main_c_11 : IVec S_ 1 := constantI S_ 1 1#1
  let main_v32 : IVec S_ 1 := (fun x v => Host.reduce IntOp.andi x v reducesTo_S2048x8192_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S8192x128 .f32) (main_arg1 : FVec F S8192x128 .f32) (main_arg2 : FVec F S8192x128 .f32) (main_arg3 : FVec F S8192x128 .f32) (main_arg4 : FVec F S8192x2 .f32) (main_arg5 : FVec F S8x4 .f32) (main_arg6 : IVec S8x1 32) (main_arg7 : FVec F S2048x8192 .f32) (main_arg8 : FVec F S8192x2048 .f32) (main_arg9 : FVec F S2048x8192 .f32) (main_arg10 : FVec F S8192x2048 .f32) (main_arg11 : FVec F S2048x8 .f32) (main_arg12 : FVec F S134x256 .f32) (main_arg13 : FVec F S256 .f32) (main_arg14 : FVec F S256x128 .f32) (main_arg15 : FVec F S128 .f32) (main_arg16 : FVec F S130x128 .f32) (main_arg17 : FVec F S128 .f32) (main_arg18 : FVec F S128x128 .f32) (main_arg19 : FVec F S128 .f32) (main_arg20 : FVec F S134x256 .f32) (main_arg21 : FVec F S256 .f32) (main_arg22 : FVec F S256x128 .f32) (main_arg23 : FVec F S128 .f32) (main_arg24 : FVec F S130x128 .f32) (main_arg25 : FVec F S128 .f32) (main_arg26 : FVec F S128x128 .f32) (main_arg27 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x128 .f32 := Host.absf main_arg2
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  let main_v14 : FVec F S8192x128 .f32 := Host.absf main_arg3
  let main_cst_4 : FVec F S_ .f32 := constant S_ .f32 0x7F800000#32
  let main_v15 : FVec F S8192x128 .f32 := broadcastInDim S8192x128 ![] bcast_S_S8192x128 main_cst_4
  let main_v16 : IVec S8192x128 1 := cmpf .olt main_v14 main_v15
  fn_part1 (F := F) main_arg4 main_arg5 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S8192x128 : Shape := ⟨2, ![8192, 128]⟩
abbrev S8192x2 : Shape := ⟨2, ![8192, 2]⟩
abbrev S8x4 : Shape := ⟨2, ![8, 4]⟩
abbrev S8x1 : Shape := ⟨2, ![8, 1]⟩
abbrev S2048x8192 : Shape := ⟨2, ![2048, 8192]⟩
abbrev S8192x2048 : Shape := ⟨2, ![8192, 2048]⟩
abbrev S2048x8 : Shape := ⟨2, ![2048, 8]⟩
abbrev S134x256 : Shape := ⟨2, ![134, 256]⟩
abbrev S256 : Shape := ⟨1, ![256]⟩
abbrev S256x128 : Shape := ⟨2, ![256, 128]⟩
abbrev S128 : Shape := ⟨1, ![128]⟩
abbrev S130x128 : Shape := ⟨2, ![130, 128]⟩
abbrev S128x128 : Shape := ⟨2, ![128, 128]⟩
abbrev S8x5 : Shape := ⟨2, ![8, 5]⟩
abbrev S2048x5 : Shape := ⟨2, ![2048, 5]⟩
abbrev S8192x1 : Shape := ⟨2, ![8192, 1]⟩
abbrev S8192x4 : Shape := ⟨2, ![8192, 4]⟩
abbrev S1024x2048 : Shape := ⟨2, ![1024, 2048]⟩
abbrev S1024x1 : Shape := ⟨2, ![1024, 1]⟩
abbrev S1024x4 : Shape := ⟨2, ![1024, 4]⟩
abbrev S1024x5 : Shape := ⟨2, ![1024, 5]⟩
abbrev S1x256 : Shape := ⟨2, ![1, 256]⟩
abbrev S1x128 : Shape := ⟨2, ![1, 128]⟩
abbrev S2048x128 : Shape := ⟨2, ![2048, 128]⟩
abbrev S2048x2 : Shape := ⟨2, ![2048, 2]⟩
abbrev S2048x4 : Shape := ⟨2, ![2048, 4]⟩
abbrev S2048x134 : Shape := ⟨2, ![2048, 134]⟩
abbrev S2048x256 : Shape := ⟨2, ![2048, 256]⟩
abbrev S256x8192 : Shape := ⟨2, ![256, 8192]⟩
abbrev S1024x128 : Shape := ⟨2, ![1024, 128]⟩
abbrev S1024x2 : Shape := ⟨2, ![1024, 2]⟩
abbrev S1024x130 : Shape := ⟨2, ![1024, 130]⟩

abbrev nBuf : Space → Nat
  | .hbm => 47
  | .vmem => 75
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x2, .f32⟩
  | .hbm, ⟨5, _⟩ => ⟨S8x4, .f32⟩
  | .hbm, ⟨6, _⟩ => ⟨S8x1, .i32⟩
  | .hbm, ⟨7, _⟩ => ⟨S2048x8192, .f32⟩
  | .hbm, ⟨8, _⟩ => ⟨S8192x2048, .f32⟩
  | .hbm, ⟨9, _⟩ => ⟨S2048x8192, .f32⟩
  | .hbm, ⟨10, _⟩ => ⟨S8192x2048, .f32⟩
  | .hbm, ⟨11, _⟩ => ⟨S2048x8, .f32⟩
  | .hbm, ⟨12, _⟩ => ⟨S134x256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S130x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S134x256, .f32⟩
  | .hbm, ⟨21, _⟩ => ⟨S256, .f32⟩
  | .hbm, ⟨22, _⟩ => ⟨S256x128, .f32⟩
  | .hbm, ⟨23, _⟩ => ⟨S128, .f32⟩
  | .hbm, ⟨24, _⟩ => ⟨S130x128, .f32⟩
  | .hbm, ⟨25, _⟩ => ⟨S128, .f32⟩
  | .hbm, ⟨26, _⟩ => ⟨S128x128, .f32⟩
  | .hbm, ⟨27, _⟩ => ⟨S128, .f32⟩
  | .hbm, ⟨28, _⟩ => ⟨S8x1, .f32⟩
  | .hbm, ⟨29, _⟩ => ⟨S8x5, .f32⟩
  | .hbm, ⟨30, _⟩ => ⟨S2048x5, .f32⟩
  | .hbm, ⟨31, _⟩ => ⟨S8192x1, .f32⟩
  | .hbm, ⟨32, _⟩ => ⟨S8192x4, .f32⟩
  | .hbm, ⟨33, _⟩ => ⟨S1x256, .f32⟩
  | .hbm, ⟨34, _⟩ => ⟨S1x128, .f32⟩
  | .hbm, ⟨35, _⟩ => ⟨S8192x128, .bf16⟩
  | .hbm, ⟨36, _⟩ => ⟨S2048x128, .bf16⟩
  | .hbm, ⟨37, _⟩ => ⟨S1x128, .f32⟩
  | .hbm, ⟨38, _⟩ => ⟨S1x128, .f32⟩
  | .hbm, ⟨39, _⟩ => ⟨S8192x128, .f32⟩
  | .hbm, ⟨40, _⟩ => ⟨S1x256, .f32⟩
  | .hbm, ⟨41, _⟩ => ⟨S1x128, .f32⟩
  | .hbm, ⟨42, _⟩ => ⟨S8192x128, .bf16⟩
  | .hbm, ⟨43, _⟩ => ⟨S2048x128, .bf16⟩
  | .hbm, ⟨44, _⟩ => ⟨S1x128, .f32⟩
  | .hbm, ⟨45, _⟩ => ⟨S1x128, .f32⟩
  | .hbm, ⟨46, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S2048x5, .f32⟩
  | .local _ .vmem, ⟨3, _⟩ => ⟨S1024x1, .f32⟩
  | .local _ .vmem, ⟨4, _⟩ => ⟨S1024x1, .f32⟩
  | .local _ .vmem, ⟨5, _⟩ => ⟨S1024x4, .f32⟩
  | .local _ .vmem, ⟨6, _⟩ => ⟨S1024x4, .f32⟩
  | .local _ .vmem, ⟨7, _⟩ => ⟨S2048x128, .f32⟩
  | .local _ .vmem, ⟨8, _⟩ => ⟨S2048x128, .f32⟩
  | .local _ .vmem, ⟨9, _⟩ => ⟨S2048x2, .f32⟩
  | .local _ .vmem, ⟨10, _⟩ => ⟨S2048x2, .f32⟩
  | .local _ .vmem, ⟨11, _⟩ => ⟨S2048x4, .f32⟩
  | .local _ .vmem, ⟨12, _⟩ => ⟨S2048x4, .f32⟩
  | .local _ .vmem, ⟨13, _⟩ => ⟨S134x256, .f32⟩
  | .local _ .vmem, ⟨14, _⟩ => ⟨S1x256, .f32⟩
  | .local _ .vmem, ⟨15, _⟩ => ⟨S256x128, .f32⟩
  | .local _ .vmem, ⟨16, _⟩ => ⟨S1x128, .f32⟩
  | .local _ .vmem, ⟨17, _⟩ => ⟨S2048x128, .bf16⟩
  | .local _ .vmem, ⟨18, _⟩ => ⟨S2048x128, .bf16⟩
  | .local _ .vmem, ⟨19, _⟩ => ⟨S256x8192, .f32⟩
  | .local _ .vmem, ⟨20, _⟩ => ⟨S256x8192, .f32⟩
  | .local _ .vmem, ⟨21, _⟩ => ⟨S8192x128, .bf16⟩
  | .local _ .vmem, ⟨22, _⟩ => ⟨S256x128, .bf16⟩
  | .local _ .vmem, ⟨23, _⟩ => ⟨S256x128, .bf16⟩
  | .local _ .vmem, ⟨24, _⟩ => ⟨S1024x2048, .f32⟩
  | .local _ .vmem, ⟨25, _⟩ => ⟨S1024x2048, .f32⟩
  | .local _ .vmem, ⟨26, _⟩ => ⟨S2048x128, .bf16⟩
  | .local _ .vmem, ⟨27, _⟩ => ⟨S1024x128, .bf16⟩
  | .local _ .vmem, ⟨28, _⟩ => ⟨S1024x128, .bf16⟩
  | .local _ .vmem, ⟨29, _⟩ => ⟨S1024x2, .f32⟩
  | .local _ .vmem, ⟨30, _⟩ => ⟨S1024x2, .f32⟩
  | .local _ .vmem, ⟨31, _⟩ => ⟨S1024x1, .f32⟩
  | .local _ .vmem, ⟨32, _⟩ => ⟨S1024x1, .f32⟩
  | .local _ .vmem, ⟨33, _⟩ => ⟨S1024x128, .f32⟩
  | .local _ .vmem, ⟨34, _⟩ => ⟨S1024x128, .f32⟩
  | .local _ .vmem, ⟨35, _⟩ => ⟨S130x128, .f32⟩
  | .local _ .vmem, ⟨36, _⟩ => ⟨S1x128, .f32⟩
  | .local _ .vmem, ⟨37, _⟩ => ⟨S128x128, .f32⟩
  | .local _ .vmem, ⟨38, _⟩ => ⟨S1x128, .f32⟩
  | .local _ .vmem, ⟨39, _⟩ => ⟨S1024x128, .f32⟩
  | .local _ .vmem, ⟨40, _⟩ => ⟨S1024x128, .f32⟩
  | .local _ .vmem, ⟨41, _⟩ => ⟨S2048x128, .f32⟩
  | .local _ .vmem, ⟨42, _⟩ => ⟨S2048x128, .f32⟩
  | .local _ .vmem, ⟨43, _⟩ => ⟨S2048x2, .f32⟩
  | .local _ .vmem, ⟨44, _⟩ => ⟨S2048x2, .f32⟩
  | .local _ .vmem, ⟨45, _⟩ => ⟨S2048x4, .f32⟩
  | .local _ .vmem, ⟨46, _⟩ => ⟨S2048x4, .f32⟩
  | .local _ .vmem, ⟨47, _⟩ => ⟨S134x256, .f32⟩
  | .local _ .vmem, ⟨48, _⟩ => ⟨S1x256, .f32⟩
  | .local _ .vmem, ⟨49, _⟩ => ⟨S256x128, .f32⟩
  | .local _ .vmem, ⟨50, _⟩ => ⟨S1x128, .f32⟩
  | .local _ .vmem, ⟨51, _⟩ => ⟨S2048x128, .bf16⟩
  | .local _ .vmem, ⟨52, _⟩ => ⟨S2048x128, .bf16⟩
  | .local _ .vmem, ⟨53, _⟩ => ⟨S256x8192, .f32⟩
  | .local _ .vmem, ⟨54, _⟩ => ⟨S256x8192, .f32⟩
  | .local _ .vmem, ⟨55, _⟩ => ⟨S8192x128, .bf16⟩
  | .local _ .vmem, ⟨56, _⟩ => ⟨S256x128, .bf16⟩
  | .local _ .vmem, ⟨57, _⟩ => ⟨S256x128, .bf16⟩
  | .local _ .vmem, ⟨58, _⟩ => ⟨S1024x2048, .f32⟩
  | .local _ .vmem, ⟨59, _⟩ => ⟨S1024x2048, .f32⟩
  | .local _ .vmem, ⟨60, _⟩ => ⟨S2048x128, .bf16⟩
  | .local _ .vmem, ⟨61, _⟩ => ⟨S1024x128, .bf16⟩
  | .local _ .vmem, ⟨62, _⟩ => ⟨S1024x128, .bf16⟩
  | .local _ .vmem, ⟨63, _⟩ => ⟨S1024x2, .f32⟩
  | .local _ .vmem, ⟨64, _⟩ => ⟨S1024x2, .f32⟩
  | .local _ .vmem, ⟨65, _⟩ => ⟨S1024x1, .f32⟩
  | .local _ .vmem, ⟨66, _⟩ => ⟨S1024x1, .f32⟩
  | .local _ .vmem, ⟨67, _⟩ => ⟨S1024x128, .f32⟩
  | .local _ .vmem, ⟨68, _⟩ => ⟨S1024x128, .f32⟩
  | .local _ .vmem, ⟨69, _⟩ => ⟨S130x128, .f32⟩
  | .local _ .vmem, ⟨70, _⟩ => ⟨S1x128, .f32⟩
  | .local _ .vmem, ⟨71, _⟩ => ⟨S128x128, .f32⟩
  | .local _ .vmem, ⟨72, _⟩ => ⟨S1x128, .f32⟩
  | .local _ .vmem, ⟨73, _⟩ => ⟨S1024x128, .f32⟩
  | .local _ .vmem, ⟨74, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3_0 : Ref sig .tc := ⟨.hbm, 31, rfl⟩
abbrev main_v3_1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc3_stg4_1 : Ref sig .tc := ⟨.vmem, 32, rfl⟩
abbrev cc3_stg5_0 : Ref sig .tc := ⟨.vmem, 33, rfl⟩
abbrev cc3_stg5_1 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg8_0 : Ref sig .tc := ⟨.vmem, 37, rfl⟩
abbrev cc3_stg9_0 : Ref sig .tc := ⟨.vmem, 38, rfl⟩
abbrev cc3_stg10_0 : Ref sig .tc := ⟨.vmem, 39, rfl⟩
abbrev cc3_stg10_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg1_1 : Ref sig .tc := ⟨.vmem, 44, rfl⟩
abbrev cc4_stg2_0 : Ref sig .tc := ⟨.vmem, 45, rfl⟩
abbrev cc4_stg2_1 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg6_0 : Ref sig .tc := ⟨.vmem, 50, rfl⟩
abbrev cc4_stg7_0 : Ref sig .tc := ⟨.vmem, 51, rfl⟩
abbrev cc4_stg7_1 : Ref sig .tc := ⟨.vmem, 52, rfl⟩
abbrev cc5_stg0_0 : Ref sig .tc := ⟨.vmem, 53, rfl⟩
abbrev cc5_stg0_1 : Ref sig .tc := ⟨.vmem, 54, rfl⟩
abbrev cc5_stg1_0 : Ref sig .tc := ⟨.vmem, 55, rfl⟩
abbrev cc5_stg2_0 : Ref sig .tc := ⟨.vmem, 56, rfl⟩
abbrev cc5_stg2_1 : Ref sig .tc := ⟨.vmem, 57, rfl⟩
abbrev cc6_stg0_0 : Ref sig .tc := ⟨.vmem, 58, rfl⟩
abbrev cc6_stg0_1 : Ref sig .tc := ⟨.vmem, 59, rfl⟩
abbrev cc6_stg1_0 : Ref sig .tc := ⟨.vmem, 60, rfl⟩
abbrev cc6_stg2_0 : Ref sig .tc := ⟨.vmem, 61, rfl⟩
abbrev cc6_stg2_1 : Ref sig .tc := ⟨.vmem, 62, rfl⟩
abbrev cc6_stg3_0 : Ref sig .tc := ⟨.vmem, 63, rfl⟩
abbrev cc6_stg3_1 : Ref sig .tc := ⟨.vmem, 64, rfl⟩
abbrev cc6_stg4_0 : Ref sig .tc := ⟨.vmem, 65, rfl⟩
abbrev cc6_stg4_1 : Ref sig .tc := ⟨.vmem, 66, rfl⟩
abbrev cc6_stg5_0 : Ref sig .tc := ⟨.vmem, 67, rfl⟩
abbrev cc6_stg5_1 : Ref sig .tc := ⟨.vmem, 68, rfl⟩
abbrev cc6_stg6_0 : Ref sig .tc := ⟨.vmem, 69, rfl⟩
abbrev cc6_stg7_0 : Ref sig .tc := ⟨.vmem, 70, rfl⟩
abbrev cc6_stg8_0 : Ref sig .tc := ⟨.vmem, 71, rfl⟩
abbrev cc6_stg9_0 : Ref sig .tc := ⟨.vmem, 72, rfl⟩
abbrev cc6_stg10_0 : Ref sig .tc := ⟨.vmem, 73, rfl⟩
abbrev cc6_stg10_1 : Ref sig .tc := ⟨.vmem, 74, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc3_sem3_0 : DmaSem sig := 29
abbrev cc3_sem3_1 : DmaSem sig := 30
abbrev cc3_sem4_0 : DmaSem sig := 31
abbrev cc3_sem4_1 : DmaSem sig := 32
abbrev cc3_sem5_0 : DmaSem sig := 33
abbrev cc3_sem5_1 : DmaSem sig := 34
abbrev cc3_sem6_0 : DmaSem sig := 35
abbrev cc3_sem7_0 : DmaSem sig := 36
abbrev cc3_sem8_0 : DmaSem sig := 37
abbrev cc3_sem9_0 : DmaSem sig := 38
abbrev cc3_sem10_0 : DmaSem sig := 39
abbrev cc3_sem10_1 : DmaSem sig := 40
abbrev cc4_sem0_0 : DmaSem sig := 41
abbrev cc4_sem0_1 : DmaSem sig := 42
abbrev cc4_sem1_0 : DmaSem sig := 43
abbrev cc4_sem1_1 : DmaSem sig := 44
abbrev cc4_sem2_0 : DmaSem sig := 45
abbrev cc4_sem2_1 : DmaSem sig := 46
abbrev cc4_sem3_0 : DmaSem sig := 47
abbrev cc4_sem4_0 : DmaSem sig := 48
abbrev cc4_sem5_0 : DmaSem sig := 49
abbrev cc4_sem6_0 : DmaSem sig := 50
abbrev cc4_sem7_0 : DmaSem sig := 51
abbrev cc4_sem7_1 : DmaSem sig := 52
abbrev cc5_sem0_0 : DmaSem sig := 53
abbrev cc5_sem0_1 : DmaSem sig := 54
abbrev cc5_sem1_0 : DmaSem sig := 55
abbrev cc5_sem2_0 : DmaSem sig := 56
abbrev cc5_sem2_1 : DmaSem sig := 57
abbrev cc6_sem0_0 : DmaSem sig := 58
abbrev cc6_sem0_1 : DmaSem sig := 59
abbrev cc6_sem1_0 : DmaSem sig := 60
abbrev cc6_sem2_0 : DmaSem sig := 61
abbrev cc6_sem2_1 : DmaSem sig := 62
abbrev cc6_sem3_0 : DmaSem sig := 63
abbrev cc6_sem3_1 : DmaSem sig := 64
abbrev cc6_sem4_0 : DmaSem sig := 65
abbrev cc6_sem4_1 : DmaSem sig := 66
abbrev cc6_sem5_0 : DmaSem sig := 67
abbrev cc6_sem5_1 : DmaSem sig := 68
abbrev cc6_sem6_0 : DmaSem sig := 69
abbrev cc6_sem7_0 : DmaSem sig := 70
abbrev cc6_sem8_0 : DmaSem sig := 71
abbrev cc6_sem9_0 : DmaSem sig := 72
abbrev cc6_sem10_0 : DmaSem sig := 73
abbrev cc6_sem10_1 : DmaSem sig := 74

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S134x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1024x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024x2 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1024x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1024x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S130x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S1024x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x2 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2048x4 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S134x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2048x128 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x8192 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S8192x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S256x128 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x2048 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S2048x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1024x128 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1024x2 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S1024x1 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S1024x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S130x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S128x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x128 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 2 → Memref sig .tc .vmem S1024x128 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true]

class Facts₀ : Prop where
  concatenates_S8x1_S8x4_S8x5_d1 : Shape.Concatenates [S8x1, S8x4] S8x5 1
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x5_S2048x5_0_0 : ∀ a, (![0, 0] : Fin 2 → Nat) a + S2048x5.size a ≤ S2048x5.size a
  h_S2048x5 : 0 < S2048x5.numel
  shapeCasts_S2048x5_S2048x5 : S2048x5.ShapeCasts S2048x5
  slices_S1024x5_o0_0_S1024x1 : S1024x5.Slices ![0, 0] S1024x1
  inb_S1024x1_S1024x1_0_0 : ∀ a, (![0, 0] : Fin 2 → Nat) a + S1024x1.size a ≤ S1024x1.size a
  h_S1024x1 : 0 < S1024x1.numel
  slices_S1024x5_o0_1_S1024x4 : S1024x5.Slices ![0, 1] S1024x4
  inb_S1024x4_S1024x4_0_0 : ∀ a, (![0, 0] : Fin 2 → Nat) a + S1024x4.size a ≤ S1024x4.size a
  h_S1024x4 : 0 < S1024x4.numel
  shapeCasts_S256_S1x256 : S256.ShapeCasts S1x256
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  inb_S2048x2_S2048x2_0_0 : ∀ a, (![0, 0] : Fin 2 → Nat) a + S2048x2.size a ≤ S2048x2.size a
  h_S2048x2 : 0 < S2048x2.numel
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  concatenates_S2048x128_S2048x2_S2048x4_S2048x134_d1 : Shape.Concatenates [S2048x128, S2048x2, S2048x4] S2048x134 1
  inb_S134x256_S134x256_0_0 : ∀ a, (![0, 0] : Fin 2 → Nat) a + S134x256.size a ≤ S134x256.size a
  h_S134x256 : 0 < S134x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  packedbf16_S2048x128_S2048x128_0_0 : (Rect.unit (s := S2048x128) ![0, 0] S2048x128.size inb_S2048x128_S2048x128_0_0).PackedRows (EltTy.packing .bf16)
  inb_S256x8192_S256x8192_0_0 : ∀ a, (![0, 0] : Fin 2 → Nat) a + S256x8192.size a ≤ S256x8192.size a
  h_S256x8192 : 0 < S256x8192.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  packedbf16_S256x128_S256x128_0_0 : (Rect.unit (s := S256x128) ![0, 0] S256x128.size inb_S256x128_S256x128_0_0).PackedRows (EltTy.packing .bf16)
  shapeCasts_S2048x128_S2048x128 : S2048x128.ShapeCasts S2048x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2_S1024x2_0_0 : ∀ a, (![0, 0] : Fin 2 → Nat) a + S1024x2.size a ≤ S1024x2.size a
  h_S1024x2 : 0 < S1024x2.numel
  concatenates_S1024x128_S1024x2_S1024x130_d1 : Shape.Concatenates [S1024x128, S1024x2] S1024x130 1
  inb_S130x128_S130x128_0_0 : ∀ a, (![0, 0] : Fin 2 → Nat) a + S130x128.size a ≤ S130x128.size a
  h_S130x128 : 0 < S130x128.numel
  broadcasts_S1x128_S1024x128 : S1x128.Broadcasts S1024x128
  inb_S128x128_S128x128_0_0 : ∀ a, (![0, 0] : Fin 2 → Nat) a + S128x128.size a ≤ S128x128.size a
  h_S128x128 : 0 < S128x128.numel
  shapeCasts_S1024x1_S1024x1 : S1024x1.ShapeCasts S1024x1
  broadcasts_S1024x1_S1024x128 : S1024x1.Broadcasts S1024x128
  dot_S2048x8_S8x5_S2048x5_1_0_0_1_n_n_wf : DotDims.WF S2048x8 S8x5 S2048x5 [1] [0] [0] [1] [] []
  dot_S1024x2048_S2048x5_S1024x5_1_0_0_1_n_n_wf : DotDims.WF S1024x2048 S2048x5 S1024x5 [1] [0] [0] [1] [] []
  dot_S2048x134_S134x256_S2048x256_1_0_0_1_n_n_wf : DotDims.WF S2048x134 S134x256 S2048x256 [1] [0] [0] [1] [] []
  dot_S2048x256_S256x128_S2048x128_1_0_0_1_n_n_wf : DotDims.WF S2048x256 S256x128 S2048x128 [1] [0] [0] [1] [] []
  dot_S256x8192_S8192x128_S256x128_1_0_0_1_n_n_wf : DotDims.WF S256x8192 S8192x128 S256x128 [1] [0] [0] [1] [] []
  dot_S1024x2048_S2048x128_S1024x128_1_0_0_1_n_n_wf : DotDims.WF S1024x2048 S2048x128 S1024x128 [1] [0] [0] [1] [] []
  dot_S1024x130_S130x128_S1024x128_1_0_0_1_n_n_wf : DotDims.WF S1024x130 S130x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x5.size a ≤ S2048x5.size a
  hwx0_1 : ∀ i : grid0.Coords, EltTy.bits .f32 = 32 ∨ (Rect.block (s := S2048x5) S2048x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x4.size a ≤ S8192x4.size a
  hwx0_3 : ∀ i : grid0.Coords, EltTy.bits .f32 = 32 ∨ (Rect.block (s := S8192x4) S1024x4.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S8192x128.size a
  hwx1_0 : ∀ i : grid1.Coords, EltTy.bits .f32 = 32 ∨ (Rect.block (s := S8192x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x2.size a ≤ S8192x2.size a
  hwx1_1 : ∀ i : grid1.Coords, EltTy.bits .f32 = 32 ∨ (Rect.block (s := S8192x2) S2048x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x4.size a ≤ S8192x4.size a
  hwx1_2 : ∀ i : grid1.Coords, EltTy.bits .f32 = 32 ∨ (Rect.block (s := S8192x4) S2048x4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S134x256.size a ≤ S134x256.size a
  hwx1_3 : ∀ i : grid1.Coords, EltTy.bits .f32 = 32 ∨ (Rect.block (s := S134x256) S134x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x128.size a ≤ S8192x128.size a
  hwx1_7 : ∀ i : grid1.Coords, EltTy.bits .bf16 = 32 ∨ (Rect.block (s := S8192x128) S2048x128.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x8192.size a ≤ S2048x8192.size a
  hwx2_0 : ∀ i : grid2.Coords, EltTy.bits .f32 = 32 ∨ (Rect.block (s := S2048x8192) S256x8192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x128.size a ≤ S8192x128.size a
  hwx2_1 : ∀ i : grid2.Coords, EltTy.bits .bf16 = 32 ∨ (Rect.block (s := S8192x128) S8192x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S2048x128.size a
  hwx2_2 : ∀ i : grid2.Coords, EltTy.bits .bf16 = 32 ∨ (Rect.block (s := S2048x128) S256x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S8192x2048.size a
  hwx3_0 : ∀ i : grid3.Coords, EltTy.bits .f32 = 32 ∨ (Rect.block (s := S8192x2048) S1024x2048.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S2048x128.size a
  hwx3_1 : ∀ i : grid3.Coords, EltTy.bits .bf16 = 32 ∨ (Rect.block (s := S2048x128) S2048x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x128.size a ≤ S8192x128.size a
  hwx3_2 : ∀ i : grid3.Coords, EltTy.bits .bf16 = 32 ∨ (Rect.block (s := S8192x128) S1024x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x2.size a ≤ S8192x2.size a
  hwx3_3 : ∀ i : grid3.Coords, EltTy.bits .f32 = 32 ∨ (Rect.block (s := S8192x2) S1024x2.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x1.size a ≤ S8192x1.size a
  hwx3_4 : ∀ i : grid3.Coords, EltTy.bits .f32 = 32 ∨ (Rect.block (s := S8192x1) S1024x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x128.size a ≤ S8192x128.size a
  hwx3_5 : ∀ i : grid3.Coords, EltTy.bits .f32 = 32 ∨ (Rect.block (s := S8192x128) S1024x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S130x128.size a ≤ S130x128.size a
  hwx3_6 : ∀ i : grid3.Coords, EltTy.bits .f32 = 32 ∨ (Rect.block (s := S130x128) S130x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .f32 = 32 ∨ (Rect.block (s := S128x128) S128x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S1024x128.size a ≤ S8192x128.size a
  hwx3_10 : ∀ i : grid3.Coords, EltTy.bits .f32 = 32 ∨ (Rect.block (s := S8192x128) S1024x128.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S8192x128.size a
  hwx4_0 : ∀ i : grid4.Coords, EltTy.bits .f32 = 32 ∨ (Rect.block (s := S8192x128) S2048x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x2.size a ≤ S8192x2.size a
  hwx4_1 : ∀ i : grid4.Coords, EltTy.bits .f32 = 32 ∨ (Rect.block (s := S8192x2) S2048x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x4.size a ≤ S8192x4.size a
  hwx4_2 : ∀ i : grid4.Coords, EltTy.bits .f32 = 32 ∨ (Rect.block (s := S8192x4) S2048x4.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S134x256.size a ≤ S134x256.size a
  hwx4_3 : ∀ i : grid4.Coords, EltTy.bits .f32 = 32 ∨ (Rect.block (s := S134x256) S134x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x128.size a ≤ S256x128.size a
  hwx4_5 : ∀ i : grid4.Coords, EltTy.bits .f32 = 32 ∨ (Rect.block (s := S256x128) S256x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2048x128.size a ≤ S8192x128.size a
  hwx4_7 : ∀ i : grid4.Coords, EltTy.bits .bf16 = 32 ∨ (Rect.block (s := S8192x128) S2048x128.size (cc4_transform_7 i) (hinb4_7 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x8192.size a ≤ S2048x8192.size a
  hwx5_0 : ∀ i : grid5.Coords, EltTy.bits .f32 = 32 ∨ (Rect.block (s := S2048x8192) S256x8192.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S8192x128.size a ≤ S8192x128.size a
  hwx5_1 : ∀ i : grid5.Coords, EltTy.bits .bf16 = 32 ∨ (Rect.block (s := S8192x128) S8192x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S256x128.size a ≤ S2048x128.size a
  hwx5_2 : ∀ i : grid5.Coords, EltTy.bits .bf16 = 32 ∨ (Rect.block (s := S2048x128) S256x128.size (cc5_transform_2 i) (hinb5_2 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x2048.size a ≤ S8192x2048.size a
  hwx6_0 : ∀ i : grid6.Coords, EltTy.bits .f32 = 32 ∨ (Rect.block (s := S8192x2048) S1024x2048.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S2048x128.size a ≤ S2048x128.size a
  hwx6_1 : ∀ i : grid6.Coords, EltTy.bits .bf16 = 32 ∨ (Rect.block (s := S2048x128) S2048x128.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x128.size a ≤ S8192x128.size a
  hwx6_2 : ∀ i : grid6.Coords, EltTy.bits .bf16 = 32 ∨ (Rect.block (s := S8192x128) S1024x128.size (cc6_transform_2 i) (hinb6_2 i)).WholeWords (EltTy.packing .bf16)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1024x2.size a ≤ S8192x2.size a
  hwx6_3 : ∀ i : grid6.Coords, EltTy.bits .f32 = 32 ∨ (Rect.block (s := S8192x2) S1024x2.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S1024x1.size a ≤ S8192x1.size a
  hwx6_4 : ∀ i : grid6.Coords, EltTy.bits .f32 = 32 ∨ (Rect.block (s := S8192x1) S1024x1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1024x128.size a ≤ S8192x128.size a
  hwx6_5 : ∀ i : grid6.Coords, EltTy.bits .f32 = 32 ∨ (Rect.block (s := S8192x128) S1024x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S130x128.size a ≤ S130x128.size a
  hwx6_6 : ∀ i : grid6.Coords, EltTy.bits .f32 = 32 ∨ (Rect.block (s := S130x128) S130x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x128.size a ≤ S1x128.size a
  hwx6_7 : ∀ i : grid6.Coords, EltTy.bits .f32 = 32 ∨ (Rect.block (s := S1x128) S1x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S128x128.size a ≤ S128x128.size a
  hwx6_8 : ∀ i : grid6.Coords, EltTy.bits .f32 = 32 ∨ (Rect.block (s := S128x128) S128x128.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S1x128.size a ≤ S1x128.size a
  hwx6_9 : ∀ i : grid6.Coords, EltTy.bits .f32 = 32 ∨ (Rect.block (s := S1x128) S1x128.size (cc6_transform_9 i) (hinb6_9 i)).WholeWords (EltTy.packing .f32)
  hstage6_10 : ∀ j, (stage6_10 j).IsWhole
  nbuf6_10 : grid6.bufCount reads6_10 false = 2
  hreads6_10 : ∀ i i' : grid6.Coords, (∀ a, reads6_10 a = true → i a = i' a) → cc6_transform_10 i = cc6_transform_10 i'
  hinb6_10 : ∀ (i : grid6.Coords) a, (cc6_transform_10 i a + 1) * S1024x128.size a ≤ S8192x128.size a
  hwx6_10 : ∀ i : grid6.Coords, EltTy.bits .f32 = 32 ∨ (Rect.block (s := S8192x128) S1024x128.size (cc6_transform_10 i) (hinb6_10 i)).WholeWords (EltTy.packing .f32)

variable [Facts₀]

def dot_S2048x8_S8x5_S2048x5_1_0_0_1_n_n : DotDims S2048x8 S8x5 S2048x5 where
  lhsContracting := [1]
  rhsContracting := [0]
  lhsNonContracting := [0]
  rhsNonContracting := [1]
  lhsBatch := []
  rhsBatch := []
  wf := dot_S2048x8_S8x5_S2048x5_1_0_0_1_n_n_wf
def dot_S1024x2048_S2048x5_S1024x5_1_0_0_1_n_n : DotDims S1024x2048 S2048x5 S1024x5 where
  lhsContracting := [1]
  rhsContracting := [0]
  lhsNonContracting := [0]
  rhsNonContracting := [1]
  lhsBatch := []
  rhsBatch := []
  wf := dot_S1024x2048_S2048x5_S1024x5_1_0_0_1_n_n_wf
def dot_S2048x134_S134x256_S2048x256_1_0_0_1_n_n : DotDims S2048x134 S134x256 S2048x256 where
  lhsContracting := [1]
  rhsContracting := [0]
  lhsNonContracting := [0]
  rhsNonContracting := [1]
  lhsBatch := []
  rhsBatch := []
  wf := dot_S2048x134_S134x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x130_S130x128_S1024x128_1_0_0_1_n_n : DotDims S1024x130 S130x128 S1024x128 where
  lhsContracting := [1]
  rhsContracting := [0]
  lhsNonContracting := [0]
  rhsNonContracting := [1]
  lhsBatch := []
  rhsBatch := []
  wf := dot_S1024x130_S130x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg8) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1024x4.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S2048x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_1) S2048x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S134x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S2048x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg7) S256x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S8192x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S256x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg8) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S2048x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1024x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg4) S1024x2.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v3_0) S1024x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_arg1) S1024x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_arg16) S130x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v8) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg18) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v9) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v10) S1024x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_arg3) S2048x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg4) S2048x2.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v3_1) S2048x4.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg20) S134x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v11) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg22) S256x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v12) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v13) S2048x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_arg9) S256x8192.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v13) S8192x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v14) S256x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_arg10) S1024x2048.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v14) S2048x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v13) S1024x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_arg4) S1024x2.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v3_0) S1024x1.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_arg0) S1024x128.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_arg24) S130x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v15) S1x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_arg26) S128x128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v16) S1x128.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v17) S1024x128.size cc6_transform_10 reads6_10 true false 2 stage6_10 sem6_10
    hrank6 hreads6_10 hinb6_10 nbuf6_10 (Memref.isWhole_whole _) hwx6_10 hstage6_10

abbrev win6 : Fin 11 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | ⟨_ + 11, h⟩ => absurd h (Nat.not_lt.2 (Nat.le_add_left _ _))
abbrev spec6 : Fin 11 → Pipeline.WinSpec sig grid6.rank := fun w => (win6 w).toWinSpec

class Facts : Prop extends Facts₀ where

variable [Facts]
-- ==== ReferenceIdeal.lean ====
abbrev S8192x128 : Shape := ⟨2, ![8192, 128]⟩
abbrev S8192x2 : Shape := ⟨2, ![8192, 2]⟩
abbrev S8x4 : Shape := ⟨2, ![8, 4]⟩
abbrev S8x1 : Shape := ⟨2, ![8, 1]⟩
abbrev S2048x8192 : Shape := ⟨2, ![2048, 8192]⟩
abbrev S8192x2048 : Shape := ⟨2, ![8192, 2048]⟩
abbrev S2048x8 : Shape := ⟨2, ![2048, 8]⟩
abbrev S134x256 : Shape := ⟨2, ![134, 256]⟩
abbrev S256 : Shape := ⟨1, ![256]⟩
abbrev S256x128 : Shape := ⟨2, ![256, 128]⟩
abbrev S128 : Shape := ⟨1, ![128]⟩
abbrev S130x128 : Shape := ⟨2, ![130, 128]⟩
abbrev S128x128 : Shape := ⟨2, ![128, 128]⟩
abbrev S2048x1 : Shape := ⟨2, ![2048, 1]⟩
abbrev S8192x1 : Shape := ⟨2, ![8192, 1]⟩
abbrev S2048x4 : Shape := ⟨2, ![2048, 4]⟩
abbrev S8192x4 : Shape := ⟨2, ![8192, 4]⟩
abbrev S8192x134 : Shape := ⟨2, ![8192, 134]⟩
abbrev S8192x256 : Shape := ⟨2, ![8192, 256]⟩
abbrev S1x256 : Shape := ⟨2, ![1, 256]⟩
abbrev S_ : Shape := ⟨0, ![]⟩
abbrev S1x128 : Shape := ⟨2, ![1, 128]⟩
abbrev S2048x128 : Shape := ⟨2, ![2048, 128]⟩
abbrev S8192x130 : Shape := ⟨2, ![8192, 130]⟩

abbrev nBuf : Space → Nat
  | .hbm => 103
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x2, .f32⟩
  | .hbm, ⟨5, _⟩ => ⟨S8x4, .f32⟩
  | .hbm, ⟨6, _⟩ => ⟨S8x1, .i32⟩
  | .hbm, ⟨7, _⟩ => ⟨S2048x8192, .f32⟩
  | .hbm, ⟨8, _⟩ => ⟨S8192x2048, .f32⟩
  | .hbm, ⟨9, _⟩ => ⟨S2048x8192, .f32⟩
  | .hbm, ⟨10, _⟩ => ⟨S8192x2048, .f32⟩
  | .hbm, ⟨11, _⟩ => ⟨S2048x8, .f32⟩
  | .hbm, ⟨12, _⟩ => ⟨S134x256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S130x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S134x256, .f32⟩
  | .hbm, ⟨21, _⟩ => ⟨S256, .f32⟩
  | .hbm, ⟨22, _⟩ => ⟨S256x128, .f32⟩
  | .hbm, ⟨23, _⟩ => ⟨S128, .f32⟩
  | .hbm, ⟨24, _⟩ => ⟨S130x128, .f32⟩
  | .hbm, ⟨25, _⟩ => ⟨S128, .f32⟩
  | .hbm, ⟨26, _⟩ => ⟨S128x128, .f32⟩
  | .hbm, ⟨27, _⟩ => ⟨S128, .f32⟩
  | .hbm, ⟨28, _⟩ => ⟨S8x1, .f32⟩
  | .hbm, ⟨29, _⟩ => ⟨S2048x1, .f32⟩
  | .hbm, ⟨30, _⟩ => ⟨S8192x1, .f32⟩
  | .hbm, ⟨31, _⟩ => ⟨S2048x4, .f32⟩
  | .hbm, ⟨32, _⟩ => ⟨S8192x4, .f32⟩
  | .hbm, ⟨33, _⟩ => ⟨S8192x134, .f32⟩
  | .hbm, ⟨34, _⟩ => ⟨S8192x256, .f32⟩
  | .hbm, ⟨35, _⟩ => ⟨S1x256, .f32⟩
  | .hbm, ⟨36, _⟩ => ⟨S8192x256, .f32⟩
  | .hbm, ⟨37, _⟩ => ⟨S8192x256, .f32⟩
  | .hbm, ⟨38, _⟩ => ⟨S_, .f32⟩
  | .hbm, ⟨39, _⟩ => ⟨S8192x256, .f32⟩
  | .hbm, ⟨40, _⟩ => ⟨S8192x256, .f32⟩
  | .hbm, ⟨41, _⟩ => ⟨S8192x128, .f32⟩
  | .hbm, ⟨42, _⟩ => ⟨S1x128, .f32⟩
  | .hbm, ⟨43, _⟩ => ⟨S8192x128, .f32⟩
  | .hbm, ⟨44, _⟩ => ⟨S8192x128, .f32⟩
  | .hbm, ⟨45, _⟩ => ⟨S2048x128, .f32⟩
  | .hbm, ⟨46, _⟩ => ⟨S8192x128, .f32⟩
  | .hbm, ⟨47, _⟩ => ⟨S8192x128, .f32⟩
  | .hbm, ⟨48, _⟩ => ⟨S8192x130, .f32⟩
  | .hbm, ⟨49, _⟩ => ⟨S8192x128, .f32⟩
  | .hbm, ⟨50, _⟩ => ⟨S1x128, .f32⟩
  | .hbm, ⟨51, _⟩ => ⟨S8192x128, .f32⟩
  | .hbm, ⟨52, _⟩ => ⟨S8192x128, .f32⟩
  | .hbm, ⟨53, _⟩ => ⟨S_, .f32⟩
  | .hbm, ⟨54, _⟩ => ⟨S8192x128, .f32⟩
  | .hbm, ⟨55, _⟩ => ⟨S8192x128, .f32⟩
  | .hbm, ⟨56, _⟩ => ⟨S8192x128, .f32⟩
  | .hbm, ⟨57, _⟩ => ⟨S1x128, .f32⟩
  | .hbm, ⟨58, _⟩ => ⟨S8192x128, .f32⟩
  | .hbm, ⟨59, _⟩ => ⟨S8192x128, .f32⟩
  | .hbm, ⟨60, _⟩ => ⟨S8192x128, .f32⟩
  | .hbm, ⟨61, _⟩ => ⟨S8192x128, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x128, .f32⟩
  | .hbm, ⟨66, _⟩ => ⟨S8192x128, .f32⟩
  | .hbm, ⟨67, _⟩ => ⟨S8192x128, .f32⟩
  | .hbm, ⟨68, _⟩ => ⟨S8192x134, .f32⟩
  | .hbm, ⟨69, _⟩ => ⟨S8192x256, .f32⟩
  | .hbm, ⟨70, _⟩ => ⟨S1x256, .f32⟩
  | .hbm, ⟨71, _⟩ => ⟨S8192x256, .f32⟩
  | .hbm, ⟨72, _⟩ => ⟨S8192x256, .f32⟩
  | .hbm, ⟨73, _⟩ => ⟨S_, .f32⟩
  | .hbm, ⟨74, _⟩ => ⟨S8192x256, .f32⟩
  | .hbm, ⟨75, _⟩ => ⟨S8192x256, .f32⟩
  | .hbm, ⟨76, _⟩ => ⟨S8192x128, .f32⟩
  | .hbm, ⟨77, _⟩ => ⟨S1x128, .f32⟩
  | .hbm, ⟨78, _⟩ => ⟨S8192x128, .f32⟩
  | .hbm, ⟨79, _⟩ => ⟨S8192x128, .f32⟩
  | .hbm, ⟨80, _⟩ => ⟨S2048x128, .f32⟩
  | .hbm, ⟨81, _⟩ => ⟨S8192x128, .f32⟩
  | .hbm, ⟨82, _⟩ => ⟨S8192x128, .f32⟩
  | .hbm, ⟨83, _⟩ => ⟨S8192x130, .f32⟩
  | .hbm, ⟨84, _⟩ => ⟨S8192x128, .f32⟩
  | .hbm, ⟨85, _⟩ => ⟨S1x128, .f32⟩
  | .hbm, ⟨86, _⟩ => ⟨S8192x128, .f32⟩
  | .hbm, ⟨87, _⟩ => ⟨S8192x128, .f32⟩
  | .hbm, ⟨88, _⟩ => ⟨S_, .f32⟩
  | .hbm, ⟨89, _⟩ => ⟨S8192x128, .f32⟩
  | .hbm, ⟨90, _⟩ => ⟨S8192x128, .f32⟩
  | .hbm, ⟨91, _⟩ => ⟨S8192x128, .f32⟩
  | .hbm, ⟨92, _⟩ => ⟨S1x128, .f32⟩
  | .hbm, ⟨93, _⟩ => ⟨S8192x128, .f32⟩
  | .hbm, ⟨94, _⟩ => ⟨S8192x128, .f32⟩
  | .hbm, ⟨95, _⟩ => ⟨S8192x128, .f32⟩
  | .hbm, ⟨96, _⟩ => ⟨S8192x128, .f32⟩
  | .hbm, ⟨97, _⟩ => ⟨S_, .f32⟩
  | .hbm, ⟨98, _⟩ => ⟨S8192x1, .f32⟩
  | .hbm, ⟨99, _⟩ => ⟨S8192x1, .f32⟩
  | .hbm, ⟨100, _⟩ => ⟨S8192x128, .f32⟩
  | .hbm, ⟨101, _⟩ => ⟨S8192x128, .f32⟩
  | .hbm, ⟨102, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_call0_cst : Ref sig .tc := ⟨.hbm, 38, rfl⟩
abbrev main_call0_v0 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_call1_cst : Ref sig .tc := ⟨.hbm, 53, rfl⟩
abbrev main_call1_v0 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_call2_cst : Ref sig .tc := ⟨.hbm, 73, rfl⟩
abbrev main_call2_v0 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_call3_cst : Ref sig .tc := ⟨.hbm, 88, rfl⟩
abbrev main_call3_v0 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_0 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩

abbrev nD : Nat := 1
abbrev τ : Topo := Topo.v7x

variable {F : FTy → Type} [FloatOps F]

class Facts₀ : Prop where
  concatenates_S8192x128_S8192x2_S8192x4_S8192x134_d1 : Shape.Concatenates [S8192x128, S8192x2, S8192x4] S8192x134 1
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  concatenates_S8192x128_S8192x2_S8192x130_d1 : Shape.Concatenates [S8192x128, S8192x2] S8192x130 1
  bcast_S_S8192x128 : S_.BroadcastsInDim S8192x128 (![] : Fin 0 → Fin S8192x128.rank)
  bcast_S8192x1_S8192x128_0_1 : S8192x1.BroadcastsInDim S8192x128 (![0, 1] : Fin 2 → Fin S8192x128.rank)
  bcast_S_S8192x1 : S_.BroadcastsInDim S8192x1 (![] : Fin 0 → Fin S8192x1.rank)
  dot_S2048x8_S8x1_S2048x1_1_0_0_1_n_n_wf : DotDims.WF S2048x8 S8x1 S2048x1 [1] [0] [0] [1] [] []
  dot_S8192x2048_S2048x1_S8192x1_1_0_0_1_n_n_wf : DotDims.WF S8192x2048 S2048x1 S8192x1 [1] [0] [0] [1] [] []
  dot_S2048x8_S8x4_S2048x4_1_0_0_1_n_n_wf : DotDims.WF S2048x8 S8x4 S2048x4 [1] [0] [0] [1] [] []
  dot_S8192x2048_S2048x4_S8192x4_1_0_0_1_n_n_wf : DotDims.WF S8192x2048 S2048x4 S8192x4 [1] [0] [0] [1] [] []
  dot_S8192x134_S134x256_S8192x256_1_0_0_1_n_n_wf : DotDims.WF S8192x134 S134x256 S8192x256 [1] [0] [0] [1] [] []
  dot_S8192x256_S256x128_S8192x128_1_0_0_1_n_n_wf : DotDims.WF S8192x256 S256x128 S8192x128 [1] [0] [0] [1] [] []
  dot_S2048x8192_S8192x128_S2048x128_1_0_0_1_n_n_wf : DotDims.WF S2048x8192 S8192x128 S2048x128 [1] [0] [0] [1] [] []
  dot_S8192x2048_S2048x128_S8192x128_1_0_0_1_n_n_wf : DotDims.WF S8192x2048 S2048x128 S8192x128 [1] [0] [0] [1] [] []
  dot_S8192x130_S130x128_S8192x128_1_0_0_1_n_n_wf : DotDims.WF S8192x130 S130x128 S8192x128 [1] [0] [0] [1] [] []
  dot_S8192x128_S128x128_S8192x128_1_0_0_1_n_n_wf : DotDims.WF S8192x128 S128x128 S8192x128 [1] [0] [0] [1] [] []

variable [Facts₀]

def dot_S2048x8_S8x1_S2048x1_1_0_0_1_n_n : DotDims S2048x8 S8x1 S2048x1 where
  lhsContracting := [1]
  rhsContracting := [0]
  lhsNonContracting := [0]
  rhsNonContracting := [1]
  lhsBatch := []
  rhsBatch := []
  wf := dot_S2048x8_S8x1_S2048x1_1_0_0_1_n_n_wf
def dot_S8192x2048_S2048x1_S8192x1_1_0_0_1_n_n : DotDims S8192x2048 S2048x1 S8192x1 where
  lhsContracting := [1]
  rhsContracting := [0]
  lhsNonContracting := [0]
  rhsNonContracting := [1]
  lhsBatch := []
  rhsBatch := []
  wf := dot_S8192x2048_S2048x1_S8192x1_1_0_0_1_n_n_wf
def dot_S2048x8_S8x4_S2048x4_1_0_0_1_n_n : DotDims S2048x8 S8x4 S2048x4 where
  lhsContracting := [1]
  rhsContracting := [0]
  lhsNonContracting := [0]
  rhsNonContracting := [1]
  lhsBatch := []
  rhsBatch := []
  wf := dot_S2048x8_S8x4_S2048x4_1_0_0_1_n_n_wf
def dot_S8192x2048_S2048x4_S8192x4_1_0_0_1_n_n : DotDims S8192x2048 S2048x4 S8192x4 where
  lhsContracting := [1]
  rhsContracting := [0]
  lhsNonContracting := [0]
  rhsNonContracting := [1]
  lhsBatch := []
  rhsBatch := []
  wf := dot_S8192x2048_S2048x4_S8192x4_1_0_0_1_n_n_wf
def dot_S8192x134_S134x256_S8192x256_1_0_0_1_n_n : DotDims S8192x134 S134x256 S8192x256 where
  lhsContracting := [1]
  rhsContracting := [0]
  lhsNonContracting := [0]
  rhsNonContracting := [1]
  lhsBatch := []
  rhsBatch := []
  wf := dot_S8192x134_S134x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S2048x8192_S8192x128_S2048x128_1_0_0_1_n_n : DotDims S2048x8192 S8192x128 S2048x128 where
  lhsContracting := [1]
  rhsContracting := [0]
  lhsNonContracting := [0]
  rhsNonContracting := [1]
  lhsBatch := []
  rhsBatch := []
  wf := dot_S2048x8192_S8192x128_S2048x128_1_0_0_1_n_n_wf
def dot_S8192x2048_S2048x128_S8192x128_1_0_0_1_n_n : DotDims S8192x2048 S2048x128 S8192x128 where
  lhsContracting := [1]
  rhsContracting := [0]
  lhsNonContracting := [0]
  rhsNonContracting := [1]
  lhsBatch := []
  rhsBatch := []
  wf := dot_S8192x2048_S2048x128_S8192x128_1_0_0_1_n_n_wf
def dot_S8192x130_S130x128_S8192x128_1_0_0_1_n_n : DotDims S8192x130 S130x128 S8192x128 where
  lhsContracting := [1]
  rhsContracting := [0]
  lhsNonContracting := [0]
  rhsNonContracting := [1]
  lhsBatch := []
  rhsBatch := []
  wf := dot_S8192x130_S130x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.RunResults.lean ====
/-
  The idealized kernel's run with its two result arrays named: every weakly fair execution of @main terminates without a
  fault, each result buffer ends at what the last boundary of the run holds for it (the fold of the host stretches and
  the regions' write-backs from the launch memory), and every argument array ends as launched.
-/
import proofs.«122511_j30537217474923_2_alg».proof.Proof.Gen.KernelIdeal.Frame

set_option maxRecDepth 16384

noncomputable section

namespace Cert.KernelIdeal.Results

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the two results read off the last boundary's contents. -/
theorem run_results : θ_run defs (onTc (τ := τ) (main (F := F))) ⟨m, fun _ => 0, ρ⟩ (fun r => ∀ c : Dev nD,
      r.2.mem ((c.tc : Thread nD τ).loc main_v17) = W12 m ρ c (Proc.devRef .tc main_v17)
      ∧ r.2.mem ((c.tc : Thread nD τ).loc main_v10) = W12 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v17 (by decide)), h c _ (mem_uc main_v10 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c),
       (h c _ (mem_uc main_arg20 (by decide))).trans (W12_main_arg20 m ρ c),
       (h c _ (mem_uc main_arg21 (by decide))).trans (W12_main_arg21 m ρ c),
       (h c _ (mem_uc main_arg22 (by decide))).trans (W12_main_arg22 m ρ c),
       (h c _ (mem_uc main_arg23 (by decide))).trans (W12_main_arg23 m ρ c),
       (h c _ (mem_uc main_arg24 (by decide))).trans (W12_main_arg24 m ρ c),
       (h c _ (mem_uc main_arg25 (by decide))).trans (W12_main_arg25 m ρ c),
       (h c _ (mem_uc main_arg26 (by decide))).trans (W12_main_arg26 m ρ c),
       (h c _ (mem_uc main_arg27 (by decide))).trans (W12_main_arg27 m ρ c)⟩)

end Cert.KernelIdeal.Results

end
-- ==== Proof.TravelA.lean ====
/-
  How a buffer travels along the run. The run's boundaries are numbered 0 (the launch) to 12 (the return); between two
  neighbours stands either a stretch of host operations or one region. A buffer that the stretch does not write, or that
  the region only reads (or does not touch), holds at the later boundary what it held at the earlier one. One lemma per
  buffer and boundary crossed, for the buffers the regions and the results depend on.
-/
import proofs.«122511_j30537217474923_2_alg».proof.Proof.Gen.KernelIdeal.Frame

set_option maxRecDepth 16384

noncomputable section

namespace Cert.KernelIdeal.Travel

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

theorem arg8_s1 (c : Dev nD) : W1 m ρ c (Proc.devRef .tc main_arg8) = W0 m ρ c (Proc.devRef .tc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg8_s2 (c : Dev nD) : W2 m ρ c (Proc.devRef .tc main_arg8) = W1 m ρ c (Proc.devRef .tc main_arg8) :=
  (W2_arr m ρ c 0).trans (((dat0 (V1 m ρ) c).arrAt_in 0 rfl _).trans (A_eq0 (V1 m ρ) c 0))
theorem arg8_s3 (c : Dev nD) : W3 m ρ c (Proc.devRef .tc main_arg8) = W2 m ρ c (Proc.devRef .tc main_arg8) :=
  StableHlo.after_of_forall_not_mem (b := Proc.devRef .tc main_arg8) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg8_s4 (c : Dev nD) : W4 m ρ c (Proc.devRef .tc main_arg8) = W3 m ρ c (Proc.devRef .tc main_arg8) :=
  W4_of_ne m ρ c main_arg8 (by decide)
theorem arg8_s5 (c : Dev nD) : W5 m ρ c (Proc.devRef .tc main_arg8) = W4 m ρ c (Proc.devRef .tc main_arg8) :=
  W5_of_ne m ρ c main_arg8 (by decide)
theorem arg8_s6 (c : Dev nD) : W6 m ρ c (Proc.devRef .tc main_arg8) = W5 m ρ c (Proc.devRef .tc main_arg8) :=
  StableHlo.after_of_forall_not_mem (b := Proc.devRef .tc main_arg8) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg2_s1 (c : Dev nD) : W1 m ρ c (Proc.devRef .tc main_arg2) = W0 m ρ c (Proc.devRef .tc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg2_s2 (c : Dev nD) : W2 m ρ c (Proc.devRef .tc main_arg2) = W1 m ρ c (Proc.devRef .tc main_arg2) :=
  W2_of_ne m ρ c main_arg2 (by decide)
theorem arg2_s3 (c : Dev nD) : W3 m ρ c (Proc.devRef .tc main_arg2) = W2 m ρ c (Proc.devRef .tc main_arg2) :=
  StableHlo.after_of_forall_not_mem (b := Proc.devRef .tc main_arg2) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg4_s1 (c : Dev nD) : W1 m ρ c (Proc.devRef .tc main_arg4) = W0 m ρ c (Proc.devRef .tc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg4_s2 (c : Dev nD) : W2 m ρ c (Proc.devRef .tc main_arg4) = W1 m ρ c (Proc.devRef .tc main_arg4) :=
  W2_of_ne m ρ c main_arg4 (by decide)
theorem arg4_s3 (c : Dev nD) : W3 m ρ c (Proc.devRef .tc main_arg4) = W2 m ρ c (Proc.devRef .tc main_arg4) :=
  StableHlo.after_of_forall_not_mem (b := Proc.devRef .tc main_arg4) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg4_s4 (c : Dev nD) : W4 m ρ c (Proc.devRef .tc main_arg4) = W3 m ρ c (Proc.devRef .tc main_arg4) :=
  (W4_arr m ρ c 1).trans (((dat1 (V3 m ρ) c).arrAt_in 1 rfl _).trans (A_eq1 (V3 m ρ) c 1))
theorem arg4_s5 (c : Dev nD) : W5 m ρ c (Proc.devRef .tc main_arg4) = W4 m ρ c (Proc.devRef .tc main_arg4) :=
  W5_of_ne m ρ c main_arg4 (by decide)
theorem arg4_s6 (c : Dev nD) : W6 m ρ c (Proc.devRef .tc main_arg4) = W5 m ρ c (Proc.devRef .tc main_arg4) :=
  StableHlo.after_of_forall_not_mem (b := Proc.devRef .tc main_arg4) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg4_s7 (c : Dev nD) : W7 m ρ c (Proc.devRef .tc main_arg4) = W6 m ρ c (Proc.devRef .tc main_arg4) :=
  (W7_arr m ρ c 3).trans (((dat3 (V6 m ρ) c).arrAt_in 3 rfl _).trans (A_eq3 (V6 m ρ) c 3))
theorem arg4_s8 (c : Dev nD) : W8 m ρ c (Proc.devRef .tc main_arg4) = W7 m ρ c (Proc.devRef .tc main_arg4) :=
  StableHlo.after_of_forall_not_mem (b := Proc.devRef .tc main_arg4) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg4_s9 (c : Dev nD) : W9 m ρ c (Proc.devRef .tc main_arg4) = W8 m ρ c (Proc.devRef .tc main_arg4) :=
  (W9_arr m ρ c 1).trans (((dat4 (V8 m ρ) c).arrAt_in 1 rfl _).trans (A_eq4 (V8 m ρ) c 1))
theorem arg4_s10 (c : Dev nD) : W10 m ρ c (Proc.devRef .tc main_arg4) = W9 m ρ c (Proc.devRef .tc main_arg4) :=
  W10_of_ne m ρ c main_arg4 (by decide)
theorem arg4_s11 (c : Dev nD) : W11 m ρ c (Proc.devRef .tc main_arg4) = W10 m ρ c (Proc.devRef .tc main_arg4) :=
  StableHlo.after_of_forall_not_mem (b := Proc.devRef .tc main_arg4) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg12_s1 (c : Dev nD) : W1 m ρ c (Proc.devRef .tc main_arg12) = W0 m ρ c (Proc.devRef .tc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg12_s2 (c : Dev nD) : W2 m ρ c (Proc.devRef .tc main_arg12) = W1 m ρ c (Proc.devRef .tc main_arg12) :=
  W2_of_ne m ρ c main_arg12 (by decide)
theorem arg12_s3 (c : Dev nD) : W3 m ρ c (Proc.devRef .tc main_arg12) = W2 m ρ c (Proc.devRef .tc main_arg12) :=
  StableHlo.after_of_forall_not_mem (b := Proc.devRef .tc main_arg12) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg14_s1 (c : Dev nD) : W1 m ρ c (Proc.devRef .tc main_arg14) = W0 m ρ c (Proc.devRef .tc main_arg14) :=
  StableHlo.after_of_forall_not_mem (b := Proc.devRef .tc main_arg14) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg14_s2 (c : Dev nD) : W2 m ρ c (Proc.devRef .tc main_arg14) = W1 m ρ c (Proc.devRef .tc main_arg14) :=
  W2_of_ne m ρ c main_arg14 (by decide)
theorem arg14_s3 (c : Dev nD) : W3 m ρ c (Proc.devRef .tc main_arg14) = W2 m ρ c (Proc.devRef .tc main_arg14) :=
  StableHlo.after_of_forall_not_mem (b := Proc.devRef .tc main_arg14) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg13_s1 (c : Dev nD) : W1 m ρ c (Proc.devRef .tc main_arg13) = W0 m ρ c (Proc.devRef .tc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg13_s2 (c : Dev nD) : W2 m ρ c (Proc.devRef .tc main_arg13) = W1 m ρ c (Proc.devRef .tc main_arg13) :=
  W2_of_ne m ρ c main_arg13 (by decide)
theorem arg15_s1 (c : Dev nD) : W1 m ρ c (Proc.devRef .tc main_arg15) = W0 m ρ c (Proc.devRef .tc main_arg15) :=
  StableHlo.after_of_forall_not_mem (b := Proc.devRef .tc main_arg15) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg15_s2 (c : Dev nD) : W2 m ρ c (Proc.devRef .tc main_arg15) = W1 m ρ c (Proc.devRef .tc main_arg15) :=
  W2_of_ne m ρ c main_arg15 (by decide)
theorem arg7_s1 (c : Dev nD) : W1 m ρ c (Proc.devRef .tc main_arg7) = W0 m ρ c (Proc.devRef .tc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg7_s2 (c : Dev nD) : W2 m ρ c (Proc.devRef .tc main_arg7) = W1 m ρ c (Proc.devRef .tc main_arg7) :=
  W2_of_ne m ρ c main_arg7 (by decide)
theorem arg7_s3 (c : Dev nD) : W3 m ρ c (Proc.devRef .tc main_arg7) = W2 m ρ c (Proc.devRef .tc main_arg7) :=
  StableHlo.after_of_forall_not_mem (b := Proc.devRef .tc main_arg7) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg7_s4 (c : Dev nD) : W4 m ρ c (Proc.devRef .tc main_arg7) = W3 m ρ c (Proc.devRef .tc main_arg7) :=
  W4_of_ne m ρ c main_arg7 (by decide)
theorem arg1_s1 (c : Dev nD) : W1 m ρ c (Proc.devRef .tc main_arg1) = W0 m ρ c (Proc.devRef .tc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg1_s2 (c : Dev nD) : W2 m ρ c (Proc.devRef .tc main_arg1) = W1 m ρ c (Proc.devRef .tc main_arg1) :=
  W2_of_ne m ρ c main_arg1 (by decide)
theorem arg1_s3 (c : Dev nD) : W3 m ρ c (Proc.devRef .tc main_arg1) = W2 m ρ c (Proc.devRef .tc main_arg1) :=
  StableHlo.after_of_forall_not_mem (b := Proc.devRef .tc main_arg1) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg1_s4 (c : Dev nD) : W4 m ρ c (Proc.devRef .tc main_arg1) = W3 m ρ c (Proc.devRef .tc main_arg1) :=
  W4_of_ne m ρ c main_arg1 (by decide)
theorem arg1_s5 (c : Dev nD) : W5 m ρ c (Proc.devRef .tc main_arg1) = W4 m ρ c (Proc.devRef .tc main_arg1) :=
  W5_of_ne m ρ c main_arg1 (by decide)
theorem arg1_s6 (c : Dev nD) : W6 m ρ c (Proc.devRef .tc main_arg1) = W5 m ρ c (Proc.devRef .tc main_arg1) :=
  StableHlo.after_of_forall_not_mem (b := Proc.devRef .tc main_arg1) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg16_s1 (c : Dev nD) : W1 m ρ c (Proc.devRef .tc main_arg16) = W0 m ρ c (Proc.devRef .tc main_arg16) :=
  StableHlo.after_of_forall_not_mem (b := Proc.devRef .tc main_arg16) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg16_s2 (c : Dev nD) : W2 m ρ c (Proc.devRef .tc main_arg16) = W1 m ρ c (Proc.devRef .tc main_arg16) :=
  W2_of_ne m ρ c main_arg16 (by decide)
theorem arg16_s3 (c : Dev nD) : W3 m ρ c (Proc.devRef .tc main_arg16) = W2 m ρ c (Proc.devRef .tc main_arg16) :=
  StableHlo.after_of_forall_not_mem (b := Proc.devRef .tc main_arg16) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg16_s4 (c : Dev nD) : W4 m ρ c (Proc.devRef .tc main_arg16) = W3 m ρ c (Proc.devRef .tc main_arg16) :=
  W4_of_ne m ρ c main_arg16 (by decide)
theorem arg16_s5 (c : Dev nD) : W5 m ρ c (Proc.devRef .tc main_arg16) = W4 m ρ c (Proc.devRef .tc main_arg16) :=
  W5_of_ne m ρ c main_arg16 (by decide)
theorem arg16_s6 (c : Dev nD) : W6 m ρ c (Proc.devRef .tc main_arg16) = W5 m ρ c (Proc.devRef .tc main_arg16) :=
  StableHlo.after_of_forall_not_mem (b := Proc.devRef .tc main_arg16) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg18_s1 (c : Dev nD) : W1 m ρ c (Proc.devRef .tc main_arg18) = W0 m ρ c (Proc.devRef .tc main_arg18) :=
  StableHlo.after_of_forall_not_mem (b := Proc.devRef .tc main_arg18) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg18_s2 (c : Dev nD) : W2 m ρ c (Proc.devRef .tc main_arg18) = W1 m ρ c (Proc.devRef .tc main_arg18) :=
  W2_of_ne m ρ c main_arg18 (by decide)
theorem arg18_s3 (c : Dev nD) : W3 m ρ c (Proc.devRef .tc main_arg18) = W2 m ρ c (Proc.devRef .tc main_arg18) :=
  StableHlo.after_of_forall_not_mem (b := Proc.devRef .tc main_arg18) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg18_s4 (c : Dev nD) : W4 m ρ c (Proc.devRef .tc main_arg18) = W3 m ρ c (Proc.devRef .tc main_arg18) :=
  W4_of_ne m ρ c main_arg18 (by decide)
theorem arg18_s5 (c : Dev nD) : W5 m ρ c (Proc.devRef .tc main_arg18) = W4 m ρ c (Proc.devRef .tc main_arg18) :=
  W5_of_ne m ρ c main_arg18 (by decide)
theorem arg18_s6 (c : Dev nD) : W6 m ρ c (Proc.devRef .tc main_arg18) = W5 m ρ c (Proc.devRef .tc main_arg18) :=
  StableHlo.after_of_forall_not_mem (b := Proc.devRef .tc main_arg18) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg17_s1 (c : Dev nD) : W1 m ρ c (Proc.devRef .tc main_arg17) = W0 m ρ c (Proc.devRef .tc main_arg17) :=
  StableHlo.after_of_forall_not_mem (b := Proc.devRef .tc main_arg17) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg17_s2 (c : Dev nD) : W2 m ρ c (Proc.devRef .tc main_arg17) = W1 m ρ c (Proc.devRef .tc main_arg17) :=
  W2_of_ne m ρ c main_arg17 (by decide)
theorem arg17_s3 (c : Dev nD) : W3 m ρ c (Proc.devRef .tc main_arg17) = W2 m ρ c (Proc.devRef .tc main_arg17) :=
  StableHlo.after_of_forall_not_mem (b := Proc.devRef .tc main_arg17) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg17_s4 (c : Dev nD) : W4 m ρ c (Proc.devRef .tc main_arg17) = W3 m ρ c (Proc.devRef .tc main_arg17) :=
  W4_of_ne m ρ c main_arg17 (by decide)
theorem arg17_s5 (c : Dev nD) : W5 m ρ c (Proc.devRef .tc main_arg17) = W4 m ρ c (Proc.devRef .tc main_arg17) :=
  W5_of_ne m ρ c main_arg17 (by decide)
theorem arg19_s1 (c : Dev nD) : W1 m ρ c (Proc.devRef .tc main_arg19) = W0 m ρ c (Proc.devRef .tc main_arg19) :=
  StableHlo.after_of_forall_not_mem (b := Proc.devRef .tc main_arg19) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg19_s2 (c : Dev nD) : W2 m ρ c (Proc.devRef .tc main_arg19) = W1 m ρ c (Proc.devRef .tc main_arg19) :=
  W2_of_ne m ρ c main_arg19 (by decide)
theorem arg19_s3 (c : Dev nD) : W3 m ρ c (Proc.devRef .tc main_arg19) = W2 m ρ c (Proc.devRef .tc main_arg19) :=
  StableHlo.after_of_forall_not_mem (b := Proc.devRef .tc main_arg19) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg19_s4 (c : Dev nD) : W4 m ρ c (Proc.devRef .tc main_arg19) = W3 m ρ c (Proc.devRef .tc main_arg19) :=
  W4_of_ne m ρ c main_arg19 (by decide)
theorem arg19_s5 (c : Dev nD) : W5 m ρ c (Proc.devRef .tc main_arg19) = W4 m ρ c (Proc.devRef .tc main_arg19) :=
  W5_of_ne m ρ c main_arg19 (by decide)
theorem arg3_s1 (c : Dev nD) : W1 m ρ c (Proc.devRef .tc main_arg3) = W0 m ρ c (Proc.devRef .tc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg3_s2 (c : Dev nD) : W2 m ρ c (Proc.devRef .tc main_arg3) = W1 m ρ c (Proc.devRef .tc main_arg3) :=
  W2_of_ne m ρ c main_arg3 (by decide)
theorem arg3_s3 (c : Dev nD) : W3 m ρ c (Proc.devRef .tc main_arg3) = W2 m ρ c (Proc.devRef .tc main_arg3) :=
  StableHlo.after_of_forall_not_mem (b := Proc.devRef .tc main_arg3) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg3_s4 (c : Dev nD) : W4 m ρ c (Proc.devRef .tc main_arg3) = W3 m ρ c (Proc.devRef .tc main_arg3) :=
  W4_of_ne m ρ c main_arg3 (by decide)
theorem arg3_s5 (c : Dev nD) : W5 m ρ c (Proc.devRef .tc main_arg3) = W4 m ρ c (Proc.devRef .tc main_arg3) :=
  W5_of_ne m ρ c main_arg3 (by decide)
theorem arg3_s6 (c : Dev nD) : W6 m ρ c (Proc.devRef .tc main_arg3) = W5 m ρ c (Proc.devRef .tc main_arg3) :=
  StableHlo.after_of_forall_not_mem (b := Proc.devRef .tc main_arg3) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg3_s7 (c : Dev nD) : W7 m ρ c (Proc.devRef .tc main_arg3) = W6 m ρ c (Proc.devRef .tc main_arg3) :=
  W7_of_ne m ρ c main_arg3 (by decide)
theorem arg3_s8 (c : Dev nD) : W8 m ρ c (Proc.devRef .tc main_arg3) = W7 m ρ c (Proc.devRef .tc main_arg3) :=
  StableHlo.after_of_forall_not_mem (b := Proc.devRef .tc main_arg3) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg20_s1 (c : Dev nD) : W1 m ρ c (Proc.devRef .tc main_arg20) = W0 m ρ c (Proc.devRef .tc main_arg20) :=
  StableHlo.after_of_forall_not_mem (b := Proc.devRef .tc main_arg20) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg20_s2 (c : Dev nD) : W2 m ρ c (Proc.devRef .tc main_arg20) = W1 m ρ c (Proc.devRef .tc main_arg20) :=
  W2_of_ne m ρ c main_arg20 (by decide)
theorem arg20_s3 (c : Dev nD) : W3 m ρ c (Proc.devRef .tc main_arg20) = W2 m ρ c (Proc.devRef .tc main_arg20) :=
  StableHlo.after_of_forall_not_mem (b := Proc.devRef .tc main_arg20) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg20_s4 (c : Dev nD) : W4 m ρ c (Proc.devRef .tc main_arg20) = W3 m ρ c (Proc.devRef .tc main_arg20) :=
  W4_of_ne m ρ c main_arg20 (by decide)
theorem arg20_s5 (c : Dev nD) : W5 m ρ c (Proc.devRef .tc main_arg20) = W4 m ρ c (Proc.devRef .tc main_arg20) :=
  W5_of_ne m ρ c main_arg20 (by decide)
theorem arg20_s6 (c : Dev nD) : W6 m ρ c (Proc.devRef .tc main_arg20) = W5 m ρ c (Proc.devRef .tc main_arg20) :=
  StableHlo.after_of_forall_not_mem (b := Proc.devRef .tc main_arg20) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg20_s7 (c : Dev nD) : W7 m ρ c (Proc.devRef .tc main_arg20) = W6 m ρ c (Proc.devRef .tc main_arg20) :=
  W7_of_ne m ρ c main_arg20 (by decide)
theorem arg20_s8 (c : Dev nD) : W8 m ρ c (Proc.devRef .tc main_arg20) = W7 m ρ c (Proc.devRef .tc main_arg20) :=
  StableHlo.after_of_forall_not_mem (b := Proc.devRef .tc main_arg20) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg22_s1 (c : Dev nD) : W1 m ρ c (Proc.devRef .tc main_arg22) = W0 m ρ c (Proc.devRef .tc main_arg22) :=
  StableHlo.after_of_forall_not_mem (b := Proc.devRef .tc main_arg22) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg22_s2 (c : Dev nD) : W2 m ρ c (Proc.devRef .tc main_arg22) = W1 m ρ c (Proc.devRef .tc main_arg22) :=
  W2_of_ne m ρ c main_arg22 (by decide)
theorem arg22_s3 (c : Dev nD) : W3 m ρ c (Proc.devRef .tc main_arg22) = W2 m ρ c (Proc.devRef .tc main_arg22) :=
  StableHlo.after_of_forall_not_mem (b := Proc.devRef .tc main_arg22) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg22_s4 (c : Dev nD) : W4 m ρ c (Proc.devRef .tc main_arg22) = W3 m ρ c (Proc.devRef .tc main_arg22) :=
  W4_of_ne m ρ c main_arg22 (by decide)
theorem arg22_s5 (c : Dev nD) : W5 m ρ c (Proc.devRef .tc main_arg22) = W4 m ρ c (Proc.devRef .tc main_arg22) :=
  W5_of_ne m ρ c main_arg22 (by decide)
theorem arg22_s6 (c : Dev nD) : W6 m ρ c (Proc.devRef .tc main_arg22) = W5 m ρ c (Proc.devRef .tc main_arg22) :=
  StableHlo.after_of_forall_not_mem (b := Proc.devRef .tc main_arg22) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg22_s7 (c : Dev nD) : W7 m ρ c (Proc.devRef .tc main_arg22) = W6 m ρ c (Proc.devRef .tc main_arg22) :=
  W7_of_ne m ρ c main_arg22 (by decide)
theorem arg22_s8 (c : Dev nD) : W8 m ρ c (Proc.devRef .tc main_arg22) = W7 m ρ c (Proc.devRef .tc main_arg22) :=
  StableHlo.after_of_forall_not_mem (b := Proc.devRef .tc main_arg22) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg21_s1 (c : Dev nD) : W1 m ρ c (Proc.devRef .tc main_arg21) = W0 m ρ c (Proc.devRef .tc main_arg21) :=
  StableHlo.after_of_forall_not_mem (b := Proc.devRef .tc main_arg21) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg21_s2 (c : Dev nD) : W2 m ρ c (Proc.devRef .tc main_arg21) = W1 m ρ c (Proc.devRef .tc main_arg21) :=
  W2_of_ne m ρ c main_arg21 (by decide)
theorem arg21_s3 (c : Dev nD) : W3 m ρ c (Proc.devRef .tc main_arg21) = W2 m ρ c (Proc.devRef .tc main_arg21) :=
  StableHlo.after_of_forall_not_mem (b := Proc.devRef .tc main_arg21) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg21_s4 (c : Dev nD) : W4 m ρ c (Proc.devRef .tc main_arg21) = W3 m ρ c (Proc.devRef .tc main_arg21) :=
  W4_of_ne m ρ c main_arg21 (by decide)
theorem arg21_s5 (c : Dev nD) : W5 m ρ c (Proc.devRef .tc main_arg21) = W4 m ρ c (Proc.devRef .tc main_arg21) :=
  W5_of_ne m ρ c main_arg21 (by decide)
theorem arg21_s6 (c : Dev nD) : W6 m ρ c (Proc.devRef .tc main_arg21) = W5 m ρ c (Proc.devRef .tc main_arg21) :=
  StableHlo.after_of_forall_not_mem (b := Proc.devRef .tc main_arg21) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg21_s7 (c : Dev nD) : W7 m ρ c (Proc.devRef .tc main_arg21) = W6 m ρ c (Proc.devRef .tc main_arg21) :=
  W7_of_ne m ρ c main_arg21 (by decide)
theorem arg23_s1 (c : Dev nD) : W1 m ρ c (Proc.devRef .tc main_arg23) = W0 m ρ c (Proc.devRef .tc main_arg23) :=
  StableHlo.after_of_forall_not_mem (b := Proc.devRef .tc main_arg23) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg23_s2 (c : Dev nD) : W2 m ρ c (Proc.devRef .tc main_arg23) = W1 m ρ c (Proc.devRef .tc main_arg23) :=
  W2_of_ne m ρ c main_arg23 (by decide)
theorem arg23_s3 (c : Dev nD) : W3 m ρ c (Proc.devRef .tc main_arg23) = W2 m ρ c (Proc.devRef .tc main_arg23) :=
  StableHlo.after_of_forall_not_mem (b := Proc.devRef .tc main_arg23) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg23_s4 (c : Dev nD) : W4 m ρ c (Proc.devRef .tc main_arg23) = W3 m ρ c (Proc.devRef .tc main_arg23) :=
  W4_of_ne m ρ c main_arg23 (by decide)
theorem arg23_s5 (c : Dev nD) : W5 m ρ c (Proc.devRef .tc main_arg23) = W4 m ρ c (Proc.devRef .tc main_arg23) :=
  W5_of_ne m ρ c main_arg23 (by decide)
theorem arg23_s6 (c : Dev nD) : W6 m ρ c (Proc.devRef .tc main_arg23) = W5 m ρ c (Proc.devRef .tc main_arg23) :=
  StableHlo.after_of_forall_not_mem (b := Proc.devRef .tc main_arg23) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg23_s7 (c : Dev nD) : W7 m ρ c (Proc.devRef .tc main_arg23) = W6 m ρ c (Proc.devRef .tc main_arg23) :=
  W7_of_ne m ρ c main_arg23 (by decide)

end Cert.KernelIdeal.Travel

end
-- ==== Proof.TravelB.lean ====
/-
  How a buffer travels along the run. The run's boundaries are numbered 0 (the launch) to 12 (the return); between two
  neighbours stands either a stretch of host operations or one region. A buffer that the stretch does not write, or that
  the region only reads (or does not touch), holds at the later boundary what it held at the earlier one. One lemma per
  buffer and boundary crossed, for the buffers the regions and the results depend on.
-/
import proofs.«122511_j30537217474923_2_alg».proof.Proof.Gen.KernelIdeal.Frame

set_option maxRecDepth 16384

noncomputable section

namespace Cert.KernelIdeal.Travel

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

theorem arg9_s1 (c : Dev nD) : W1 m ρ c (Proc.devRef .tc main_arg9) = W0 m ρ c (Proc.devRef .tc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg9_s2 (c : Dev nD) : W2 m ρ c (Proc.devRef .tc main_arg9) = W1 m ρ c (Proc.devRef .tc main_arg9) :=
  W2_of_ne m ρ c main_arg9 (by decide)
theorem arg9_s3 (c : Dev nD) : W3 m ρ c (Proc.devRef .tc main_arg9) = W2 m ρ c (Proc.devRef .tc main_arg9) :=
  StableHlo.after_of_forall_not_mem (b := Proc.devRef .tc main_arg9) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg9_s4 (c : Dev nD) : W4 m ρ c (Proc.devRef .tc main_arg9) = W3 m ρ c (Proc.devRef .tc main_arg9) :=
  W4_of_ne m ρ c main_arg9 (by decide)
theorem arg9_s5 (c : Dev nD) : W5 m ρ c (Proc.devRef .tc main_arg9) = W4 m ρ c (Proc.devRef .tc main_arg9) :=
  W5_of_ne m ρ c main_arg9 (by decide)
theorem arg9_s6 (c : Dev nD) : W6 m ρ c (Proc.devRef .tc main_arg9) = W5 m ρ c (Proc.devRef .tc main_arg9) :=
  StableHlo.after_of_forall_not_mem (b := Proc.devRef .tc main_arg9) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg9_s7 (c : Dev nD) : W7 m ρ c (Proc.devRef .tc main_arg9) = W6 m ρ c (Proc.devRef .tc main_arg9) :=
  W7_of_ne m ρ c main_arg9 (by decide)
theorem arg9_s8 (c : Dev nD) : W8 m ρ c (Proc.devRef .tc main_arg9) = W7 m ρ c (Proc.devRef .tc main_arg9) :=
  StableHlo.after_of_forall_not_mem (b := Proc.devRef .tc main_arg9) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg9_s9 (c : Dev nD) : W9 m ρ c (Proc.devRef .tc main_arg9) = W8 m ρ c (Proc.devRef .tc main_arg9) :=
  W9_of_ne m ρ c main_arg9 (by decide)
theorem arg10_s1 (c : Dev nD) : W1 m ρ c (Proc.devRef .tc main_arg10) = W0 m ρ c (Proc.devRef .tc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg10_s2 (c : Dev nD) : W2 m ρ c (Proc.devRef .tc main_arg10) = W1 m ρ c (Proc.devRef .tc main_arg10) :=
  W2_of_ne m ρ c main_arg10 (by decide)
theorem arg10_s3 (c : Dev nD) : W3 m ρ c (Proc.devRef .tc main_arg10) = W2 m ρ c (Proc.devRef .tc main_arg10) :=
  StableHlo.after_of_forall_not_mem (b := Proc.devRef .tc main_arg10) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg10_s4 (c : Dev nD) : W4 m ρ c (Proc.devRef .tc main_arg10) = W3 m ρ c (Proc.devRef .tc main_arg10) :=
  W4_of_ne m ρ c main_arg10 (by decide)
theorem arg10_s5 (c : Dev nD) : W5 m ρ c (Proc.devRef .tc main_arg10) = W4 m ρ c (Proc.devRef .tc main_arg10) :=
  W5_of_ne m ρ c main_arg10 (by decide)
theorem arg10_s6 (c : Dev nD) : W6 m ρ c (Proc.devRef .tc main_arg10) = W5 m ρ c (Proc.devRef .tc main_arg10) :=
  StableHlo.after_of_forall_not_mem (b := Proc.devRef .tc main_arg10) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg10_s7 (c : Dev nD) : W7 m ρ c (Proc.devRef .tc main_arg10) = W6 m ρ c (Proc.devRef .tc main_arg10) :=
  W7_of_ne m ρ c main_arg10 (by decide)
theorem arg10_s8 (c : Dev nD) : W8 m ρ c (Proc.devRef .tc main_arg10) = W7 m ρ c (Proc.devRef .tc main_arg10) :=
  StableHlo.after_of_forall_not_mem (b := Proc.devRef .tc main_arg10) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg10_s9 (c : Dev nD) : W9 m ρ c (Proc.devRef .tc main_arg10) = W8 m ρ c (Proc.devRef .tc main_arg10) :=
  W9_of_ne m ρ c main_arg10 (by decide)
theorem arg10_s10 (c : Dev nD) : W10 m ρ c (Proc.devRef .tc main_arg10) = W9 m ρ c (Proc.devRef .tc main_arg10) :=
  W10_of_ne m ρ c main_arg10 (by decide)
theorem arg10_s11 (c : Dev nD) : W11 m ρ c (Proc.devRef .tc main_arg10) = W10 m ρ c (Proc.devRef .tc main_arg10) :=
  StableHlo.after_of_forall_not_mem (b := Proc.devRef .tc main_arg10) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg0_s1 (c : Dev nD) : W1 m ρ c (Proc.devRef .tc main_arg0) = W0 m ρ c (Proc.devRef .tc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg0_s2 (c : Dev nD) : W2 m ρ c (Proc.devRef .tc main_arg0) = W1 m ρ c (Proc.devRef .tc main_arg0) :=
  W2_of_ne m ρ c main_arg0 (by decide)
theorem arg0_s3 (c : Dev nD) : W3 m ρ c (Proc.devRef .tc main_arg0) = W2 m ρ c (Proc.devRef .tc main_arg0) :=
  StableHlo.after_of_forall_not_mem (b := Proc.devRef .tc main_arg0) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg0_s4 (c : Dev nD) : W4 m ρ c (Proc.devRef .tc main_arg0) = W3 m ρ c (Proc.devRef .tc main_arg0) :=
  W4_of_ne m ρ c main_arg0 (by decide)
theorem arg0_s5 (c : Dev nD) : W5 m ρ c (Proc.devRef .tc main_arg0) = W4 m ρ c (Proc.devRef .tc main_arg0) :=
  W5_of_ne m ρ c main_arg0 (by decide)
theorem arg0_s6 (c : Dev nD) : W6 m ρ c (Proc.devRef .tc main_arg0) = W5 m ρ c (Proc.devRef .tc main_arg0) :=
  StableHlo.after_of_forall_not_mem (b := Proc.devRef .tc main_arg0) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg0_s7 (c : Dev nD) : W7 m ρ c (Proc.devRef .tc main_arg0) = W6 m ρ c (Proc.devRef .tc main_arg0) :=
  W7_of_ne m ρ c main_arg0 (by decide)
theorem arg0_s8 (c : Dev nD) : W8 m ρ c (Proc.devRef .tc main_arg0) = W7 m ρ c (Proc.devRef .tc main_arg0) :=
  StableHlo.after_of_forall_not_mem (b := Proc.devRef .tc main_arg0) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg0_s9 (c : Dev nD) : W9 m ρ c (Proc.devRef .tc main_arg0) = W8 m ρ c (Proc.devRef .tc main_arg0) :=
  W9_of_ne m ρ c main_arg0 (by decide)
theorem arg0_s10 (c : Dev nD) : W10 m ρ c (Proc.devRef .tc main_arg0) = W9 m ρ c (Proc.devRef .tc main_arg0) :=
  W10_of_ne m ρ c main_arg0 (by decide)
theorem arg0_s11 (c : Dev nD) : W11 m ρ c (Proc.devRef .tc main_arg0) = W10 m ρ c (Proc.devRef .tc main_arg0) :=
  StableHlo.after_of_forall_not_mem (b := Proc.devRef .tc main_arg0) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg24_s1 (c : Dev nD) : W1 m ρ c (Proc.devRef .tc main_arg24) = W0 m ρ c (Proc.devRef .tc main_arg24) :=
  StableHlo.after_of_forall_not_mem (b := Proc.devRef .tc main_arg24) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg24_s2 (c : Dev nD) : W2 m ρ c (Proc.devRef .tc main_arg24) = W1 m ρ c (Proc.devRef .tc main_arg24) :=
  W2_of_ne m ρ c main_arg24 (by decide)
theorem arg24_s3 (c : Dev nD) : W3 m ρ c (Proc.devRef .tc main_arg24) = W2 m ρ c (Proc.devRef .tc main_arg24) :=
  StableHlo.after_of_forall_not_mem (b := Proc.devRef .tc main_arg24) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg24_s4 (c : Dev nD) : W4 m ρ c (Proc.devRef .tc main_arg24) = W3 m ρ c (Proc.devRef .tc main_arg24) :=
  W4_of_ne m ρ c main_arg24 (by decide)
theorem arg24_s5 (c : Dev nD) : W5 m ρ c (Proc.devRef .tc main_arg24) = W4 m ρ c (Proc.devRef .tc main_arg24) :=
  W5_of_ne m ρ c main_arg24 (by decide)
theorem arg24_s6 (c : Dev nD) : W6 m ρ c (Proc.devRef .tc main_arg24) = W5 m ρ c (Proc.devRef .tc main_arg24) :=
  StableHlo.after_of_forall_not_mem (b := Proc.devRef .tc main_arg24) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg24_s7 (c : Dev nD) : W7 m ρ c (Proc.devRef .tc main_arg24) = W6 m ρ c (Proc.devRef .tc main_arg24) :=
  W7_of_ne m ρ c main_arg24 (by decide)
theorem arg24_s8 (c : Dev nD) : W8 m ρ c (Proc.devRef .tc main_arg24) = W7 m ρ c (Proc.devRef .tc main_arg24) :=
  StableHlo.after_of_forall_not_mem (b := Proc.devRef .tc main_arg24) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg24_s9 (c : Dev nD) : W9 m ρ c (Proc.devRef .tc main_arg24) = W8 m ρ c (Proc.devRef .tc main_arg24) :=
  W9_of_ne m ρ c main_arg24 (by decide)
theorem arg24_s10 (c : Dev nD) : W10 m ρ c (Proc.devRef .tc main_arg24) = W9 m ρ c (Proc.devRef .tc main_arg24) :=
  W10_of_ne m ρ c main_arg24 (by decide)
theorem arg24_s11 (c : Dev nD) : W11 m ρ c (Proc.devRef .tc main_arg24) = W10 m ρ c (Proc.devRef .tc main_arg24) :=
  StableHlo.after_of_forall_not_mem (b := Proc.devRef .tc main_arg24) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg26_s1 (c : Dev nD) : W1 m ρ c (Proc.devRef .tc main_arg26) = W0 m ρ c (Proc.devRef .tc main_arg26) :=
  StableHlo.after_of_forall_not_mem (b := Proc.devRef .tc main_arg26) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg26_s2 (c : Dev nD) : W2 m ρ c (Proc.devRef .tc main_arg26) = W1 m ρ c (Proc.devRef .tc main_arg26) :=
  W2_of_ne m ρ c main_arg26 (by decide)
theorem arg26_s3 (c : Dev nD) : W3 m ρ c (Proc.devRef .tc main_arg26) = W2 m ρ c (Proc.devRef .tc main_arg26) :=
  StableHlo.after_of_forall_not_mem (b := Proc.devRef .tc main_arg26) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg26_s4 (c : Dev nD) : W4 m ρ c (Proc.devRef .tc main_arg26) = W3 m ρ c (Proc.devRef .tc main_arg26) :=
  W4_of_ne m ρ c main_arg26 (by decide)
theorem arg26_s5 (c : Dev nD) : W5 m ρ c (Proc.devRef .tc main_arg26) = W4 m ρ c (Proc.devRef .tc main_arg26) :=
  W5_of_ne m ρ c main_arg26 (by decide)
theorem arg26_s6 (c : Dev nD) : W6 m ρ c (Proc.devRef .tc main_arg26) = W5 m ρ c (Proc.devRef .tc main_arg26) :=
  StableHlo.after_of_forall_not_mem (b := Proc.devRef .tc main_arg26) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg26_s7 (c : Dev nD) : W7 m ρ c (Proc.devRef .tc main_arg26) = W6 m ρ c (Proc.devRef .tc main_arg26) :=
  W7_of_ne m ρ c main_arg26 (by decide)
theorem arg26_s8 (c : Dev nD) : W8 m ρ c (Proc.devRef .tc main_arg26) = W7 m ρ c (Proc.devRef .tc main_arg26) :=
  StableHlo.after_of_forall_not_mem (b := Proc.devRef .tc main_arg26) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg26_s9 (c : Dev nD) : W9 m ρ c (Proc.devRef .tc main_arg26) = W8 m ρ c (Proc.devRef .tc main_arg26) :=
  W9_of_ne m ρ c main_arg26 (by decide)
theorem arg26_s10 (c : Dev nD) : W10 m ρ c (Proc.devRef .tc main_arg26) = W9 m ρ c (Proc.devRef .tc main_arg26) :=
  W10_of_ne m ρ c main_arg26 (by decide)
theorem arg26_s11 (c : Dev nD) : W11 m ρ c (Proc.devRef .tc main_arg26) = W10 m ρ c (Proc.devRef .tc main_arg26) :=
  StableHlo.after_of_forall_not_mem (b := Proc.devRef .tc main_arg26) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg25_s1 (c : Dev nD) : W1 m ρ c (Proc.devRef .tc main_arg25) = W0 m ρ c (Proc.devRef .tc main_arg25) :=
  StableHlo.after_of_forall_not_mem (b := Proc.devRef .tc main_arg25) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg25_s2 (c : Dev nD) : W2 m ρ c (Proc.devRef .tc main_arg25) = W1 m ρ c (Proc.devRef .tc main_arg25) :=
  W2_of_ne m ρ c main_arg25 (by decide)
theorem arg25_s3 (c : Dev nD) : W3 m ρ c (Proc.devRef .tc main_arg25) = W2 m ρ c (Proc.devRef .tc main_arg25) :=
  StableHlo.after_of_forall_not_mem (b := Proc.devRef .tc main_arg25) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg25_s4 (c : Dev nD) : W4 m ρ c (Proc.devRef .tc main_arg25) = W3 m ρ c (Proc.devRef .tc main_arg25) :=
  W4_of_ne m ρ c main_arg25 (by decide)
theorem arg25_s5 (c : Dev nD) : W5 m ρ c (Proc.devRef .tc main_arg25) = W4 m ρ c (Proc.devRef .tc main_arg25) :=
  W5_of_ne m ρ c main_arg25 (by decide)
theorem arg25_s6 (c : Dev nD) : W6 m ρ c (Proc.devRef .tc main_arg25) = W5 m ρ c (Proc.devRef .tc main_arg25) :=
  StableHlo.after_of_forall_not_mem (b := Proc.devRef .tc main_arg25) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg25_s7 (c : Dev nD) : W7 m ρ c (Proc.devRef .tc main_arg25) = W6 m ρ c (Proc.devRef .tc main_arg25) :=
  W7_of_ne m ρ c main_arg25 (by decide)
theorem arg25_s8 (c : Dev nD) : W8 m ρ c (Proc.devRef .tc main_arg25) = W7 m ρ c (Proc.devRef .tc main_arg25) :=
  StableHlo.after_of_forall_not_mem (b := Proc.devRef .tc main_arg25) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg25_s9 (c : Dev nD) : W9 m ρ c (Proc.devRef .tc main_arg25) = W8 m ρ c (Proc.devRef .tc main_arg25) :=
  W9_of_ne m ρ c main_arg25 (by decide)
theorem arg25_s10 (c : Dev nD) : W10 m ρ c (Proc.devRef .tc main_arg25) = W9 m ρ c (Proc.devRef .tc main_arg25) :=
  W10_of_ne m ρ c main_arg25 (by decide)
theorem arg27_s1 (c : Dev nD) : W1 m ρ c (Proc.devRef .tc main_arg27) = W0 m ρ c (Proc.devRef .tc main_arg27) :=
  StableHlo.after_of_forall_not_mem (b := Proc.devRef .tc main_arg27) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg27_s2 (c : Dev nD) : W2 m ρ c (Proc.devRef .tc main_arg27) = W1 m ρ c (Proc.devRef .tc main_arg27) :=
  W2_of_ne m ρ c main_arg27 (by decide)
theorem arg27_s3 (c : Dev nD) : W3 m ρ c (Proc.devRef .tc main_arg27) = W2 m ρ c (Proc.devRef .tc main_arg27) :=
  StableHlo.after_of_forall_not_mem (b := Proc.devRef .tc main_arg27) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg27_s4 (c : Dev nD) : W4 m ρ c (Proc.devRef .tc main_arg27) = W3 m ρ c (Proc.devRef .tc main_arg27) :=
  W4_of_ne m ρ c main_arg27 (by decide)
theorem arg27_s5 (c : Dev nD) : W5 m ρ c (Proc.devRef .tc main_arg27) = W4 m ρ c (Proc.devRef .tc main_arg27) :=
  W5_of_ne m ρ c main_arg27 (by decide)
theorem arg27_s6 (c : Dev nD) : W6 m ρ c (Proc.devRef .tc main_arg27) = W5 m ρ c (Proc.devRef .tc main_arg27) :=
  StableHlo.after_of_forall_not_mem (b := Proc.devRef .tc main_arg27) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg27_s7 (c : Dev nD) : W7 m ρ c (Proc.devRef .tc main_arg27) = W6 m ρ c (Proc.devRef .tc main_arg27) :=
  W7_of_ne m ρ c main_arg27 (by decide)
theorem arg27_s8 (c : Dev nD) : W8 m ρ c (Proc.devRef .tc main_arg27) = W7 m ρ c (Proc.devRef .tc main_arg27) :=
  StableHlo.after_of_forall_not_mem (b := Proc.devRef .tc main_arg27) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg27_s9 (c : Dev nD) : W9 m ρ c (Proc.devRef .tc main_arg27) = W8 m ρ c (Proc.devRef .tc main_arg27) :=
  W9_of_ne m ρ c main_arg27 (by decide)
theorem arg27_s10 (c : Dev nD) : W10 m ρ c (Proc.devRef .tc main_arg27) = W9 m ρ c (Proc.devRef .tc main_arg27) :=
  W10_of_ne m ρ c main_arg27 (by decide)
theorem v3_0_s3 (c : Dev nD) : W3 m ρ c (Proc.devRef .tc main_v3_0) = W2 m ρ c (Proc.devRef .tc main_v3_0) :=
  StableHlo.after_of_forall_not_mem (b := Proc.devRef .tc main_v3_0) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem v3_0_s4 (c : Dev nD) : W4 m ρ c (Proc.devRef .tc main_v3_0) = W3 m ρ c (Proc.devRef .tc main_v3_0) :=
  W4_of_ne m ρ c main_v3_0 (by decide)
theorem v3_0_s5 (c : Dev nD) : W5 m ρ c (Proc.devRef .tc main_v3_0) = W4 m ρ c (Proc.devRef .tc main_v3_0) :=
  W5_of_ne m ρ c main_v3_0 (by decide)
theorem v3_0_s6 (c : Dev nD) : W6 m ρ c (Proc.devRef .tc main_v3_0) = W5 m ρ c (Proc.devRef .tc main_v3_0) :=
  StableHlo.after_of_forall_not_mem (b := Proc.devRef .tc main_v3_0) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem v3_0_s7 (c : Dev nD) : W7 m ρ c (Proc.devRef .tc main_v3_0) = W6 m ρ c (Proc.devRef .tc main_v3_0) :=
  (W7_arr m ρ c 4).trans (((dat3 (V6 m ρ) c).arrAt_in 4 rfl _).trans (A_eq3 (V6 m ρ) c 4))
theorem v3_0_s8 (c : Dev nD) : W8 m ρ c (Proc.devRef .tc main_v3_0) = W7 m ρ c (Proc.devRef .tc main_v3_0) :=
  StableHlo.after_of_forall_not_mem (b := Proc.devRef .tc main_v3_0) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem v3_0_s9 (c : Dev nD) : W9 m ρ c (Proc.devRef .tc main_v3_0) = W8 m ρ c (Proc.devRef .tc main_v3_0) :=
  W9_of_ne m ρ c main_v3_0 (by decide)
theorem v3_0_s10 (c : Dev nD) : W10 m ρ c (Proc.devRef .tc main_v3_0) = W9 m ρ c (Proc.devRef .tc main_v3_0) :=
  W10_of_ne m ρ c main_v3_0 (by decide)
theorem v3_0_s11 (c : Dev nD) : W11 m ρ c (Proc.devRef .tc main_v3_0) = W10 m ρ c (Proc.devRef .tc main_v3_0) :=
  StableHlo.after_of_forall_not_mem (b := Proc.devRef .tc main_v3_0) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem v3_1_s3 (c : Dev nD) : W3 m ρ c (Proc.devRef .tc main_v3_1) = W2 m ρ c (Proc.devRef .tc main_v3_1) :=
  StableHlo.after_of_forall_not_mem (b := Proc.devRef .tc main_v3_1) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem v3_1_s4 (c : Dev nD) : W4 m ρ c (Proc.devRef .tc main_v3_1) = W3 m ρ c (Proc.devRef .tc main_v3_1) :=
  (W4_arr m ρ c 2).trans (((dat1 (V3 m ρ) c).arrAt_in 2 rfl _).trans (A_eq1 (V3 m ρ) c 2))
theorem v3_1_s5 (c : Dev nD) : W5 m ρ c (Proc.devRef .tc main_v3_1) = W4 m ρ c (Proc.devRef .tc main_v3_1) :=
  W5_of_ne m ρ c main_v3_1 (by decide)
theorem v3_1_s6 (c : Dev nD) : W6 m ρ c (Proc.devRef .tc main_v3_1) = W5 m ρ c (Proc.devRef .tc main_v3_1) :=
  StableHlo.after_of_forall_not_mem (b := Proc.devRef .tc main_v3_1) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem v3_1_s7 (c : Dev nD) : W7 m ρ c (Proc.devRef .tc main_v3_1) = W6 m ρ c (Proc.devRef .tc main_v3_1) :=
  W7_of_ne m ρ c main_v3_1 (by decide)
theorem v3_1_s8 (c : Dev nD) : W8 m ρ c (Proc.devRef .tc main_v3_1) = W7 m ρ c (Proc.devRef .tc main_v3_1) :=
  StableHlo.after_of_forall_not_mem (b := Proc.devRef .tc main_v3_1) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem v6_s5 (c : Dev nD) : W5 m ρ c (Proc.devRef .tc main_v6) = W4 m ρ c (Proc.devRef .tc main_v6) :=
  (W5_arr m ρ c 1).trans (((dat2 (V4 m ρ) c).arrAt_in 1 rfl _).trans (A_eq2 (V4 m ρ) c 1))
theorem v6_s6 (c : Dev nD) : W6 m ρ c (Proc.devRef .tc main_v6) = W5 m ρ c (Proc.devRef .tc main_v6) :=
  StableHlo.after_of_forall_not_mem (b := Proc.devRef .tc main_v6) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem v7_s6 (c : Dev nD) : W6 m ρ c (Proc.devRef .tc main_v7) = W5 m ρ c (Proc.devRef .tc main_v7) :=
  StableHlo.after_of_forall_not_mem (b := Proc.devRef .tc main_v7) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem v10_s8 (c : Dev nD) : W8 m ρ c (Proc.devRef .tc main_v10) = W7 m ρ c (Proc.devRef .tc main_v10) :=
  StableHlo.after_of_forall_not_mem (b := Proc.devRef .tc main_v10) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem v10_s9 (c : Dev nD) : W9 m ρ c (Proc.devRef .tc main_v10) = W8 m ρ c (Proc.devRef .tc main_v10) :=
  W9_of_ne m ρ c main_v10 (by decide)
theorem v10_s10 (c : Dev nD) : W10 m ρ c (Proc.devRef .tc main_v10) = W9 m ρ c (Proc.devRef .tc main_v10) :=
  W10_of_ne m ρ c main_v10 (by decide)
theorem v10_s11 (c : Dev nD) : W11 m ρ c (Proc.devRef .tc main_v10) = W10 m ρ c (Proc.devRef .tc main_v10) :=
  StableHlo.after_of_forall_not_mem (b := Proc.devRef .tc main_v10) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem v10_s12 (c : Dev nD) : W12 m ρ c (Proc.devRef .tc main_v10) = W11 m ρ c (Proc.devRef .tc main_v10) :=
  W12_of_ne m ρ c main_v10 (by decide)
theorem v13_s10 (c : Dev nD) : W10 m ρ c (Proc.devRef .tc main_v13) = W9 m ρ c (Proc.devRef .tc main_v13) :=
  (W10_arr m ρ c 1).trans (((dat5 (V9 m ρ) c).arrAt_in 1 rfl _).trans (A_eq5 (V9 m ρ) c 1))
theorem v13_s11 (c : Dev nD) : W11 m ρ c (Proc.devRef .tc main_v13) = W10 m ρ c (Proc.devRef .tc main_v13) :=
  StableHlo.after_of_forall_not_mem (b := Proc.devRef .tc main_v13) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem v14_s11 (c : Dev nD) : W11 m ρ c (Proc.devRef .tc main_v14) = W10 m ρ c (Proc.devRef .tc main_v14) :=
  StableHlo.after_of_forall_not_mem (b := Proc.devRef .tc main_v14) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Travel

end
-- ==== Proof.Spec.lean ====
/-
  The mathematics of the certificate, with no program in sight: matrices over the extended reals as functions of a
  rank-2 index, and the few operations both programs are made of — a matrix product (every entry a sum over the whole
  contracted axis), a bias row added to every row, the positive part, a difference, columns laid side by side — and
  from these the whole-array function each stage of the message-passing step computes:

  * the broadcast stage: one product `Mᵀ · bv` whose column 0 is the active-edge mask and whose columns 1..4 are the
    graph features of every edge;
  * the per-edge transform `relu([dec | edge | graph] · W₁ + b₁) · W₂ + b₂`;
  * the node sums `M · h`;
  * the aggregate `Mᵀ · (M · h) − h`, its transform `relu([agg | edge] · A₁ + c₁) · A₂ + c₂`, and the blend
    `m · new + (1 − m) · old` with the mask column `m` spread along each row.

  Float words are kept as words (`Ideal.ofBits`): the same word stands on both sides of every equation below and is
  never evaluated.
-/
import Idealize.ShloMosaic.PureOps.Ideal
import Idealize.ShloMosaic.Lib.ValueIdx

noncomputable section

open scoped BigOperators

namespace Cert.Spec

open Idealize.ShloMosaic Idealize.ShloMosaic.ValueIdx

/-- An `a × b` matrix of extended reals, as a function of a rank-2 index. -/
abbrev Mat (a b : ℕ) : Type := (⟨2, ![a, b]⟩ : Shape).Idx → EReal

/-- The float word of zero and of one at `Ideal`. -/
abbrev zeroW : EReal := Ideal.ofBits .f32 0x00000000#32
abbrev oneW : EReal := Ideal.ofBits .f32 0x3F800000#32

/-- The matrix product: entry `(r, j)` is the sum over the contracted axis of row `r` of `A` against column `j` of `B`. -/
def mm {a k b : ℕ} (A : Mat a k) (B : Mat k b) : Mat a b :=
  fun i => ∑ x : Fin k, A (ix2 (i 0) x) * B (ix2 x (i 1))

/-- A bias row added to every row. -/
def addRow {a b : ℕ} (A : Mat a b) (r : Mat 1 b) : Mat a b :=
  fun i => A i + r (ix2 (0 : Fin 1) (i 1))

/-- The positive part, entry by entry (the maximum with the zero word). -/
def relu {a b : ℕ} (A : Mat a b) : Mat a b := fun i => max (A i) zeroW

/-- The difference, entry by entry. -/
def sub {a b : ℕ} (A B : Mat a b) : Mat a b := fun i => A i - B i

/-- Two matrices side by side: the columns of `A`, then those of `B`. -/
def hcat {a p q : ℕ} (n : ℕ) (hn : n = p + q) (A : Mat a p) (B : Mat a q) : Mat a n :=
  fun i => if h : (i 1).val < p then A (ix2 (i 0) ⟨(i 1).val, h⟩)
    else B (ix2 (i 0) ⟨(i 1).val - p, by have := (i 1).isLt; simp only [Matrix.cons_val_one, Matrix.cons_val_zero] at this; omega⟩)

/-- Three matrices side by side. -/
def hcat3 {a p q r : ℕ} (n : ℕ) (hn : n = p + q + r) (A : Mat a p) (B : Mat a q) (C : Mat a r) : Mat a n :=
  fun i => if h : (i 1).val < p then A (ix2 (i 0) ⟨(i 1).val, h⟩)
    else if h' : (i 1).val < p + q then B (ix2 (i 0) ⟨(i 1).val - p, by omega⟩)
    else C (ix2 (i 0) ⟨(i 1).val - (p + q), by have := (i 1).isLt; simp only [Matrix.cons_val_one, Matrix.cons_val_zero] at this; omega⟩)

/-- A vector as a one-row matrix: the bias of a layer, ready to be added to every row. -/
def row {n : ℕ} (b : (⟨1, ![n]⟩ : Shape).Idx → EReal) : Mat 1 n := fun i => b (ix1 (i 1))

/-! ## The stages -/

/-- Column 0 of `Mᵀ · bv`: the active-edge mask, one entry per edge. -/
def passA_mask {e v : ℕ} (mt : Mat e v) (bv : Mat v 5) : Mat e 1 :=
  fun i => mm mt bv (ix2 (i 0) (0 : Fin 5))

/-- Columns 1..4 of `Mᵀ · bv`: the graph features of every edge. -/
def passA_graph {e v : ℕ} (mt : Mat e v) (bv : Mat v 5) : Mat e 4 :=
  fun i => mm mt bv (ix2 (i 0) (⟨(i 1).val + 1, by have := (i 1).isLt; simp only [Matrix.cons_val_one, Matrix.cons_val_zero] at this; omega⟩ : Fin 5))

/-- The per-edge transform before aggregation: `relu([dec | edge | graph] · W₁ + b₁) · W₂ + b₂`. -/
def headMlp {e : ℕ} (dec : Mat e 128) (edge : Mat e 2) (graph : Mat e 4) (w1 : Mat 134 256) (b1 : Mat 1 256)
    (w2 : Mat 256 128) (b2 : Mat 1 128) : Mat e 128 :=
  addRow (mm (relu (addRow (mm (hcat3 134 rfl dec edge graph) w1) b1)) w2) b2

/-- The node sums: the incidence matrix against the per-edge messages. -/
def maskMM {v e : ℕ} (mask : Mat v e) (h : Mat e 128) : Mat v 128 := mm mask h

/-- The aggregate without the self message, its transform, and the blend with the previous state under the mask column. -/
def blend {e v : ℕ} (mt : Mat e v) (vs : Mat v 128) (h : Mat e 128) (edge : Mat e 2) (m : Mat e 1) (orig : Mat e 128)
    (a1 : Mat 130 128) (c1 : Mat 1 128) (a2 : Mat 128 128) (c2 : Mat 1 128) : Mat e 128 :=
  fun i => m (ix2 (i 0) (0 : Fin 1)) * (addRow (mm (relu (addRow (mm (hcat 130 rfl (sub (mm mt vs) h) edge) a1) c1)) a2) c2) i
    + (oneW - m (ix2 (i 0) (0 : Fin 1))) * orig i

end Cert.Spec

end
-- ==== Proof.HostGlue.lean ====
/-
  The host operations before the first region, read as matrices. The batch-to-variable incidence matrix `Bv` is
  multiplied by the 8 × 5 matrix whose column 0 is the active mask (an integer, converted) and whose columns 1..4 are
  the per-problem features. The host's product is the plain sum over the contracted axis, and the joined matrix is the
  two pieces side by side; so column 0 of `Bv · [a | meta]` is `Bv · a` and columns 1..4 are `Bv · meta`: each entry of
  the product only sees the column it stands in. No law of the extended reals is used beyond reading sums termwise.
-/
import proofs.«122511_j30537217474923_2_alg».proof.Proof.Gen.KernelIdeal.Frame
import proofs.«122511_j30537217474923_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HostGlue

open Cert.KernelIdeal Cert.KernelIdeal.Facts₀ Cert.KernelIdeal.Facts Idealize.ShloMosaic Idealize.ShloMosaic.TcCoe
open Idealize.ShloMosaic.ValueIdx

local notation "DB" => dot_S2048x8_S8x5_S2048x5_1_0_0_1_n_n

theorem lhs0 (i : S2048x5.Idx) (q : (DB).contr.Idx) : ((DB).lhsIdx i q 0).val = (i 0).val := by
  unfold DotDims.lhsIdx
  rw [dif_neg (show ¬(0 : Fin S2048x8.rank) ∈ (DB).lhsBatch by decide), dif_pos (show (0 : Fin S2048x8.rank) ∈ (DB).lhsNonContracting by decide)]
  rfl
theorem lhs1 (i : S2048x5.Idx) (q : (DB).contr.Idx) : ((DB).lhsIdx i q 1).val = (q ⟨0, by decide⟩).val :=
  (DB).lhsIdx_val_of_single rfl i q
theorem rhs0 (i : S2048x5.Idx) (q : (DB).contr.Idx) : ((DB).rhsIdx i q 0).val = (q ⟨0, by decide⟩).val :=
  (DB).rhsIdx_val_of_single rfl i q
theorem rhs1 (i : S2048x5.Idx) (q : (DB).contr.Idx) : ((DB).rhsIdx i q 1).val = (i 1).val := by
  unfold DotDims.rhsIdx
  rw [dif_neg (show ¬(1 : Fin S8x5.rank) ∈ (DB).rhsBatch by decide), dif_pos (show (1 : Fin S8x5.rank) ∈ (DB).rhsNonContracting by decide)]
  rfl

/-- The host's product of the 2048 × 8 matrix with an 8 × 5 matrix is the matrix product. -/
theorem dot_eq_mm (Bv : FVec Ideal S2048x8 .f32) (x : FVec Ideal S8x5 .f32) :
    Host.dotGeneral (F := Ideal) (DB) none Bv x = Cert.Spec.mm (Bv : S2048x8.Idx → EReal) (x : S8x5.Idx → EReal) := by
  funext i
  obtain ⟨p, q, rfl⟩ : ∃ (p : Fin 2048) (q : Fin 5), i = ix2 p q := ⟨i 0, i 1, eq_ix2 i⟩
  simp only [Host.dotGeneral]
  rw [Ideal.dotGeneral_apply, ← Equiv.sum_comp (contrEquiv1 (DB) 8 rfl rfl).symm]
  show _ = ∑ k : Fin 8, Bv (ix2 p k) * x (ix2 k q)
  refine Finset.sum_congr rfl fun k _ => ?_
  have hk := contrEquiv1_symm_val (DB) 8 rfl rfl k
  have el : (DB).lhsIdx (ix2 p q) ((contrEquiv1 (DB) 8 rfl rfl).symm k) = ix2 p k := funext fun a => Fin.ext (by
    match a with
    | ⟨0, _⟩ => exact lhs0 _ _
    | ⟨1, _⟩ => exact (lhs1 _ _).trans hk)
  have er : (DB).rhsIdx (ix2 p q) ((contrEquiv1 (DB) 8 rfl rfl).symm k) = ix2 k q := funext fun a => Fin.ext (by
    match a with
    | ⟨0, _⟩ => exact (rhs0 _ _).trans hk
    | ⟨1, _⟩ => exact rhs1 _ _)
  rw [el, er]

/-- The joined 8 × 5 matrix is its two pieces side by side. -/
theorem cat_eq_hcat (a : FVec Ideal S8x1 .f32) (b : FVec Ideal S8x4 .f32) :
    concatenate S8x5 1 [⟨S8x1, a⟩, ⟨S8x4, b⟩] concatenates_S8x1_S8x4_S8x5_d1
      = Cert.Spec.hcat 5 rfl (a : S8x1.Idx → EReal) (b : S8x4.Idx → EReal) := by
  funext i
  obtain ⟨p, q, rfl⟩ : ∃ (p : Fin 8) (q : Fin 5), i = ix2 p q := ⟨i 0, i 1, eq_ix2 i⟩
  unfold Cert.Spec.hcat
  by_cases h : q.val < 1
  · rw [dif_pos (show ((ix2 p q : S8x5.Idx) 1).val < 1 from h)]
    exact concatenate_pair_apply_left (1 : Fin S8x5.rank) a b concatenates_S8x1_S8x4_S8x5_d1 (ix2 p q) rfl _
      (fun d => by match d with | ⟨0, _⟩ => rfl | ⟨1, _⟩ => rfl)
  · rw [dif_neg (show ¬ ((ix2 p q : S8x5.Idx) 1).val < 1 from h)]
    refine concatenate_pair_apply_right (1 : Fin S8x5.rank) a b concatenates_S8x1_S8x4_S8x5_d1 (ix2 p q) rfl rfl _
      (fun d hd => by match d with | ⟨0, _⟩ => rfl | ⟨1, _⟩ => exact absurd rfl hd) ?_
    show (q.val - 1) + 1 = q.val
    omega

/-- Column 0 of `Mᵀ · (Bv · [a | meta])` is `Mᵀ · (Bv · a)`. -/
theorem passA_mask_cat {e v : ℕ} (mt : Cert.Spec.Mat e v) (Bv : Cert.Spec.Mat v 8) (a : Cert.Spec.Mat 8 1) (fe : Cert.Spec.Mat 8 4) :
    Cert.Spec.passA_mask mt (Cert.Spec.mm Bv (Cert.Spec.hcat 5 rfl a fe)) = Cert.Spec.mm mt (Cert.Spec.mm Bv a) := by
  funext i
  obtain ⟨r, s, rfl⟩ : ∃ (r : Fin e) (s : Fin 1), i = ix2 r s := ⟨i 0, i 1, eq_ix2 i⟩
  obtain rfl : s = 0 := Subsingleton.elim _ _
  show ∑ x : Fin v, mt (ix2 r x) * (∑ k : Fin 8, Bv (ix2 x k) * Cert.Spec.hcat 5 rfl a fe (ix2 k (0 : Fin 5)))
     = ∑ x : Fin v, mt (ix2 r x) * (∑ k : Fin 8, Bv (ix2 x k) * a (ix2 k (0 : Fin 1)))
  refine Finset.sum_congr rfl fun x _ => congrArg _ (Finset.sum_congr rfl fun k _ => congrArg _ ?_)
  unfold Cert.Spec.hcat
  rw [dif_pos (show ((ix2 k (0 : Fin 5) : (⟨2, ![8, 5]⟩ : Shape).Idx) 1).val < 1 from Nat.zero_lt_one)]
  rfl

/-- Columns 1..4 of `Mᵀ · (Bv · [a | meta])` are `Mᵀ · (Bv · meta)`. -/
theorem passA_graph_cat {e v : ℕ} (mt : Cert.Spec.Mat e v) (Bv : Cert.Spec.Mat v 8) (a : Cert.Spec.Mat 8 1) (fe : Cert.Spec.Mat 8 4) :
    Cert.Spec.passA_graph mt (Cert.Spec.mm Bv (Cert.Spec.hcat 5 rfl a fe)) = Cert.Spec.mm mt (Cert.Spec.mm Bv fe) := by
  funext i
  obtain ⟨r, s, rfl⟩ : ∃ (r : Fin e) (s : Fin 4), i = ix2 r s := ⟨i 0, i 1, eq_ix2 i⟩
  show ∑ x : Fin v, mt (ix2 r x) * (∑ k : Fin 8, Bv (ix2 x k) * Cert.Spec.hcat 5 rfl a fe (ix2 k (⟨s.val + 1, _⟩ : Fin 5)))
     = ∑ x : Fin v, mt (ix2 r x) * (∑ k : Fin 8, Bv (ix2 x k) * fe (ix2 k s))
  refine Finset.sum_congr rfl fun x _ => congrArg _ (Finset.sum_congr rfl fun k _ => congrArg _ ?_)
  unfold Cert.Spec.hcat
  rw [dif_neg (show ¬ ((ix2 k (⟨s.val + 1, by omega⟩ : Fin 5) : (⟨2, ![8, 5]⟩ : Shape).Idx) 1).val < 1 from by show ¬ (s.val + 1 < 1); omega)]
  refine congrArg fe (funext fun d => Fin.ext ?_)
  match d with
  | ⟨0, _⟩ => rfl
  | ⟨1, _⟩ => show s.val + 1 - 1 = s.val; omega

/-- A bias vector of length 256 recast as a 1 × 256 matrix is the one-row matrix of the vector. -/
theorem reshape256 (b : FVec Ideal S256 .f32) :
    (shapeCast S1x256 b shapeCasts_S256_S1x256 : S1x256.Idx → EReal) = Cert.Spec.row (b : S256.Idx → EReal) := by
  funext i
  obtain ⟨r, s, rfl⟩ : ∃ (r : Fin 1) (s : Fin 256), i = ix2 r s := ⟨i 0, i 1, eq_ix2 i⟩
  refine shapeCast_apply b _ (ix2 r s) (ix1 s) ?_
  rw [Shape.rowMajor_val_one, Shape.rowMajor_val_two]
  show s.val = r.val * 256 + s.val
  have := r.isLt
  omega

/-- The same for length 128. -/
theorem reshape128 (b : FVec Ideal S128 .f32) :
    (shapeCast S1x128 b shapeCasts_S128_S1x128 : S1x128.Idx → EReal) = Cert.Spec.row (b : S128.Idx → EReal) := by
  funext i
  obtain ⟨r, s, rfl⟩ : ∃ (r : Fin 1) (s : Fin 128), i = ix2 r s := ⟨i 0, i 1, eq_ix2 i⟩
  refine shapeCast_apply b _ (ix2 r s) (ix1 s) ?_
  rw [Shape.rowMajor_val_one, Shape.rowMajor_val_two]
  show s.val = r.val * 128 + s.val
  have := r.isLt
  omega

end Cert.KernelIdeal.HostGlue

end
-- ==== Proof.PassA.lean ====
/-
  The broadcast stage: one grid point multiplies 1024 rows of the transposed incidence matrix (all 2048 columns) by the
  whole 2048 × 5 matrix `bv` and splits the 1024 × 5 product by columns: column 0 goes to the same rows of the
  8192 × 1 mask array, columns 1..4 to the same rows of the 8192 × 4 graph-feature array. A change of float format is
  the identity on extended reals and the accumulator starts at the zero word, so entry (p, q) of a point's product is
  the sum over all 2048 nodes k of maskᵀ(1024·t + p, k) · bv(k, q); a slice with unit strides reads its operand at
  the index shifted by the offsets. The eight row blocks tile the 8192 rows, so the two arrays end holding column 0
  and columns 1..4 of the full product `maskᵀ · bv`.
-/
import proofs.«122511_j30537217474923_2_alg».proof.Proof.Gen.KernelIdeal.Frame
import proofs.«122511_j30537217474923_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.PassA

open Cert.KernelIdeal Cert.KernelIdeal.Gen Idealize.ShloMosaic Idealize.ShloMosaic.TcCoe Idealize.SL.Sem
open Idealize.ShloMosaic.ValueIdx
open Idealize.ShloMosaic.Pipeline (Dat)

local notation "D0" => dot_S1024x2048_S2048x5_S1024x5_1_0_0_1_n_n

theorem lhs0 (i : S1024x5.Idx) (q : (D0).contr.Idx) : ((D0).lhsIdx i q 0).val = (i 0).val := by
  unfold DotDims.lhsIdx
  rw [dif_neg (show ¬(0 : Fin S1024x2048.rank) ∈ (D0).lhsBatch by decide), dif_pos (show (0 : Fin S1024x2048.rank) ∈ (D0).lhsNonContracting by decide)]
  rfl
theorem lhs1 (i : S1024x5.Idx) (q : (D0).contr.Idx) : ((D0).lhsIdx i q 1).val = (q ⟨0, by decide⟩).val :=
  (D0).lhsIdx_val_of_single rfl i q
theorem rhs0 (i : S1024x5.Idx) (q : (D0).contr.Idx) : ((D0).rhsIdx i q 0).val = (q ⟨0, by decide⟩).val :=
  (D0).rhsIdx_val_of_single rfl i q
theorem rhs1 (i : S1024x5.Idx) (q : (D0).contr.Idx) : ((D0).rhsIdx i q 1).val = (i 1).val := by
  unfold DotDims.rhsIdx
  rw [dif_neg (show ¬(1 : Fin S2048x5.rank) ∈ (D0).rhsBatch by decide), dif_pos (show (1 : Fin S2048x5.rank) ∈ (D0).rhsNonContracting by decide)]
  rfl

/-- One entry of the block product: row `p` of the left block against column `q` of the right operand. -/
theorem pay1_apply (x0 : Vec Ideal S1024x2048 .f32) (x1 : Vec Ideal S2048x5 .f32) (p : Fin 1024) (q : Fin 5) :
    k0_pay1 (F := Ideal) x0 x1 (ix2 p q) = ∑ k : Fin 2048, x0 (ix2 p k) * x1 (ix2 k q) := by
  unfold k0_pay1
  rw [shapeCast_self]
  refine (Ideal.matmul_constant_zero_apply (φ₁ := .bf16) (φ₂ := .bf16) (D0) none (truncf .bf16 x0 bitsLt_bf16_f32) (truncf .bf16 x1 bitsLt_bf16_f32) (ix2 p q)).trans ?_
  rw [← Equiv.sum_comp (contrEquiv1 (D0) 2048 rfl rfl).symm]
  refine Finset.sum_congr rfl fun k _ => ?_
  have hk := contrEquiv1_symm_val (D0) 2048 rfl rfl k
  have el : (D0).lhsIdx (ix2 p q) ((contrEquiv1 (D0) 2048 rfl rfl).symm k) = ix2 p k := funext fun a => Fin.ext (by
    match a with
    | ⟨0, _⟩ => exact lhs0 _ _
    | ⟨1, _⟩ => exact (lhs1 _ _).trans hk)
  have er : (D0).rhsIdx (ix2 p q) ((contrEquiv1 (D0) 2048 rfl rfl).symm k) = ix2 k q := funext fun a => Fin.ext (by
    match a with
    | ⟨0, _⟩ => exact (rhs0 _ _).trans hk
    | ⟨1, _⟩ => exact rhs1 _ _)
  rw [el, er]
  rfl

/-- The first stored slice is column 0 of the block product. -/
theorem pay2_apply (x0 : Vec Ideal S1024x2048 .f32) (x1 : Vec Ideal S2048x5 .f32) (p : Fin 1024) (q : Fin 1) :
    k0_pay2 (F := Ideal) x0 x1 (ix2 p q) = k0_pay1 (F := Ideal) x0 x1 (ix2 p (0 : Fin 5)) := by
  unfold k0_pay2
  refine extractStridedSlice_apply _ _ _ (ix2 p q) (ix2 p (0 : Fin 5)) fun a => ?_
  match a with
  | ⟨0, _⟩ => show p.val = 0 + p.val; omega
  | ⟨1, _⟩ => show (0 : Fin 5).val = 0 + q.val; have := q.isLt; simp only [Fin.val_zero]; omega

/-- The second stored slice is columns 1..4 of the block product. -/
theorem pay3_apply (x0 : Vec Ideal S1024x2048 .f32) (x1 : Vec Ideal S2048x5 .f32) (p : Fin 1024) (q : Fin 4) :
    k0_pay3 (F := Ideal) x0 x1 (ix2 p q) = k0_pay1 (F := Ideal) x0 x1 (ix2 p (⟨q.val + 1, by omega⟩ : Fin 5)) := by
  unfold k0_pay3
  refine extractStridedSlice_apply _ _ _ (ix2 p q) (ix2 p (⟨q.val + 1, by omega⟩ : Fin 5)) fun a => ?_
  match a with
  | ⟨0, _⟩ => show p.val = 0 + p.val; omega
  | ⟨1, _⟩ => show q.val + 1 = 1 + q.val; omega

/-- The mask entry, for a left block that is rows `T·1024 …` of a taller matrix `A` and a right operand that is all of `B`. -/
theorem block_entry_mask (x0 : Vec Ideal S1024x2048 .f32) (x1 : Vec Ideal S2048x5 .f32)
    (A : S8192x2048.Idx → EReal) (B : S2048x5.Idx → EReal) (T : ℕ) (j : S1024x1.Idx) (i : S8192x1.Idx)
    (h0 : ∀ (p : Fin 1024) (k : Fin 2048) (r : Fin 8192), r.val = T * 1024 + 1 * p.val → x0 (ix2 p k) = A (ix2 r k))
    (h1 : ∀ (k : Fin 2048) (q : Fin 5), x1 (ix2 k q) = B (ix2 k q))
    (hi0 : (i 0).val = T * 1024 + 1 * (j 0).val) :
    k0_pay2 (F := Ideal) x0 x1 j = Cert.Spec.passA_mask A B i := by
  obtain ⟨p, q, rfl⟩ : ∃ (p : Fin 1024) (q : Fin 1), j = ix2 p q := ⟨j 0, j 1, eq_ix2 j⟩
  obtain ⟨r, s, rfl⟩ : ∃ (r : Fin 8192) (s : Fin 1), i = ix2 r s := ⟨i 0, i 1, eq_ix2 i⟩
  rw [pay2_apply, pay1_apply]
  show _ = ∑ x : Fin 2048, A (ix2 r x) * B (ix2 x (0 : Fin 5))
  exact Finset.sum_congr rfl fun k _ => by rw [h0 p k r hi0, h1]

/-- The graph-feature entry, likewise: column `q` of the output is column `q + 1` of the product. -/
theorem block_entry_graph (x0 : Vec Ideal S1024x2048 .f32) (x1 : Vec Ideal S2048x5 .f32)
    (A : S8192x2048.Idx → EReal) (B : S2048x5.Idx → EReal) (T : ℕ) (j : S1024x4.Idx) (i : S8192x4.Idx)
    (h0 : ∀ (p : Fin 1024) (k : Fin 2048) (r : Fin 8192), r.val = T * 1024 + 1 * p.val → x0 (ix2 p k) = A (ix2 r k))
    (h1 : ∀ (k : Fin 2048) (q : Fin 5), x1 (ix2 k q) = B (ix2 k q))
    (hi0 : (i 0).val = T * 1024 + 1 * (j 0).val) (hi1 : (i 1).val = (j 1).val) :
    k0_pay3 (F := Ideal) x0 x1 j = Cert.Spec.passA_graph A B i := by
  obtain ⟨p, q, rfl⟩ : ∃ (p : Fin 1024) (q : Fin 4), j = ix2 p q := ⟨j 0, j 1, eq_ix2 j⟩
  obtain ⟨r, s, rfl⟩ : ∃ (r : Fin 8192) (s : Fin 4), i = ix2 r s := ⟨i 0, i 1, eq_ix2 i⟩
  obtain rfl : s = q := Fin.ext hi1
  rw [pay3_apply, pay1_apply]
  show _ = ∑ x : Fin 2048, A (ix2 r x) * B (ix2 x (⟨s.val + 1, by omega⟩ : Fin 5))
  exact Finset.sum_congr rfl fun k _ => by rw [h0 p k r hi0, h1]

theorem hz : (![0, 0] : Fin 2 → Nat) = fun _ => 0 := funext fun a => by fin_cases a <;> rfl

/-- The printed index maps over the grid: the left operand's and both outputs' block row is the grid point, the right
    operand is one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- Column 0 of the product of the whole transposed incidence matrix with `bv`, as the region finds them. -/
abbrev Gmask (c : Dev nD) : S8192x1.Idx → EReal :=
  Cert.Spec.passA_mask (V c main_arg8 : S8192x2048.Idx → EReal) (V c main_v2 : S2048x5.Idx → EReal)

/-- Columns 1..4 of the same product. -/
abbrev Ggraph (c : Dev nD) : S8192x4.Idx → EReal :=
  Cert.Spec.passA_graph (V c main_arg8 : S8192x2048.Idx → EReal) (V c main_v2 : S2048x5.Idx → EReal)

/-- The left operand's block at point `t` is rows `1024·t …` of the transposed incidence matrix. -/
theorem iblk_left (c : Dev nD) (t : Fin cfg0.N) (p : Fin 1024) (k : Fin 2048) (r : Fin 8192) (hr : r.val = t.val * 1024 + 1 * p.val) :
    (iblk0 V c 0 t : Vec Ideal S1024x2048 .f32) (ix2 p k) = (V c main_arg8 : S8192x2048.Idx → EReal) (ix2 r k) := by
  obtain ⟨e0, e1, -, -, -, -, -, -⟩ := idx_facts t
  show V c main_arg8 (((cfg0.win 0).blk t).view.emb (ix2 p k)) = V c main_arg8 (ix2 r k)
  refine congrArg _ (funext fun a => Fin.ext ?_)
  match a with
  | ⟨0, _⟩ => show win0_0.index t (0 : Fin 2) * 1024 + 1 * p.val = r.val; rw [e0, hr]
  | ⟨1, _⟩ => show win0_0.index t (1 : Fin 2) * 2048 + 1 * k.val = k.val; rw [e1]; omega

/-- The right operand's block at every point is all of `bv`. -/
theorem iblk_right (c : Dev nD) (t : Fin cfg0.N) (k : Fin 2048) (q : Fin 5) :
    (iblk0 V c 1 t : Vec Ideal S2048x5 .f32) (ix2 k q) = (V c main_v2 : S2048x5.Idx → EReal) (ix2 k q) := by
  obtain ⟨-, -, e2, e3, -, -, -, -⟩ := idx_facts t
  show V c main_v2 (((cfg0.win 1).blk t).view.emb (ix2 k q)) = V c main_v2 (ix2 k q)
  refine congrArg _ (funext fun a => Fin.ext ?_)
  match a with
  | ⟨0, _⟩ => show win0_1.index t (0 : Fin 2) * 2048 + 1 * k.val = k.val; rw [e2]; omega
  | ⟨1, _⟩ => show win0_1.index t (1 : Fin 2) * 5 + 1 * q.val = q.val; rw [e3]; omega

/-- What grid point `t` writes back to the mask array is rows `1024·t … 1024·t + 1023` of column 0 of the product. -/
theorem flushed_mask (c : Dev nD) (t : Fin cfg0.N) :
    (dat0 (F := Ideal) V c).flushed 2 t = ((cfg0.win 2).blk t).view.read (Elt Ideal) (Gmask V c) := by
  show (cfg0.win 2).cut (grid0.coords t) ((dat0 V c).after 2 t) = _
  rw [after0_2]
  unfold out0_2
  rw [View.canon_unit_zero hz]
  simp only [View.ld_unit_zero (S := S1024x2048) hz, View.ld_unit_zero (S := S2048x5) hz]
  obtain ⟨-, -, -, -, e4, e5, -, -⟩ := idx_facts t
  funext j
  show k0_pay2 (F := Ideal) (iblk0 V c 0 t) (iblk0 V c 1 t) j = Cert.Spec.passA_mask _ _ (((cfg0.win 2).blk t).view.emb j)
  refine block_entry_mask (iblk0 V c 0 t) (iblk0 V c 1 t) (V c main_arg8) (V c main_v2) t.val j (((cfg0.win 2).blk t).view.emb j)
    (fun p k r hr => iblk_left V c t p k r hr) (fun k q => iblk_right V c t k q) ?_
  show win0_2.index t (0 : Fin 2) * 1024 + 1 * (j 0).val = _; rw [e4]

/-- What grid point `t` writes back to the graph-feature array is the same rows of columns 1..4 of the product. -/
theorem flushed_graph (c : Dev nD) (t : Fin cfg0.N) :
    (dat0 (F := Ideal) V c).flushed 3 t = ((cfg0.win 3).blk t).view.read (Elt Ideal) (Ggraph V c) := by
  show (cfg0.win 3).cut (grid0.coords t) ((dat0 V c).after 3 t) = _
  rw [after0_3]
  unfold out0_3
  rw [View.canon_unit_zero hz]
  simp only [View.ld_unit_zero (S := S1024x2048) hz, View.ld_unit_zero (S := S2048x5) hz]
  obtain ⟨-, -, -, -, -, -, e6, e7⟩ := idx_facts t
  funext j
  show k0_pay3 (F := Ideal) (iblk0 V c 0 t) (iblk0 V c 1 t) j = Cert.Spec.passA_graph _ _ (((cfg0.win 3).blk t).view.emb j)
  refine block_entry_graph (iblk0 V c 0 t) (iblk0 V c 1 t) (V c main_arg8) (V c main_v2) t.val j (((cfg0.win 3).blk t).view.emb j)
    (fun p k r hr => iblk_left V c t p k r hr) (fun k q => iblk_right V c t k q) ?_ ?_
  · show win0_3.index t (0 : Fin 2) * 1024 + 1 * (j 0).val = _; rw [e6]
  · show win0_3.index t (1 : Fin 2) * 4 + 1 * (j 1).val = _; rw [e7]; omega

/-- An index of the mask array is in point `t`'s block iff each coordinate is in the block's range on its axis. -/
theorem mem_blk_mask (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v3_0).slice (win0_2.rect t)).set ↔ _
  rw [View.set_slice_whole, Rect.mem_set_unit]
  exact Iff.rfl

/-- The same for the graph-feature array. -/
theorem mem_blk_graph (t : Fin cfg0.N) (i : S8192x4.Idx) :
    i ∈ ((cfg0.win 3).blk t).view.set ↔ ∀ a : Fin 2, win0_3.index t a * S1024x4.size a ≤ (i a).val ∧ (i a).val < win0_3.index t a * S1024x4.size a + S1024x4.size a := by
  show i ∈ ((View.whole main_v3_1).slice (win0_3.rect t)).set ↔ _
  rw [View.set_slice_whole, Rect.mem_set_unit]
  exact Iff.rfl

/-- Row `R` of the mask array is written by grid point `R / 1024`. -/
theorem cover_mask (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  refine ⟨⟨(i 0).val / 1024, by rw [show cfg0.N = 8 from N_0]; omega⟩, flush0_2 _, ?_⟩
  rw [mem_blk_mask]
  obtain ⟨-, -, -, -, e4, e5, -, -⟩ := idx_facts ⟨(i 0).val / 1024, by rw [show cfg0.N = 8 from N_0]; omega⟩
  intro a
  match a with
  | ⟨0, _⟩ => show win0_2.index _ (0 : Fin 2) * 1024 ≤ (i 0).val ∧ (i 0).val < win0_2.index _ (0 : Fin 2) * 1024 + 1024; rw [e4]; show (i 0).val / 1024 * 1024 ≤ (i 0).val ∧ (i 0).val < (i 0).val / 1024 * 1024 + 1024; omega
  | ⟨1, _⟩ => show win0_2.index _ (1 : Fin 2) * 1 ≤ (i 1).val ∧ (i 1).val < win0_2.index _ (1 : Fin 2) * 1 + 1; rw [e5]; omega

/-- Row `R` of the graph-feature array is written by grid point `R / 1024`. -/
theorem cover_graph (i : S8192x4.Idx) : ∃ t : Fin cfg0.N, (cfg0.win 3).flush t = true ∧ i ∈ ((cfg0.win 3).blk t).view.set := by
  have hi0 : (i 0).val < 8192 := (i 0).isLt
  have hi1 : (i 1).val < 4 := (i 1).isLt
  refine ⟨⟨(i 0).val / 1024, by rw [show cfg0.N = 8 from N_0]; omega⟩, flush0_3 _, ?_⟩
  rw [mem_blk_graph]
  obtain ⟨-, -, -, -, -, -, e6, e7⟩ := idx_facts ⟨(i 0).val / 1024, by rw [show cfg0.N = 8 from N_0]; omega⟩
  intro a
  match a with
  | ⟨0, _⟩ => show win0_3.index _ (0 : Fin 2) * 1024 ≤ (i 0).val ∧ (i 0).val < win0_3.index _ (0 : Fin 2) * 1024 + 1024; rw [e6]; show (i 0).val / 1024 * 1024 ≤ (i 0).val ∧ (i 0).val < (i 0).val / 1024 * 1024 + 1024; omega
  | ⟨1, _⟩ => show win0_3.index _ (1 : Fin 2) * 4 ≤ (i 1).val ∧ (i 1).val < win0_3.index _ (1 : Fin 2) * 4 + 4; rw [e7]; omega

/-- After the region, the mask array holds column 0 of the product of the transposed incidence matrix and `bv` it was entered with. -/
theorem arr_mask (c : Dev nD) :
    ((dat0 (F := Ideal) V c).arrAt 2 cfg0.N : S8192x1.Idx → EReal)
      = Cert.Spec.passA_mask (V c main_arg8 : S8192x2048.Idx → EReal) (V c main_v2 : S2048x5.Idx → EReal) :=
  (dat0 (F := Ideal) V c).arrAt_eq_of_cover 2 (Gmask V c) (fun t _ => flushed_mask V c t) cover_mask

/-- After the region, the graph-feature array holds columns 1..4 of the same product. -/
theorem arr_graph (c : Dev nD) :
    ((dat0 (F := Ideal) V c).arrAt 3 cfg0.N : S8192x4.Idx → EReal)
      = Cert.Spec.passA_graph (V c main_arg8 : S8192x2048.Idx → EReal) (V c main_v2 : S2048x5.Idx → EReal) :=
  (dat0 (F := Ideal) V c).arrAt_eq_of_cover 3 (Ggraph V c) (fun t _ => flushed_graph V c t) cover_graph

end Cert.KernelIdeal.PassA

end
-- ==== Proof.KValA.lean ====
/-
  What each buffer holds where it is read, first part. An argument array holds at every boundary what it held at the
  launch. The host product before the first region is `Bv · [active | features]`; the first region leaves column 0 of
  `Mvᵀ` times it — which is `Mvᵀ · (Bv · active)`, the edge mask — and columns 1..4 — `Mvᵀ · (Bv · features)`, the graph
  features of every edge. The bias vectors are recast as one-row matrices by the host.
-/
import proofs.«122511_j30537217474923_2_alg».proof.Proof.TravelA
import proofs.«122511_j30537217474923_2_alg».proof.Proof.TravelB
import proofs.«122511_j30537217474923_2_alg».proof.Proof.HostGlue
import proofs.«122511_j30537217474923_2_alg».proof.Proof.PassA

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg) (c : Dev nD)

theorem arg8_at1 : W1 m ρ c (Proc.devRef .tc main_arg8) = m ((c : Thread nD τ).loc main_arg8) :=
  (Travel.arg8_s1 m ρ c).trans (rfl : W0 m ρ c (Proc.devRef .tc main_arg8) = m ((c : Thread nD τ).loc main_arg8))
theorem arg8_at6 : W6 m ρ c (Proc.devRef .tc main_arg8) = m ((c : Thread nD τ).loc main_arg8) :=
  ((Travel.arg8_s6 m ρ c).trans ((Travel.arg8_s5 m ρ c).trans ((Travel.arg8_s4 m ρ c).trans ((Travel.arg8_s3 m ρ c).trans ((Travel.arg8_s2 m ρ c).trans (Travel.arg8_s1 m ρ c)))))).trans (rfl : W0 m ρ c (Proc.devRef .tc main_arg8) = m ((c : Thread nD τ).loc main_arg8))
theorem arg2_at3 : W3 m ρ c (Proc.devRef .tc main_arg2) = m ((c : Thread nD τ).loc main_arg2) :=
  ((Travel.arg2_s3 m ρ c).trans ((Travel.arg2_s2 m ρ c).trans (Travel.arg2_s1 m ρ c))).trans (rfl : W0 m ρ c (Proc.devRef .tc main_arg2) = m ((c : Thread nD τ).loc main_arg2))
theorem arg4_at3 : W3 m ρ c (Proc.devRef .tc main_arg4) = m ((c : Thread nD τ).loc main_arg4) :=
  ((Travel.arg4_s3 m ρ c).trans ((Travel.arg4_s2 m ρ c).trans (Travel.arg4_s1 m ρ c))).trans (rfl : W0 m ρ c (Proc.devRef .tc main_arg4) = m ((c : Thread nD τ).loc main_arg4))
theorem arg4_at6 : W6 m ρ c (Proc.devRef .tc main_arg4) = m ((c : Thread nD τ).loc main_arg4) :=
  ((Travel.arg4_s6 m ρ c).trans ((Travel.arg4_s5 m ρ c).trans ((Travel.arg4_s4 m ρ c).trans ((Travel.arg4_s3 m ρ c).trans ((Travel.arg4_s2 m ρ c).trans (Travel.arg4_s1 m ρ c)))))).trans (rfl : W0 m ρ c (Proc.devRef .tc main_arg4) = m ((c : Thread nD τ).loc main_arg4))
theorem arg4_at8 : W8 m ρ c (Proc.devRef .tc main_arg4) = m ((c : Thread nD τ).loc main_arg4) :=
  ((Travel.arg4_s8 m ρ c).trans ((Travel.arg4_s7 m ρ c).trans ((Travel.arg4_s6 m ρ c).trans ((Travel.arg4_s5 m ρ c).trans ((Travel.arg4_s4 m ρ c).trans ((Travel.arg4_s3 m ρ c).trans ((Travel.arg4_s2 m ρ c).trans (Travel.arg4_s1 m ρ c)))))))).trans (rfl : W0 m ρ c (Proc.devRef .tc main_arg4) = m ((c : Thread nD τ).loc main_arg4))
theorem arg4_at11 : W11 m ρ c (Proc.devRef .tc main_arg4) = m ((c : Thread nD τ).loc main_arg4) :=
  ((Travel.arg4_s11 m ρ c).trans ((Travel.arg4_s10 m ρ c).trans ((Travel.arg4_s9 m ρ c).trans ((Travel.arg4_s8 m ρ c).trans ((Travel.arg4_s7 m ρ c).trans ((Travel.arg4_s6 m ρ c).trans ((Travel.arg4_s5 m ρ c).trans ((Travel.arg4_s4 m ρ c).trans ((Travel.arg4_s3 m ρ c).trans ((Travel.arg4_s2 m ρ c).trans (Travel.arg4_s1 m ρ c))))))))))).trans (rfl : W0 m ρ c (Proc.devRef .tc main_arg4) = m ((c : Thread nD τ).loc main_arg4))
theorem arg12_at3 : W3 m ρ c (Proc.devRef .tc main_arg12) = m ((c : Thread nD τ).loc main_arg12) :=
  ((Travel.arg12_s3 m ρ c).trans ((Travel.arg12_s2 m ρ c).trans (Travel.arg12_s1 m ρ c))).trans (rfl : W0 m ρ c (Proc.devRef .tc main_arg12) = m ((c : Thread nD τ).loc main_arg12))
theorem arg14_at3 : W3 m ρ c (Proc.devRef .tc main_arg14) = m ((c : Thread nD τ).loc main_arg14) :=
  ((Travel.arg14_s3 m ρ c).trans ((Travel.arg14_s2 m ρ c).trans (Travel.arg14_s1 m ρ c))).trans (rfl : W0 m ρ c (Proc.devRef .tc main_arg14) = m ((c : Thread nD τ).loc main_arg14))
theorem arg13_at2 : W2 m ρ c (Proc.devRef .tc main_arg13) = m ((c : Thread nD τ).loc main_arg13) :=
  ((Travel.arg13_s2 m ρ c).trans (Travel.arg13_s1 m ρ c)).trans (rfl : W0 m ρ c (Proc.devRef .tc main_arg13) = m ((c : Thread nD τ).loc main_arg13))
theorem arg15_at2 : W2 m ρ c (Proc.devRef .tc main_arg15) = m ((c : Thread nD τ).loc main_arg15) :=
  ((Travel.arg15_s2 m ρ c).trans (Travel.arg15_s1 m ρ c)).trans (rfl : W0 m ρ c (Proc.devRef .tc main_arg15) = m ((c : Thread nD τ).loc main_arg15))
theorem arg7_at4 : W4 m ρ c (Proc.devRef .tc main_arg7) = m ((c : Thread nD τ).loc main_arg7) :=
  ((Travel.arg7_s4 m ρ c).trans ((Travel.arg7_s3 m ρ c).trans ((Travel.arg7_s2 m ρ c).trans (Travel.arg7_s1 m ρ c)))).trans (rfl : W0 m ρ c (Proc.devRef .tc main_arg7) = m ((c : Thread nD τ).loc main_arg7))
theorem arg1_at6 : W6 m ρ c (Proc.devRef .tc main_arg1) = m ((c : Thread nD τ).loc main_arg1) :=
  ((Travel.arg1_s6 m ρ c).trans ((Travel.arg1_s5 m ρ c).trans ((Travel.arg1_s4 m ρ c).trans ((Travel.arg1_s3 m ρ c).trans ((Travel.arg1_s2 m ρ c).trans (Travel.arg1_s1 m ρ c)))))).trans (rfl : W0 m ρ c (Proc.devRef .tc main_arg1) = m ((c : Thread nD τ).loc main_arg1))
theorem arg16_at6 : W6 m ρ c (Proc.devRef .tc main_arg16) = m ((c : Thread nD τ).loc main_arg16) :=
  ((Travel.arg16_s6 m ρ c).trans ((Travel.arg16_s5 m ρ c).trans ((Travel.arg16_s4 m ρ c).trans ((Travel.arg16_s3 m ρ c).trans ((Travel.arg16_s2 m ρ c).trans (Travel.arg16_s1 m ρ c)))))).trans (rfl : W0 m ρ c (Proc.devRef .tc main_arg16) = m ((c : Thread nD τ).loc main_arg16))
theorem arg18_at6 : W6 m ρ c (Proc.devRef .tc main_arg18) = m ((c : Thread nD τ).loc main_arg18) :=
  ((Travel.arg18_s6 m ρ c).trans ((Travel.arg18_s5 m ρ c).trans ((Travel.arg18_s4 m ρ c).trans ((Travel.arg18_s3 m ρ c).trans ((Travel.arg18_s2 m ρ c).trans (Travel.arg18_s1 m ρ c)))))).trans (rfl : W0 m ρ c (Proc.devRef .tc main_arg18) = m ((c : Thread nD τ).loc main_arg18))
theorem arg17_at5 : W5 m ρ c (Proc.devRef .tc main_arg17) = m ((c : Thread nD τ).loc main_arg17) :=
  ((Travel.arg17_s5 m ρ c).trans ((Travel.arg17_s4 m ρ c).trans ((Travel.arg17_s3 m ρ c).trans ((Travel.arg17_s2 m ρ c).trans (Travel.arg17_s1 m ρ c))))).trans (rfl : W0 m ρ c (Proc.devRef .tc main_arg17) = m ((c : Thread nD τ).loc main_arg17))
theorem arg19_at5 : W5 m ρ c (Proc.devRef .tc main_arg19) = m ((c : Thread nD τ).loc main_arg19) :=
  ((Travel.arg19_s5 m ρ c).trans ((Travel.arg19_s4 m ρ c).trans ((Travel.arg19_s3 m ρ c).trans ((Travel.arg19_s2 m ρ c).trans (Travel.arg19_s1 m ρ c))))).trans (rfl : W0 m ρ c (Proc.devRef .tc main_arg19) = m ((c : Thread nD τ).loc main_arg19))
theorem arg3_at8 : W8 m ρ c (Proc.devRef .tc main_arg3) = m ((c : Thread nD τ).loc main_arg3) :=
  ((Travel.arg3_s8 m ρ c).trans ((Travel.arg3_s7 m ρ c).trans ((Travel.arg3_s6 m ρ c).trans ((Travel.arg3_s5 m ρ c).trans ((Travel.arg3_s4 m ρ c).trans ((Travel.arg3_s3 m ρ c).trans ((Travel.arg3_s2 m ρ c).trans (Travel.arg3_s1 m ρ c)))))))).trans (rfl : W0 m ρ c (Proc.devRef .tc main_arg3) = m ((c : Thread nD τ).loc main_arg3))
theorem arg20_at8 : W8 m ρ c (Proc.devRef .tc main_arg20) = m ((c : Thread nD τ).loc main_arg20) :=
  ((Travel.arg20_s8 m ρ c).trans ((Travel.arg20_s7 m ρ c).trans ((Travel.arg20_s6 m ρ c).trans ((Travel.arg20_s5 m ρ c).trans ((Travel.arg20_s4 m ρ c).trans ((Travel.arg20_s3 m ρ c).trans ((Travel.arg20_s2 m ρ c).trans (Travel.arg20_s1 m ρ c)))))))).trans (rfl : W0 m ρ c (Proc.devRef .tc main_arg20) = m ((c : Thread nD τ).loc main_arg20))
theorem arg22_at8 : W8 m ρ c (Proc.devRef .tc main_arg22) = m ((c : Thread nD τ).loc main_arg22) :=
  ((Travel.arg22_s8 m ρ c).trans ((Travel.arg22_s7 m ρ c).trans ((Travel.arg22_s6 m ρ c).trans ((Travel.arg22_s5 m ρ c).trans ((Travel.arg22_s4 m ρ c).trans ((Travel.arg22_s3 m ρ c).trans ((Travel.arg22_s2 m ρ c).trans (Travel.arg22_s1 m ρ c)))))))).trans (rfl : W0 m ρ c (Proc.devRef .tc main_arg22) = m ((c : Thread nD τ).loc main_arg22))
theorem arg21_at7 : W7 m ρ c (Proc.devRef .tc main_arg21) = m ((c : Thread nD τ).loc main_arg21) :=
  ((Travel.arg21_s7 m ρ c).trans ((Travel.arg21_s6 m ρ c).trans ((Travel.arg21_s5 m ρ c).trans ((Travel.arg21_s4 m ρ c).trans ((Travel.arg21_s3 m ρ c).trans ((Travel.arg21_s2 m ρ c).trans (Travel.arg21_s1 m ρ c))))))).trans (rfl : W0 m ρ c (Proc.devRef .tc main_arg21) = m ((c : Thread nD τ).loc main_arg21))
theorem arg23_at7 : W7 m ρ c (Proc.devRef .tc main_arg23) = m ((c : Thread nD τ).loc main_arg23) :=
  ((Travel.arg23_s7 m ρ c).trans ((Travel.arg23_s6 m ρ c).trans ((Travel.arg23_s5 m ρ c).trans ((Travel.arg23_s4 m ρ c).trans ((Travel.arg23_s3 m ρ c).trans ((Travel.arg23_s2 m ρ c).trans (Travel.arg23_s1 m ρ c))))))).trans (rfl : W0 m ρ c (Proc.devRef .tc main_arg23) = m ((c : Thread nD τ).loc main_arg23))
theorem arg9_at9 : W9 m ρ c (Proc.devRef .tc main_arg9) = m ((c : Thread nD τ).loc main_arg9) :=
  ((Travel.arg9_s9 m ρ c).trans ((Travel.arg9_s8 m ρ c).trans ((Travel.arg9_s7 m ρ c).trans ((Travel.arg9_s6 m ρ c).trans ((Travel.arg9_s5 m ρ c).trans ((Travel.arg9_s4 m ρ c).trans ((Travel.arg9_s3 m ρ c).trans ((Travel.arg9_s2 m ρ c).trans (Travel.arg9_s1 m ρ c))))))))).trans (rfl : W0 m ρ c (Proc.devRef .tc main_arg9) = m ((c : Thread nD τ).loc main_arg9))
theorem arg10_at11 : W11 m ρ c (Proc.devRef .tc main_arg10) = m ((c : Thread nD τ).loc main_arg10) :=
  ((Travel.arg10_s11 m ρ c).trans ((Travel.arg10_s10 m ρ c).trans ((Travel.arg10_s9 m ρ c).trans ((Travel.arg10_s8 m ρ c).trans ((Travel.arg10_s7 m ρ c).trans ((Travel.arg10_s6 m ρ c).trans ((Travel.arg10_s5 m ρ c).trans ((Travel.arg10_s4 m ρ c).trans ((Travel.arg10_s3 m ρ c).trans ((Travel.arg10_s2 m ρ c).trans (Travel.arg10_s1 m ρ c))))))))))).trans (rfl : W0 m ρ c (Proc.devRef .tc main_arg10) = m ((c : Thread nD τ).loc main_arg10))
theorem arg0_at11 : W11 m ρ c (Proc.devRef .tc main_arg0) = m ((c : Thread nD τ).loc main_arg0) :=
  ((Travel.arg0_s11 m ρ c).trans ((Travel.arg0_s10 m ρ c).trans ((Travel.arg0_s9 m ρ c).trans ((Travel.arg0_s8 m ρ c).trans ((Travel.arg0_s7 m ρ c).trans ((Travel.arg0_s6 m ρ c).trans ((Travel.arg0_s5 m ρ c).trans ((Travel.arg0_s4 m ρ c).trans ((Travel.arg0_s3 m ρ c).trans ((Travel.arg0_s2 m ρ c).trans (Travel.arg0_s1 m ρ c))))))))))).trans (rfl : W0 m ρ c (Proc.devRef .tc main_arg0) = m ((c : Thread nD τ).loc main_arg0))
theorem arg24_at11 : W11 m ρ c (Proc.devRef .tc main_arg24) = m ((c : Thread nD τ).loc main_arg24) :=
  ((Travel.arg24_s11 m ρ c).trans ((Travel.arg24_s10 m ρ c).trans ((Travel.arg24_s9 m ρ c).trans ((Travel.arg24_s8 m ρ c).trans ((Travel.arg24_s7 m ρ c).trans ((Travel.arg24_s6 m ρ c).trans ((Travel.arg24_s5 m ρ c).trans ((Travel.arg24_s4 m ρ c).trans ((Travel.arg24_s3 m ρ c).trans ((Travel.arg24_s2 m ρ c).trans (Travel.arg24_s1 m ρ c))))))))))).trans (rfl : W0 m ρ c (Proc.devRef .tc main_arg24) = m ((c : Thread nD τ).loc main_arg24))
theorem arg26_at11 : W11 m ρ c (Proc.devRef .tc main_arg26) = m ((c : Thread nD τ).loc main_arg26) :=
  ((Travel.arg26_s11 m ρ c).trans ((Travel.arg26_s10 m ρ c).trans ((Travel.arg26_s9 m ρ c).trans ((Travel.arg26_s8 m ρ c).trans ((Travel.arg26_s7 m ρ c).trans ((Travel.arg26_s6 m ρ c).trans ((Travel.arg26_s5 m ρ c).trans ((Travel.arg26_s4 m ρ c).trans ((Travel.arg26_s3 m ρ c).trans ((Travel.arg26_s2 m ρ c).trans (Travel.arg26_s1 m ρ c))))))))))).trans (rfl : W0 m ρ c (Proc.devRef .tc main_arg26) = m ((c : Thread nD τ).loc main_arg26))
theorem arg25_at10 : W10 m ρ c (Proc.devRef .tc main_arg25) = m ((c : Thread nD τ).loc main_arg25) :=
  ((Travel.arg25_s10 m ρ c).trans ((Travel.arg25_s9 m ρ c).trans ((Travel.arg25_s8 m ρ c).trans ((Travel.arg25_s7 m ρ c).trans ((Travel.arg25_s6 m ρ c).trans ((Travel.arg25_s5 m ρ c).trans ((Travel.arg25_s4 m ρ c).trans ((Travel.arg25_s3 m ρ c).trans ((Travel.arg25_s2 m ρ c).trans (Travel.arg25_s1 m ρ c)))))))))).trans (rfl : W0 m ρ c (Proc.devRef .tc main_arg25) = m ((c : Thread nD τ).loc main_arg25))
theorem arg27_at10 : W10 m ρ c (Proc.devRef .tc main_arg27) = m ((c : Thread nD τ).loc main_arg27) :=
  ((Travel.arg27_s10 m ρ c).trans ((Travel.arg27_s9 m ρ c).trans ((Travel.arg27_s8 m ρ c).trans ((Travel.arg27_s7 m ρ c).trans ((Travel.arg27_s6 m ρ c).trans ((Travel.arg27_s5 m ρ c).trans ((Travel.arg27_s4 m ρ c).trans ((Travel.arg27_s3 m ρ c).trans ((Travel.arg27_s2 m ρ c).trans (Travel.arg27_s1 m ρ c)))))))))).trans (rfl : W0 m ρ c (Proc.devRef .tc main_arg27) = m ((c : Thread nD τ).loc main_arg27))

/-- The active-edge mask, one entry per edge: `Mvᵀ · (Bv · active)`. -/
def mask : Cert.Spec.Mat 8192 1 := (Cert.Spec.mm (m ((c : Thread nD τ).loc main_arg8) : S8192x2048.Idx → EReal) (Cert.Spec.mm (m ((c : Thread nD τ).loc main_arg11) : S2048x8.Idx → EReal) (fun i => FloatOps.sitofp (F := Ideal) .f32 ((m ((c : Thread nD τ).loc main_arg6) : (⟨S8x1, .i32⟩ : BufTy).Contents (Elt Ideal)) i))))
/-- The graph features of every edge: `Mvᵀ · (Bv · features)`. -/
def graph : Cert.Spec.Mat 8192 4 := (Cert.Spec.mm (m ((c : Thread nD τ).loc main_arg8) : S8192x2048.Idx → EReal) (Cert.Spec.mm (m ((c : Thread nD τ).loc main_arg11) : S2048x8.Idx → EReal) (m ((c : Thread nD τ).loc main_arg5) : S8x4.Idx → EReal)))
/-- The joined 8 × 5 matrix times `Bv`, as the first region finds it. -/
def bv : Cert.Spec.Mat 2048 5 := Cert.Spec.mm (m ((c : Thread nD τ).loc main_arg11) : S2048x8.Idx → EReal) (Cert.Spec.hcat 5 rfl (fun i => FloatOps.sitofp (F := Ideal) .f32 ((m ((c : Thread nD τ).loc main_arg6) : (⟨S8x1, .i32⟩ : BufTy).Contents (Elt Ideal)) i)) (m ((c : Thread nD τ).loc main_arg5) : S8x4.Idx → EReal))
/-- The messages of the variable branch and of the function branch. -/
def hv : Cert.Spec.Mat 8192 128 := Cert.Spec.headMlp (m ((c : Thread nD τ).loc main_arg2) : S8192x128.Idx → EReal) (m ((c : Thread nD τ).loc main_arg4) : S8192x2.Idx → EReal) (graph m c) (m ((c : Thread nD τ).loc main_arg12) : S134x256.Idx → EReal) (Cert.Spec.row (m ((c : Thread nD τ).loc main_arg13) : S256.Idx → EReal)) (m ((c : Thread nD τ).loc main_arg14) : S256x128.Idx → EReal) (Cert.Spec.row (m ((c : Thread nD τ).loc main_arg15) : S128.Idx → EReal))
def hf : Cert.Spec.Mat 8192 128 := Cert.Spec.headMlp (m ((c : Thread nD τ).loc main_arg3) : S8192x128.Idx → EReal) (m ((c : Thread nD τ).loc main_arg4) : S8192x2.Idx → EReal) (graph m c) (m ((c : Thread nD τ).loc main_arg20) : S134x256.Idx → EReal) (Cert.Spec.row (m ((c : Thread nD τ).loc main_arg21) : S256.Idx → EReal)) (m ((c : Thread nD τ).loc main_arg22) : S256x128.Idx → EReal) (Cert.Spec.row (m ((c : Thread nD τ).loc main_arg23) : S128.Idx → EReal))
/-- The new function state and the new variable state. -/
def newF : Cert.Spec.Mat 8192 128 := Cert.Spec.blend (m ((c : Thread nD τ).loc main_arg8) : S8192x2048.Idx → EReal) (Cert.Spec.mm (m ((c : Thread nD τ).loc main_arg7) : S2048x8192.Idx → EReal) (hv m c)) (hv m c) (m ((c : Thread nD τ).loc main_arg4) : S8192x2.Idx → EReal) (mask m c) (m ((c : Thread nD τ).loc main_arg1) : S8192x128.Idx → EReal) (m ((c : Thread nD τ).loc main_arg16) : S130x128.Idx → EReal) (Cert.Spec.row (m ((c : Thread nD τ).loc main_arg17) : S128.Idx → EReal)) (m ((c : Thread nD τ).loc main_arg18) : S128x128.Idx → EReal) (Cert.Spec.row (m ((c : Thread nD τ).loc main_arg19) : S128.Idx → EReal))
def newV : Cert.Spec.Mat 8192 128 := Cert.Spec.blend (m ((c : Thread nD τ).loc main_arg10) : S8192x2048.Idx → EReal) (Cert.Spec.mm (m ((c : Thread nD τ).loc main_arg9) : S2048x8192.Idx → EReal) (hf m c)) (hf m c) (m ((c : Thread nD τ).loc main_arg4) : S8192x2.Idx → EReal) (mask m c) (m ((c : Thread nD τ).loc main_arg0) : S8192x128.Idx → EReal) (m ((c : Thread nD τ).loc main_arg24) : S130x128.Idx → EReal) (Cert.Spec.row (m ((c : Thread nD τ).loc main_arg25) : S128.Idx → EReal)) (m ((c : Thread nD τ).loc main_arg26) : S128x128.Idx → EReal) (Cert.Spec.row (m ((c : Thread nD τ).loc main_arg27) : S128.Idx → EReal))

theorem v2_at1 : (W1 m ρ c (Proc.devRef .tc main_v2) : S2048x5.Idx → EReal) = bv m c := by
  have h : (W1 m ρ c (Proc.devRef .tc main_v2) : S2048x5.Idx → EReal) = Host.dotGeneral (F := Ideal) (φ₁ := .f32) (φ₂ := .f32) dot_S2048x8_S8x5_S2048x5_1_0_0_1_n_n none (m ((c : Thread nD τ).loc main_arg11) : S2048x8.Idx → EReal)
      (concatenate S8x5 1 [⟨S8x1, (fun i => FloatOps.sitofp (F := Ideal) .f32 ((m ((c : Thread nD τ).loc main_arg6) : (⟨S8x1, .i32⟩ : BufTy).Contents (Elt Ideal)) i))⟩, ⟨S8x4, (m ((c : Thread nD τ).loc main_arg5) : S8x4.Idx → EReal)⟩] concatenates_S8x1_S8x4_S8x5_d1) := by
    show StableHlo.after hostOps0 (W0 m ρ c) (Proc.devRef .tc main_v2) = _
    after_results
    rfl
  rw [h, HostGlue.dot_eq_mm, HostGlue.cat_eq_hcat]
  rfl

theorem v3_0_at2 : (W2 m ρ c (Proc.devRef .tc main_v3_0) : S8192x1.Idx → EReal) = mask m c := by
  refine (W2_arr m ρ c 2).trans ((PassA.arr_mask (V1 m ρ) c).trans ?_)
  show Cert.Spec.passA_mask (W1 m ρ c (Proc.devRef .tc main_arg8) : S8192x2048.Idx → EReal) (W1 m ρ c (Proc.devRef .tc main_v2) : S2048x5.Idx → EReal) = _
  rw [arg8_at1 m ρ c, v2_at1 m ρ c]
  exact HostGlue.passA_mask_cat _ _ _ _

theorem v3_1_at2 : (W2 m ρ c (Proc.devRef .tc main_v3_1) : S8192x4.Idx → EReal) = graph m c := by
  refine (W2_arr m ρ c 3).trans ((PassA.arr_graph (V1 m ρ) c).trans ?_)
  show Cert.Spec.passA_graph (W1 m ρ c (Proc.devRef .tc main_arg8) : S8192x2048.Idx → EReal) (W1 m ρ c (Proc.devRef .tc main_v2) : S2048x5.Idx → EReal) = _
  rw [arg8_at1 m ρ c, v2_at1 m ρ c]
  exact HostGlue.passA_graph_cat _ _ _ _

theorem v4_at3 : (W3 m ρ c (Proc.devRef .tc main_v4) : S1x256.Idx → EReal) = Cert.Spec.row (m ((c : Thread nD τ).loc main_arg13) : S256.Idx → EReal) := by
  have h : (W3 m ρ c (Proc.devRef .tc main_v4) : S1x256.Idx → EReal) = shapeCast S1x256 (W2 m ρ c (Proc.devRef .tc main_arg13) : S256.Idx → EReal) shapeCasts_S256_S1x256 := by
    show StableHlo.after hostOps1 (W2 m ρ c) (Proc.devRef .tc main_v4) = _
    after_results
    rfl
  rw [h, arg13_at2 m ρ c]
  exact HostGlue.reshape256 _

theorem v5_at3 : (W3 m ρ c (Proc.devRef .tc main_v5) : S1x128.Idx → EReal) = Cert.Spec.row (m ((c : Thread nD τ).loc main_arg15) : S128.Idx → EReal) := by
  have h : (W3 m ρ c (Proc.devRef .tc main_v5) : S1x128.Idx → EReal) = shapeCast S1x128 (W2 m ρ c (Proc.devRef .tc main_arg15) : S128.Idx → EReal) shapeCasts_S128_S1x128 := by
    show StableHlo.after hostOps1 (W2 m ρ c) (Proc.devRef .tc main_v5) = _
    after_results
    rfl
  rw [h, arg15_at2 m ρ c]
  exact HostGlue.reshape128 _

theorem v3_1_at3 : (W3 m ρ c (Proc.devRef .tc main_v3_1) : S8192x4.Idx → EReal) = graph m c := (Travel.v3_1_s3 m ρ c).trans (v3_1_at2 m ρ c)

end Cert.KernelIdeal.KVal

end
-- ==== Proof.HeadMlpRow.lean ====
/-
  The per-edge transform `relu([dec | edge | graph] · W₁ + b₁) · W₂ + b₂` works row by row: row `r` of the result is
  a function of row `r` of the three per-edge matrices and of the whole weight matrices and bias rows. So the
  transform of a block of rows is that block of rows of the transform of the whole matrices.
-/
import proofs.«122511_j30537217474923_2_alg».proof.Proof.Spec

noncomputable section

open scoped BigOperators

namespace Cert.HeadMlp

open Cert.Spec Idealize.ShloMosaic Idealize.ShloMosaic.ValueIdx

/-- Row `r'` of the three matrices side by side, when each has row `r'` equal to row `r` of its counterpart. -/
theorem hcat3_row {e e' : ℕ} (dec : Mat e 128) (edge : Mat e 2) (graph : Mat e 4)
    (dec' : Mat e' 128) (edge' : Mat e' 2) (graph' : Mat e' 4) (r : Fin e) (r' : Fin e')
    (hd : ∀ x : Fin 128, dec' (ix2 r' x) = dec (ix2 r x)) (he : ∀ x : Fin 2, edge' (ix2 r' x) = edge (ix2 r x))
    (hg : ∀ x : Fin 4, graph' (ix2 r' x) = graph (ix2 r x)) (x : Fin 134) :
    hcat3 134 rfl dec' edge' graph' (ix2 r' x) = hcat3 134 rfl dec edge graph (ix2 r x) := by
  unfold hcat3
  show (if h : x.val < 128 then dec' (ix2 r' ⟨x.val, h⟩)
      else if h' : x.val < 128 + 2 then edge' (ix2 r' ⟨x.val - 128, _⟩) else graph' (ix2 r' ⟨x.val - (128 + 2), _⟩))
    = (if h : x.val < 128 then dec (ix2 r ⟨x.val, h⟩)
      else if h' : x.val < 128 + 2 then edge (ix2 r ⟨x.val - 128, _⟩) else graph (ix2 r ⟨x.val - (128 + 2), _⟩))
  split_ifs with h h'
  · exact hd _
  · exact he _
  · exact hg _

/-- Row `r'` of the transform of matrices whose rows `r'` are rows `r` of `dec`, `edge`, `graph` is row `r` of
    the transform of those. -/
theorem headMlp_row {e e' : ℕ} (dec : Mat e 128) (edge : Mat e 2) (graph : Mat e 4)
    (dec' : Mat e' 128) (edge' : Mat e' 2) (graph' : Mat e' 4)
    (w1 : Mat 134 256) (b1 : Mat 1 256) (w2 : Mat 256 128) (b2 : Mat 1 128) (r : Fin e) (r' : Fin e')
    (hd : ∀ x : Fin 128, dec' (ix2 r' x) = dec (ix2 r x)) (he : ∀ x : Fin 2, edge' (ix2 r' x) = edge (ix2 r x))
    (hg : ∀ x : Fin 4, graph' (ix2 r' x) = graph (ix2 r x)) (q : Fin 128) :
    headMlp dec' edge' graph' w1 b1 w2 b2 (ix2 r' q) = headMlp dec edge graph w1 b1 w2 b2 (ix2 r q) := by
  have h3 := hcat3_row dec edge graph dec' edge' graph' r r' hd he hg
  unfold headMlp addRow mm relu
  show (∑ y : Fin 256, max ((∑ x : Fin 134, hcat3 134 rfl dec' edge' graph' (ix2 r' x) * w1 (ix2 x y)) + b1 (ix2 0 y)) zeroW * w2 (ix2 y q)) + b2 (ix2 0 q)
     = (∑ y : Fin 256, max ((∑ x : Fin 134, hcat3 134 rfl dec edge graph (ix2 r x) * w1 (ix2 x y)) + b1 (ix2 0 y)) zeroW * w2 (ix2 y q)) + b2 (ix2 0 q)
  simp only [h3]

end Cert.HeadMlp

end
-- ==== Proof.HeadMlp1Pay.lean ====
/-
  One block of the per-edge transform. At the extended reals the body's arithmetic, read entry by entry, is
  `relu([dec | edge | graph] · W₁ + b₁) · W₂ + b₂` of the loaded blocks: the changes of float format are the identity,
  each block product into a zero accumulator is the plain sum over the contracted axis, the concatenation reads the
  piece whose span of columns holds the column, and a bias row spread over the rows reads its one row.
-/
import proofs.«122511_j30537217474923_2_alg».proof.Proof.Gen.KernelIdeal.Skeleton
import proofs.«122511_j30537217474923_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.HeadMlp1

open Cert.KernelIdeal Cert.KernelIdeal.Gen Cert.Spec Idealize.ShloMosaic Idealize.ShloMosaic.ValueIdx

/-! ### The product `S2048x134 · S134x256` read at an entry -/

theorem lhsA_0 (i : S2048x256.Idx) (k : dot_S2048x134_S134x256_S2048x256_1_0_0_1_n_n.contr.Idx) :
    (dot_S2048x134_S134x256_S2048x256_1_0_0_1_n_n.lhsIdx i k 0).val = (i 0).val := by
  unfold DotDims.lhsIdx
  rw [dif_neg (show ¬(0 : Fin S2048x134.rank) ∈ dot_S2048x134_S134x256_S2048x256_1_0_0_1_n_n.lhsBatch by decide), dif_pos (show (0 : Fin S2048x134.rank) ∈ dot_S2048x134_S134x256_S2048x256_1_0_0_1_n_n.lhsNonContracting by decide)]
  rfl
theorem lhsA_1 (i : S2048x256.Idx) (k : dot_S2048x134_S134x256_S2048x256_1_0_0_1_n_n.contr.Idx) :
    (dot_S2048x134_S134x256_S2048x256_1_0_0_1_n_n.lhsIdx i k 1).val = (k ⟨0, by decide⟩).val :=
  dot_S2048x134_S134x256_S2048x256_1_0_0_1_n_n.lhsIdx_val_of_single rfl i k
theorem rhsA_0 (i : S2048x256.Idx) (k : dot_S2048x134_S134x256_S2048x256_1_0_0_1_n_n.contr.Idx) :
    (dot_S2048x134_S134x256_S2048x256_1_0_0_1_n_n.rhsIdx i k 0).val = (k ⟨0, by decide⟩).val :=
  dot_S2048x134_S134x256_S2048x256_1_0_0_1_n_n.rhsIdx_val_of_single rfl i k
theorem rhsA_1 (i : S2048x256.Idx) (k : dot_S2048x134_S134x256_S2048x256_1_0_0_1_n_n.contr.Idx) :
    (dot_S2048x134_S134x256_S2048x256_1_0_0_1_n_n.rhsIdx i k 1).val = (i 1).val := by
  unfold DotDims.rhsIdx
  rw [dif_neg (show ¬(1 : Fin S134x256.rank) ∈ dot_S2048x134_S134x256_S2048x256_1_0_0_1_n_n.rhsBatch by decide), dif_pos (show (1 : Fin S134x256.rank) ∈ dot_S2048x134_S134x256_S2048x256_1_0_0_1_n_n.rhsNonContracting by decide)]
  rfl

/-- Into the zero accumulator the block product at entry `(p, y)` is row `p` of the left factor against column `y` of
    the right one, summed over the whole contracted axis. -/
theorem mmA_apply {φ₁ φ₂ : FTy} (A : FVec Ideal S2048x134 φ₁) (B : FVec Ideal S134x256 φ₂) (p : Fin 2048) (y : Fin 256) :
    matmul dot_S2048x134_S134x256_S2048x256_1_0_0_1_n_n none A B (constant (F := Ideal) S2048x256 .f32 0x00000000#32) (ix2 p y)
      = ∑ x : Fin 134, A (ix2 p x) * B (ix2 x y) := by
  simp only [matmul]
  rw [Ideal.matmul_constant_zero_apply, ← Equiv.sum_comp (contrEquiv1 dot_S2048x134_S134x256_S2048x256_1_0_0_1_n_n 134 rfl rfl).symm]
  refine Finset.sum_congr rfl fun x _ => ?_
  have hk := contrEquiv1_symm_val dot_S2048x134_S134x256_S2048x256_1_0_0_1_n_n 134 rfl rfl x
  have el : dot_S2048x134_S134x256_S2048x256_1_0_0_1_n_n.lhsIdx (ix2 p y) ((contrEquiv1 dot_S2048x134_S134x256_S2048x256_1_0_0_1_n_n 134 rfl rfl).symm x) = ix2 p x := funext fun a => Fin.ext (by
    match a with
    | ⟨0, _⟩ => exact lhsA_0 _ _
    | ⟨1, _⟩ => exact (lhsA_1 _ _).trans hk)
  have er : dot_S2048x134_S134x256_S2048x256_1_0_0_1_n_n.rhsIdx (ix2 p y) ((contrEquiv1 dot_S2048x134_S134x256_S2048x256_1_0_0_1_n_n 134 rfl rfl).symm x) = ix2 x y := funext fun a => Fin.ext (by
    match a with
    | ⟨0, _⟩ => exact (rhsA_0 _ _).trans hk
    | ⟨1, _⟩ => exact rhsA_1 _ _)
  rw [el, er]

/-! ### The product `S2048x256 · S256x128` read at an entry -/

theorem lhsB_0 (i : S2048x128.Idx) (k : dot_S2048x256_S256x128_S2048x128_1_0_0_1_n_n.contr.Idx) :
    (dot_S2048x256_S256x128_S2048x128_1_0_0_1_n_n.lhsIdx i k 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem lhsB_1 (i : S2048x128.Idx) (k : dot_S2048x256_S256x128_S2048x128_1_0_0_1_n_n.contr.Idx) :
    (dot_S2048x256_S256x128_S2048x128_1_0_0_1_n_n.lhsIdx i k 1).val = (k ⟨0, by decide⟩).val :=
  dot_S2048x256_S256x128_S2048x128_1_0_0_1_n_n.lhsIdx_val_of_single rfl i k
theorem rhsB_0 (i : S2048x128.Idx) (k : dot_S2048x256_S256x128_S2048x128_1_0_0_1_n_n.contr.Idx) :
    (dot_S2048x256_S256x128_S2048x128_1_0_0_1_n_n.rhsIdx i k 0).val = (k ⟨0, by decide⟩).val :=
  dot_S2048x256_S256x128_S2048x128_1_0_0_1_n_n.rhsIdx_val_of_single rfl i k
theorem rhsB_1 (i : S2048x128.Idx) (k : dot_S2048x256_S256x128_S2048x128_1_0_0_1_n_n.contr.Idx) :
    (dot_S2048x256_S256x128_S2048x128_1_0_0_1_n_n.rhsIdx i k 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- Into the zero accumulator the block product at entry `(p, y)` is row `p` of the left factor against column `y` of
    the right one, summed over the whole contracted axis. -/
theorem mmB_apply {φ₁ φ₂ : FTy} (A : FVec Ideal S2048x256 φ₁) (B : FVec Ideal S256x128 φ₂) (p : Fin 2048) (y : Fin 128) :
    matmul dot_S2048x256_S256x128_S2048x128_1_0_0_1_n_n none A B (constant (F := Ideal) S2048x128 .f32 0x00000000#32) (ix2 p y)
      = ∑ x : Fin 256, A (ix2 p x) * B (ix2 x y) := by
  simp only [matmul]
  rw [Ideal.matmul_constant_zero_apply, ← Equiv.sum_comp (contrEquiv1 dot_S2048x256_S256x128_S2048x128_1_0_0_1_n_n 256 rfl rfl).symm]
  refine Finset.sum_congr rfl fun x _ => ?_
  have hk := contrEquiv1_symm_val dot_S2048x256_S256x128_S2048x128_1_0_0_1_n_n 256 rfl rfl x
  have el : dot_S2048x256_S256x128_S2048x128_1_0_0_1_n_n.lhsIdx (ix2 p y) ((contrEquiv1 dot_S2048x256_S256x128_S2048x128_1_0_0_1_n_n 256 rfl rfl).symm x) = ix2 p x := funext fun a => Fin.ext (by
    match a with
    | ⟨0, _⟩ => exact lhsB_0 _ _
    | ⟨1, _⟩ => exact (lhsB_1 _ _).trans hk)
  have er : dot_S2048x256_S256x128_S2048x128_1_0_0_1_n_n.rhsIdx (ix2 p y) ((contrEquiv1 dot_S2048x256_S256x128_S2048x128_1_0_0_1_n_n 256 rfl rfl).symm x) = ix2 x y := funext fun a => Fin.ext (by
    match a with
    | ⟨0, _⟩ => exact (rhsB_0 _ _).trans hk
    | ⟨1, _⟩ => exact rhsB_1 _ _)
  rw [el, er]

/-! ### The three pieces side by side -/

/-- The concatenation along the columns read at `(p, x)`: the piece whose columns hold `x`. -/
theorem cat_apply (v0 : Vec Ideal S2048x128 .f32) (v1 : Vec Ideal S2048x2 .f32) (v3 : Vec Ideal S2048x4 .f32)
    (p : Fin 2048) (x : Fin 134) :
    concatenate S2048x134 1 [⟨S2048x128, v0⟩, ⟨S2048x2, v1⟩, ⟨S2048x4, v3⟩] concatenates_S2048x128_S2048x2_S2048x4_S2048x134_d1 (ix2 p x)
      = hcat3 134 rfl (v0 : Mat 2048 128) (v1 : Mat 2048 2) (v3 : Mat 2048 4) (ix2 p x) := by
  unfold hcat3
  show _ = (if h : x.val < 128 then v0 (ix2 p ⟨x.val, h⟩)
      else if h' : x.val < 128 + 2 then v1 (ix2 p ⟨x.val - 128, _⟩) else v3 (ix2 p ⟨x.val - (128 + 2), _⟩))
  have hx := x.isLt
  split_ifs with h h'
  · refine concatenate_apply_piece (1 : Fin S2048x134.rank) _ _ (ix2 p x) 0 (by show 0 < 3; omega) S2048x128 v0 rfl rfl 0 rfl (ix2 p ⟨x.val, h⟩) ?_ ?_
    · intro b hb
      match b with
      | ⟨0, _⟩ => rfl
      | ⟨1, _⟩ => exact absurd rfl hb
    · show 0 + x.val = x.val
      omega
  · refine concatenate_apply_piece (1 : Fin S2048x134.rank) _ _ (ix2 p x) 1 (by show 1 < 3; omega) S2048x2 v1 rfl rfl 128 rfl (ix2 p ⟨x.val - 128, by omega⟩) ?_ ?_
    · intro b hb
      match b with
      | ⟨0, _⟩ => rfl
      | ⟨1, _⟩ => exact absurd rfl hb
    · show 128 + (x.val - 128) = x.val
      omega
  · refine concatenate_apply_piece (1 : Fin S2048x134.rank) _ _ (ix2 p x) 2 (by show 2 < 3; omega) S2048x4 v3 rfl rfl 130 rfl (ix2 p ⟨x.val - (128 + 2), by omega⟩) ?_ ?_
    · intro b hb
      match b with
      | ⟨0, _⟩ => rfl
      | ⟨1, _⟩ => exact absurd rfl hb
    · show 130 + (x.val - (128 + 2)) = x.val
      omega

/-! ### The bias rows -/

/-- The first bias row spread over the rows reads its one row. -/
theorem biasA_apply (v9 : Vec Ideal S1x256 .f32) (p : Fin 2048) (y : Fin 256) :
    broadcastTo S2048x256 (shapeCast S1x256 v9 shapeCasts_S1x256_S1x256) broadcasts_S1x256_S2048x256 (ix2 p y)
      = v9 (ix2 (0 : Fin 1) y) := by
  rw [shapeCast_self]
  refine broadcastTo_apply _ _ (ix2 p y) (ix2 (0 : Fin 1) y) fun a => ?_
  match a with
  | ⟨0, _⟩ => rfl
  | ⟨1, _⟩ => rfl

/-- The second bias row likewise. -/
theorem biasB_apply (v19 : Vec Ideal S1x128 .f32) (p : Fin 2048) (q : Fin 128) :
    broadcastTo S2048x128 (shapeCast S1x128 v19 shapeCasts_S1x128_S1x128) broadcasts_S1x128_S2048x128 (ix2 p q)
      = v19 (ix2 (0 : Fin 1) q) := by
  rw [shapeCast_self]
  refine broadcastTo_apply _ _ (ix2 p q) (ix2 (0 : Fin 1) q) fun a => ?_
  match a with
  | ⟨0, _⟩ => rfl
  | ⟨1, _⟩ => rfl

/-! ### The payload -/

/-- The body's one store, entry `(p, q)`: the per-edge transform of the loaded blocks. -/
theorem pay_apply (v0 : Vec Ideal S2048x128 .f32) (v1 : Vec Ideal S2048x2 .f32) (v2 : Vec Ideal S2048x4 .f32)
    (v6 : Vec Ideal S134x256 .f32) (v9 : Vec Ideal S1x256 .f32) (v16 : Vec Ideal S256x128 .f32) (v19 : Vec Ideal S1x128 .f32)
    (p : Fin 2048) (q : Fin 128) :
    k1_pay1 (F := Ideal) v0 v1 v2 v6 v9 v16 v19 (ix2 p q)
      = headMlp (v0 : Mat 2048 128) (v1 : Mat 2048 2) (v2 : Mat 2048 4) (v6 : Mat 134 256) (v9 : Mat 1 256) (v16 : Mat 256 128) (v19 : Mat 1 128) (ix2 p q) := by
  unfold k1_pay1 headMlp addRow mm relu
  show (_ + _ : EReal) = _ + _
  refine congrArg₂ (· + ·) ?_ (biasB_apply v19 p q)
  refine (mmB_apply _ _ p q).trans ?_
  refine Finset.sum_congr rfl fun y _ => ?_
  refine congrArg₂ (· * ·) ?_ rfl
  show max (_ + _ : EReal) _ = max (_ + _) _
  refine congrArg₂ max (congrArg₂ (· + ·) ?_ (biasA_apply v9 p y)) rfl
  refine (mmA_apply _ _ p y).trans ?_
  refine Finset.sum_congr rfl fun x _ => ?_
  refine congrArg₂ (· * ·) ?_ rfl
  rw [shapeCast_self]
  exact cat_apply v0 v1 v2 p x

end Cert.KernelIdeal.HeadMlp1

end
-- ==== Proof.HeadMlp1.lean ====
/-
  The per-edge transform over the whole edge set. The region walks the 8192 edges in four blocks of 2048 rows; at a
  grid point it loads that block of rows of the three per-edge matrices and the whole of the two weight matrices and
  bias rows, and writes back the transform of the block. Since the transform works row by row, what point `t` writes
  back is rows `2048·t … 2048·t + 2047` of the transform of the whole matrices, and the four blocks fill the result.
-/
import proofs.«122511_j30537217474923_2_alg».proof.Proof.Gen.KernelIdeal.Frame
import proofs.«122511_j30537217474923_2_alg».proof.Proof.Spec
import proofs.«122511_j30537217474923_2_alg».proof.Proof.HeadMlpRow
import proofs.«122511_j30537217474923_2_alg».proof.Proof.HeadMlp1Pay
import Idealize.ShloMosaic.Lib.Pipeline.Value

noncomputable section

open scoped BigOperators

namespace Cert.KernelIdeal.HeadMlp1

open Cert.KernelIdeal Cert.KernelIdeal.Gen Cert.Spec Idealize.ShloMosaic Idealize.ShloMosaic.TcCoe Idealize.SL.Sem
open Idealize.ShloMosaic.ValueIdx
open Idealize.ShloMosaic.Pipeline (Dat)

/-- One entry of a block's transform, for blocks that are rows `T·2048 …` of taller matrices `D`, `E`, `Gr` and weight
    blocks that are the whole weights: entry `j` of the block's transform is entry `i` of the transform of `D`, `E`, `Gr`
    when `i` is `j` moved down by `T` blocks. -/
theorem block_entry (x0 : Vec Ideal S2048x128 .f32) (x1 : Vec Ideal S2048x2 .f32) (x2 : Vec Ideal S2048x4 .f32)
    (x3 : Vec Ideal S134x256 .f32) (x4 : Vec Ideal S1x256 .f32) (x5 : Vec Ideal S256x128 .f32) (x6 : Vec Ideal S1x128 .f32)
    (D : S8192x128.Idx → EReal) (E : S8192x2.Idx → EReal) (Gr : S8192x4.Idx → EReal)
    (w1 : S134x256.Idx → EReal) (b1 : S1x256.Idx → EReal) (w2 : S256x128.Idx → EReal) (b2 : S1x128.Idx → EReal)
    (T : ℕ) (j : S2048x128.Idx) (i : S8192x128.Idx)
    (h0 : ∀ (p : Fin 2048) (R : Fin 8192), R.val = T * 2048 + 1 * p.val → ∀ x : Fin 128, x0 (ix2 p x) = D (ix2 R x))
    (h1 : ∀ (p : Fin 2048) (R : Fin 8192), R.val = T * 2048 + 1 * p.val → ∀ x : Fin 2, x1 (ix2 p x) = E (ix2 R x))
    (h2 : ∀ (p : Fin 2048) (R : Fin 8192), R.val = T * 2048 + 1 * p.val → ∀ x : Fin 4, x2 (ix2 p x) = Gr (ix2 R x))
    (h3 : x3 = w1) (h4 : x4 = b1) (h5 : x5 = w2) (h6 : x6 = b2)
    (hi0 : (i 0).val = T * 2048 + 1 * (j 0).val) (hi1 : (i 1).val = (j 1).val) :
    k1_pay1 (F := Ideal) x0 x1 x2 x3 x4 x5 x6 j = headMlp D E Gr w1 b1 w2 b2 i := by
  obtain ⟨p, q, rfl⟩ : ∃ (p : Fin 2048) (q : Fin 128), j = ix2 p q := ⟨j 0, j 1, eq_ix2 j⟩
  obtain ⟨R, s, rfl⟩ : ∃ (R : Fin 8192) (s : Fin 128), i = ix2 R s := ⟨i 0, i 1, eq_ix2 i⟩
  obtain rfl : s = q := Fin.ext hi1
  subst h3 h4 h5 h6
  refine (pay_apply x0 x1 x2 x3 x4 x5 x6 p s).trans ?_
  exact Cert.HeadMlp.headMlp_row D E Gr x0 x1 x2 x3 x4 x5 x6 R p (h0 p R hi0) (h1 p R hi0) (h2 p R hi0) s

theorem hz : (![0, 0] : Fin 2 → Nat) = fun _ => 0 := funext fun a => by fin_cases a <;> rfl

/-- The printed index maps over the grid: the three per-edge operands' and the output's block row is the grid point,
    the weights and bias rows are one block each. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

variable (V : (c : Dev nD) → (b : Ref sig .tc) → Buf (Elt Ideal) ((c : Thread nD τ).loc b))

/-- The transform of the whole per-edge matrices under the whole weights, as the region finds them. -/
abbrev G (c : Dev nD) : S8192x128.Idx → EReal :=
  headMlp (V c main_arg2 : S8192x128.Idx → EReal) (V c main_arg4 : S8192x2.Idx → EReal) (V c main_v3_1 : S8192x4.Idx → EReal)
    (V c main_arg12 : S134x256.Idx → EReal) (V c main_v4 : S1x256.Idx → EReal) (V c main_arg14 : S256x128.Idx → EReal) (V c main_v5 : S1x128.Idx → EReal)

/-- What grid point `t` writes back is rows `2048·t … 2048·t + 2047` of the transform. -/
theorem flushed_eq (c : Dev nD) (t : Fin cfg1.N) :
    (dat1 (F := Ideal) V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S2048x128) hz, View.ld_unit_zero (S := S2048x2) hz, View.ld_unit_zero (S := S2048x4) hz,
    View.ld_unit_zero (S := S134x256) hz, View.ld_unit_zero (S := S1x256) hz, View.ld_unit_zero (S := S256x128) hz,
    View.ld_unit_zero (S := S1x128) hz]
  obtain ⟨e00, e01, e10, e11, e20, e21, e30, e31, e40, e41, e50, e51, e60, e61, e70, e71⟩ := idx_facts t
  funext j
  show k1_pay1 (F := Ideal) (iblk1 V c 0 t) (iblk1 V c 1 t) (iblk1 V c 2 t) (iblk1 V c 3 t) (iblk1 V c 4 t) (iblk1 V c 5 t) (iblk1 V c 6 t) j
    = headMlp _ _ _ _ _ _ _ (((cfg1.win 7).blk t).view.emb j)
  refine block_entry (iblk1 V c 0 t) (iblk1 V c 1 t) (iblk1 V c 2 t) (iblk1 V c 3 t) (iblk1 V c 4 t) (iblk1 V c 5 t) (iblk1 V c 6 t)
    (V c main_arg2) (V c main_arg4) (V c main_v3_1) (V c main_arg12) (V c main_v4) (V c main_arg14) (V c main_v5)
    t.val j (((cfg1.win 7).blk t).view.emb j) ?_ ?_ ?_ ?_ ?_ ?_ ?_ ?_ ?_
  · intro p R hR x
    show V c main_arg2 (((cfg1.win 0).blk t).view.emb (ix2 p x)) = V c main_arg2 (ix2 R x)
    refine congrArg _ (funext fun a => Fin.ext ?_)
    match a with
    | ⟨0, _⟩ => show win1_0.index t (0 : Fin 2) * 2048 + 1 * p.val = R.val; rw [e00, hR]
    | ⟨1, _⟩ => show win1_0.index t (1 : Fin 2) * 128 + 1 * x.val = x.val; rw [e01]; omega
  · intro p R hR x
    show V c main_arg4 (((cfg1.win 1).blk t).view.emb (ix2 p x)) = V c main_arg4 (ix2 R x)
    refine congrArg _ (funext fun a => Fin.ext ?_)
    match a with
    | ⟨0, _⟩ => show win1_1.index t (0 : Fin 2) * 2048 + 1 * p.val = R.val; rw [e10, hR]
    | ⟨1, _⟩ => show win1_1.index t (1 : Fin 2) * 2 + 1 * x.val = x.val; rw [e11]; omega
  · intro p R hR x
    show V c main_v3_1 (((cfg1.win 2).blk t).view.emb (ix2 p x)) = V c main_v3_1 (ix2 R x)
    refine congrArg _ (funext fun a => Fin.ext ?_)
    match a with
    | ⟨0, _⟩ => show win1_2.index t (0 : Fin 2) * 2048 + 1 * p.val = R.val; rw [e20, hR]
    | ⟨1, _⟩ => show win1_2.index t (1 : Fin 2) * 4 + 1 * x.val = x.val; rw [e21]; omega
  · funext y
    show V c main_arg12 (((cfg1.win 3).blk t).view.emb y) = V c main_arg12 y
    refine congrArg _ (funext fun a => Fin.ext ?_)
    match a with
    | ⟨0, _⟩ => show win1_3.index t (0 : Fin 2) * 134 + 1 * (y 0).val = (y 0).val; rw [e30]; omega
    | ⟨1, _⟩ => show win1_3.index t (1 : Fin 2) * 256 + 1 * (y 1).val = (y 1).val; rw [e31]; omega
  · funext y
    show V c main_v4 (((cfg1.win 4).blk t).view.emb y) = V c main_v4 y
    refine congrArg _ (funext fun a => Fin.ext ?_)
    match a with
    | ⟨0, _⟩ => show win1_4.index t (0 : Fin 2) * 1 + 1 * (y 0).val = (y 0).val; rw [e40]; omega
    | ⟨1, _⟩ => show win1_4.index t (1 : Fin 2) * 256 + 1 * (y 1).val = (y 1).val; rw [e41]; omega
  · funext y
    show V c main_arg14 (((cfg1.win 5).blk t).view.emb y) = V c main_arg14 y
    refine congrArg _ (funext fun a => Fin.ext ?_)
    match a with
    | ⟨0, _⟩ => show win1_5.index t (0 : Fin 2) * 256 + 1 * (y 0).val = (y 0).val; rw [e50]; omega
    | ⟨1, _⟩ => show win1_5.index t (1 : Fin 2) * 128 + 1 * (y 1).val = (y 1).val; rw [e51]; omega
  · funext y
    show V c main_v5 (((cfg1.win 6).blk t).view.emb y) = V c main_v5 y
    refine congrArg _ (funext fun a => Fin.ext ?_)
    match a with
    | ⟨0, _⟩ => show win1_6.index t (0 : Fin 2) * 1 + 1 * (y 0).val = (y 0).val; rw [e60]; omega
    | ⟨1, _⟩ => show win1_6.index t (1 : Fin 2) * 128 + 1 * (y 1).val = (y 1).val; rw [e61]; omega
  · show win1_7.index t (0 : Fin 2) * 2048 + 1 * (j 0).val = _; rw [e70]
  · show win1_7.index t (1 : Fin 2) * 128 + 1 * (j 1).val = _; rw [e71]; omega

/-- An index of the output array is in point `t`'s block iff each coordinate is in the block's range on its axis. -/
theorem mem_blk (t : Fin cfg1.N) (i : S8192x128.Idx) :
    i ∈ ((cfg1.win 7).blk t).view.set ↔ ∀ a : Fin 2, win1_7.index t a * S2048x128.size a ≤ (i a).val ∧ (i a).val < win1_7.index t a * S2048x128.size a + S2048x128.size a := by
  show i ∈ ((View.whole main_v6).slice (win1_7.rect t)).set ↔ _
  rw [View.set_slice_whole, Rect.mem_set_unit]
  exact Iff.rfl

/-- Row `R` of the output is written by grid point `R / 2048`. -/
theorem cover (i : S8192x128.Idx) : ∃ t : Fin cfg1.N, (cfg1.win 7).flush t = true ∧ i ∈ ((cfg1.win 7).blk t).view.set := by
  have hi0 : (i 0).val < 8192 := (i 0).isLt
  have hi1 : (i 1).val < 128 := (i 1).isLt
  refine ⟨⟨(i 0).val / 2048, by rw [show cfg1.N = 4 from N_1]; omega⟩, flush1_7 _, ?_⟩
  rw [mem_blk]
  obtain ⟨-, -, -, -, -, -, -, -, -, -, -, -, -, -, e70, e71⟩ := idx_facts ⟨(i 0).val / 2048, by rw [show cfg1.N = 4 from N_1]; omega⟩
  intro a
  match a with
  | ⟨0, _⟩ => show win1_7.index _ (0 : Fin 2) * 2048 ≤ (i 0).val ∧ (i 0).val < win1_7.index _ (0 : Fin 2) * 2048 + 2048; rw [e70]; show (i 0).val / 2048 * 2048 ≤ (i 0).val ∧ (i 0).val < (i 0).val / 2048 * 2048 + 2048; omega
  | ⟨1, _⟩ => show win1_7.index _ (1 : Fin 2) * 128 ≤ (i 1).val ∧ (i 1).val < win1_7.index _ (1 : Fin 2) * 128 + 128; rw [e71]; omega

/-- After the region, the output array holds the per-edge transform of the three per-edge matrices under the weights and
    bias rows it was entered with. -/
theorem arr (c : Dev nD) :
    ((dat1 (F := Ideal) V c).arrAt 7 cfg1.N : S8192x128.Idx → EReal)
      = headMlp (V c main_arg2 : S8192x128.Idx → EReal) (V c main_arg4 : S8192x2.Idx → EReal) (V c main_v3_1 : S8192x4.Idx → EReal)
    (V c main_arg12 : S134x256.Idx → EReal) (V c main_v4 : S1x256.Idx → EReal) (V c main_arg14 : S256x128.Idx → EReal) (V c main_v5 : S1x128.Idx → EReal) :=
  (dat1 (F := Ideal) V c).arrAt_eq_of_cover 7 (G V c) (fun t _ => flushed_eq V c t) cover

end Cert.KernelIdeal.HeadMlp1

end
-- ==== Proof.HeadMlp4Pay.lean ====
/-
  One block of the per-edge transform. At the extended reals the body's arithmetic, read entry by entry, is
  `relu([dec | edge | graph] · W₁ + b₁) · W₂ + b₂` of the loaded blocks: the changes of float format are the identity,
  each block product into a zero accumulator is the plain sum over the contracted axis, the concatenation reads the
  piece whose span of columns holds the column, and a bias row spread over the rows reads its one row.
-/
import proofs.«122511_j30537217474923_2_alg».proof.Proof.Gen.KernelIdeal.Skeleton
import proofs.«122511_j30537217474923_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.HeadMlp4

open Cert.KernelIdeal Cert.KernelIdeal.Gen Cert.Spec Idealize.ShloMosaic Idealize.ShloMosaic.ValueIdx

/-! ### The product `S2048x134 · S134x256` read at an entry -/

theorem lhsA_0 (i : S2048x256.Idx) (k : dot_S2048x134_S134x256_S2048x256_1_0_0_1_n_n.contr.Idx) :
    (dot_S2048x134_S134x256_S2048x256_1_0_0_1_n_n.lhsIdx i k 0).val = (i 0).val := by
  unfold DotDims.lhsIdx
  rw [dif_neg (show ¬(0 : Fin S2048x134.rank) ∈ dot_S2048x134_S134x256_S2048x256_1_0_0_1_n_n.lhsBatch by decide), dif_pos (show (0 : Fin S2048x134.rank) ∈ dot_S2048x134_S134x256_S2048x256_1_0_0_1_n_n.lhsNonContracting by decide)]
  rfl
theorem lhsA_1 (i : S2048x256.Idx) (k : dot_S2048x134_S134x256_S2048x256_1_0_0_1_n_n.contr.Idx) :
    (dot_S2048x134_S134x256_S2048x256_1_0_0_1_n_n.lhsIdx i k 1).val = (k ⟨0, by decide⟩).val :=
  dot_S2048x134_S134x256_S2048x256_1_0_0_1_n_n.lhsIdx_val_of_single rfl i k
theorem rhsA_0 (i : S2048x256.Idx) (k : dot_S2048x134_S134x256_S2048x256_1_0_0_1_n_n.contr.Idx) :
    (dot_S2048x134_S134x256_S2048x256_1_0_0_1_n_n.rhsIdx i k 0).val = (k ⟨0, by decide⟩).val :=
  dot_S2048x134_S134x256_S2048x256_1_0_0_1_n_n.rhsIdx_val_of_single rfl i k
theorem rhsA_1 (i : S2048x256.Idx) (k : dot_S2048x134_S134x256_S2048x256_1_0_0_1_n_n.contr.Idx) :
    (dot_S2048x134_S134x256_S2048x256_1_0_0_1_n_n.rhsIdx i k 1).val = (i 1).val := by
  unfold DotDims.rhsIdx
  rw [dif_neg (show ¬(1 : Fin S134x256.rank) ∈ dot_S2048x134_S134x256_S2048x256_1_0_0_1_n_n.rhsBatch by decide), dif_pos (show (1 : Fin S134x256.rank) ∈ dot_S2048x134_S134x256_S2048x256_1_0_0_1_n_n.rhsNonContracting by decide)]
  rfl

/-- Into the zero accumulator the block product at entry `(p, y)` is row `p` of the left factor against column `y` of
    the right one, summed over the whole contracted axis. -/
theorem mmA_apply {φ₁ φ₂ : FTy} (A : FVec Ideal S2048x134 φ₁) (B : FVec Ideal S134x256 φ₂) (p : Fin 2048) (y : Fin 256) :
    matmul dot_S2048x134_S134x256_S2048x256_1_0_0_1_n_n none A B (constant (F := Ideal) S2048x256 .f32 0x00000000#32) (ix2 p y)
      = ∑ x : Fin 134, A (ix2 p x) * B (ix2 x y) := by
  simp only [matmul]
  rw [Ideal.matmul_constant_zero_apply, ← Equiv.sum_comp (contrEquiv1 dot_S2048x134_S134x256_S2048x256_1_0_0_1_n_n 134 rfl rfl).symm]
  refine Finset.sum_congr rfl fun x _ => ?_
  have hk := contrEquiv1_symm_val dot_S2048x134_S134x256_S2048x256_1_0_0_1_n_n 134 rfl rfl x
  have el : dot_S2048x134_S134x256_S2048x256_1_0_0_1_n_n.lhsIdx (ix2 p y) ((contrEquiv1 dot_S2048x134_S134x256_S2048x256_1_0_0_1_n_n 134 rfl rfl).symm x) = ix2 p x := funext fun a => Fin.ext (by
    match a with
    | ⟨0, _⟩ => exact lhsA_0 _ _
    | ⟨1, _⟩ => exact (lhsA_1 _ _).trans hk)
  have er : dot_S2048x134_S134x256_S2048x256_1_0_0_1_n_n.rhsIdx (ix2 p y) ((contrEquiv1 dot_S2048x134_S134x256_S2048x256_1_0_0_1_n_n 134 rfl rfl).symm x) = ix2 x y := funext fun a => Fin.ext (by
    match a with
    | ⟨0, _⟩ => exact (rhsA_0 _ _).trans hk
    | ⟨1, _⟩ => exact rhsA_1 _ _)
  rw [el, er]

/-! ### The product `S2048x256 · S256x128` read at an entry -/

theorem lhsB_0 (i : S2048x128.Idx) (k : dot_S2048x256_S256x128_S2048x128_1_0_0_1_n_n.contr.Idx) :
    (dot_S2048x256_S256x128_S2048x128_1_0_0_1_n_n.lhsIdx i k 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem lhsB_1 (i : S2048x128.Idx) (k : dot_S2048x256_S256x128_S2048x128_1_0_0_1_n_n.contr.Idx) :
    (dot_S2048x256_S256x128_S2048x128_1_0_0_1_n_n.lhsIdx i k 1).val = (k ⟨0, by decide⟩).val :=
  dot_S2048x256_S256x128_S2048x128_1_0_0_1_n_n.lhsIdx_val_of_single rfl i k
theorem rhsB_0 (i : S2048x128.Idx) (k : dot_S2048x256_S256x128_S2048x128_1_0_0_1_n_n.contr.Idx) :
    (dot_S2048x256_S256x128_S2048x128_1_0_0_1_n_n.rhsIdx i k 0).val = (k ⟨0, by decide⟩).val :=
  dot_S2048x256_S256x128_S2048x128_1_0_0_1_n_n.rhsIdx_val_of_single rfl i k
theorem rhsB_1 (i : S2048x128.Idx) (k : dot_S2048x256_S256x128_S2048x128_1_0_0_1_n_n.contr.Idx) :
    (dot_S2048x256_S256x128_S2048x128_1_0_0_1_n_n.rhsIdx i k 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- Into the zero accumulator the block product at entry `(p, y)` is row `p` of the left factor against column `y` of
    the right one, summed over the whole contracted axis. -/
theorem mmB_apply {φ₁ φ₂ : FTy} (A : FVec Ideal S2048x256 φ₁) (B : FVec Ideal S256x128 φ₂) (p : Fin 2048) (y : Fin 128) :
    matmul dot_S2048x256_S256x128_S2048x128_1_0_0_1_n_n none A B (constant (F := Ideal) S2048x128 .f32 0x00000000#32) (ix2 p y)
      = ∑ x : Fin 256, A (ix2 p x) * B (ix2 x y) := by
  simp only [matmul]
  rw [Ideal.matmul_constant_zero_apply, ← Equiv.sum_comp (contrEquiv1 dot_S2048x256_S256x128_S2048x128_1_0_0_1_n_n 256 rfl rfl).symm]
  refine Finset.sum_congr rfl fun x _ => ?_
  have hk := contrEquiv1_symm_val dot_S2048x256_S256x128_S2048x128_1_0_0_1_n_n 256 rfl rfl x
  have el : dot_S2048x256_S256x128_S2048x128_1_0_0_1_n_n.lhsIdx (ix2 p y) ((contrEquiv1 dot_S2048x256_S256x128_S2048x128_1_0_0_1_n_n 256 rfl rfl).symm x) = ix2 p x := funext fun a => Fin.ext (by
    match a with
    | ⟨0, _⟩ => exact lhsB_0 _ _
    | ⟨1, _⟩ => exact (lhsB_1 _ _).trans hk)
  have er : dot_S2048x256_S256x128_S2048x128_1_0_0_1_n_n.rhsIdx (ix2 p y) ((contrEquiv1 dot_S2048x256_S256x128_S2048x128_1_0_0_1_n_n 256 rfl rfl).symm x) = ix2 x y := funext fun a => Fin.ext (by
    match a with
    | ⟨0, _⟩ => exact (rhsB_0 _ _).trans hk
    | ⟨1, _⟩ => exact rhsB_1 _ _)
  rw [el, er]

/-! ### The three pieces side by side -/

/-- The concatenation along the columns read at `(p, x)`: the piece whose columns hold `x`. -/
theorem cat_apply (v0 : Vec Ideal S2048x128 .f32) (v1 : Vec Ideal S2048x2 .f32) (v3 : Vec Ideal S2048x4 .f32)
    (p : Fin 2048) (x : Fin 134) :
    concatenate S2048x134 1 [⟨S2048x128, v0⟩, ⟨S2048x2, v1⟩, ⟨S2048x4, v3⟩] concatenates_S2048x128_S2048x2_S2048x4_S2048x134_d1 (ix2 p x)
      = hcat3 134 rfl (v0 : Mat 2048 128) (v1 : Mat 2048 2) (v3 : Mat 2048 4) (ix2 p x) := by
  unfold hcat3
  show _ = (if h : x.val < 128 then v0 (ix2 p ⟨x.val, h⟩)
      else if h' : x.val < 128 + 2 then v1 (ix2 p ⟨x.val - 128, _⟩) else v3 (ix2 p ⟨x.val - (128 + 2), _⟩))
  have hx := x.isLt
  split_ifs with h h'
  · refine concatenate_apply_piece (1 : Fin S2048x134.rank) _ _ (ix2 p x) 0 (by show 0 < 3; omega) S2048x128 v0 rfl rfl 0 rfl (ix2 p ⟨x.val, h⟩) ?_ ?_
    · intro b hb
      match b with
      | ⟨0, _⟩ => rfl
      | ⟨1, _⟩ => exact absurd rfl hb
    · show 0 + x.val = x.val
      omega
  · refine concatenate_apply_piece (1 : Fin S2048x134.rank) _ _ (ix2 p x) 1 (by show 1 < 3; omega) S2048x2 v1 rfl rfl 128 rfl (ix2 p ⟨x.val - 128, by omega⟩) ?_ ?_
    · intro b hb
      match b with
      | ⟨0, _⟩ => rfl
      | ⟨1, _⟩ => exact absurd rfl hb
    · show 128 + (x.val - 128) = x.val
      omega
  · refine concatenate_apply_piece (1 : Fin S2048x134.rank) _ _ (ix2 p x) 2 (by show 2 < 3; omega) S2048x4 v3 rfl rfl 130 rfl (ix2 p ⟨x.val - (128 + 2), by omega⟩) ?_ ?_
    · intro b hb
      match b with
      | ⟨0, _⟩ => rfl
      | ⟨1, _⟩ => exact absurd rfl hb
    · show 130 + (x.val - (128 + 2)) = x.val
      omega

/-! ### The bias rows -/

/-- The first bias row spread over the rows reads its one row. -/
theorem biasA_apply (v9 : Vec Ideal S1x256 .f32) (p : Fin 2048) (y : Fin 256) :
    broadcastTo S2048x256 (shapeCast S1x256 v9 shapeCasts_S1x256_S1x256) broadcasts_S1x256_S2048x256 (ix2 p y)
      = v9 (ix2 (0 : Fin 1) y) := by
  rw [shapeCast_self]
  refine broadcastTo_apply _ _ (ix2 p y) (ix2 (0 : Fin 1) y) fun a => ?_
  match a with
  | ⟨0, _⟩ => rfl
  | ⟨1, _⟩ => rfl

/-- The second bias row likewise. -/
theorem biasB_apply (v19 : Vec Ideal S1x128 .f32) (p : Fin 2048) (q : Fin 128) :
    broadcastTo S2048x128 (shapeCast S1x128 v19 shapeCasts_S1x128_S1x128) broadcasts_S1x128_S2048x128 (ix2 p q)
      = v19 (ix2 (0 : Fin 1) q) := by
  rw [shapeCast_self]
  refine broadcastTo_apply _ _ (ix2 p q) (ix2 (0 : Fin 1) q) fun a => ?_
  match a with
  | ⟨0, _⟩ => rfl
  | ⟨1, _⟩ => rfl

/-! ### The payload -/

/-- The body's one store, entry `(p, q)`: the per-edge transform of the loaded blocks. -/
theorem pay_apply (v0 : Vec Ideal S2048x128 .f32) (v1 : Vec Ideal S2048x2 .f32) (v2 : Vec Ideal S2048x4 .f32)
    (v6 : Vec Ideal S134x256 .f32) (v9 : Vec Ideal S1x256 .f32) (v16 : Vec Ideal S256x128 .f32) (v19 : Vec Ideal S1x128 .f32)
    (p : Fin 2048) (q : Fin 128) :
    k4_pay1 (F := Ideal) v0 v1 v2 v6 v9 v16 v19 (ix2 p q)
      = headMlp (v0 : Mat 2048 128) (v1 : Mat 2048 2) (v2 : Mat 2048 4) (v6 : Mat 134 256) (v9 : Mat 1 256) (v16 : Mat 256 128) (v19 : Mat 1 128) (ix2 p q) := by
  unfold k4_pay1 headMlp addRow mm relu
  show (_ + _ : EReal) = _ + _
  refine congrArg₂ (· + ·) ?_ (biasB_apply v19 p q)
  refine (mmB_apply _ _ p q).trans ?_
  refine Finset.sum_congr rfl fun y _ => ?_
  refine congrArg₂ (· * ·) ?_ rfl
  show max (_ + _ : EReal) _ = max (_ + _) _
  refine congrArg₂ max (congrArg₂ (· + ·) ?_ (biasA_apply v9 p y)) rfl
  refine (mmA_apply _ _ p y).trans ?_
  refine Finset.sum_congr rfl fun x _ => ?_
  refine congrArg₂ (· * ·) ?_ rfl
  rw [shapeCast_self]
  exact cat_apply v0 v1 v2 p x

end Cert.KernelIdeal.HeadMlp4

end
-- ==== Proof.HeadMlp4.lean ====
/-
  The per-edge transform over the whole edge set. The region walks the 8192 edges in four blocks of 2048 rows; at a
  grid point it loads that block of rows of the three per-edge matrices and the whole of the two weight matrices and
  bias rows, and writes back the transform of the block. Since the transform works row by row, what point `t` writes
  back is rows `2048·t … 2048·t + 2047` of the transform of the whole matrices, and the four blocks fill the result.
-/
import proofs.«122511_j30537217474923_2_alg».proof.Proof.Gen.KernelIdeal.Frame
import proofs.«122511_j30537217474923_2_alg».proof.Proof.Spec
import proofs.«122511_j30537217474923_2_alg».proof.Proof.HeadMlpRow
import proofs.«122511_j30537217474923_2_alg».proof.Proof.HeadMlp4Pay
import Idealize.ShloMosaic.Lib.Pipeline.Value

noncomputable section

open scoped BigOperators

namespace Cert.KernelIdeal.HeadMlp4

open Cert.KernelIdeal Cert.KernelIdeal.Gen Cert.Spec Idealize.ShloMosaic Idealize.ShloMosaic.TcCoe Idealize.SL.Sem
open Idealize.ShloMosaic.ValueIdx
open Idealize.ShloMosaic.Pipeline (Dat)

/-- One entry of a block's transform, for blocks that are rows `T·2048 …` of taller matrices `D`, `E`, `Gr` and weight
    blocks that are the whole weights: entry `j` of the block's transform is entry `i` of the transform of `D`, `E`, `Gr`
    when `i` is `j` moved down by `T` blocks. -/
theorem block_entry (x0 : Vec Ideal S2048x128 .f32) (x1 : Vec Ideal S2048x2 .f32) (x2 : Vec Ideal S2048x4 .f32)
    (x3 : Vec Ideal S134x256 .f32) (x4 : Vec Ideal S1x256 .f32) (x5 : Vec Ideal S256x128 .f32) (x6 : Vec Ideal S1x128 .f32)
    (D : S8192x128.Idx → EReal) (E : S8192x2.Idx → EReal) (Gr : S8192x4.Idx → EReal)
    (w1 : S134x256.Idx → EReal) (b1 : S1x256.Idx → EReal) (w2 : S256x128.Idx → EReal) (b2 : S1x128.Idx → EReal)
    (T : ℕ) (j : S2048x128.Idx) (i : S8192x128.Idx)
    (h0 : ∀ (p : Fin 2048) (R : Fin 8192), R.val = T * 2048 + 1 * p.val → ∀ x : Fin 128, x0 (ix2 p x) = D (ix2 R x))
    (h1 : ∀ (p : Fin 2048) (R : Fin 8192), R.val = T * 2048 + 1 * p.val → ∀ x : Fin 2, x1 (ix2 p x) = E (ix2 R x))
    (h2 : ∀ (p : Fin 2048) (R : Fin 8192), R.val = T * 2048 + 1 * p.val → ∀ x : Fin 4, x2 (ix2 p x) = Gr (ix2 R x))
    (h3 : x3 = w1) (h4 : x4 = b1) (h5 : x5 = w2) (h6 : x6 = b2)
    (hi0 : (i 0).val = T * 2048 + 1 * (j 0).val) (hi1 : (i 1).val = (j 1).val) :
    k4_pay1 (F := Ideal) x0 x1 x2 x3 x4 x5 x6 j = headMlp D E Gr w1 b1 w2 b2 i := by
  obtain ⟨p, q, rfl⟩ : ∃ (p : Fin 2048) (q : Fin 128), j = ix2 p q := ⟨j 0, j 1, eq_ix2 j⟩
  obtain ⟨R, s, rfl⟩ : ∃ (R : Fin 8192) (s : Fin 128), i = ix2 R s := ⟨i 0, i 1, eq_ix2 i⟩
  obtain rfl : s = q := Fin.ext hi1
  subst h3 h4 h5 h6
  refine (pay_apply x0 x1 x2 x3 x4 x5 x6 p s).trans ?_
  exact Cert.HeadMlp.headMlp_row D E Gr x0 x1 x2 x3 x4 x5 x6 R p (h0 p R hi0) (h1 p R hi0) (h2 p R hi0) s

theorem hz : (![0, 0] : Fin 2 → Nat) = fun _ => 0 := funext fun a => by fin_cases a <;> rfl

/-- The printed index maps over the grid: the three per-edge operands' and the output's block row is the grid point,
    the weights and bias rows are one block each. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

variable (V : (c : Dev nD) → (b : Ref sig .tc) → Buf (Elt Ideal) ((c : Thread nD τ).loc b))

/-- The transform of the whole per-edge matrices under the whole weights, as the region finds them. -/
abbrev G (c : Dev nD) : S8192x128.Idx → EReal :=
  headMlp (V c main_arg3 : S8192x128.Idx → EReal) (V c main_arg4 : S8192x2.Idx → EReal) (V c main_v3_1 : S8192x4.Idx → EReal)
    (V c main_arg20 : S134x256.Idx → EReal) (V c main_v11 : S1x256.Idx → EReal) (V c main_arg22 : S256x128.Idx → EReal) (V c main_v12 : S1x128.Idx → EReal)

/-- What grid point `t` writes back is rows `2048·t … 2048·t + 2047` of the transform. -/
theorem flushed_eq (c : Dev nD) (t : Fin cfg4.N) :
    (dat4 (F := Ideal) V c).flushed 7 t = ((cfg4.win 7).blk t).view.read (Elt Ideal) (G V c) := by
  show (cfg4.win 7).cut (grid4.coords t) ((dat4 V c).after 7 t) = _
  rw [after4_7]
  unfold out4_7
  rw [View.canon_unit_zero hz]
  simp only [View.ld_unit_zero (S := S2048x128) hz, View.ld_unit_zero (S := S2048x2) hz, View.ld_unit_zero (S := S2048x4) hz,
    View.ld_unit_zero (S := S134x256) hz, View.ld_unit_zero (S := S1x256) hz, View.ld_unit_zero (S := S256x128) hz,
    View.ld_unit_zero (S := S1x128) hz]
  obtain ⟨e00, e01, e10, e11, e20, e21, e30, e31, e40, e41, e50, e51, e60, e61, e70, e71⟩ := idx_facts t
  funext j
  show k4_pay1 (F := Ideal) (iblk4 V c 0 t) (iblk4 V c 1 t) (iblk4 V c 2 t) (iblk4 V c 3 t) (iblk4 V c 4 t) (iblk4 V c 5 t) (iblk4 V c 6 t) j
    = headMlp _ _ _ _ _ _ _ (((cfg4.win 7).blk t).view.emb j)
  refine block_entry (iblk4 V c 0 t) (iblk4 V c 1 t) (iblk4 V c 2 t) (iblk4 V c 3 t) (iblk4 V c 4 t) (iblk4 V c 5 t) (iblk4 V c 6 t)
    (V c main_arg3) (V c main_arg4) (V c main_v3_1) (V c main_arg20) (V c main_v11) (V c main_arg22) (V c main_v12)
    t.val j (((cfg4.win 7).blk t).view.emb j) ?_ ?_ ?_ ?_ ?_ ?_ ?_ ?_ ?_
  · intro p R hR x
    show V c main_arg3 (((cfg4.win 0).blk t).view.emb (ix2 p x)) = V c main_arg3 (ix2 R x)
    refine congrArg _ (funext fun a => Fin.ext ?_)
    match a with
    | ⟨0, _⟩ => show win4_0.index t (0 : Fin 2) * 2048 + 1 * p.val = R.val; rw [e00, hR]
    | ⟨1, _⟩ => show win4_0.index t (1 : Fin 2) * 128 + 1 * x.val = x.val; rw [e01]; omega
  · intro p R hR x
    show V c main_arg4 (((cfg4.win 1).blk t).view.emb (ix2 p x)) = V c main_arg4 (ix2 R x)
    refine congrArg _ (funext fun a => Fin.ext ?_)
    match a with
    | ⟨0, _⟩ => show win4_1.index t (0 : Fin 2) * 2048 + 1 * p.val = R.val; rw [e10, hR]
    | ⟨1, _⟩ => show win4_1.index t (1 : Fin 2) * 2 + 1 * x.val = x.val; rw [e11]; omega
  · intro p R hR x
    show V c main_v3_1 (((cfg4.win 2).blk t).view.emb (ix2 p x)) = V c main_v3_1 (ix2 R x)
    refine congrArg _ (funext fun a => Fin.ext ?_)
    match a with
    | ⟨0, _⟩ => show win4_2.index t (0 : Fin 2) * 2048 + 1 * p.val = R.val; rw [e20, hR]
    | ⟨1, _⟩ => show win4_2.index t (1 : Fin 2) * 4 + 1 * x.val = x.val; rw [e21]; omega
  · funext y
    show V c main_arg20 (((cfg4.win 3).blk t).view.emb y) = V c main_arg20 y
    refine congrArg _ (funext fun a => Fin.ext ?_)
    match a with
    | ⟨0, _⟩ => show win4_3.index t (0 : Fin 2) * 134 + 1 * (y 0).val = (y 0).val; rw [e30]; omega
    | ⟨1, _⟩ => show win4_3.index t (1 : Fin 2) * 256 + 1 * (y 1).val = (y 1).val; rw [e31]; omega
  · funext y
    show V c main_v11 (((cfg4.win 4).blk t).view.emb y) = V c main_v11 y
    refine congrArg _ (funext fun a => Fin.ext ?_)
    match a with
    | ⟨0, _⟩ => show win4_4.index t (0 : Fin 2) * 1 + 1 * (y 0).val = (y 0).val; rw [e40]; omega
    | ⟨1, _⟩ => show win4_4.index t (1 : Fin 2) * 256 + 1 * (y 1).val = (y 1).val; rw [e41]; omega
  · funext y
    show V c main_arg22 (((cfg4.win 5).blk t).view.emb y) = V c main_arg22 y
    refine congrArg _ (funext fun a => Fin.ext ?_)
    match a with
    | ⟨0, _⟩ => show win4_5.index t (0 : Fin 2) * 256 + 1 * (y 0).val = (y 0).val; rw [e50]; omega
    | ⟨1, _⟩ => show win4_5.index t (1 : Fin 2) * 128 + 1 * (y 1).val = (y 1).val; rw [e51]; omega
  · funext y
    show V c main_v12 (((cfg4.win 6).blk t).view.emb y) = V c main_v12 y
    refine congrArg _ (funext fun a => Fin.ext ?_)
    match a with
    | ⟨0, _⟩ => show win4_6.index t (0 : Fin 2) * 1 + 1 * (y 0).val = (y 0).val; rw [e60]; omega
    | ⟨1, _⟩ => show win4_6.index t (1 : Fin 2) * 128 + 1 * (y 1).val = (y 1).val; rw [e61]; omega
  · show win4_7.index t (0 : Fin 2) * 2048 + 1 * (j 0).val = _; rw [e70]
  · show win4_7.index t (1 : Fin 2) * 128 + 1 * (j 1).val = _; rw [e71]; omega

/-- An index of the output array is in point `t`'s block iff each coordinate is in the block's range on its axis. -/
theorem mem_blk (t : Fin cfg4.N) (i : S8192x128.Idx) :
    i ∈ ((cfg4.win 7).blk t).view.set ↔ ∀ a : Fin 2, win4_7.index t a * S2048x128.size a ≤ (i a).val ∧ (i a).val < win4_7.index t a * S2048x128.size a + S2048x128.size a := by
  show i ∈ ((View.whole main_v13).slice (win4_7.rect t)).set ↔ _
  rw [View.set_slice_whole, Rect.mem_set_unit]
  exact Iff.rfl

/-- Row `R` of the output is written by grid point `R / 2048`. -/
theorem cover (i : S8192x128.Idx) : ∃ t : Fin cfg4.N, (cfg4.win 7).flush t = true ∧ i ∈ ((cfg4.win 7).blk t).view.set := by
  have hi0 : (i 0).val < 8192 := (i 0).isLt
  have hi1 : (i 1).val < 128 := (i 1).isLt
  refine ⟨⟨(i 0).val / 2048, by rw [show cfg4.N = 4 from N_4]; omega⟩, flush4_7 _, ?_⟩
  rw [mem_blk]
  obtain ⟨-, -, -, -, -, -, -, -, -, -, -, -, -, -, e70, e71⟩ := idx_facts ⟨(i 0).val / 2048, by rw [show cfg4.N = 4 from N_4]; omega⟩
  intro a
  match a with
  | ⟨0, _⟩ => show win4_7.index _ (0 : Fin 2) * 2048 ≤ (i 0).val ∧ (i 0).val < win4_7.index _ (0 : Fin 2) * 2048 + 2048; rw [e70]; show (i 0).val / 2048 * 2048 ≤ (i 0).val ∧ (i 0).val < (i 0).val / 2048 * 2048 + 2048; omega
  | ⟨1, _⟩ => show win4_7.index _ (1 : Fin 2) * 128 ≤ (i 1).val ∧ (i 1).val < win4_7.index _ (1 : Fin 2) * 128 + 128; rw [e71]; omega

/-- After the region, the output array holds the per-edge transform of the three per-edge matrices under the weights and
    bias rows it was entered with. -/
theorem arr (c : Dev nD) :
    ((dat4 (F := Ideal) V c).arrAt 7 cfg4.N : S8192x128.Idx → EReal)
      = headMlp (V c main_arg3 : S8192x128.Idx → EReal) (V c main_arg4 : S8192x2.Idx → EReal) (V c main_v3_1 : S8192x4.Idx → EReal)
    (V c main_arg20 : S134x256.Idx → EReal) (V c main_v11 : S1x256.Idx → EReal) (V c main_arg22 : S256x128.Idx → EReal) (V c main_v12 : S1x128.Idx → EReal) :=
  (dat4 (F := Ideal) V c).arrAt_eq_of_cover 7 (G V c) (fun t _ => flushed_eq V c t) cover

end Cert.KernelIdeal.HeadMlp4

end
-- ==== Proof.MaskMM2.lean ====
/-
  The node-sum stage: one grid point multiplies 256 rows of the incidence matrix (all 8192 columns) by the whole
  8192 × 128 message matrix and writes the 256 × 128 product into the same rows of the output. A change of float
  format is the identity on extended reals and the accumulator starts at the zero word, so entry (p, q) of a point's
  block is the sum over all 8192 edges k of mask(256·t + p, k) · h(k, q): the rows of the full product `mask · h`
  that the point's block covers. The eight row blocks tile the 2048 rows, so the array ends holding the full product.
-/
import proofs.«122511_j30537217474923_2_alg».proof.Proof.Gen.KernelIdeal.Frame
import proofs.«122511_j30537217474923_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.MaskMM2

open Cert.KernelIdeal Cert.KernelIdeal.Gen Idealize.ShloMosaic Idealize.ShloMosaic.TcCoe Idealize.SL.Sem
open Idealize.ShloMosaic.ValueIdx
open Idealize.ShloMosaic.Pipeline (Dat)

local notation "D2" => dot_S256x8192_S8192x128_S256x128_1_0_0_1_n_n

theorem lhs0 (i : S256x128.Idx) (q : (D2).contr.Idx) : ((D2).lhsIdx i q 0).val = (i 0).val := by
  unfold DotDims.lhsIdx
  rw [dif_neg (show ¬(0 : Fin S256x8192.rank) ∈ (D2).lhsBatch by decide), dif_pos (show (0 : Fin S256x8192.rank) ∈ (D2).lhsNonContracting by decide)]
  rfl
theorem lhs1 (i : S256x128.Idx) (q : (D2).contr.Idx) : ((D2).lhsIdx i q 1).val = (q ⟨0, by decide⟩).val :=
  (D2).lhsIdx_val_of_single rfl i q
theorem rhs0 (i : S256x128.Idx) (q : (D2).contr.Idx) : ((D2).rhsIdx i q 0).val = (q ⟨0, by decide⟩).val :=
  (D2).rhsIdx_val_of_single rfl i q
theorem rhs1 (i : S256x128.Idx) (q : (D2).contr.Idx) : ((D2).rhsIdx i q 1).val = (i 1).val := by
  unfold DotDims.rhsIdx
  rw [dif_neg (show ¬(1 : Fin S8192x128.rank) ∈ (D2).rhsBatch by decide), dif_pos (show (1 : Fin S8192x128.rank) ∈ (D2).rhsNonContracting by decide)]
  rfl

/-- One entry of the block product: row `p` of the left block against column `q` of the right operand. -/
theorem pay_apply (x0 : Vec Ideal S256x8192 .f32) (x1 : Vec Ideal S8192x128 .bf16) (p : Fin 256) (q : Fin 128) :
    k2_pay1 (F := Ideal) x0 x1 (ix2 p q) = ∑ k : Fin 8192, x0 (ix2 p k) * x1 (ix2 k q) := by
  unfold k2_pay1
  rw [truncf_apply, shapeCast_self]
  refine (Ideal.matmul_constant_zero_apply (φ₁ := .bf16) (φ₂ := .bf16) (D2) none (truncf .bf16 x0 bitsLt_bf16_f32) x1 (ix2 p q)).trans ?_
  rw [← Equiv.sum_comp (contrEquiv1 (D2) 8192 rfl rfl).symm]
  refine Finset.sum_congr rfl fun k _ => ?_
  have hk := contrEquiv1_symm_val (D2) 8192 rfl rfl k
  have el : (D2).lhsIdx (ix2 p q) ((contrEquiv1 (D2) 8192 rfl rfl).symm k) = ix2 p k := funext fun a => Fin.ext (by
    match a with
    | ⟨0, _⟩ => exact lhs0 _ _
    | ⟨1, _⟩ => exact (lhs1 _ _).trans hk)
  have er : (D2).rhsIdx (ix2 p q) ((contrEquiv1 (D2) 8192 rfl rfl).symm k) = ix2 k q := funext fun a => Fin.ext (by
    match a with
    | ⟨0, _⟩ => exact (rhs0 _ _).trans hk
    | ⟨1, _⟩ => exact rhs1 _ _)
  rw [el, er]
  rfl

/-- The same entry, for a left block that is rows `T·256 …` of a taller matrix `A` and a right operand that is all of `B`:
    entry `j` of the block product is entry `i` of `A · B` when `i` is `j` moved down by `T` blocks. -/
theorem block_entry (x0 : Vec Ideal S256x8192 .f32) (x1 : Vec Ideal S8192x128 .bf16)
    (A : S2048x8192.Idx → EReal) (B : S8192x128.Idx → EReal) (T : ℕ) (j : S256x128.Idx) (i : S2048x128.Idx)
    (h0 : ∀ (p : Fin 256) (k : Fin 8192) (r : Fin 2048), r.val = T * 256 + 1 * p.val → x0 (ix2 p k) = A (ix2 r k))
    (h1 : ∀ (k : Fin 8192) (q : Fin 128), x1 (ix2 k q) = B (ix2 k q))
    (hi0 : (i 0).val = T * 256 + 1 * (j 0).val) (hi1 : (i 1).val = (j 1).val) :
    k2_pay1 (F := Ideal) x0 x1 j = Cert.Spec.maskMM A B i := by
  obtain ⟨p, q, rfl⟩ : ∃ (p : Fin 256) (q : Fin 128), j = ix2 p q := ⟨j 0, j 1, eq_ix2 j⟩
  obtain ⟨r, s, rfl⟩ : ∃ (r : Fin 2048) (s : Fin 128), i = ix2 r s := ⟨i 0, i 1, eq_ix2 i⟩
  obtain rfl : s = q := Fin.ext hi1
  rw [pay_apply]
  show _ = ∑ x : Fin 8192, A (ix2 r x) * B (ix2 x s)
  exact Finset.sum_congr rfl fun k _ => by rw [h0 p k r hi0, h1]

theorem hz : (![0, 0] : Fin 2 → Nat) = fun _ => 0 := funext fun a => by fin_cases a <;> rfl

/-- The printed index maps over the grid: the left operand's and the output's block row is the grid point, the right
    operand is one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- The product of the whole incidence matrix with the whole message matrix, as the region finds them. -/
abbrev G (c : Dev nD) : S2048x128.Idx → EReal :=
  Cert.Spec.maskMM (V c main_arg7 : S2048x8192.Idx → EReal) (V c main_v6 : S8192x128.Idx → EReal)

/-- What grid point `t` writes back is rows `256·t … 256·t + 255` of the product. -/
theorem flushed_eq (c : Dev nD) (t : Fin cfg2.N) :
    (dat2 (F := Ideal) V c).flushed 2 t = ((cfg2.win 2).blk t).view.read (Elt Ideal) (G V c) := by
  show (cfg2.win 2).cut (grid2.coords t) ((dat2 V c).after 2 t) = _
  rw [after2_2]
  unfold out2_2
  rw [View.canon_unit_zero hz]
  simp only [View.ld_unit_zero (S := S256x8192) hz, View.ld_unit_zero (S := S8192x128) hz]
  obtain ⟨e0, e1, e2, e3, e4, e5⟩ := idx_facts t
  funext j
  show k2_pay1 (F := Ideal) (iblk2 V c 0 t) (iblk2 V c 1 t) j = Cert.Spec.maskMM _ _ (((cfg2.win 2).blk t).view.emb j)
  refine block_entry (iblk2 V c 0 t) (iblk2 V c 1 t) (V c main_arg7) (V c main_v6) t.val j (((cfg2.win 2).blk t).view.emb j) ?_ ?_ ?_ ?_
  · intro p k r hr
    show V c main_arg7 (((cfg2.win 0).blk t).view.emb (ix2 p k)) = V c main_arg7 (ix2 r k)
    refine congrArg _ (funext fun a => Fin.ext ?_)
    match a with
    | ⟨0, _⟩ => show win2_0.index t (0 : Fin 2) * 256 + 1 * p.val = r.val; rw [e0, hr]
    | ⟨1, _⟩ => show win2_0.index t (1 : Fin 2) * 8192 + 1 * k.val = k.val; rw [e1]; omega
  · intro k q
    show V c main_v6 (((cfg2.win 1).blk t).view.emb (ix2 k q)) = V c main_v6 (ix2 k q)
    refine congrArg _ (funext fun a => Fin.ext ?_)
    match a with
    | ⟨0, _⟩ => show win2_1.index t (0 : Fin 2) * 8192 + 1 * k.val = k.val; rw [e2]; omega
    | ⟨1, _⟩ => show win2_1.index t (1 : Fin 2) * 128 + 1 * q.val = q.val; rw [e3]; omega
  · show win2_2.index t (0 : Fin 2) * 256 + 1 * (j 0).val = _; rw [e4]
  · show win2_2.index t (1 : Fin 2) * 128 + 1 * (j 1).val = _; rw [e5]; omega

/-- An index of the output array is in point `t`'s block iff each coordinate is in the block's range on its axis. -/
theorem mem_blk (t : Fin cfg2.N) (i : S2048x128.Idx) :
    i ∈ ((cfg2.win 2).blk t).view.set ↔ ∀ a : Fin 2, win2_2.index t a * S256x128.size a ≤ (i a).val ∧ (i a).val < win2_2.index t a * S256x128.size a + S256x128.size a := by
  show i ∈ ((View.whole main_v7).slice (win2_2.rect t)).set ↔ _
  rw [View.set_slice_whole, Rect.mem_set_unit]
  exact Iff.rfl

/-- Row `R` of the output is written by grid point `R / 256`. -/
theorem cover (i : S2048x128.Idx) : ∃ t : Fin cfg2.N, (cfg2.win 2).flush t = true ∧ i ∈ ((cfg2.win 2).blk t).view.set := by
  have hi0 : (i 0).val < 2048 := (i 0).isLt
  have hi1 : (i 1).val < 128 := (i 1).isLt
  refine ⟨⟨(i 0).val / 256, by rw [show cfg2.N = 8 from N_2]; omega⟩, flush2_2 _, ?_⟩
  rw [mem_blk]
  obtain ⟨-, -, -, -, e4, e5⟩ := idx_facts ⟨(i 0).val / 256, by rw [show cfg2.N = 8 from N_2]; omega⟩
  intro a
  match a with
  | ⟨0, _⟩ => show win2_2.index _ (0 : Fin 2) * 256 ≤ (i 0).val ∧ (i 0).val < win2_2.index _ (0 : Fin 2) * 256 + 256; rw [e4]; show (i 0).val / 256 * 256 ≤ (i 0).val ∧ (i 0).val < (i 0).val / 256 * 256 + 256; omega
  | ⟨1, _⟩ => show win2_2.index _ (1 : Fin 2) * 128 ≤ (i 1).val ∧ (i 1).val < win2_2.index _ (1 : Fin 2) * 128 + 128; rw [e5]; omega

/-- After the region, the output array holds the product of the incidence matrix and the message matrix it was entered with. -/
theorem arr (c : Dev nD) :
    ((dat2 (F := Ideal) V c).arrAt 2 cfg2.N : S2048x128.Idx → EReal)
      = Cert.Spec.maskMM (V c main_arg7 : S2048x8192.Idx → EReal) (V c main_v6 : S8192x128.Idx → EReal) :=
  (dat2 (F := Ideal) V c).arrAt_eq_of_cover 2 (G V c) (fun t _ => flushed_eq V c t) cover

end Cert.KernelIdeal.MaskMM2

end
-- ==== Proof.MaskMM5.lean ====
/-
  The second node-sum stage (the second message-passing round): the same block product as the first, over the second
  round's incidence matrix and messages. One grid point multiplies 256 rows of the incidence matrix by the whole
  8192 × 128 message matrix; entry (p, q) of its block is the sum over all 8192 edges k of mask(256·t + p, k) · h(k, q),
  and the eight row blocks tile the 2048 rows, so the array ends holding the full product `mask · h`.
-/
import proofs.«122511_j30537217474923_2_alg».proof.Proof.Gen.KernelIdeal.Frame
import proofs.«122511_j30537217474923_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.MaskMM5

open Cert.KernelIdeal Cert.KernelIdeal.Gen Idealize.ShloMosaic Idealize.ShloMosaic.TcCoe Idealize.SL.Sem
open Idealize.ShloMosaic.ValueIdx
open Idealize.ShloMosaic.Pipeline (Dat)

local notation "D5" => dot_S256x8192_S8192x128_S256x128_1_0_0_1_n_n

theorem lhs0 (i : S256x128.Idx) (q : (D5).contr.Idx) : ((D5).lhsIdx i q 0).val = (i 0).val := by
  unfold DotDims.lhsIdx
  rw [dif_neg (show ¬(0 : Fin S256x8192.rank) ∈ (D5).lhsBatch by decide), dif_pos (show (0 : Fin S256x8192.rank) ∈ (D5).lhsNonContracting by decide)]
  rfl
theorem lhs1 (i : S256x128.Idx) (q : (D5).contr.Idx) : ((D5).lhsIdx i q 1).val = (q ⟨0, by decide⟩).val :=
  (D5).lhsIdx_val_of_single rfl i q
theorem rhs0 (i : S256x128.Idx) (q : (D5).contr.Idx) : ((D5).rhsIdx i q 0).val = (q ⟨0, by decide⟩).val :=
  (D5).rhsIdx_val_of_single rfl i q
theorem rhs1 (i : S256x128.Idx) (q : (D5).contr.Idx) : ((D5).rhsIdx i q 1).val = (i 1).val := by
  unfold DotDims.rhsIdx
  rw [dif_neg (show ¬(1 : Fin S8192x128.rank) ∈ (D5).rhsBatch by decide), dif_pos (show (1 : Fin S8192x128.rank) ∈ (D5).rhsNonContracting by decide)]
  rfl

/-- One entry of the block product: row `p` of the left block against column `q` of the right operand. -/
theorem pay_apply (x0 : Vec Ideal S256x8192 .f32) (x1 : Vec Ideal S8192x128 .bf16) (p : Fin 256) (q : Fin 128) :
    k5_pay1 (F := Ideal) x0 x1 (ix2 p q) = ∑ k : Fin 8192, x0 (ix2 p k) * x1 (ix2 k q) := by
  unfold k5_pay1
  rw [truncf_apply, shapeCast_self]
  refine (Ideal.matmul_constant_zero_apply (φ₁ := .bf16) (φ₂ := .bf16) (D5) none (truncf .bf16 x0 bitsLt_bf16_f32) x1 (ix2 p q)).trans ?_
  rw [← Equiv.sum_comp (contrEquiv1 (D5) 8192 rfl rfl).symm]
  refine Finset.sum_congr rfl fun k _ => ?_
  have hk := contrEquiv1_symm_val (D5) 8192 rfl rfl k
  have el : (D5).lhsIdx (ix2 p q) ((contrEquiv1 (D5) 8192 rfl rfl).symm k) = ix2 p k := funext fun a => Fin.ext (by
    match a with
    | ⟨0, _⟩ => exact lhs0 _ _
    | ⟨1, _⟩ => exact (lhs1 _ _).trans hk)
  have er : (D5).rhsIdx (ix2 p q) ((contrEquiv1 (D5) 8192 rfl rfl).symm k) = ix2 k q := funext fun a => Fin.ext (by
    match a with
    | ⟨0, _⟩ => exact (rhs0 _ _).trans hk
    | ⟨1, _⟩ => exact rhs1 _ _)
  rw [el, er]
  rfl

/-- The same entry, for a left block that is rows `T·256 …` of a taller matrix `A` and a right operand that is all of `B`:
    entry `j` of the block product is entry `i` of `A · B` when `i` is `j` moved down by `T` blocks. -/
theorem block_entry (x0 : Vec Ideal S256x8192 .f32) (x1 : Vec Ideal S8192x128 .bf16)
    (A : S2048x8192.Idx → EReal) (B : S8192x128.Idx → EReal) (T : ℕ) (j : S256x128.Idx) (i : S2048x128.Idx)
    (h0 : ∀ (p : Fin 256) (k : Fin 8192) (r : Fin 2048), r.val = T * 256 + 1 * p.val → x0 (ix2 p k) = A (ix2 r k))
    (h1 : ∀ (k : Fin 8192) (q : Fin 128), x1 (ix2 k q) = B (ix2 k q))
    (hi0 : (i 0).val = T * 256 + 1 * (j 0).val) (hi1 : (i 1).val = (j 1).val) :
    k5_pay1 (F := Ideal) x0 x1 j = Cert.Spec.maskMM A B i := by
  obtain ⟨p, q, rfl⟩ : ∃ (p : Fin 256) (q : Fin 128), j = ix2 p q := ⟨j 0, j 1, eq_ix2 j⟩
  obtain ⟨r, s, rfl⟩ : ∃ (r : Fin 2048) (s : Fin 128), i = ix2 r s := ⟨i 0, i 1, eq_ix2 i⟩
  obtain rfl : s = q := Fin.ext hi1
  rw [pay_apply]
  show _ = ∑ x : Fin 8192, A (ix2 r x) * B (ix2 x s)
  exact Finset.sum_congr rfl fun k _ => by rw [h0 p k r hi0, h1]

theorem hz : (![0, 0] : Fin 2 → Nat) = fun _ => 0 := funext fun a => by fin_cases a <;> rfl

/-- The printed index maps over the grid: the left operand's and the output's block row is the grid point, the right
    operand is one block. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

variable (V : (c : Dev nD) → (b : Ref sig .tc) → Buf (Elt Ideal) ((c : Thread nD τ).loc b))

/-- The product of the whole incidence matrix with the whole message matrix, as the region finds them. -/
abbrev G (c : Dev nD) : S2048x128.Idx → EReal :=
  Cert.Spec.maskMM (V c main_arg9 : S2048x8192.Idx → EReal) (V c main_v13 : S8192x128.Idx → EReal)

/-- What grid point `t` writes back is rows `256·t … 256·t + 255` of the product. -/
theorem flushed_eq (c : Dev nD) (t : Fin cfg5.N) :
    (dat5 (F := Ideal) V c).flushed 2 t = ((cfg5.win 2).blk t).view.read (Elt Ideal) (G V c) := by
  show (cfg5.win 2).cut (grid5.coords t) ((dat5 V c).after 2 t) = _
  rw [after5_2]
  unfold out5_2
  rw [View.canon_unit_zero hz]
  simp only [View.ld_unit_zero (S := S256x8192) hz, View.ld_unit_zero (S := S8192x128) hz]
  obtain ⟨e0, e1, e2, e3, e4, e5⟩ := idx_facts t
  funext j
  show k5_pay1 (F := Ideal) (iblk5 V c 0 t) (iblk5 V c 1 t) j = Cert.Spec.maskMM _ _ (((cfg5.win 2).blk t).view.emb j)
  refine block_entry (iblk5 V c 0 t) (iblk5 V c 1 t) (V c main_arg9) (V c main_v13) t.val j (((cfg5.win 2).blk t).view.emb j) ?_ ?_ ?_ ?_
  · intro p k r hr
    show V c main_arg9 (((cfg5.win 0).blk t).view.emb (ix2 p k)) = V c main_arg9 (ix2 r k)
    refine congrArg _ (funext fun a => Fin.ext ?_)
    match a with
    | ⟨0, _⟩ => show win5_0.index t (0 : Fin 2) * 256 + 1 * p.val = r.val; rw [e0, hr]
    | ⟨1, _⟩ => show win5_0.index t (1 : Fin 2) * 8192 + 1 * k.val = k.val; rw [e1]; omega
  · intro k q
    show V c main_v13 (((cfg5.win 1).blk t).view.emb (ix2 k q)) = V c main_v13 (ix2 k q)
    refine congrArg _ (funext fun a => Fin.ext ?_)
    match a with
    | ⟨0, _⟩ => show win5_1.index t (0 : Fin 2) * 8192 + 1 * k.val = k.val; rw [e2]; omega
    | ⟨1, _⟩ => show win5_1.index t (1 : Fin 2) * 128 + 1 * q.val = q.val; rw [e3]; omega
  · show win5_2.index t (0 : Fin 2) * 256 + 1 * (j 0).val = _; rw [e4]
  · show win5_2.index t (1 : Fin 2) * 128 + 1 * (j 1).val = _; rw [e5]; omega

/-- An index of the output array is in point `t`'s block iff each coordinate is in the block's range on its axis. -/
theorem mem_blk (t : Fin cfg5.N) (i : S2048x128.Idx) :
    i ∈ ((cfg5.win 2).blk t).view.set ↔ ∀ a : Fin 2, win5_2.index t a * S256x128.size a ≤ (i a).val ∧ (i a).val < win5_2.index t a * S256x128.size a + S256x128.size a := by
  show i ∈ ((View.whole main_v14).slice (win5_2.rect t)).set ↔ _
  rw [View.set_slice_whole, Rect.mem_set_unit]
  exact Iff.rfl

/-- Row `R` of the output is written by grid point `R / 256`. -/
theorem cover (i : S2048x128.Idx) : ∃ t : Fin cfg5.N, (cfg5.win 2).flush t = true ∧ i ∈ ((cfg5.win 2).blk t).view.set := by
  have hi0 : (i 0).val < 2048 := (i 0).isLt
  have hi1 : (i 1).val < 128 := (i 1).isLt
  refine ⟨⟨(i 0).val / 256, by rw [show cfg5.N = 8 from N_5]; omega⟩, flush5_2 _, ?_⟩
  rw [mem_blk]
  obtain ⟨-, -, -, -, e4, e5⟩ := idx_facts ⟨(i 0).val / 256, by rw [show cfg5.N = 8 from N_5]; omega⟩
  intro a
  match a with
  | ⟨0, _⟩ => show win5_2.index _ (0 : Fin 2) * 256 ≤ (i 0).val ∧ (i 0).val < win5_2.index _ (0 : Fin 2) * 256 + 256; rw [e4]; show (i 0).val / 256 * 256 ≤ (i 0).val ∧ (i 0).val < (i 0).val / 256 * 256 + 256; omega
  | ⟨1, _⟩ => show win5_2.index _ (1 : Fin 2) * 128 ≤ (i 1).val ∧ (i 1).val < win5_2.index _ (1 : Fin 2) * 128 + 128; rw [e5]; omega

/-- After the region, the output array holds the product of the incidence matrix and the message matrix it was entered with. -/
theorem arr (c : Dev nD) :
    ((dat5 (F := Ideal) V c).arrAt 2 cfg5.N : S2048x128.Idx → EReal)
      = Cert.Spec.maskMM (V c main_arg9 : S2048x8192.Idx → EReal) (V c main_v13 : S8192x128.Idx → EReal) :=
  (dat5 (F := Ideal) V c).arrAt_eq_of_cover 2 (G V c) (fun t _ => flushed_eq V c t) cover

end Cert.KernelIdeal.MaskMM5

end
-- ==== Proof.KValB.lean ====
/-
  What each buffer holds where it is read, second part: the two branches up to the node sums. In each branch the
  per-edge transform leaves `relu([dec | edge | graph] · W₁ + b₁) · W₂ + b₂` in its output array, and the node-sum stage
  the product of the incidence matrix with that; every later region finds these arrays untouched.
-/
import proofs.«122511_j30537217474923_2_alg».proof.Proof.KValA
import proofs.«122511_j30537217474923_2_alg».proof.Proof.HeadMlp1
import proofs.«122511_j30537217474923_2_alg».proof.Proof.HeadMlp4
import proofs.«122511_j30537217474923_2_alg».proof.Proof.MaskMM2
import proofs.«122511_j30537217474923_2_alg».proof.Proof.MaskMM5

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg) (c : Dev nD)

theorem v6_at4 : (W4 m ρ c (Proc.devRef .tc main_v6) : S8192x128.Idx → EReal) = hv m c := by
  refine (W4_arr m ρ c 7).trans ((HeadMlp1.arr (V3 m ρ) c).trans ?_)
  show Cert.Spec.headMlp (W3 m ρ c (Proc.devRef .tc main_arg2) : S8192x128.Idx → EReal) (W3 m ρ c (Proc.devRef .tc main_arg4) : S8192x2.Idx → EReal) (W3 m ρ c (Proc.devRef .tc main_v3_1) : S8192x4.Idx → EReal) (W3 m ρ c (Proc.devRef .tc main_arg12) : S134x256.Idx → EReal) (W3 m ρ c (Proc.devRef .tc main_v4) : S1x256.Idx → EReal) (W3 m ρ c (Proc.devRef .tc main_arg14) : S256x128.Idx → EReal) (W3 m ρ c (Proc.devRef .tc main_v5) : S1x128.Idx → EReal) = _
  rw [arg2_at3 m ρ c, arg4_at3 m ρ c, v3_1_at3 m ρ c, arg12_at3 m ρ c, v4_at3 m ρ c, arg14_at3 m ρ c, v5_at3 m ρ c]
  rfl

theorem v7_at5 : (W5 m ρ c (Proc.devRef .tc main_v7) : S2048x128.Idx → EReal) = Cert.Spec.mm (m ((c : Thread nD τ).loc main_arg7) : S2048x8192.Idx → EReal) (hv m c) := by
  refine (W5_arr m ρ c 2).trans ((MaskMM2.arr (V4 m ρ) c).trans ?_)
  show Cert.Spec.maskMM (W4 m ρ c (Proc.devRef .tc main_arg7) : S2048x8192.Idx → EReal) (W4 m ρ c (Proc.devRef .tc main_v6) : S8192x128.Idx → EReal) = _
  rw [arg7_at4 m ρ c, v6_at4 m ρ c]
  rfl

theorem v8_at6 : (W6 m ρ c (Proc.devRef .tc main_v8) : S1x128.Idx → EReal) = Cert.Spec.row (m ((c : Thread nD τ).loc main_arg17) : S128.Idx → EReal) := by
  have h : (W6 m ρ c (Proc.devRef .tc main_v8) : S1x128.Idx → EReal) = shapeCast S1x128 (W5 m ρ c (Proc.devRef .tc main_arg17) : S128.Idx → EReal) shapeCasts_S128_S1x128 := by
    show StableHlo.after hostOps3 (W5 m ρ c) (Proc.devRef .tc main_v8) = _
    after_results
    rfl
  rw [h, arg17_at5 m ρ c]
  exact HostGlue.reshape128 _

theorem v9_at6 : (W6 m ρ c (Proc.devRef .tc main_v9) : S1x128.Idx → EReal) = Cert.Spec.row (m ((c : Thread nD τ).loc main_arg19) : S128.Idx → EReal) := by
  have h : (W6 m ρ c (Proc.devRef .tc main_v9) : S1x128.Idx → EReal) = shapeCast S1x128 (W5 m ρ c (Proc.devRef .tc main_arg19) : S128.Idx → EReal) shapeCasts_S128_S1x128 := by
    show StableHlo.after hostOps3 (W5 m ρ c) (Proc.devRef .tc main_v9) = _
    after_results
    rfl
  rw [h, arg19_at5 m ρ c]
  exact HostGlue.reshape128 _

theorem v7_at6 : (W6 m ρ c (Proc.devRef .tc main_v7) : S2048x128.Idx → EReal) = Cert.Spec.mm (m ((c : Thread nD τ).loc main_arg7) : S2048x8192.Idx → EReal) (hv m c) := (Travel.v7_s6 m ρ c).trans (v7_at5 m ρ c)

theorem v6_at6 : (W6 m ρ c (Proc.devRef .tc main_v6) : S8192x128.Idx → EReal) = hv m c := ((Travel.v6_s6 m ρ c).trans (Travel.v6_s5 m ρ c)).trans (v6_at4 m ρ c)

theorem v3_0_at6 : (W6 m ρ c (Proc.devRef .tc main_v3_0) : S8192x1.Idx → EReal) = mask m c := ((Travel.v3_0_s6 m ρ c).trans ((Travel.v3_0_s5 m ρ c).trans ((Travel.v3_0_s4 m ρ c).trans (Travel.v3_0_s3 m ρ c)))).trans (v3_0_at2 m ρ c)

theorem v11_at8 : (W8 m ρ c (Proc.devRef .tc main_v11) : S1x256.Idx → EReal) = Cert.Spec.row (m ((c : Thread nD τ).loc main_arg21) : S256.Idx → EReal) := by
  have h : (W8 m ρ c (Proc.devRef .tc main_v11) : S1x256.Idx → EReal) = shapeCast S1x256 (W7 m ρ c (Proc.devRef .tc main_arg21) : S256.Idx → EReal) shapeCasts_S256_S1x256 := by
    show StableHlo.after hostOps4 (W7 m ρ c) (Proc.devRef .tc main_v11) = _
    after_results
    rfl
  rw [h, arg21_at7 m ρ c]
  exact HostGlue.reshape256 _

theorem v12_at8 : (W8 m ρ c (Proc.devRef .tc main_v12) : S1x128.Idx → EReal) = Cert.Spec.row (m ((c : Thread nD τ).loc main_arg23) : S128.Idx → EReal) := by
  have h : (W8 m ρ c (Proc.devRef .tc main_v12) : S1x128.Idx → EReal) = shapeCast S1x128 (W7 m ρ c (Proc.devRef .tc main_arg23) : S128.Idx → EReal) shapeCasts_S128_S1x128 := by
    show StableHlo.after hostOps4 (W7 m ρ c) (Proc.devRef .tc main_v12) = _
    after_results
    rfl
  rw [h, arg23_at7 m ρ c]
  exact HostGlue.reshape128 _

theorem v3_1_at8 : (W8 m ρ c (Proc.devRef .tc main_v3_1) : S8192x4.Idx → EReal) = graph m c := ((Travel.v3_1_s8 m ρ c).trans ((Travel.v3_1_s7 m ρ c).trans ((Travel.v3_1_s6 m ρ c).trans ((Travel.v3_1_s5 m ρ c).trans ((Travel.v3_1_s4 m ρ c).trans (Travel.v3_1_s3 m ρ c)))))).trans (v3_1_at2 m ρ c)

theorem v13_at9 : (W9 m ρ c (Proc.devRef .tc main_v13) : S8192x128.Idx → EReal) = hf m c := by
  refine (W9_arr m ρ c 7).trans ((HeadMlp4.arr (V8 m ρ) c).trans ?_)
  show Cert.Spec.headMlp (W8 m ρ c (Proc.devRef .tc main_arg3) : S8192x128.Idx → EReal) (W8 m ρ c (Proc.devRef .tc main_arg4) : S8192x2.Idx → EReal) (W8 m ρ c (Proc.devRef .tc main_v3_1) : S8192x4.Idx → EReal) (W8 m ρ c (Proc.devRef .tc main_arg20) : S134x256.Idx → EReal) (W8 m ρ c (Proc.devRef .tc main_v11) : S1x256.Idx → EReal) (W8 m ρ c (Proc.devRef .tc main_arg22) : S256x128.Idx → EReal) (W8 m ρ c (Proc.devRef .tc main_v12) : S1x128.Idx → EReal) = _
  rw [arg3_at8 m ρ c, arg4_at8 m ρ c, v3_1_at8 m ρ c, arg20_at8 m ρ c, v11_at8 m ρ c, arg22_at8 m ρ c, v12_at8 m ρ c]
  rfl

theorem v14_at10 : (W10 m ρ c (Proc.devRef .tc main_v14) : S2048x128.Idx → EReal) = Cert.Spec.mm (m ((c : Thread nD τ).loc main_arg9) : S2048x8192.Idx → EReal) (hf m c) := by
  refine (W10_arr m ρ c 2).trans ((MaskMM5.arr (V9 m ρ) c).trans ?_)
  show Cert.Spec.maskMM (W9 m ρ c (Proc.devRef .tc main_arg9) : S2048x8192.Idx → EReal) (W9 m ρ c (Proc.devRef .tc main_v13) : S8192x128.Idx → EReal) = _
  rw [arg9_at9 m ρ c, v13_at9 m ρ c]
  rfl

theorem v15_at11 : (W11 m ρ c (Proc.devRef .tc main_v15) : S1x128.Idx → EReal) = Cert.Spec.row (m ((c : Thread nD τ).loc main_arg25) : S128.Idx → EReal) := by
  have h : (W11 m ρ c (Proc.devRef .tc main_v15) : S1x128.Idx → EReal) = shapeCast S1x128 (W10 m ρ c (Proc.devRef .tc main_arg25) : S128.Idx → EReal) shapeCasts_S128_S1x128 := by
    show StableHlo.after hostOps6 (W10 m ρ c) (Proc.devRef .tc main_v15) = _
    after_results
    rfl
  rw [h, arg25_at10 m ρ c]
  exact HostGlue.reshape128 _

theorem v16_at11 : (W11 m ρ c (Proc.devRef .tc main_v16) : S1x128.Idx → EReal) = Cert.Spec.row (m ((c : Thread nD τ).loc main_arg27) : S128.Idx → EReal) := by
  have h : (W11 m ρ c (Proc.devRef .tc main_v16) : S1x128.Idx → EReal) = shapeCast S1x128 (W10 m ρ c (Proc.devRef .tc main_arg27) : S128.Idx → EReal) shapeCasts_S128_S1x128 := by
    show StableHlo.after hostOps6 (W10 m ρ c) (Proc.devRef .tc main_v16) = _
    after_results
    rfl
  rw [h, arg27_at10 m ρ c]
  exact HostGlue.reshape128 _

theorem v14_at11 : (W11 m ρ c (Proc.devRef .tc main_v14) : S2048x128.Idx → EReal) = Cert.Spec.mm (m ((c : Thread nD τ).loc main_arg9) : S2048x8192.Idx → EReal) (hf m c) := (Travel.v14_s11 m ρ c).trans (v14_at10 m ρ c)

theorem v13_at11 : (W11 m ρ c (Proc.devRef .tc main_v13) : S8192x128.Idx → EReal) = hf m c := ((Travel.v13_s11 m ρ c).trans (Travel.v13_s10 m ρ c)).trans (v13_at9 m ρ c)

theorem v3_0_at11 : (W11 m ρ c (Proc.devRef .tc main_v3_0) : S8192x1.Idx → EReal) = mask m c := ((Travel.v3_0_s11 m ρ c).trans ((Travel.v3_0_s10 m ρ c).trans ((Travel.v3_0_s9 m ρ c).trans ((Travel.v3_0_s8 m ρ c).trans ((Travel.v3_0_s7 m ρ c).trans ((Travel.v3_0_s6 m ρ c).trans ((Travel.v3_0_s5 m ρ c).trans ((Travel.v3_0_s4 m ρ c).trans (Travel.v3_0_s3 m ρ c))))))))).trans (v3_0_at2 m ρ c)

end Cert.KernelIdeal.KVal

end
-- ==== Proof.BlendRows.lean ====
import proofs.«122511_j30537217474923_2_alg».proof.Proof.Spec

noncomputable section

open scoped BigOperators

namespace Cert.Spec

open Idealize.ShloMosaic Idealize.ShloMosaic.ValueIdx

/-! Every operation the blend is made of works row by row: row `r` of the result is a function of row `r` of each
    tall operand (and of the whole of each small one). So a block of rows of the result is the same composite of the
    corresponding blocks of rows of the operands: this is what lets a kernel compute the whole array a block of rows
    at a time. -/

/-- `A'` is `A` with its rows picked by `ρ`: row `r` of `A'` is row `ρ r` of `A`. -/
def RowsOf {e e' b : ℕ} (ρ : Fin e' → Fin e) (A' : Mat e' b) (A : Mat e b) : Prop :=
  ∀ (r : Fin e') (x : Fin b), A' (ix2 r x) = A (ix2 (ρ r) x)

theorem RowsOf.mm {e e' k b : ℕ} {ρ : Fin e' → Fin e} {A' : Mat e' k} {A : Mat e k} (hA : RowsOf ρ A' A) (B : Mat k b) :
    RowsOf ρ (mm A' B) (mm A B) := by
  intro r x
  show ∑ y : Fin k, A' (ix2 r y) * B (ix2 y x) = ∑ y : Fin k, A (ix2 (ρ r) y) * B (ix2 y x)
  exact Finset.sum_congr rfl fun y _ => by rw [hA r y]

theorem RowsOf.addRow {e e' b : ℕ} {ρ : Fin e' → Fin e} {A' : Mat e' b} {A : Mat e b} (hA : RowsOf ρ A' A) (c : Mat 1 b) :
    RowsOf ρ (addRow A' c) (addRow A c) := by
  intro r x
  show A' (ix2 r x) + c (ix2 (0 : Fin 1) x) = A (ix2 (ρ r) x) + c (ix2 (0 : Fin 1) x)
  rw [hA r x]

theorem RowsOf.relu {e e' b : ℕ} {ρ : Fin e' → Fin e} {A' : Mat e' b} {A : Mat e b} (hA : RowsOf ρ A' A) :
    RowsOf ρ (relu A') (relu A) := by
  intro r x
  show max (A' (ix2 r x)) zeroW = max (A (ix2 (ρ r) x)) zeroW
  rw [hA r x]

theorem RowsOf.sub {e e' b : ℕ} {ρ : Fin e' → Fin e} {A' B' : Mat e' b} {A B : Mat e b} (hA : RowsOf ρ A' A)
    (hB : RowsOf ρ B' B) : RowsOf ρ (sub A' B') (sub A B) := by
  intro r x
  show A' (ix2 r x) - B' (ix2 r x) = A (ix2 (ρ r) x) - B (ix2 (ρ r) x)
  rw [hA r x, hB r x]

theorem RowsOf.hcat {e e' p q : ℕ} {ρ : Fin e' → Fin e} {A' : Mat e' p} {A : Mat e p} {B' : Mat e' q} {B : Mat e q}
    (n : ℕ) (hn : n = p + q) (hA : RowsOf ρ A' A) (hB : RowsOf ρ B' B) : RowsOf ρ (hcat n hn A' B') (hcat n hn A B) := by
  intro r x
  show (if h : x.val < p then A' (ix2 r ⟨x.val, h⟩) else B' (ix2 r ⟨x.val - p, _⟩))
    = (if h : x.val < p then A (ix2 (ρ r) ⟨x.val, h⟩) else B (ix2 (ρ r) ⟨x.val - p, _⟩))
  split
  · exact hA _ _
  · exact hB _ _

/-- The blend of a block of rows is that block of rows of the blend. -/
theorem blend_rows {e e' v : ℕ} (ρ : Fin e' → Fin e) {mt' : Mat e' v} {mt : Mat e v} (vs : Mat v 128)
    {h' : Mat e' 128} {h : Mat e 128} {edge' : Mat e' 2} {edge : Mat e 2} {m' : Mat e' 1} {m : Mat e 1}
    {orig' : Mat e' 128} {orig : Mat e 128} (a1 : Mat 130 128) (c1 : Mat 1 128) (a2 : Mat 128 128) (c2 : Mat 1 128)
    (hmt : RowsOf ρ mt' mt) (hh : RowsOf ρ h' h) (hedge : RowsOf ρ edge' edge) (hm : RowsOf ρ m' m)
    (horig : RowsOf ρ orig' orig) :
    RowsOf ρ (blend mt' vs h' edge' m' orig' a1 c1 a2 c2) (blend mt vs h edge m orig a1 c1 a2 c2) := by
  intro r x
  have hnew := ((((((hmt.mm vs).sub hh).hcat 130 rfl hedge).mm a1).addRow c1).relu.mm a2).addRow c2
  show m' (ix2 r (0 : Fin 1)) * _ + (oneW - m' (ix2 r (0 : Fin 1))) * orig' (ix2 r x)
    = m (ix2 (ρ r) (0 : Fin 1)) * _ + (oneW - m (ix2 (ρ r) (0 : Fin 1))) * orig (ix2 (ρ r) x)
  rw [hm r 0, horig r x, hnew r x]

end Cert.Spec

end
-- ==== Proof.BlendOps.lean ====
/-
  The non-pointwise operations of the aggregate / transform / blend body, each read as an operation on matrices of
  extended reals: a matrix-unit product into the zero accumulator is the matrix product (the one contracted axis
  re-indexed by its coordinate), the concatenation along the columns lays two blocks side by side, a `[1, 128]` row
  broadcast down a block and then added is a bias row, a `[1024, 1]` column broadcast along the rows reads the
  column's entry of the row, and the maximum with the zero word is the positive part. A change of float format is the
  identity on extended reals, so it does not appear.
-/
import proofs.«122511_j30537217474923_2_alg».proof.Proof.Gen.KernelIdeal
import proofs.«122511_j30537217474923_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BlendOps

open Cert.KernelIdeal Cert.KernelIdeal.Gen Idealize.ShloMosaic Idealize.ShloMosaic.TcCoe Idealize.SL.Sem
open Idealize.ShloMosaic.ValueIdx Cert.Spec

/-- The product of a `1024 × 2048` block against a `2048 × 128` matrix into the zero accumulator is the matrix product:
    the one contracted axis re-indexed by its coordinate. -/
theorem matmul_mask_vsum (A : FVec Ideal S1024x2048 .bf16) (B : FVec Ideal S2048x128 .bf16) :
    (FloatOps.matmul dot_S1024x2048_S2048x128_S1024x128_1_0_0_1_n_n none A B (constant (F := Ideal) S1024x128 .f32 0x00000000#32) : S1024x128.Idx → EReal) = mm (k := 2048) A B := by
  funext i
  rw [Ideal.matmul_constant_zero_apply, ← Equiv.sum_comp (ValueIdx.contrEquiv1 dot_S1024x2048_S2048x128_S1024x128_1_0_0_1_n_n 2048 rfl rfl).symm]
  unfold mm
  refine Finset.sum_congr rfl fun x _ => ?_
  have hx := ValueIdx.contrEquiv1_symm_val dot_S1024x2048_S2048x128_S1024x128_1_0_0_1_n_n 2048 rfl rfl x
  have el : dot_S1024x2048_S2048x128_S1024x128_1_0_0_1_n_n.lhsIdx i ((ValueIdx.contrEquiv1 dot_S1024x2048_S2048x128_S1024x128_1_0_0_1_n_n 2048 rfl rfl).symm x) = ix2 (i 0) x := funext fun ax => Fin.ext (by
    match ax with
    | ⟨0, _⟩ =>
      show (dot_S1024x2048_S2048x128_S1024x128_1_0_0_1_n_n.lhsIdx i _ 0).val = (i 0).val
      unfold DotDims.lhsIdx
      rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
      rfl
    | ⟨1, _⟩ => exact (dot_S1024x2048_S2048x128_S1024x128_1_0_0_1_n_n.lhsIdx_val_of_single rfl i _).trans hx)
  have er : dot_S1024x2048_S2048x128_S1024x128_1_0_0_1_n_n.rhsIdx i ((ValueIdx.contrEquiv1 dot_S1024x2048_S2048x128_S1024x128_1_0_0_1_n_n 2048 rfl rfl).symm x) = ix2 x (i 1) := funext fun ax => Fin.ext (by
    match ax with
    | ⟨0, _⟩ => exact (dot_S1024x2048_S2048x128_S1024x128_1_0_0_1_n_n.rhsIdx_val_of_single rfl i _).trans hx
    | ⟨1, _⟩ =>
      show (dot_S1024x2048_S2048x128_S1024x128_1_0_0_1_n_n.rhsIdx i _ 1).val = (i 1).val
      unfold DotDims.rhsIdx
      rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
      rfl)
  rw [el, er]
  rfl

/-- The product of a `1024 × 130` block against a `130 × 128` matrix into the zero accumulator is the matrix product:
    the one contracted axis re-indexed by its coordinate. -/
theorem matmul_first_layer (A : FVec Ideal S1024x130 .bf16) (B : FVec Ideal S130x128 .bf16) :
    (FloatOps.matmul dot_S1024x130_S130x128_S1024x128_1_0_0_1_n_n none A B (constant (F := Ideal) S1024x128 .f32 0x00000000#32) : S1024x128.Idx → EReal) = mm (k := 130) A B := by
  funext i
  rw [Ideal.matmul_constant_zero_apply, ← Equiv.sum_comp (ValueIdx.contrEquiv1 dot_S1024x130_S130x128_S1024x128_1_0_0_1_n_n 130 rfl rfl).symm]
  unfold mm
  refine Finset.sum_congr rfl fun x _ => ?_
  have hx := ValueIdx.contrEquiv1_symm_val dot_S1024x130_S130x128_S1024x128_1_0_0_1_n_n 130 rfl rfl x
  have el : dot_S1024x130_S130x128_S1024x128_1_0_0_1_n_n.lhsIdx i ((ValueIdx.contrEquiv1 dot_S1024x130_S130x128_S1024x128_1_0_0_1_n_n 130 rfl rfl).symm x) = ix2 (i 0) x := funext fun ax => Fin.ext (by
    match ax with
    | ⟨0, _⟩ =>
      show (dot_S1024x130_S130x128_S1024x128_1_0_0_1_n_n.lhsIdx i _ 0).val = (i 0).val
      unfold DotDims.lhsIdx
      rw [dif_neg (show ¬(0 : Fin S1024x130.rank) ∈ dot_S1024x130_S130x128_S1024x128_1_0_0_1_n_n.lhsBatch by decide), dif_pos (show (0 : Fin S1024x130.rank) ∈ dot_S1024x130_S130x128_S1024x128_1_0_0_1_n_n.lhsNonContracting by decide)]
      rfl
    | ⟨1, _⟩ => exact (dot_S1024x130_S130x128_S1024x128_1_0_0_1_n_n.lhsIdx_val_of_single rfl i _).trans hx)
  have er : dot_S1024x130_S130x128_S1024x128_1_0_0_1_n_n.rhsIdx i ((ValueIdx.contrEquiv1 dot_S1024x130_S130x128_S1024x128_1_0_0_1_n_n 130 rfl rfl).symm x) = ix2 x (i 1) := funext fun ax => Fin.ext (by
    match ax with
    | ⟨0, _⟩ => exact (dot_S1024x130_S130x128_S1024x128_1_0_0_1_n_n.rhsIdx_val_of_single rfl i _).trans hx
    | ⟨1, _⟩ =>
      show (dot_S1024x130_S130x128_S1024x128_1_0_0_1_n_n.rhsIdx i _ 1).val = (i 1).val
      unfold DotDims.rhsIdx
      rw [dif_neg (show ¬(1 : Fin S130x128.rank) ∈ dot_S1024x130_S130x128_S1024x128_1_0_0_1_n_n.rhsBatch by decide), dif_pos (show (1 : Fin S130x128.rank) ∈ dot_S1024x130_S130x128_S1024x128_1_0_0_1_n_n.rhsNonContracting by decide)]
      rfl)
  rw [el, er]
  rfl

/-- The product of a `1024 × 128` block against a `128 × 128` matrix into the zero accumulator is the matrix product:
    the one contracted axis re-indexed by its coordinate. -/
theorem matmul_second_layer (A : FVec Ideal S1024x128 .bf16) (B : FVec Ideal S128x128 .bf16) :
    (FloatOps.matmul dot_S1024x128_S128x128_S1024x128_1_0_0_1_n_n none A B (constant (F := Ideal) S1024x128 .f32 0x00000000#32) : S1024x128.Idx → EReal) = mm (k := 128) A B := by
  funext i
  rw [Ideal.matmul_constant_zero_apply, ← Equiv.sum_comp (ValueIdx.contrEquiv1 dot_S1024x128_S128x128_S1024x128_1_0_0_1_n_n 128 rfl rfl).symm]
  unfold mm
  refine Finset.sum_congr rfl fun x _ => ?_
  have hx := ValueIdx.contrEquiv1_symm_val dot_S1024x128_S128x128_S1024x128_1_0_0_1_n_n 128 rfl rfl x
  have el : dot_S1024x128_S128x128_S1024x128_1_0_0_1_n_n.lhsIdx i ((ValueIdx.contrEquiv1 dot_S1024x128_S128x128_S1024x128_1_0_0_1_n_n 128 rfl rfl).symm x) = ix2 (i 0) x := funext fun ax => Fin.ext (by
    match ax with
    | ⟨0, _⟩ =>
      show (dot_S1024x128_S128x128_S1024x128_1_0_0_1_n_n.lhsIdx i _ 0).val = (i 0).val
      unfold DotDims.lhsIdx
      rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
      rfl
    | ⟨1, _⟩ => exact (dot_S1024x128_S128x128_S1024x128_1_0_0_1_n_n.lhsIdx_val_of_single rfl i _).trans hx)
  have er : dot_S1024x128_S128x128_S1024x128_1_0_0_1_n_n.rhsIdx i ((ValueIdx.contrEquiv1 dot_S1024x128_S128x128_S1024x128_1_0_0_1_n_n 128 rfl rfl).symm x) = ix2 x (i 1) := funext fun ax => Fin.ext (by
    match ax with
    | ⟨0, _⟩ => exact (dot_S1024x128_S128x128_S1024x128_1_0_0_1_n_n.rhsIdx_val_of_single rfl i _).trans hx
    | ⟨1, _⟩ =>
      show (dot_S1024x128_S128x128_S1024x128_1_0_0_1_n_n.rhsIdx i _ 1).val = (i 1).val
      unfold DotDims.rhsIdx
      rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
      rfl)
  rw [el, er]
  rfl

/-- The aggregate block and the edge-feature block laid side by side along the columns. -/
theorem concat_agg_edge (A : FVec Ideal S1024x128 .f32) (B : Vec Ideal S1024x2 .f32) :
    (concatenate S1024x130 1 [⟨S1024x128, A⟩, ⟨S1024x2, B⟩] concatenates_S1024x128_S1024x2_S1024x130_d1 : S1024x130.Idx → EReal)
      = hcat 130 rfl A B := by
  funext i
  obtain ⟨p, q, rfl⟩ : ∃ (p : Fin 1024) (q : Fin 130), i = ix2 p q := ⟨i 0, i 1, eq_ix2 i⟩
  show _ = if h : q.val < 128 then A (ix2 p ⟨q.val, h⟩) else B (ix2 p ⟨q.val - 128, _⟩)
  by_cases hq : q.val < 128
  · rw [dif_pos hq]
    exact concatenate_pair_apply_left (1 : Fin 2) A B _ (ix2 p q) rfl (ix2 p ⟨q.val, hq⟩)
      (fun b => by match b with | ⟨0, _⟩ => rfl | ⟨1, _⟩ => rfl)
  · rw [dif_neg hq]
    exact concatenate_pair_apply_right (1 : Fin 2) A B _ (ix2 p q) rfl rfl (ix2 p ⟨q.val - 128, by have := q.isLt; omega⟩)
      (fun b hb => by match b with | ⟨0, _⟩ => rfl | ⟨1, _⟩ => exact absurd rfl hb)
      (by show (q.val - 128) + 128 = q.val; omega)

/-- A column spread along each row: entry `(p, q)` of the broadcast is the column's entry at row `p`. -/
theorem bcast_col (v : FVec Ideal S1024x1 .f32) (p : Fin 1024) (q : Fin 128) :
    broadcastTo S1024x128 v broadcasts_S1024x1_S1024x128 (ix2 p q) = v (ix2 p (0 : Fin 1)) := by
  refine broadcastTo_apply v _ (ix2 p q) (ix2 p (0 : Fin 1)) fun ax => ?_
  match ax with
  | ⟨0, _⟩ => rfl
  | ⟨1, _⟩ => rfl

/-- A row spread down the rows: entry `(p, q)` of the broadcast is the row's entry at column `q`. -/
theorem bcast_row (v : FVec Ideal S1x128 .f32) (p : Fin 1024) (q : Fin 128) :
    broadcastTo S1024x128 v broadcasts_S1x128_S1024x128 (ix2 p q) = v (ix2 (0 : Fin 1) q) :=
  broadcastTo_1b_ab_apply v _ p q

/-- A bias row added to every row of a block. -/
theorem add_bias (A : FVec Ideal S1024x128 .f32) (c : FVec Ideal S1x128 .f32) :
    (addf A (broadcastTo S1024x128 c broadcasts_S1x128_S1024x128) : S1024x128.Idx → EReal) = addRow A c := by
  funext i
  obtain ⟨p, q, rfl⟩ : ∃ (p : Fin 1024) (q : Fin 128), i = ix2 p q := ⟨i 0, i 1, eq_ix2 i⟩
  show A (ix2 p q) + broadcastTo S1024x128 c broadcasts_S1x128_S1024x128 (ix2 p q) = A (ix2 p q) + c (ix2 (0 : Fin 1) q)
  rw [bcast_row]

/-- The maximum with the zero word is the positive part. -/
theorem max_zero (A : FVec Ideal S1024x128 .f32) :
    (maximumf A (broadcast S1024x128 (Scalar.ofBits .f32 0x00000000#32 : Ideal .f32)) : S1024x128.Idx → EReal) = relu A := rfl

end Cert.KernelIdeal.BlendOps

end
-- ==== Proof.Blend3Pay.lean ====
/-
  One grid point of the aggregate / transform / blend stage, as mathematics. The point holds 1024 rows of the transposed
  incidence matrix, of the per-edge messages, of the edge features, of the mask column and of the previous state, and
  the whole of the node sums and of the two layers' weights and biases. Its body computes, for its rows,
  `agg = maskᵀ · vsum − h`, `new = relu([agg | edge] · A₁ + c₁) · A₂ + c₂` and `m · new + (1 − m) · old` with the
  mask column `m` spread along each row — the blend of the blocks. Because every operation of the blend works row by
  row, the blend of the blocks is the corresponding block of rows of the blend of the whole arrays.
-/
import proofs.«122511_j30537217474923_2_alg».proof.Proof.Gen.KernelIdeal.Skeleton
import proofs.«122511_j30537217474923_2_alg».proof.Proof.Spec
import proofs.«122511_j30537217474923_2_alg».proof.Proof.BlendRows
import proofs.«122511_j30537217474923_2_alg».proof.Proof.BlendOps

noncomputable section

open scoped BigOperators

namespace Cert.KernelIdeal.Blend3Pay

open Cert.KernelIdeal Cert.KernelIdeal.Gen Idealize.ShloMosaic Idealize.ShloMosaic.TcCoe Idealize.SL.Sem
open Idealize.ShloMosaic.ValueIdx Cert.Spec Cert.KernelIdeal.BlendOps

/-- The masked new state of a block: entry `(p, q)` is the mask of row `p` times the transformed aggregate. -/
theorem masked_new_apply (x0 : Vec Ideal S1024x2048 .f32) (x1 : Vec Ideal S2048x128 .bf16) (x2 : Vec Ideal S1024x128 .bf16)
    (x3 : Vec Ideal S1024x2 .f32) (x4 : Vec Ideal S1024x1 .f32) (x6 : Vec Ideal S130x128 .f32) (x7 : Vec Ideal S1x128 .f32)
    (x8 : Vec Ideal S128x128 .f32) (x9 : Vec Ideal S1x128 .f32) (p : Fin 1024) (q : Fin 128) :
    k3_pay3 (F := Ideal) x0 x1 x2 x3 x6 x7 x8 x9 x4 (ix2 p q)
      = x4 (ix2 p (0 : Fin 1)) * addRow (mm (relu (addRow (mm (hcat 130 rfl (sub (mm x0 x1) x2) x3) x6) x7)) x8) x9 (ix2 p q) := by
  unfold k3_pay3 k3_pay2
  simp only [shapeCast_self, matmul_mask_vsum, matmul_first_layer, matmul_second_layer, concat_agg_edge, add_bias, max_zero]
  show broadcastTo S1024x128 x4 broadcasts_S1024x1_S1024x128 (ix2 p q) * _ = _
  rw [bcast_col]
  rfl

/-- The complement of the mask column: the one word less the mask, row by row. -/
theorem one_sub_mask_apply (x4 : Vec Ideal S1024x1 .f32) (p : Fin 1024) :
    k3_pay4 (F := Ideal) x4 (ix2 p (0 : Fin 1)) = oneW - x4 (ix2 p (0 : Fin 1)) := by
  unfold k3_pay4 k3_pay2
  simp only [shapeCast_self]
  rfl

/-- The stored block: the masked new state plus the complement column, spread along each row, times the previous state. -/
theorem stored_apply (v32 : FVec Ideal S1024x128 .f32) (v34 : FVec Ideal S1024x1 .f32) (v35 : Vec Ideal S1024x128 .f32)
    (p : Fin 1024) (q : Fin 128) :
    k3_pay1 (F := Ideal) v32 v34 v35 (ix2 p q) = v32 (ix2 p q) + v34 (ix2 p (0 : Fin 1)) * v35 (ix2 p q) := by
  unfold k3_pay1
  show _ + broadcastTo S1024x128 v34 broadcasts_S1024x1_S1024x128 (ix2 p q) * _ = _
  rw [bcast_col]

/-- The body's stored value is the blend of its blocks. -/
theorem pay_eq (x0 : Vec Ideal S1024x2048 .f32) (x1 : Vec Ideal S2048x128 .bf16) (x2 : Vec Ideal S1024x128 .bf16)
    (x3 : Vec Ideal S1024x2 .f32) (x4 : Vec Ideal S1024x1 .f32) (x5 : Vec Ideal S1024x128 .f32) (x6 : Vec Ideal S130x128 .f32)
    (x7 : Vec Ideal S1x128 .f32) (x8 : Vec Ideal S128x128 .f32) (x9 : Vec Ideal S1x128 .f32) :
    (k3_pay1 (F := Ideal) (k3_pay3 x0 x1 x2 x3 x6 x7 x8 x9 x4) (k3_pay4 x4) x5 : S1024x128.Idx → EReal)
      = blend x0 x1 x2 x3 x4 x5 x6 x7 x8 x9 := by
  funext i
  obtain ⟨p, q, rfl⟩ : ∃ (p : Fin 1024) (q : Fin 128), i = ix2 p q := ⟨i 0, i 1, eq_ix2 i⟩
  rw [stored_apply, masked_new_apply, one_sub_mask_apply]
  rfl

/-- A matrix is determined by its entries at `ix2` of coordinates. -/
theorem mat_ext {a b : ℕ} {A B : Mat a b} (h : ∀ (r : Fin a) (x : Fin b), A (ix2 r x) = B (ix2 r x)) : A = B := by
  funext i
  obtain ⟨r, x, rfl⟩ : ∃ (r : Fin a) (x : Fin b), i = ix2 r x := ⟨i 0, i 1, eq_ix2 i⟩
  exact h r x

/-- An entry of the body's stored block, for blocks that are rows `T·1024 …` of taller arrays (the transposed
    incidence matrix, the messages, the edge features, the mask column, the previous state) and whole small arrays
    (node sums, weights, biases): entry `j` of the block is entry `i` of the blend of the whole arrays when `i` is `j`
    moved down by `T` blocks. -/
theorem block_entry (x0 : Vec Ideal S1024x2048 .f32) (x1 : Vec Ideal S2048x128 .bf16) (x2 : Vec Ideal S1024x128 .bf16)
    (x3 : Vec Ideal S1024x2 .f32) (x4 : Vec Ideal S1024x1 .f32) (x5 : Vec Ideal S1024x128 .f32) (x6 : Vec Ideal S130x128 .f32)
    (x7 : Vec Ideal S1x128 .f32) (x8 : Vec Ideal S128x128 .f32) (x9 : Vec Ideal S1x128 .f32)
    (MT : S8192x2048.Idx → EReal) (VS : S2048x128.Idx → EReal) (H : S8192x128.Idx → EReal) (E : S8192x2.Idx → EReal)
    (M : S8192x1.Idx → EReal) (O : S8192x128.Idx → EReal) (A1 : S130x128.Idx → EReal) (C1 : S1x128.Idx → EReal)
    (A2 : S128x128.Idx → EReal) (C2 : S1x128.Idx → EReal)
    (T : ℕ) (hT : T < 8) (j : S1024x128.Idx) (i : S8192x128.Idx)
    (h0 : ∀ (p : Fin 1024) (k : Fin 2048) (r : Fin 8192), r.val = T * 1024 + 1 * p.val → x0 (ix2 p k) = MT (ix2 r k))
    (h1 : ∀ (k : Fin 2048) (q : Fin 128), x1 (ix2 k q) = VS (ix2 k q))
    (h2 : ∀ (p : Fin 1024) (k : Fin 128) (r : Fin 8192), r.val = T * 1024 + 1 * p.val → x2 (ix2 p k) = H (ix2 r k))
    (h3 : ∀ (p : Fin 1024) (k : Fin 2) (r : Fin 8192), r.val = T * 1024 + 1 * p.val → x3 (ix2 p k) = E (ix2 r k))
    (h4 : ∀ (p : Fin 1024) (k : Fin 1) (r : Fin 8192), r.val = T * 1024 + 1 * p.val → x4 (ix2 p k) = M (ix2 r k))
    (h5 : ∀ (p : Fin 1024) (k : Fin 128) (r : Fin 8192), r.val = T * 1024 + 1 * p.val → x5 (ix2 p k) = O (ix2 r k))
    (h6 : ∀ (k : Fin 130) (q : Fin 128), x6 (ix2 k q) = A1 (ix2 k q))
    (h7 : ∀ (k : Fin 1) (q : Fin 128), x7 (ix2 k q) = C1 (ix2 k q))
    (h8 : ∀ (k : Fin 128) (q : Fin 128), x8 (ix2 k q) = A2 (ix2 k q))
    (h9 : ∀ (k : Fin 1) (q : Fin 128), x9 (ix2 k q) = C2 (ix2 k q))
    (hi0 : (i 0).val = T * 1024 + 1 * (j 0).val) (hi1 : (i 1).val = (j 1).val) :
    k3_pay1 (F := Ideal) (k3_pay3 x0 x1 x2 x3 x6 x7 x8 x9 x4) (k3_pay4 x4) x5 j = blend MT VS H E M O A1 C1 A2 C2 i := by
  obtain ⟨p, q, rfl⟩ : ∃ (p : Fin 1024) (q : Fin 128), j = ix2 p q := ⟨j 0, j 1, eq_ix2 j⟩
  obtain ⟨r, s, rfl⟩ : ∃ (r : Fin 8192) (s : Fin 128), i = ix2 r s := ⟨i 0, i 1, eq_ix2 i⟩
  obtain rfl : s = q := Fin.ext hi1
  have e1 : (x1 : Mat 2048 128) = VS := mat_ext h1
  have e6 : (x6 : Mat 130 128) = A1 := mat_ext h6
  have e7 : (x7 : Mat 1 128) = C1 := mat_ext h7
  have e8 : (x8 : Mat 128 128) = A2 := mat_ext h8
  have e9 : (x9 : Mat 1 128) = C2 := mat_ext h9
  let ρ : Fin 1024 → Fin 8192 := fun p => ⟨T * 1024 + 1 * p.val, by have := p.isLt; omega⟩
  have er : r = ρ p := Fin.ext hi0
  rw [pay_eq, er, ← e1, ← e6, ← e7, ← e8, ← e9]
  exact blend_rows ρ x1 x6 x7 x8 x9 (fun a k => h0 a k (ρ a) rfl) (fun a k => h2 a k (ρ a) rfl)
    (fun a k => h3 a k (ρ a) rfl) (fun a k => h4 a k (ρ a) rfl) (fun a k => h5 a k (ρ a) rfl) p s

end Cert.KernelIdeal.Blend3Pay

end
-- ==== Proof.Blend3.lean ====
/-
  The aggregate / transform / blend stage over the whole edge set. Grid point `t` of eight holds rows
  `1024·t … 1024·t + 1023` of every tall operand and the whole of every small one, and writes the blend of its blocks
  into the same rows of the output. The blend works row by row, so that block is rows `1024·t …` of the blend of the
  whole arrays; the eight row blocks tile the 8192 rows (row `R` is written by point `R / 1024`), so the output array
  ends holding the blend of the arrays the region was entered with.
-/
import proofs.«122511_j30537217474923_2_alg».proof.Proof.Gen.KernelIdeal.Frame
import proofs.«122511_j30537217474923_2_alg».proof.Proof.Spec
import proofs.«122511_j30537217474923_2_alg».proof.Proof.Blend3Pay
import Idealize.ShloMosaic.Lib.Pipeline.Value
import Idealize.ShloMosaic.Lib.ValueIdx

set_option maxRecDepth 16384

noncomputable section

open scoped BigOperators

namespace Cert.KernelIdeal.Blend3

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- The printed index maps over the grid: the block row of every tall operand and of the output is the grid point, every
    small operand is one block, and every window takes all its columns. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = t.val ∧ win3_10.index t (1 : Fin 2) = 0 :=
  (by decide +kernel : ∀ t : Fin grid3.N, _)

variable (V : (c : Dev nD) → (b : Ref sig .tc) → Buf (Elt Ideal) ((c : Thread nD τ).loc b))

/-- The blend of the whole arrays as the region finds them. -/
abbrev G (c : Dev nD) : S8192x128.Idx → EReal :=
  Cert.Spec.blend (V c main_arg8 : S8192x2048.Idx → EReal)
    (V c main_v7 : S2048x128.Idx → EReal)
    (V c main_v6 : S8192x128.Idx → EReal)
    (V c main_arg4 : S8192x2.Idx → EReal)
    (V c main_v3_0 : S8192x1.Idx → EReal)
    (V c main_arg1 : S8192x128.Idx → EReal)
    (V c main_arg16 : S130x128.Idx → EReal)
    (V c main_v8 : S1x128.Idx → EReal)
    (V c main_arg18 : S128x128.Idx → EReal)
    (V c main_v9 : S1x128.Idx → EReal)

/-- What grid point `t` writes back is rows `1024·t … 1024·t + 1023` of the blend. -/
theorem flushed_eq (c : Dev nD) (t : Fin cfg3.N) :
    (dat3 (F := Ideal) V c).flushed 10 t = ((cfg3.win 10).blk t).view.read (Elt Ideal) (G V c) := by
  show (cfg3.win 10).cut (grid3.coords t) ((dat3 V c).after 10 t) = _
  rw [after3_10]
  unfold out3_10
  rw [View.canon_unit_zero hz]
  simp only [View.ld_unit_zero (S := S1024x2048) hz, View.ld_unit_zero (S := S2048x128) hz, View.ld_unit_zero (S := S1024x128) hz, View.ld_unit_zero (S := S1024x2) hz, View.ld_unit_zero (S := S130x128) hz, View.ld_unit_zero (S := S1x128) hz, View.ld_unit_zero (S := S128x128) hz, View.ld_unit_zero (S := S1024x1) hz]
  obtain ⟨a0, b0, a1, b1, a2, b2, a3, b3, a4, b4, a5, b5, a6, b6, a7, b7, a8, b8, a9, b9, a10, b10⟩ := idx_facts t
  have hT : t.val < 8 := lt_of_lt_of_eq t.isLt (show cfg3.N = 8 from N_3)
  funext j
  show k3_pay1 (F := Ideal) (k3_pay3 (iblk3 V c 0 t) (iblk3 V c 1 t) (iblk3 V c 2 t) (iblk3 V c 3 t) (iblk3 V c 6 t) (iblk3 V c 7 t) (iblk3 V c 8 t) (iblk3 V c 9 t) (iblk3 V c 4 t)) (k3_pay4 (iblk3 V c 4 t)) (iblk3 V c 5 t) j
    = Cert.Spec.blend _ _ _ _ _ _ _ _ _ _ (((cfg3.win 10).blk t).view.emb j)
  refine Blend3Pay.block_entry (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)
    (V c main_arg8) (V c main_v7) (V c main_v6) (V c main_arg4) (V c main_v3_0) (V c main_arg1) (V c main_arg16) (V c main_v8) (V c main_arg18) (V c main_v9)
    t.val hT j (((cfg3.win 10).blk t).view.emb j) ?_ ?_ ?_ ?_ ?_ ?_ ?_ ?_ ?_ ?_ ?_ ?_
  · intro p k r hr
    show V c main_arg8 (((cfg3.win 0).blk t).view.emb (ix2 p k)) = V c main_arg8 (ix2 r k)
    refine congrArg _ (funext fun a => Fin.ext ?_)
    match a with
    | ⟨0, _⟩ => show win3_0.index t (0 : Fin 2) * 1024 + 1 * p.val = r.val; rw [a0, hr]
    | ⟨1, _⟩ => show win3_0.index t (1 : Fin 2) * 2048 + 1 * k.val = k.val; rw [b0]; omega
  · intro k q
    show V c main_v7 (((cfg3.win 1).blk t).view.emb (ix2 k q)) = V c main_v7 (ix2 k q)
    refine congrArg _ (funext fun a => Fin.ext ?_)
    match a with
    | ⟨0, _⟩ => show win3_1.index t (0 : Fin 2) * 2048 + 1 * k.val = k.val; rw [a1]; omega
    | ⟨1, _⟩ => show win3_1.index t (1 : Fin 2) * 128 + 1 * q.val = q.val; rw [b1]; omega
  · intro p k r hr
    show V c main_v6 (((cfg3.win 2).blk t).view.emb (ix2 p k)) = V c main_v6 (ix2 r k)
    refine congrArg _ (funext fun a => Fin.ext ?_)
    match a with
    | ⟨0, _⟩ => show win3_2.index t (0 : Fin 2) * 1024 + 1 * p.val = r.val; rw [a2, hr]
    | ⟨1, _⟩ => show win3_2.index t (1 : Fin 2) * 128 + 1 * k.val = k.val; rw [b2]; omega
  · intro p k r hr
    show V c main_arg4 (((cfg3.win 3).blk t).view.emb (ix2 p k)) = V c main_arg4 (ix2 r k)
    refine congrArg _ (funext fun a => Fin.ext ?_)
    match a with
    | ⟨0, _⟩ => show win3_3.index t (0 : Fin 2) * 1024 + 1 * p.val = r.val; rw [a3, hr]
    | ⟨1, _⟩ => show win3_3.index t (1 : Fin 2) * 2 + 1 * k.val = k.val; rw [b3]; omega
  · intro p k r hr
    show V c main_v3_0 (((cfg3.win 4).blk t).view.emb (ix2 p k)) = V c main_v3_0 (ix2 r k)
    refine congrArg _ (funext fun a => Fin.ext ?_)
    match a with
    | ⟨0, _⟩ => show win3_4.index t (0 : Fin 2) * 1024 + 1 * p.val = r.val; rw [a4, hr]
    | ⟨1, _⟩ => show win3_4.index t (1 : Fin 2) * 1 + 1 * k.val = k.val; rw [b4]; omega
  · intro p k r hr
    show V c main_arg1 (((cfg3.win 5).blk t).view.emb (ix2 p k)) = V c main_arg1 (ix2 r k)
    refine congrArg _ (funext fun a => Fin.ext ?_)
    match a with
    | ⟨0, _⟩ => show win3_5.index t (0 : Fin 2) * 1024 + 1 * p.val = r.val; rw [a5, hr]
    | ⟨1, _⟩ => show win3_5.index t (1 : Fin 2) * 128 + 1 * k.val = k.val; rw [b5]; omega
  · intro k q
    show V c main_arg16 (((cfg3.win 6).blk t).view.emb (ix2 k q)) = V c main_arg16 (ix2 k q)
    refine congrArg _ (funext fun a => Fin.ext ?_)
    match a with
    | ⟨0, _⟩ => show win3_6.index t (0 : Fin 2) * 130 + 1 * k.val = k.val; rw [a6]; omega
    | ⟨1, _⟩ => show win3_6.index t (1 : Fin 2) * 128 + 1 * q.val = q.val; rw [b6]; omega
  · intro k q
    show V c main_v8 (((cfg3.win 7).blk t).view.emb (ix2 k q)) = V c main_v8 (ix2 k q)
    refine congrArg _ (funext fun a => Fin.ext ?_)
    match a with
    | ⟨0, _⟩ => show win3_7.index t (0 : Fin 2) * 1 + 1 * k.val = k.val; rw [a7]; omega
    | ⟨1, _⟩ => show win3_7.index t (1 : Fin 2) * 128 + 1 * q.val = q.val; rw [b7]; omega
  · intro k q
    show V c main_arg18 (((cfg3.win 8).blk t).view.emb (ix2 k q)) = V c main_arg18 (ix2 k q)
    refine congrArg _ (funext fun a => Fin.ext ?_)
    match a with
    | ⟨0, _⟩ => show win3_8.index t (0 : Fin 2) * 128 + 1 * k.val = k.val; rw [a8]; omega
    | ⟨1, _⟩ => show win3_8.index t (1 : Fin 2) * 128 + 1 * q.val = q.val; rw [b8]; omega
  · intro k q
    show V c main_v9 (((cfg3.win 9).blk t).view.emb (ix2 k q)) = V c main_v9 (ix2 k q)
    refine congrArg _ (funext fun a => Fin.ext ?_)
    match a with
    | ⟨0, _⟩ => show win3_9.index t (0 : Fin 2) * 1 + 1 * k.val = k.val; rw [a9]; omega
    | ⟨1, _⟩ => show win3_9.index t (1 : Fin 2) * 128 + 1 * q.val = q.val; rw [b9]; omega
  · show win3_10.index t (0 : Fin 2) * 1024 + 1 * (j 0).val = _; rw [a10]
  · show win3_10.index t (1 : Fin 2) * 128 + 1 * (j 1).val = _; rw [b10]; omega

/-- An index of the output array is in point `t`'s block iff each coordinate is in the block's range on its axis. -/
theorem mem_blk (t : Fin cfg3.N) (i : S8192x128.Idx) :
    i ∈ ((cfg3.win 10).blk t).view.set ↔ ∀ a : Fin 2, win3_10.index t a * S1024x128.size a ≤ (i a).val ∧ (i a).val < win3_10.index t a * S1024x128.size a + S1024x128.size a := by
  show i ∈ ((View.whole main_v10).slice (win3_10.rect t)).set ↔ _
  rw [View.set_slice_whole, Rect.mem_set_unit]
  exact Iff.rfl

/-- Row `R` of the output is written by grid point `R / 1024`. -/
theorem cover (i : S8192x128.Idx) : ∃ t : Fin cfg3.N, (cfg3.win 10).flush t = true ∧ i ∈ ((cfg3.win 10).blk t).view.set := by
  have hi0 : (i 0).val < 8192 := (i 0).isLt
  have hi1 : (i 1).val < 128 := (i 1).isLt
  refine ⟨⟨(i 0).val / 1024, by rw [show cfg3.N = 8 from N_3]; omega⟩, flush3_10 _, ?_⟩
  rw [mem_blk]
  obtain ⟨-, -, -, -, -, -, -, -, -, -, -, -, -, -, -, -, -, -, -, -, a10, b10⟩ := idx_facts ⟨(i 0).val / 1024, by rw [show cfg3.N = 8 from N_3]; omega⟩
  intro a
  match a with
  | ⟨0, _⟩ => show win3_10.index _ (0 : Fin 2) * 1024 ≤ (i 0).val ∧ (i 0).val < win3_10.index _ (0 : Fin 2) * 1024 + 1024; rw [a10]; show (i 0).val / 1024 * 1024 ≤ (i 0).val ∧ (i 0).val < (i 0).val / 1024 * 1024 + 1024; omega
  | ⟨1, _⟩ => show win3_10.index _ (1 : Fin 2) * 128 ≤ (i 1).val ∧ (i 1).val < win3_10.index _ (1 : Fin 2) * 128 + 128; rw [b10]; omega

/-- After the region, the output array holds the blend of the arrays the region was entered with. -/
theorem arr (c : Dev nD) :
    ((dat3 (F := Ideal) V c).arrAt 10 cfg3.N : S8192x128.Idx → EReal)
      = Cert.Spec.blend (V c main_arg8 : S8192x2048.Idx → EReal)
    (V c main_v7 : S2048x128.Idx → EReal)
    (V c main_v6 : S8192x128.Idx → EReal)
    (V c main_arg4 : S8192x2.Idx → EReal)
    (V c main_v3_0 : S8192x1.Idx → EReal)
    (V c main_arg1 : S8192x128.Idx → EReal)
    (V c main_arg16 : S130x128.Idx → EReal)
    (V c main_v8 : S1x128.Idx → EReal)
    (V c main_arg18 : S128x128.Idx → EReal)
    (V c main_v9 : S1x128.Idx → EReal) :=
  (dat3 (F := Ideal) V c).arrAt_eq_of_cover 10 (G V c) (fun t _ => flushed_eq V c t) cover

end Cert.KernelIdeal.Blend3

end
-- ==== Proof.Blend6Pay.lean ====
/-
  One grid point of the aggregate / transform / blend stage, as mathematics. The point holds 1024 rows of the transposed
  incidence matrix, of the per-edge messages, of the edge features, of the mask column and of the previous state, and
  the whole of the node sums and of the two layers' weights and biases. Its body computes, for its rows,
  `agg = maskᵀ · vsum − h`, `new = relu([agg | edge] · A₁ + c₁) · A₂ + c₂` and `m · new + (1 − m) · old` with the
  mask column `m` spread along each row — the blend of the blocks. Because every operation of the blend works row by
  row, the blend of the blocks is the corresponding block of rows of the blend of the whole arrays.
-/
import proofs.«122511_j30537217474923_2_alg».proof.Proof.Gen.KernelIdeal.Skeleton
import proofs.«122511_j30537217474923_2_alg».proof.Proof.Spec
import proofs.«122511_j30537217474923_2_alg».proof.Proof.BlendRows
import proofs.«122511_j30537217474923_2_alg».proof.Proof.BlendOps

noncomputable section

open scoped BigOperators

namespace Cert.KernelIdeal.Blend6Pay

open Cert.KernelIdeal Cert.KernelIdeal.Gen Idealize.ShloMosaic Idealize.ShloMosaic.TcCoe Idealize.SL.Sem
open Idealize.ShloMosaic.ValueIdx Cert.Spec Cert.KernelIdeal.BlendOps

/-- The masked new state of a block: entry `(p, q)` is the mask of row `p` times the transformed aggregate. -/
theorem masked_new_apply (x0 : Vec Ideal S1024x2048 .f32) (x1 : Vec Ideal S2048x128 .bf16) (x2 : Vec Ideal S1024x128 .bf16)
    (x3 : Vec Ideal S1024x2 .f32) (x4 : Vec Ideal S1024x1 .f32) (x6 : Vec Ideal S130x128 .f32) (x7 : Vec Ideal S1x128 .f32)
    (x8 : Vec Ideal S128x128 .f32) (x9 : Vec Ideal S1x128 .f32) (p : Fin 1024) (q : Fin 128) :
    k6_pay3 (F := Ideal) x0 x1 x2 x3 x6 x7 x8 x9 x4 (ix2 p q)
      = x4 (ix2 p (0 : Fin 1)) * addRow (mm (relu (addRow (mm (hcat 130 rfl (sub (mm x0 x1) x2) x3) x6) x7)) x8) x9 (ix2 p q) := by
  unfold k6_pay3 k6_pay2
  simp only [shapeCast_self, matmul_mask_vsum, matmul_first_layer, matmul_second_layer, concat_agg_edge, add_bias, max_zero]
  show broadcastTo S1024x128 x4 broadcasts_S1024x1_S1024x128 (ix2 p q) * _ = _
  rw [bcast_col]
  rfl

/-- The complement of the mask column: the one word less the mask, row by row. -/
theorem one_sub_mask_apply (x4 : Vec Ideal S1024x1 .f32) (p : Fin 1024) :
    k6_pay4 (F := Ideal) x4 (ix2 p (0 : Fin 1)) = oneW - x4 (ix2 p (0 : Fin 1)) := by
  unfold k6_pay4 k6_pay2
  simp only [shapeCast_self]
  rfl

/-- The stored block: the masked new state plus the complement column, spread along each row, times the previous state. -/
theorem stored_apply (v32 : FVec Ideal S1024x128 .f32) (v34 : FVec Ideal S1024x1 .f32) (v35 : Vec Ideal S1024x128 .f32)
    (p : Fin 1024) (q : Fin 128) :
    k6_pay1 (F := Ideal) v32 v34 v35 (ix2 p q) = v32 (ix2 p q) + v34 (ix2 p (0 : Fin 1)) * v35 (ix2 p q) := by
  unfold k6_pay1
  show _ + broadcastTo S1024x128 v34 broadcasts_S1024x1_S1024x128 (ix2 p q) * _ = _
  rw [bcast_col]

/-- The body's stored value is the blend of its blocks. -/
theorem pay_eq (x0 : Vec Ideal S1024x2048 .f32) (x1 : Vec Ideal S2048x128 .bf16) (x2 : Vec Ideal S1024x128 .bf16)
    (x3 : Vec Ideal S1024x2 .f32) (x4 : Vec Ideal S1024x1 .f32) (x5 : Vec Ideal S1024x128 .f32) (x6 : Vec Ideal S130x128 .f32)
    (x7 : Vec Ideal S1x128 .f32) (x8 : Vec Ideal S128x128 .f32) (x9 : Vec Ideal S1x128 .f32) :
    (k6_pay1 (F := Ideal) (k6_pay3 x0 x1 x2 x3 x6 x7 x8 x9 x4) (k6_pay4 x4) x5 : S1024x128.Idx → EReal)
      = blend x0 x1 x2 x3 x4 x5 x6 x7 x8 x9 := by
  funext i
  obtain ⟨p, q, rfl⟩ : ∃ (p : Fin 1024) (q : Fin 128), i = ix2 p q := ⟨i 0, i 1, eq_ix2 i⟩
  rw [stored_apply, masked_new_apply, one_sub_mask_apply]
  rfl

/-- A matrix is determined by its entries at `ix2` of coordinates. -/
theorem mat_ext {a b : ℕ} {A B : Mat a b} (h : ∀ (r : Fin a) (x : Fin b), A (ix2 r x) = B (ix2 r x)) : A = B := by
  funext i
  obtain ⟨r, x, rfl⟩ : ∃ (r : Fin a) (x : Fin b), i = ix2 r x := ⟨i 0, i 1, eq_ix2 i⟩
  exact h r x

/-- An entry of the body's stored block, for blocks that are rows `T·1024 …` of taller arrays (the transposed
    incidence matrix, the messages, the edge features, the mask column, the previous state) and whole small arrays
    (node sums, weights, biases): entry `j` of the block is entry `i` of the blend of the whole arrays when `i` is `j`
    moved down by `T` blocks. -/
theorem block_entry (x0 : Vec Ideal S1024x2048 .f32) (x1 : Vec Ideal S2048x128 .bf16) (x2 : Vec Ideal S1024x128 .bf16)
    (x3 : Vec Ideal S1024x2 .f32) (x4 : Vec Ideal S1024x1 .f32) (x5 : Vec Ideal S1024x128 .f32) (x6 : Vec Ideal S130x128 .f32)
    (x7 : Vec Ideal S1x128 .f32) (x8 : Vec Ideal S128x128 .f32) (x9 : Vec Ideal S1x128 .f32)
    (MT : S8192x2048.Idx → EReal) (VS : S2048x128.Idx → EReal) (H : S8192x128.Idx → EReal) (E : S8192x2.Idx → EReal)
    (M : S8192x1.Idx → EReal) (O : S8192x128.Idx → EReal) (A1 : S130x128.Idx → EReal) (C1 : S1x128.Idx → EReal)
    (A2 : S128x128.Idx → EReal) (C2 : S1x128.Idx → EReal)
    (T : ℕ) (hT : T < 8) (j : S1024x128.Idx) (i : S8192x128.Idx)
    (h0 : ∀ (p : Fin 1024) (k : Fin 2048) (r : Fin 8192), r.val = T * 1024 + 1 * p.val → x0 (ix2 p k) = MT (ix2 r k))
    (h1 : ∀ (k : Fin 2048) (q : Fin 128), x1 (ix2 k q) = VS (ix2 k q))
    (h2 : ∀ (p : Fin 1024) (k : Fin 128) (r : Fin 8192), r.val = T * 1024 + 1 * p.val → x2 (ix2 p k) = H (ix2 r k))
    (h3 : ∀ (p : Fin 1024) (k : Fin 2) (r : Fin 8192), r.val = T * 1024 + 1 * p.val → x3 (ix2 p k) = E (ix2 r k))
    (h4 : ∀ (p : Fin 1024) (k : Fin 1) (r : Fin 8192), r.val = T * 1024 + 1 * p.val → x4 (ix2 p k) = M (ix2 r k))
    (h5 : ∀ (p : Fin 1024) (k : Fin 128) (r : Fin 8192), r.val = T * 1024 + 1 * p.val → x5 (ix2 p k) = O (ix2 r k))
    (h6 : ∀ (k : Fin 130) (q : Fin 128), x6 (ix2 k q) = A1 (ix2 k q))
    (h7 : ∀ (k : Fin 1) (q : Fin 128), x7 (ix2 k q) = C1 (ix2 k q))
    (h8 : ∀ (k : Fin 128) (q : Fin 128), x8 (ix2 k q) = A2 (ix2 k q))
    (h9 : ∀ (k : Fin 1) (q : Fin 128), x9 (ix2 k q) = C2 (ix2 k q))
    (hi0 : (i 0).val = T * 1024 + 1 * (j 0).val) (hi1 : (i 1).val = (j 1).val) :
    k6_pay1 (F := Ideal) (k6_pay3 x0 x1 x2 x3 x6 x7 x8 x9 x4) (k6_pay4 x4) x5 j = blend MT VS H E M O A1 C1 A2 C2 i := by
  obtain ⟨p, q, rfl⟩ : ∃ (p : Fin 1024) (q : Fin 128), j = ix2 p q := ⟨j 0, j 1, eq_ix2 j⟩
  obtain ⟨r, s, rfl⟩ : ∃ (r : Fin 8192) (s : Fin 128), i = ix2 r s := ⟨i 0, i 1, eq_ix2 i⟩
  obtain rfl : s = q := Fin.ext hi1
  have e1 : (x1 : Mat 2048 128) = VS := mat_ext h1
  have e6 : (x6 : Mat 130 128) = A1 := mat_ext h6
  have e7 : (x7 : Mat 1 128) = C1 := mat_ext h7
  have e8 : (x8 : Mat 128 128) = A2 := mat_ext h8
  have e9 : (x9 : Mat 1 128) = C2 := mat_ext h9
  let ρ : Fin 1024 → Fin 8192 := fun p => ⟨T * 1024 + 1 * p.val, by have := p.isLt; omega⟩
  have er : r = ρ p := Fin.ext hi0
  rw [pay_eq, er, ← e1, ← e6, ← e7, ← e8, ← e9]
  exact blend_rows ρ x1 x6 x7 x8 x9 (fun a k => h0 a k (ρ a) rfl) (fun a k => h2 a k (ρ a) rfl)
    (fun a k => h3 a k (ρ a) rfl) (fun a k => h4 a k (ρ a) rfl) (fun a k => h5 a k (ρ a) rfl) p s

end Cert.KernelIdeal.Blend6Pay

end
-- ==== Proof.Blend6.lean ====
/-
  The aggregate / transform / blend stage over the whole edge set. Grid point `t` of eight holds rows
  `1024·t … 1024·t + 1023` of every tall operand and the whole of every small one, and writes the blend of its blocks
  into the same rows of the output. The blend works row by row, so that block is rows `1024·t …` of the blend of the
  whole arrays; the eight row blocks tile the 8192 rows (row `R` is written by point `R / 1024`), so the output array
  ends holding the blend of the arrays the region was entered with.
-/
import proofs.«122511_j30537217474923_2_alg».proof.Proof.Gen.KernelIdeal.Frame
import proofs.«122511_j30537217474923_2_alg».proof.Proof.Spec
import proofs.«122511_j30537217474923_2_alg».proof.Proof.Blend6Pay
import Idealize.ShloMosaic.Lib.Pipeline.Value
import Idealize.ShloMosaic.Lib.ValueIdx

set_option maxRecDepth 16384

noncomputable section

open scoped BigOperators

namespace Cert.KernelIdeal.Blend6

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- The printed index maps over the grid: the block row of every tall operand and of the output is the grid point, every
    small operand is one block, and every window takes all its columns. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0
    ∧ win6_5.index t (0 : Fin 2) = t.val ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0
    ∧ win6_8.index t (0 : Fin 2) = 0 ∧ win6_8.index t (1 : Fin 2) = 0
    ∧ win6_9.index t (0 : Fin 2) = 0 ∧ win6_9.index t (1 : Fin 2) = 0
    ∧ win6_10.index t (0 : Fin 2) = t.val ∧ win6_10.index t (1 : Fin 2) = 0 :=
  (by decide +kernel : ∀ t : Fin grid6.N, _)

variable (V : (c : Dev nD) → (b : Ref sig .tc) → Buf (Elt Ideal) ((c : Thread nD τ).loc b))

/-- The blend of the whole arrays as the region finds them. -/
abbrev G (c : Dev nD) : S8192x128.Idx → EReal :=
  Cert.Spec.blend (V c main_arg10 : S8192x2048.Idx → EReal)
    (V c main_v14 : S2048x128.Idx → EReal)
    (V c main_v13 : S8192x128.Idx → EReal)
    (V c main_arg4 : S8192x2.Idx → EReal)
    (V c main_v3_0 : S8192x1.Idx → EReal)
    (V c main_arg0 : S8192x128.Idx → EReal)
    (V c main_arg24 : S130x128.Idx → EReal)
    (V c main_v15 : S1x128.Idx → EReal)
    (V c main_arg26 : S128x128.Idx → EReal)
    (V c main_v16 : S1x128.Idx → EReal)

/-- What grid point `t` writes back is rows `1024·t … 1024·t + 1023` of the blend. -/
theorem flushed_eq (c : Dev nD) (t : Fin cfg6.N) :
    (dat6 (F := Ideal) V c).flushed 10 t = ((cfg6.win 10).blk t).view.read (Elt Ideal) (G V c) := by
  show (cfg6.win 10).cut (grid6.coords t) ((dat6 V c).after 10 t) = _
  rw [after6_10]
  unfold out6_10
  rw [View.canon_unit_zero hz]
  simp only [View.ld_unit_zero (S := S1024x2048) hz, View.ld_unit_zero (S := S2048x128) hz, View.ld_unit_zero (S := S1024x128) hz, View.ld_unit_zero (S := S1024x2) hz, View.ld_unit_zero (S := S130x128) hz, View.ld_unit_zero (S := S1x128) hz, View.ld_unit_zero (S := S128x128) hz, View.ld_unit_zero (S := S1024x1) hz]
  obtain ⟨a0, b0, a1, b1, a2, b2, a3, b3, a4, b4, a5, b5, a6, b6, a7, b7, a8, b8, a9, b9, a10, b10⟩ := idx_facts t
  have hT : t.val < 8 := lt_of_lt_of_eq t.isLt (show cfg6.N = 8 from N_6)
  funext j
  show k6_pay1 (F := Ideal) (k6_pay3 (iblk6 V c 0 t) (iblk6 V c 1 t) (iblk6 V c 2 t) (iblk6 V c 3 t) (iblk6 V c 6 t) (iblk6 V c 7 t) (iblk6 V c 8 t) (iblk6 V c 9 t) (iblk6 V c 4 t)) (k6_pay4 (iblk6 V c 4 t)) (iblk6 V c 5 t) j
    = Cert.Spec.blend _ _ _ _ _ _ _ _ _ _ (((cfg6.win 10).blk t).view.emb j)
  refine Blend6Pay.block_entry (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t)
    (V c main_arg10) (V c main_v14) (V c main_v13) (V c main_arg4) (V c main_v3_0) (V c main_arg0) (V c main_arg24) (V c main_v15) (V c main_arg26) (V c main_v16)
    t.val hT j (((cfg6.win 10).blk t).view.emb j) ?_ ?_ ?_ ?_ ?_ ?_ ?_ ?_ ?_ ?_ ?_ ?_
  · intro p k r hr
    show V c main_arg10 (((cfg6.win 0).blk t).view.emb (ix2 p k)) = V c main_arg10 (ix2 r k)
    refine congrArg _ (funext fun a => Fin.ext ?_)
    match a with
    | ⟨0, _⟩ => show win6_0.index t (0 : Fin 2) * 1024 + 1 * p.val = r.val; rw [a0, hr]
    | ⟨1, _⟩ => show win6_0.index t (1 : Fin 2) * 2048 + 1 * k.val = k.val; rw [b0]; omega
  · intro k q
    show V c main_v14 (((cfg6.win 1).blk t).view.emb (ix2 k q)) = V c main_v14 (ix2 k q)
    refine congrArg _ (funext fun a => Fin.ext ?_)
    match a with
    | ⟨0, _⟩ => show win6_1.index t (0 : Fin 2) * 2048 + 1 * k.val = k.val; rw [a1]; omega
    | ⟨1, _⟩ => show win6_1.index t (1 : Fin 2) * 128 + 1 * q.val = q.val; rw [b1]; omega
  · intro p k r hr
    show V c main_v13 (((cfg6.win 2).blk t).view.emb (ix2 p k)) = V c main_v13 (ix2 r k)
    refine congrArg _ (funext fun a => Fin.ext ?_)
    match a with
    | ⟨0, _⟩ => show win6_2.index t (0 : Fin 2) * 1024 + 1 * p.val = r.val; rw [a2, hr]
    | ⟨1, _⟩ => show win6_2.index t (1 : Fin 2) * 128 + 1 * k.val = k.val; rw [b2]; omega
  · intro p k r hr
    show V c main_arg4 (((cfg6.win 3).blk t).view.emb (ix2 p k)) = V c main_arg4 (ix2 r k)
    refine congrArg _ (funext fun a => Fin.ext ?_)
    match a with
    | ⟨0, _⟩ => show win6_3.index t (0 : Fin 2) * 1024 + 1 * p.val = r.val; rw [a3, hr]
    | ⟨1, _⟩ => show win6_3.index t (1 : Fin 2) * 2 + 1 * k.val = k.val; rw [b3]; omega
  · intro p k r hr
    show V c main_v3_0 (((cfg6.win 4).blk t).view.emb (ix2 p k)) = V c main_v3_0 (ix2 r k)
    refine congrArg _ (funext fun a => Fin.ext ?_)
    match a with
    | ⟨0, _⟩ => show win6_4.index t (0 : Fin 2) * 1024 + 1 * p.val = r.val; rw [a4, hr]
    | ⟨1, _⟩ => show win6_4.index t (1 : Fin 2) * 1 + 1 * k.val = k.val; rw [b4]; omega
  · intro p k r hr
    show V c main_arg0 (((cfg6.win 5).blk t).view.emb (ix2 p k)) = V c main_arg0 (ix2 r k)
    refine congrArg _ (funext fun a => Fin.ext ?_)
    match a with
    | ⟨0, _⟩ => show win6_5.index t (0 : Fin 2) * 1024 + 1 * p.val = r.val; rw [a5, hr]
    | ⟨1, _⟩ => show win6_5.index t (1 : Fin 2) * 128 + 1 * k.val = k.val; rw [b5]; omega
  · intro k q
    show V c main_arg24 (((cfg6.win 6).blk t).view.emb (ix2 k q)) = V c main_arg24 (ix2 k q)
    refine congrArg _ (funext fun a => Fin.ext ?_)
    match a with
    | ⟨0, _⟩ => show win6_6.index t (0 : Fin 2) * 130 + 1 * k.val = k.val; rw [a6]; omega
    | ⟨1, _⟩ => show win6_6.index t (1 : Fin 2) * 128 + 1 * q.val = q.val; rw [b6]; omega
  · intro k q
    show V c main_v15 (((cfg6.win 7).blk t).view.emb (ix2 k q)) = V c main_v15 (ix2 k q)
    refine congrArg _ (funext fun a => Fin.ext ?_)
    match a with
    | ⟨0, _⟩ => show win6_7.index t (0 : Fin 2) * 1 + 1 * k.val = k.val; rw [a7]; omega
    | ⟨1, _⟩ => show win6_7.index t (1 : Fin 2) * 128 + 1 * q.val = q.val; rw [b7]; omega
  · intro k q
    show V c main_arg26 (((cfg6.win 8).blk t).view.emb (ix2 k q)) = V c main_arg26 (ix2 k q)
    refine congrArg _ (funext fun a => Fin.ext ?_)
    match a with
    | ⟨0, _⟩ => show win6_8.index t (0 : Fin 2) * 128 + 1 * k.val = k.val; rw [a8]; omega
    | ⟨1, _⟩ => show win6_8.index t (1 : Fin 2) * 128 + 1 * q.val = q.val; rw [b8]; omega
  · intro k q
    show V c main_v16 (((cfg6.win 9).blk t).view.emb (ix2 k q)) = V c main_v16 (ix2 k q)
    refine congrArg _ (funext fun a => Fin.ext ?_)
    match a with
    | ⟨0, _⟩ => show win6_9.index t (0 : Fin 2) * 1 + 1 * k.val = k.val; rw [a9]; omega
    | ⟨1, _⟩ => show win6_9.index t (1 : Fin 2) * 128 + 1 * q.val = q.val; rw [b9]; omega
  · show win6_10.index t (0 : Fin 2) * 1024 + 1 * (j 0).val = _; rw [a10]
  · show win6_10.index t (1 : Fin 2) * 128 + 1 * (j 1).val = _; rw [b10]; omega

/-- An index of the output array is in point `t`'s block iff each coordinate is in the block's range on its axis. -/
theorem mem_blk (t : Fin cfg6.N) (i : S8192x128.Idx) :
    i ∈ ((cfg6.win 10).blk t).view.set ↔ ∀ a : Fin 2, win6_10.index t a * S1024x128.size a ≤ (i a).val ∧ (i a).val < win6_10.index t a * S1024x128.size a + S1024x128.size a := by
  show i ∈ ((View.whole main_v17).slice (win6_10.rect t)).set ↔ _
  rw [View.set_slice_whole, Rect.mem_set_unit]
  exact Iff.rfl

/-- Row `R` of the output is written by grid point `R / 1024`. -/
theorem cover (i : S8192x128.Idx) : ∃ t : Fin cfg6.N, (cfg6.win 10).flush t = true ∧ i ∈ ((cfg6.win 10).blk t).view.set := by
  have hi0 : (i 0).val < 8192 := (i 0).isLt
  have hi1 : (i 1).val < 128 := (i 1).isLt
  refine ⟨⟨(i 0).val / 1024, by rw [show cfg6.N = 8 from N_6]; omega⟩, flush6_10 _, ?_⟩
  rw [mem_blk]
  obtain ⟨-, -, -, -, -, -, -, -, -, -, -, -, -, -, -, -, -, -, -, -, a10, b10⟩ := idx_facts ⟨(i 0).val / 1024, by rw [show cfg6.N = 8 from N_6]; omega⟩
  intro a
  match a with
  | ⟨0, _⟩ => show win6_10.index _ (0 : Fin 2) * 1024 ≤ (i 0).val ∧ (i 0).val < win6_10.index _ (0 : Fin 2) * 1024 + 1024; rw [a10]; show (i 0).val / 1024 * 1024 ≤ (i 0).val ∧ (i 0).val < (i 0).val / 1024 * 1024 + 1024; omega
  | ⟨1, _⟩ => show win6_10.index _ (1 : Fin 2) * 128 ≤ (i 1).val ∧ (i 1).val < win6_10.index _ (1 : Fin 2) * 128 + 128; rw [b10]; omega

/-- After the region, the output array holds the blend of the arrays the region was entered with. -/
theorem arr (c : Dev nD) :
    ((dat6 (F := Ideal) V c).arrAt 10 cfg6.N : S8192x128.Idx → EReal)
      = Cert.Spec.blend (V c main_arg10 : S8192x2048.Idx → EReal)
    (V c main_v14 : S2048x128.Idx → EReal)
    (V c main_v13 : S8192x128.Idx → EReal)
    (V c main_arg4 : S8192x2.Idx → EReal)
    (V c main_v3_0 : S8192x1.Idx → EReal)
    (V c main_arg0 : S8192x128.Idx → EReal)
    (V c main_arg24 : S130x128.Idx → EReal)
    (V c main_v15 : S1x128.Idx → EReal)
    (V c main_arg26 : S128x128.Idx → EReal)
    (V c main_v16 : S1x128.Idx → EReal) :=
  (dat6 (F := Ideal) V c).arrAt_eq_of_cover 10 (G V c) (fun t _ => flushed_eq V c t) cover

end Cert.KernelIdeal.Blend6

end
-- ==== Proof.KValC.lean ====
/-
  What each buffer holds where it is read, last part: each branch's final region leaves the blend
  `m · new + (1 − m) · old` in its output array, where `new` is the transform of the aggregate `Mᵀ · (M · h) − h`; the
  first result is then carried untouched through the second branch to the return.
-/
import proofs.«122511_j30537217474923_2_alg».proof.Proof.KValB
import proofs.«122511_j30537217474923_2_alg».proof.Proof.Blend3
import proofs.«122511_j30537217474923_2_alg».proof.Proof.Blend6

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg) (c : Dev nD)

theorem v10_at7 : (W7 m ρ c (Proc.devRef .tc main_v10) : S8192x128.Idx → EReal) = newF m c := by
  refine (W7_arr m ρ c 10).trans ((Blend3.arr (V6 m ρ) c).trans ?_)
  show Cert.Spec.blend (W6 m ρ c (Proc.devRef .tc main_arg8) : S8192x2048.Idx → EReal) (W6 m ρ c (Proc.devRef .tc main_v7) : S2048x128.Idx → EReal) (W6 m ρ c (Proc.devRef .tc main_v6) : S8192x128.Idx → EReal) (W6 m ρ c (Proc.devRef .tc main_arg4) : S8192x2.Idx → EReal) (W6 m ρ c (Proc.devRef .tc main_v3_0) : S8192x1.Idx → EReal) (W6 m ρ c (Proc.devRef .tc main_arg1) : S8192x128.Idx → EReal) (W6 m ρ c (Proc.devRef .tc main_arg16) : S130x128.Idx → EReal) (W6 m ρ c (Proc.devRef .tc main_v8) : S1x128.Idx → EReal) (W6 m ρ c (Proc.devRef .tc main_arg18) : S128x128.Idx → EReal) (W6 m ρ c (Proc.devRef .tc main_v9) : S1x128.Idx → EReal) = _
  rw [arg8_at6 m ρ c, v7_at6 m ρ c, v6_at6 m ρ c, arg4_at6 m ρ c, v3_0_at6 m ρ c, arg1_at6 m ρ c, arg16_at6 m ρ c, v8_at6 m ρ c, arg18_at6 m ρ c, v9_at6 m ρ c]
  rfl

theorem v10_at12 : (W12 m ρ c (Proc.devRef .tc main_v10) : S8192x128.Idx → EReal) = newF m c := ((Travel.v10_s12 m ρ c).trans ((Travel.v10_s11 m ρ c).trans ((Travel.v10_s10 m ρ c).trans ((Travel.v10_s9 m ρ c).trans (Travel.v10_s8 m ρ c))))).trans (v10_at7 m ρ c)

theorem v17_at12 : (W12 m ρ c (Proc.devRef .tc main_v17) : S8192x128.Idx → EReal) = newV m c := by
  refine (W12_arr m ρ c 10).trans ((Blend6.arr (V11 m ρ) c).trans ?_)
  show Cert.Spec.blend (W11 m ρ c (Proc.devRef .tc main_arg10) : S8192x2048.Idx → EReal) (W11 m ρ c (Proc.devRef .tc main_v14) : S2048x128.Idx → EReal) (W11 m ρ c (Proc.devRef .tc main_v13) : S8192x128.Idx → EReal) (W11 m ρ c (Proc.devRef .tc main_arg4) : S8192x2.Idx → EReal) (W11 m ρ c (Proc.devRef .tc main_v3_0) : S8192x1.Idx → EReal) (W11 m ρ c (Proc.devRef .tc main_arg0) : S8192x128.Idx → EReal) (W11 m ρ c (Proc.devRef .tc main_arg24) : S130x128.Idx → EReal) (W11 m ρ c (Proc.devRef .tc main_v15) : S1x128.Idx → EReal) (W11 m ρ c (Proc.devRef .tc main_arg26) : S128x128.Idx → EReal) (W11 m ρ c (Proc.devRef .tc main_v16) : S1x128.Idx → EReal) = _
  rw [arg10_at11 m ρ c, v14_at11 m ρ c, v13_at11 m ρ c, arg4_at11 m ρ c, v3_0_at11 m ρ c, arg0_at11 m ρ c, arg24_at11 m ρ c, v15_at11 m ρ c, arg26_at11 m ρ c, v16_at11 m ρ c]
  rfl

end Cert.KernelIdeal.KVal

end
-- ==== Proof.RefStages.lean ====
/-
  The reference program read stage by stage. Each host operation's value, as a function of @main's argument arrays,
  is the matching whole-array function of the specification: a matrix product (every entry a sum over the whole
  contracted axis), a bias row added to every row, the positive part, a difference, columns laid side by side. The two
  results are then the blend of the transformed aggregate with the previous state under the mask column, each as one
  composition of the specification's functions of the arguments.
-/
import proofs.«122511_j30537217474923_2_alg».proof.Proof.Gen.ReferenceIdeal.Read
import proofs.«122511_j30537217474923_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Spec (Mat mm addRow relu sub hcat hcat3 headMlp blend zeroW oneW row)

/-- A function given entry by entry as a sum of products over the contracted axis, the left factor read along a row and
    the right along a column, is the matrix product. -/
theorem eq_mm {a k b : ℕ} (A : Mat a k) (B : Mat k b) (f : Mat a b)
    (lidx : (⟨2, ![a, b]⟩ : Shape).Idx → Fin k → (⟨2, ![a, k]⟩ : Shape).Idx)
    (ridx : (⟨2, ![a, b]⟩ : Shape).Idx → Fin k → (⟨2, ![k, b]⟩ : Shape).Idx)
    (hf : ∀ i, f i = ∑ x : Fin k, A (lidx i x) * B (ridx i x))
    (hl : ∀ i x, lidx i x = ix2 (i 0) x) (hr : ∀ i x, ridx i x = ix2 x (i 1)) : f = mm A B := by
  funext i
  rw [hf i]
  unfold Cert.Spec.mm
  refine Finset.sum_congr rfl fun x _ => ?_
  rw [hl i x, hr i x]
  rfl

/-- Two arrays joined along the columns: a column below the first width reads the first, a later one the second. -/
theorem cat2_eq (x : Mat 8192 128) (y : Mat 8192 2) :
    concatenate S8192x130 1 [⟨S8192x128, x⟩, ⟨S8192x2, y⟩] concatenates_S8192x128_S8192x2_S8192x130_d1
      = hcat 130 rfl x y := by
  funext j
  unfold Cert.Spec.hcat
  split
  · next h =>
    exact concatenate_pair_apply_left 1 x y _ j rfl _ (fun b => by
      match b with
      | ⟨0, _⟩ => rfl
      | ⟨1, _⟩ => rfl)
  · next h =>
    refine concatenate_pair_apply_right 1 x y _ j rfl rfl _ (fun b hb => by
      match b with
      | ⟨0, _⟩ => rfl
      | ⟨1, _⟩ => exact absurd rfl hb) ?_
    show (j 1).val - 128 + 128 = (j 1).val
    omega

/-- Three arrays joined along the columns. -/
theorem cat3_eq (x : Mat 8192 128) (y : Mat 8192 2) (z : Mat 8192 4) :
    concatenate S8192x134 1 [⟨S8192x128, x⟩, ⟨S8192x2, y⟩, ⟨S8192x4, z⟩] concatenates_S8192x128_S8192x2_S8192x4_S8192x134_d1
      = hcat3 134 rfl x y z := by
  funext j
  unfold Cert.Spec.hcat3
  split
  · next h =>
    refine concatenate_apply_piece 1 _ _ j 0 (by simp) S8192x128 x rfl rfl 0 rfl _ (fun b hb => by
      match b with
      | ⟨0, _⟩ => rfl
      | ⟨1, _⟩ => exact absurd rfl hb) ?_
    show 0 + (j 1).val = (j 1).val
    omega
  · next h =>
    split
    · next h' =>
      refine concatenate_apply_piece 1 _ _ j 1 (by simp) S8192x2 y rfl rfl 128 rfl _ (fun b hb => by
        match b with
        | ⟨0, _⟩ => rfl
        | ⟨1, _⟩ => exact absurd rfl hb) ?_
      show 128 + ((j 1).val - 128) = (j 1).val
      omega
    · next h' =>
      refine concatenate_apply_piece 1 _ _ j 2 (by simp) S8192x4 z rfl rfl 130 rfl _ (fun b hb => by
        match b with
        | ⟨0, _⟩ => rfl
        | ⟨1, _⟩ => exact absurd rfl hb) ?_
      show 130 + ((j 1).val - (128 + 2)) = (j 1).val
      omega

/-! ## The broadcast stage: the mask column and the graph features of every edge -/

theorem v1_eq (x6 : (⟨S8x1, .i32⟩ : BufTy).Contents (Elt Ideal)) (x11 : (⟨S2048x8, .f32⟩ : BufTy).Contents (Elt Ideal)) :
    val_main_v1 (F := Ideal) x6 x11 = mm (x11) (val_main_v0 (F := Ideal) x6) :=
  eq_mm _ _ _ lidx_main_v1 ridx_main_v1 (val_main_v1_apply x6 x11)
    (fun i x => funext fun a => by match a with | ⟨0, _⟩ => rfl | ⟨1, _⟩ => rfl)
    (fun i x => funext fun a => by match a with | ⟨0, _⟩ => rfl | ⟨1, _⟩ => rfl)

theorem v2_eq (x6 : (⟨S8x1, .i32⟩ : BufTy).Contents (Elt Ideal)) (x8 : (⟨S8192x2048, .f32⟩ : BufTy).Contents (Elt Ideal)) (x11 : (⟨S2048x8, .f32⟩ : BufTy).Contents (Elt Ideal)) :
    val_main_v2 (F := Ideal) x6 x8 x11 = mm (x8) (val_main_v1 (F := Ideal) x6 x11) :=
  eq_mm _ _ _ lidx_main_v2 ridx_main_v2 (val_main_v2_apply x6 x8 x11)
    (fun i x => funext fun a => by match a with | ⟨0, _⟩ => rfl | ⟨1, _⟩ => rfl)
    (fun i x => funext fun a => by match a with | ⟨0, _⟩ => rfl | ⟨1, _⟩ => rfl)

theorem v3_eq (x5 : (⟨S8x4, .f32⟩ : BufTy).Contents (Elt Ideal)) (x11 : (⟨S2048x8, .f32⟩ : BufTy).Contents (Elt Ideal)) :
    val_main_v3 (F := Ideal) x5 x11 = mm (x11) (x5) :=
  eq_mm _ _ _ lidx_main_v3 ridx_main_v3 (val_main_v3_apply x5 x11)
    (fun i x => funext fun a => by match a with | ⟨0, _⟩ => rfl | ⟨1, _⟩ => rfl)
    (fun i x => funext fun a => by match a with | ⟨0, _⟩ => rfl | ⟨1, _⟩ => rfl)

theorem v4_eq (x5 : (⟨S8x4, .f32⟩ : BufTy).Contents (Elt Ideal)) (x8 : (⟨S8192x2048, .f32⟩ : BufTy).Contents (Elt Ideal)) (x11 : (⟨S2048x8, .f32⟩ : BufTy).Contents (Elt Ideal)) :
    val_main_v4 (F := Ideal) x5 x8 x11 = mm (x8) (val_main_v3 (F := Ideal) x5 x11) :=
  eq_mm _ _ _ lidx_main_v4 ridx_main_v4 (val_main_v4_apply x5 x8 x11)
    (fun i x => funext fun a => by match a with | ⟨0, _⟩ => rfl | ⟨1, _⟩ => rfl)
    (fun i x => funext fun a => by match a with | ⟨0, _⟩ => rfl | ⟨1, _⟩ => rfl)

/-! # The branch that writes the new function state -/

/-! ## The per-edge transform before aggregation -/

theorem v5_eq (x2 : (⟨S8192x128, .f32⟩ : BufTy).Contents (Elt Ideal)) (x4 : (⟨S8192x2, .f32⟩ : BufTy).Contents (Elt Ideal)) (x5 : (⟨S8x4, .f32⟩ : BufTy).Contents (Elt Ideal)) (x8 : (⟨S8192x2048, .f32⟩ : BufTy).Contents (Elt Ideal)) (x11 : (⟨S2048x8, .f32⟩ : BufTy).Contents (Elt Ideal)) :
    val_main_v5 (F := Ideal) x2 x4 x5 x8 x11 = hcat3 134 rfl x2 x4 (val_main_v4 (F := Ideal) x5 x8 x11) :=
  cat3_eq _ _ _

theorem v6_eq (x2 : (⟨S8192x128, .f32⟩ : BufTy).Contents (Elt Ideal)) (x4 : (⟨S8192x2, .f32⟩ : BufTy).Contents (Elt Ideal)) (x5 : (⟨S8x4, .f32⟩ : BufTy).Contents (Elt Ideal)) (x8 : (⟨S8192x2048, .f32⟩ : BufTy).Contents (Elt Ideal)) (x11 : (⟨S2048x8, .f32⟩ : BufTy).Contents (Elt Ideal)) (x12 : (⟨S134x256, .f32⟩ : BufTy).Contents (Elt Ideal)) :
    val_main_v6 (F := Ideal) x2 x4 x5 x8 x11 x12 = mm (val_main_v5 (F := Ideal) x2 x4 x5 x8 x11) (x12) :=
  eq_mm _ _ _ lidx_main_v6 ridx_main_v6 (val_main_v6_apply x2 x4 x5 x8 x11 x12)
    (fun i x => funext fun a => by match a with | ⟨0, _⟩ => rfl | ⟨1, _⟩ => rfl)
    (fun i x => funext fun a => by match a with | ⟨0, _⟩ => rfl | ⟨1, _⟩ => rfl)

theorem v9_eq (x2 : (⟨S8192x128, .f32⟩ : BufTy).Contents (Elt Ideal)) (x4 : (⟨S8192x2, .f32⟩ : BufTy).Contents (Elt Ideal)) (x5 : (⟨S8x4, .f32⟩ : BufTy).Contents (Elt Ideal)) (x8 : (⟨S8192x2048, .f32⟩ : BufTy).Contents (Elt Ideal)) (x11 : (⟨S2048x8, .f32⟩ : BufTy).Contents (Elt Ideal)) (x12 : (⟨S134x256, .f32⟩ : BufTy).Contents (Elt Ideal)) (x13 : (⟨S256, .f32⟩ : BufTy).Contents (Elt Ideal)) :
    val_main_v9 (F := Ideal) x2 x4 x5 x8 x11 x12 x13 = addRow (val_main_v6 (F := Ideal) x2 x4 x5 x8 x11 x12) (row x13) := by
  funext i
  have hidx : idx_main_v7 (idx_main_v8 i) = ix1 ((ix2 (0 : Fin 1) (i 1)) 1) :=
    funext fun a => by match a with | ⟨0, _⟩ => rfl
  rw [val_main_v9_apply, val_main_v8_apply, val_main_v7_apply, hidx]
  rfl

theorem v10_eq (x2 : (⟨S8192x128, .f32⟩ : BufTy).Contents (Elt Ideal)) (x4 : (⟨S8192x2, .f32⟩ : BufTy).Contents (Elt Ideal)) (x5 : (⟨S8x4, .f32⟩ : BufTy).Contents (Elt Ideal)) (x8 : (⟨S8192x2048, .f32⟩ : BufTy).Contents (Elt Ideal)) (x11 : (⟨S2048x8, .f32⟩ : BufTy).Contents (Elt Ideal)) (x12 : (⟨S134x256, .f32⟩ : BufTy).Contents (Elt Ideal)) (x13 : (⟨S256, .f32⟩ : BufTy).Contents (Elt Ideal)) :
    val_main_v10 (F := Ideal) x2 x4 x5 x8 x11 x12 x13 = relu (val_main_v9 (F := Ideal) x2 x4 x5 x8 x11 x12 x13) := by
  funext i
  rw [val_main_v10_apply, val_main_call0_v0_apply, val_main_call0_cst_apply]
  rfl

theorem v11_eq (x2 : (⟨S8192x128, .f32⟩ : BufTy).Contents (Elt Ideal)) (x4 : (⟨S8192x2, .f32⟩ : BufTy).Contents (Elt Ideal)) (x5 : (⟨S8x4, .f32⟩ : BufTy).Contents (Elt Ideal)) (x8 : (⟨S8192x2048, .f32⟩ : BufTy).Contents (Elt Ideal)) (x11 : (⟨S2048x8, .f32⟩ : BufTy).Contents (Elt Ideal)) (x12 : (⟨S134x256, .f32⟩ : BufTy).Contents (Elt Ideal)) (x13 : (⟨S256, .f32⟩ : BufTy).Contents (Elt Ideal)) (x14 : (⟨S256x128, .f32⟩ : BufTy).Contents (Elt Ideal)) :
    val_main_v11 (F := Ideal) x2 x4 x5 x8 x11 x12 x13 x14 = mm (val_main_v10 (F := Ideal) x2 x4 x5 x8 x11 x12 x13) (x14) :=
  eq_mm _ _ _ lidx_main_v11 ridx_main_v11 (val_main_v11_apply x2 x4 x5 x8 x11 x12 x13 x14)
    (fun i x => funext fun a => by match a with | ⟨0, _⟩ => rfl | ⟨1, _⟩ => rfl)
    (fun i x => funext fun a => by match a with | ⟨0, _⟩ => rfl | ⟨1, _⟩ => rfl)

theorem v14_eq (x2 : (⟨S8192x128, .f32⟩ : BufTy).Contents (Elt Ideal)) (x4 : (⟨S8192x2, .f32⟩ : BufTy).Contents (Elt Ideal)) (x5 : (⟨S8x4, .f32⟩ : BufTy).Contents (Elt Ideal)) (x8 : (⟨S8192x2048, .f32⟩ : BufTy).Contents (Elt Ideal)) (x11 : (⟨S2048x8, .f32⟩ : BufTy).Contents (Elt Ideal)) (x12 : (⟨S134x256, .f32⟩ : BufTy).Contents (Elt Ideal)) (x13 : (⟨S256, .f32⟩ : BufTy).Contents (Elt Ideal)) (x14 : (⟨S256x128, .f32⟩ : BufTy).Contents (Elt Ideal)) (x15 : (⟨S128, .f32⟩ : BufTy).Contents (Elt Ideal)) :
    val_main_v14 (F := Ideal) x2 x4 x5 x8 x11 x12 x13 x14 x15 = addRow (val_main_v11 (F := Ideal) x2 x4 x5 x8 x11 x12 x13 x14) (row x15) := by
  funext i
  have hidx : idx_main_v12 (idx_main_v13 i) = ix1 ((ix2 (0 : Fin 1) (i 1)) 1) :=
    funext fun a => by match a with | ⟨0, _⟩ => rfl
  rw [val_main_v14_apply, val_main_v13_apply, val_main_v12_apply, hidx]
  rfl

/-! ## The node sums, spread back to the edges, less the self message -/

theorem v15_eq (x2 : (⟨S8192x128, .f32⟩ : BufTy).Contents (Elt Ideal)) (x4 : (⟨S8192x2, .f32⟩ : BufTy).Contents (Elt Ideal)) (x5 : (⟨S8x4, .f32⟩ : BufTy).Contents (Elt Ideal)) (x7 : (⟨S2048x8192, .f32⟩ : BufTy).Contents (Elt Ideal)) (x8 : (⟨S8192x2048, .f32⟩ : BufTy).Contents (Elt Ideal)) (x11 : (⟨S2048x8, .f32⟩ : BufTy).Contents (Elt Ideal)) (x12 : (⟨S134x256, .f32⟩ : BufTy).Contents (Elt Ideal)) (x13 : (⟨S256, .f32⟩ : BufTy).Contents (Elt Ideal)) (x14 : (⟨S256x128, .f32⟩ : BufTy).Contents (Elt Ideal)) (x15 : (⟨S128, .f32⟩ : BufTy).Contents (Elt Ideal)) :
    val_main_v15 (F := Ideal) x2 x4 x5 x7 x8 x11 x12 x13 x14 x15 = mm (x7) (val_main_v14 (F := Ideal) x2 x4 x5 x8 x11 x12 x13 x14 x15) :=
  eq_mm _ _ _ lidx_main_v15 ridx_main_v15 (val_main_v15_apply x2 x4 x5 x7 x8 x11 x12 x13 x14 x15)
    (fun i x => funext fun a => by match a with | ⟨0, _⟩ => rfl | ⟨1, _⟩ => rfl)
    (fun i x => funext fun a => by match a with | ⟨0, _⟩ => rfl | ⟨1, _⟩ => rfl)

theorem v16_eq (x2 : (⟨S8192x128, .f32⟩ : BufTy).Contents (Elt Ideal)) (x4 : (⟨S8192x2, .f32⟩ : BufTy).Contents (Elt Ideal)) (x5 : (⟨S8x4, .f32⟩ : BufTy).Contents (Elt Ideal)) (x7 : (⟨S2048x8192, .f32⟩ : BufTy).Contents (Elt Ideal)) (x8 : (⟨S8192x2048, .f32⟩ : BufTy).Contents (Elt Ideal)) (x11 : (⟨S2048x8, .f32⟩ : BufTy).Contents (Elt Ideal)) (x12 : (⟨S134x256, .f32⟩ : BufTy).Contents (Elt Ideal)) (x13 : (⟨S256, .f32⟩ : BufTy).Contents (Elt Ideal)) (x14 : (⟨S256x128, .f32⟩ : BufTy).Contents (Elt Ideal)) (x15 : (⟨S128, .f32⟩ : BufTy).Contents (Elt Ideal)) :
    val_main_v16 (F := Ideal) x2 x4 x5 x7 x8 x11 x12 x13 x14 x15 = mm (x8) (val_main_v15 (F := Ideal) x2 x4 x5 x7 x8 x11 x12 x13 x14 x15) :=
  eq_mm _ _ _ lidx_main_v16 ridx_main_v16 (val_main_v16_apply x2 x4 x5 x7 x8 x11 x12 x13 x14 x15)
    (fun i x => funext fun a => by match a with | ⟨0, _⟩ => rfl | ⟨1, _⟩ => rfl)
    (fun i x => funext fun a => by match a with | ⟨0, _⟩ => rfl | ⟨1, _⟩ => rfl)

theorem v17_eq (x2 : (⟨S8192x128, .f32⟩ : BufTy).Contents (Elt Ideal)) (x4 : (⟨S8192x2, .f32⟩ : BufTy).Contents (Elt Ideal)) (x5 : (⟨S8x4, .f32⟩ : BufTy).Contents (Elt Ideal)) (x7 : (⟨S2048x8192, .f32⟩ : BufTy).Contents (Elt Ideal)) (x8 : (⟨S8192x2048, .f32⟩ : BufTy).Contents (Elt Ideal)) (x11 : (⟨S2048x8, .f32⟩ : BufTy).Contents (Elt Ideal)) (x12 : (⟨S134x256, .f32⟩ : BufTy).Contents (Elt Ideal)) (x13 : (⟨S256, .f32⟩ : BufTy).Contents (Elt Ideal)) (x14 : (⟨S256x128, .f32⟩ : BufTy).Contents (Elt Ideal)) (x15 : (⟨S128, .f32⟩ : BufTy).Contents (Elt Ideal)) :
    val_main_v17 (F := Ideal) x2 x4 x5 x7 x8 x11 x12 x13 x14 x15 = sub (val_main_v16 (F := Ideal) x2 x4 x5 x7 x8 x11 x12 x13 x14 x15) (val_main_v14 (F := Ideal) x2 x4 x5 x8 x11 x12 x13 x14 x15) := rfl

/-! ## The transform of the aggregate -/

theorem v18_eq (x2 : (⟨S8192x128, .f32⟩ : BufTy).Contents (Elt Ideal)) (x4 : (⟨S8192x2, .f32⟩ : BufTy).Contents (Elt Ideal)) (x5 : (⟨S8x4, .f32⟩ : BufTy).Contents (Elt Ideal)) (x7 : (⟨S2048x8192, .f32⟩ : BufTy).Contents (Elt Ideal)) (x8 : (⟨S8192x2048, .f32⟩ : BufTy).Contents (Elt Ideal)) (x11 : (⟨S2048x8, .f32⟩ : BufTy).Contents (Elt Ideal)) (x12 : (⟨S134x256, .f32⟩ : BufTy).Contents (Elt Ideal)) (x13 : (⟨S256, .f32⟩ : BufTy).Contents (Elt Ideal)) (x14 : (⟨S256x128, .f32⟩ : BufTy).Contents (Elt Ideal)) (x15 : (⟨S128, .f32⟩ : BufTy).Contents (Elt Ideal)) :
    val_main_v18 (F := Ideal) x2 x4 x5 x7 x8 x11 x12 x13 x14 x15 = hcat 130 rfl (val_main_v17 (F := Ideal) x2 x4 x5 x7 x8 x11 x12 x13 x14 x15) x4 :=
  cat2_eq _ _

theorem v19_eq (x2 : (⟨S8192x128, .f32⟩ : BufTy).Contents (Elt Ideal)) (x4 : (⟨S8192x2, .f32⟩ : BufTy).Contents (Elt Ideal)) (x5 : (⟨S8x4, .f32⟩ : BufTy).Contents (Elt Ideal)) (x7 : (⟨S2048x8192, .f32⟩ : BufTy).Contents (Elt Ideal)) (x8 : (⟨S8192x2048, .f32⟩ : BufTy).Contents (Elt Ideal)) (x11 : (⟨S2048x8, .f32⟩ : BufTy).Contents (Elt Ideal)) (x12 : (⟨S134x256, .f32⟩ : BufTy).Contents (Elt Ideal)) (x13 : (⟨S256, .f32⟩ : BufTy).Contents (Elt Ideal)) (x14 : (⟨S256x128, .f32⟩ : BufTy).Contents (Elt Ideal)) (x15 : (⟨S128, .f32⟩ : BufTy).Contents (Elt Ideal)) (x16 : (⟨S130x128, .f32⟩ : BufTy).Contents (Elt Ideal)) :
    val_main_v19 (F := Ideal) x2 x4 x5 x7 x8 x11 x12 x13 x14 x15 x16 = mm (val_main_v18 (F := Ideal) x2 x4 x5 x7 x8 x11 x12 x13 x14 x15) (x16) :=
  eq_mm _ _ _ lidx_main_v19 ridx_main_v19 (val_main_v19_apply x2 x4 x5 x7 x8 x11 x12 x13 x14 x15 x16)
    (fun i x => funext fun a => by match a with | ⟨0, _⟩ => rfl | ⟨1, _⟩ => rfl)
    (fun i x => funext fun a => by match a with | ⟨0, _⟩ => rfl | ⟨1, _⟩ => rfl)

theorem v22_eq (x2 : (⟨S8192x128, .f32⟩ : BufTy).Contents (Elt Ideal)) (x4 : (⟨S8192x2, .f32⟩ : BufTy).Contents (Elt Ideal)) (x5 : (⟨S8x4, .f32⟩ : BufTy).Contents (Elt Ideal)) (x7 : (⟨S2048x8192, .f32⟩ : BufTy).Contents (Elt Ideal)) (x8 : (⟨S8192x2048, .f32⟩ : BufTy).Contents (Elt Ideal)) (x11 : (⟨S2048x8, .f32⟩ : BufTy).Contents (Elt Ideal)) (x12 : (⟨S134x256, .f32⟩ : BufTy).Contents (Elt Ideal)) (x13 : (⟨S256, .f32⟩ : BufTy).Contents (Elt Ideal)) (x14 : (⟨S256x128, .f32⟩ : BufTy).Contents (Elt Ideal)) (x15 : (⟨S128, .f32⟩ : BufTy).Contents (Elt Ideal)) (x16 : (⟨S130x128, .f32⟩ : BufTy).Contents (Elt Ideal)) (x17 : (⟨S128, .f32⟩ : BufTy).Contents (Elt Ideal)) :
    val_main_v22 (F := Ideal) x2 x4 x5 x7 x8 x11 x12 x13 x14 x15 x16 x17 = addRow (val_main_v19 (F := Ideal) x2 x4 x5 x7 x8 x11 x12 x13 x14 x15 x16) (row x17) := by
  funext i
  have hidx : idx_main_v20 (idx_main_v21 i) = ix1 ((ix2 (0 : Fin 1) (i 1)) 1) :=
    funext fun a => by match a with | ⟨0, _⟩ => rfl
  rw [val_main_v22_apply, val_main_v21_apply, val_main_v20_apply, hidx]
  rfl

theorem v23_eq (x2 : (⟨S8192x128, .f32⟩ : BufTy).Contents (Elt Ideal)) (x4 : (⟨S8192x2, .f32⟩ : BufTy).Contents (Elt Ideal)) (x5 : (⟨S8x4, .f32⟩ : BufTy).Contents (Elt Ideal)) (x7 : (⟨S2048x8192, .f32⟩ : BufTy).Contents (Elt Ideal)) (x8 : (⟨S8192x2048, .f32⟩ : BufTy).Contents (Elt Ideal)) (x11 : (⟨S2048x8, .f32⟩ : BufTy).Contents (Elt Ideal)) (x12 : (⟨S134x256, .f32⟩ : BufTy).Contents (Elt Ideal)) (x13 : (⟨S256, .f32⟩ : BufTy).Contents (Elt Ideal)) (x14 : (⟨S256x128, .f32⟩ : BufTy).Contents (Elt Ideal)) (x15 : (⟨S128, .f32⟩ : BufTy).Contents (Elt Ideal)) (x16 : (⟨S130x128, .f32⟩ : BufTy).Contents (Elt Ideal)) (x17 : (⟨S128, .f32⟩ : BufTy).Contents (Elt Ideal)) :
    val_main_v23 (F := Ideal) x2 x4 x5 x7 x8 x11 x12 x13 x14 x15 x16 x17 = relu (val_main_v22 (F := Ideal) x2 x4 x5 x7 x8 x11 x12 x13 x14 x15 x16 x17) := by
  funext i
  rw [val_main_v23_apply, val_main_call1_v0_apply, val_main_call1_cst_apply]
  rfl

theorem v24_eq (x2 : (⟨S8192x128, .f32⟩ : BufTy).Contents (Elt Ideal)) (x4 : (⟨S8192x2, .f32⟩ : BufTy).Contents (Elt Ideal)) (x5 : (⟨S8x4, .f32⟩ : BufTy).Contents (Elt Ideal)) (x7 : (⟨S2048x8192, .f32⟩ : BufTy).Contents (Elt Ideal)) (x8 : (⟨S8192x2048, .f32⟩ : BufTy).Contents (Elt Ideal)) (x11 : (⟨S2048x8, .f32⟩ : BufTy).Contents (Elt Ideal)) (x12 : (⟨S134x256, .f32⟩ : BufTy).Contents (Elt Ideal)) (x13 : (⟨S256, .f32⟩ : BufTy).Contents (Elt Ideal)) (x14 : (⟨S256x128, .f32⟩ : BufTy).Contents (Elt Ideal)) (x15 : (⟨S128, .f32⟩ : BufTy).Contents (Elt Ideal)) (x16 : (⟨S130x128, .f32⟩ : BufTy).Contents (Elt Ideal)) (x17 : (⟨S128, .f32⟩ : BufTy).Contents (Elt Ideal)) (x18 : (⟨S128x128, .f32⟩ : BufTy).Contents (Elt Ideal)) :
    val_main_v24 (F := Ideal) x2 x4 x5 x7 x8 x11 x12 x13 x14 x15 x16 x17 x18 = mm (val_main_v23 (F := Ideal) x2 x4 x5 x7 x8 x11 x12 x13 x14 x15 x16 x17) (x18) :=
  eq_mm _ _ _ lidx_main_v24 ridx_main_v24 (val_main_v24_apply x2 x4 x5 x7 x8 x11 x12 x13 x14 x15 x16 x17 x18)
    (fun i x => funext fun a => by match a with | ⟨0, _⟩ => rfl | ⟨1, _⟩ => rfl)
    (fun i x => funext fun a => by match a with | ⟨0, _⟩ => rfl | ⟨1, _⟩ => rfl)

theorem v27_eq (x2 : (⟨S8192x128, .f32⟩ : BufTy).Contents (Elt Ideal)) (x4 : (⟨S8192x2, .f32⟩ : BufTy).Contents (Elt Ideal)) (x5 : (⟨S8x4, .f32⟩ : BufTy).Contents (Elt Ideal)) (x7 : (⟨S2048x8192, .f32⟩ : BufTy).Contents (Elt Ideal)) (x8 : (⟨S8192x2048, .f32⟩ : BufTy).Contents (Elt Ideal)) (x11 : (⟨S2048x8, .f32⟩ : BufTy).Contents (Elt Ideal)) (x12 : (⟨S134x256, .f32⟩ : BufTy).Contents (Elt Ideal)) (x13 : (⟨S256, .f32⟩ : BufTy).Contents (Elt Ideal)) (x14 : (⟨S256x128, .f32⟩ : BufTy).Contents (Elt Ideal)) (x15 : (⟨S128, .f32⟩ : BufTy).Contents (Elt Ideal)) (x16 : (⟨S130x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) :
    val_main_v27 (F := Ideal) x2 x4 x5 x7 x8 x11 x12 x13 x14 x15 x16 x17 x18 x19 = addRow (val_main_v24 (F := Ideal) x2 x4 x5 x7 x8 x11 x12 x13 x14 x15 x16 x17 x18) (row x19) := by
  funext i
  have hidx : idx_main_v25 (idx_main_v26 i) = ix1 ((ix2 (0 : Fin 1) (i 1)) 1) :=
    funext fun a => by match a with | ⟨0, _⟩ => rfl
  rw [val_main_v27_apply, val_main_v26_apply, val_main_v25_apply, hidx]
  rfl

/-! ## The blend with the previous state under the mask column -/

theorem v34_blend (x1 x2 : (⟨S8192x128, .f32⟩ : BufTy).Contents (Elt Ideal)) (x4 : (⟨S8192x2, .f32⟩ : BufTy).Contents (Elt Ideal)) (x5 : (⟨S8x4, .f32⟩ : BufTy).Contents (Elt Ideal)) (x6 : (⟨S8x1, .i32⟩ : BufTy).Contents (Elt Ideal)) (x7 : (⟨S2048x8192, .f32⟩ : BufTy).Contents (Elt Ideal)) (x8 : (⟨S8192x2048, .f32⟩ : BufTy).Contents (Elt Ideal)) (x11 : (⟨S2048x8, .f32⟩ : BufTy).Contents (Elt Ideal)) (x12 : (⟨S134x256, .f32⟩ : BufTy).Contents (Elt Ideal)) (x13 : (⟨S256, .f32⟩ : BufTy).Contents (Elt Ideal)) (x14 : (⟨S256x128, .f32⟩ : BufTy).Contents (Elt Ideal)) (x15 : (⟨S128, .f32⟩ : BufTy).Contents (Elt Ideal)) (x16 : (⟨S130x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) :
    val_main_v34 (F := Ideal) x1 x2 x4 x5 x6 x7 x8 x11 x12 x13 x14 x15 x16 x17 x18 x19 = fun i => val_main_v2 (F := Ideal) x6 x8 x11 (ix2 (i 0) (0 : Fin 1)) * val_main_v27 (F := Ideal) x2 x4 x5 x7 x8 x11 x12 x13 x14 x15 x16 x17 x18 x19 i
      + (oneW - val_main_v2 (F := Ideal) x6 x8 x11 (ix2 (i 0) (0 : Fin 1))) * x1 i := by
  funext i
  have hidx : idx_main_v28 i = ix2 (i 0) (0 : Fin 1) :=
    funext fun a => by match a with | ⟨0, _⟩ => rfl | ⟨1, _⟩ => rfl
  have hidx' : idx_main_v32 i = ix2 (i 0) (0 : Fin 1) :=
    funext fun a => by match a with | ⟨0, _⟩ => rfl | ⟨1, _⟩ => rfl
  rw [val_main_v34_apply, val_main_v29_apply, val_main_v28_apply, val_main_v33_apply, val_main_v32_apply,
    val_main_v31_apply, val_main_v30_apply, val_main_cst_apply, hidx, hidx']
  rfl
/-- The per-edge transform, as one function of the arguments. -/
theorem v14_head (x2 : (⟨S8192x128, .f32⟩ : BufTy).Contents (Elt Ideal)) (x4 : (⟨S8192x2, .f32⟩ : BufTy).Contents (Elt Ideal)) (x5 : (⟨S8x4, .f32⟩ : BufTy).Contents (Elt Ideal)) (x8 : (⟨S8192x2048, .f32⟩ : BufTy).Contents (Elt Ideal)) (x11 : (⟨S2048x8, .f32⟩ : BufTy).Contents (Elt Ideal)) (x12 : (⟨S134x256, .f32⟩ : BufTy).Contents (Elt Ideal)) (x13 : (⟨S256, .f32⟩ : BufTy).Contents (Elt Ideal)) (x14 : (⟨S256x128, .f32⟩ : BufTy).Contents (Elt Ideal)) (x15 : (⟨S128, .f32⟩ : BufTy).Contents (Elt Ideal)) :
    val_main_v14 (F := Ideal) x2 x4 x5 x8 x11 x12 x13 x14 x15 = headMlp x2 x4 (mm x8 (mm x11 x5)) x12 (row x13) x14 (row x15) := by
  rw [v14_eq, v11_eq, v10_eq, v9_eq, v6_eq, v5_eq, v4_eq, v3_eq]
  rfl

/-- The result: the blend of the transformed aggregate with the previous state under the mask column. -/
theorem v34_eq (x1 x2 : (⟨S8192x128, .f32⟩ : BufTy).Contents (Elt Ideal)) (x4 : (⟨S8192x2, .f32⟩ : BufTy).Contents (Elt Ideal)) (x5 : (⟨S8x4, .f32⟩ : BufTy).Contents (Elt Ideal)) (x6 : (⟨S8x1, .i32⟩ : BufTy).Contents (Elt Ideal)) (x7 : (⟨S2048x8192, .f32⟩ : BufTy).Contents (Elt Ideal)) (x8 : (⟨S8192x2048, .f32⟩ : BufTy).Contents (Elt Ideal)) (x11 : (⟨S2048x8, .f32⟩ : BufTy).Contents (Elt Ideal)) (x12 : (⟨S134x256, .f32⟩ : BufTy).Contents (Elt Ideal)) (x13 : (⟨S256, .f32⟩ : BufTy).Contents (Elt Ideal)) (x14 : (⟨S256x128, .f32⟩ : BufTy).Contents (Elt Ideal)) (x15 : (⟨S128, .f32⟩ : BufTy).Contents (Elt Ideal)) (x16 : (⟨S130x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) :
    val_main_v34 (F := Ideal) x1 x2 x4 x5 x6 x7 x8 x11 x12 x13 x14 x15 x16 x17 x18 x19
      = blend x8 (mm x7 (headMlp x2 x4 (mm x8 (mm x11 x5)) x12 (row x13) x14 (row x15))) (headMlp x2 x4 (mm x8 (mm x11 x5)) x12 (row x13) x14 (row x15)) x4
          (mm x8 (mm x11 (fun i => FloatOps.sitofp (F := Ideal) .f32 (x6 i)))) x1 x16 (row x17) x18 (row x19) := by
  rw [v34_blend, v27_eq, v24_eq, v23_eq, v22_eq, v19_eq, v18_eq, v17_eq, v16_eq, v15_eq, v14_head,
    v2_eq, v1_eq]
  rfl

/-! # The branch that writes the new variable state -/

/-! ## The per-edge transform before aggregation -/

theorem v35_eq (x3 : (⟨S8192x128, .f32⟩ : BufTy).Contents (Elt Ideal)) (x4 : (⟨S8192x2, .f32⟩ : BufTy).Contents (Elt Ideal)) (x5 : (⟨S8x4, .f32⟩ : BufTy).Contents (Elt Ideal)) (x8 : (⟨S8192x2048, .f32⟩ : BufTy).Contents (Elt Ideal)) (x11 : (⟨S2048x8, .f32⟩ : BufTy).Contents (Elt Ideal)) :
    val_main_v35 (F := Ideal) x3 x4 x5 x8 x11 = hcat3 134 rfl x3 x4 (val_main_v4 (F := Ideal) x5 x8 x11) :=
  cat3_eq _ _ _

theorem v36_eq (x3 : (⟨S8192x128, .f32⟩ : BufTy).Contents (Elt Ideal)) (x4 : (⟨S8192x2, .f32⟩ : BufTy).Contents (Elt Ideal)) (x5 : (⟨S8x4, .f32⟩ : BufTy).Contents (Elt Ideal)) (x8 : (⟨S8192x2048, .f32⟩ : BufTy).Contents (Elt Ideal)) (x11 : (⟨S2048x8, .f32⟩ : BufTy).Contents (Elt Ideal)) (x20 : (⟨S134x256, .f32⟩ : BufTy).Contents (Elt Ideal)) :
    val_main_v36 (F := Ideal) x3 x4 x5 x8 x11 x20 = mm (val_main_v35 (F := Ideal) x3 x4 x5 x8 x11) (x20) :=
  eq_mm _ _ _ lidx_main_v36 ridx_main_v36 (val_main_v36_apply x3 x4 x5 x8 x11 x20)
    (fun i x => funext fun a => by match a with | ⟨0, _⟩ => rfl | ⟨1, _⟩ => rfl)
    (fun i x => funext fun a => by match a with | ⟨0, _⟩ => rfl | ⟨1, _⟩ => rfl)

theorem v39_eq (x3 : (⟨S8192x128, .f32⟩ : BufTy).Contents (Elt Ideal)) (x4 : (⟨S8192x2, .f32⟩ : BufTy).Contents (Elt Ideal)) (x5 : (⟨S8x4, .f32⟩ : BufTy).Contents (Elt Ideal)) (x8 : (⟨S8192x2048, .f32⟩ : BufTy).Contents (Elt Ideal)) (x11 : (⟨S2048x8, .f32⟩ : BufTy).Contents (Elt Ideal)) (x20 : (⟨S134x256, .f32⟩ : BufTy).Contents (Elt Ideal)) (x21 : (⟨S256, .f32⟩ : BufTy).Contents (Elt Ideal)) :
    val_main_v39 (F := Ideal) x3 x4 x5 x8 x11 x20 x21 = addRow (val_main_v36 (F := Ideal) x3 x4 x5 x8 x11 x20) (row x21) := by
  funext i
  have hidx : idx_main_v37 (idx_main_v38 i) = ix1 ((ix2 (0 : Fin 1) (i 1)) 1) :=
    funext fun a => by match a with | ⟨0, _⟩ => rfl
  rw [val_main_v39_apply, val_main_v38_apply, val_main_v37_apply, hidx]
  rfl

theorem v40_eq (x3 : (⟨S8192x128, .f32⟩ : BufTy).Contents (Elt Ideal)) (x4 : (⟨S8192x2, .f32⟩ : BufTy).Contents (Elt Ideal)) (x5 : (⟨S8x4, .f32⟩ : BufTy).Contents (Elt Ideal)) (x8 : (⟨S8192x2048, .f32⟩ : BufTy).Contents (Elt Ideal)) (x11 : (⟨S2048x8, .f32⟩ : BufTy).Contents (Elt Ideal)) (x20 : (⟨S134x256, .f32⟩ : BufTy).Contents (Elt Ideal)) (x21 : (⟨S256, .f32⟩ : BufTy).Contents (Elt Ideal)) :
    val_main_v40 (F := Ideal) x3 x4 x5 x8 x11 x20 x21 = relu (val_main_v39 (F := Ideal) x3 x4 x5 x8 x11 x20 x21) := by
  funext i
  rw [val_main_v40_apply, val_main_call2_v0_apply, val_main_call2_cst_apply]
  rfl

theorem v41_eq (x3 : (⟨S8192x128, .f32⟩ : BufTy).Contents (Elt Ideal)) (x4 : (⟨S8192x2, .f32⟩ : BufTy).Contents (Elt Ideal)) (x5 : (⟨S8x4, .f32⟩ : BufTy).Contents (Elt Ideal)) (x8 : (⟨S8192x2048, .f32⟩ : BufTy).Contents (Elt Ideal)) (x11 : (⟨S2048x8, .f32⟩ : BufTy).Contents (Elt Ideal)) (x20 : (⟨S134x256, .f32⟩ : BufTy).Contents (Elt Ideal)) (x21 : (⟨S256, .f32⟩ : BufTy).Contents (Elt Ideal)) (x22 : (⟨S256x128, .f32⟩ : BufTy).Contents (Elt Ideal)) :
    val_main_v41 (F := Ideal) x3 x4 x5 x8 x11 x20 x21 x22 = mm (val_main_v40 (F := Ideal) x3 x4 x5 x8 x11 x20 x21) (x22) :=
  eq_mm _ _ _ lidx_main_v41 ridx_main_v41 (val_main_v41_apply x3 x4 x5 x8 x11 x20 x21 x22)
    (fun i x => funext fun a => by match a with | ⟨0, _⟩ => rfl | ⟨1, _⟩ => rfl)
    (fun i x => funext fun a => by match a with | ⟨0, _⟩ => rfl | ⟨1, _⟩ => rfl)

theorem v44_eq (x3 : (⟨S8192x128, .f32⟩ : BufTy).Contents (Elt Ideal)) (x4 : (⟨S8192x2, .f32⟩ : BufTy).Contents (Elt Ideal)) (x5 : (⟨S8x4, .f32⟩ : BufTy).Contents (Elt Ideal)) (x8 : (⟨S8192x2048, .f32⟩ : BufTy).Contents (Elt Ideal)) (x11 : (⟨S2048x8, .f32⟩ : BufTy).Contents (Elt Ideal)) (x20 : (⟨S134x256, .f32⟩ : BufTy).Contents (Elt Ideal)) (x21 : (⟨S256, .f32⟩ : BufTy).Contents (Elt Ideal)) (x22 : (⟨S256x128, .f32⟩ : BufTy).Contents (Elt Ideal)) (x23 : (⟨S128, .f32⟩ : BufTy).Contents (Elt Ideal)) :
    val_main_v44 (F := Ideal) x3 x4 x5 x8 x11 x20 x21 x22 x23 = addRow (val_main_v41 (F := Ideal) x3 x4 x5 x8 x11 x20 x21 x22) (row x23) := by
  funext i
  have hidx : idx_main_v42 (idx_main_v43 i) = ix1 ((ix2 (0 : Fin 1) (i 1)) 1) :=
    funext fun a => by match a with | ⟨0, _⟩ => rfl
  rw [val_main_v44_apply, val_main_v43_apply, val_main_v42_apply, hidx]
  rfl

/-! ## The node sums, spread back to the edges, less the self message -/

theorem v45_eq (x3 : (⟨S8192x128, .f32⟩ : BufTy).Contents (Elt Ideal)) (x4 : (⟨S8192x2, .f32⟩ : BufTy).Contents (Elt Ideal)) (x5 : (⟨S8x4, .f32⟩ : BufTy).Contents (Elt Ideal)) (x8 : (⟨S8192x2048, .f32⟩ : BufTy).Contents (Elt Ideal)) (x9 : (⟨S2048x8192, .f32⟩ : BufTy).Contents (Elt Ideal)) (x11 : (⟨S2048x8, .f32⟩ : BufTy).Contents (Elt Ideal)) (x20 : (⟨S134x256, .f32⟩ : BufTy).Contents (Elt Ideal)) (x21 : (⟨S256, .f32⟩ : BufTy).Contents (Elt Ideal)) (x22 : (⟨S256x128, .f32⟩ : BufTy).Contents (Elt Ideal)) (x23 : (⟨S128, .f32⟩ : BufTy).Contents (Elt Ideal)) :
    val_main_v45 (F := Ideal) x3 x4 x5 x8 x9 x11 x20 x21 x22 x23 = mm (x9) (val_main_v44 (F := Ideal) x3 x4 x5 x8 x11 x20 x21 x22 x23) :=
  eq_mm _ _ _ lidx_main_v45 ridx_main_v45 (val_main_v45_apply x3 x4 x5 x8 x9 x11 x20 x21 x22 x23)
    (fun i x => funext fun a => by match a with | ⟨0, _⟩ => rfl | ⟨1, _⟩ => rfl)
    (fun i x => funext fun a => by match a with | ⟨0, _⟩ => rfl | ⟨1, _⟩ => rfl)

theorem v46_eq (x3 : (⟨S8192x128, .f32⟩ : BufTy).Contents (Elt Ideal)) (x4 : (⟨S8192x2, .f32⟩ : BufTy).Contents (Elt Ideal)) (x5 : (⟨S8x4, .f32⟩ : BufTy).Contents (Elt Ideal)) (x8 : (⟨S8192x2048, .f32⟩ : BufTy).Contents (Elt Ideal)) (x9 : (⟨S2048x8192, .f32⟩ : BufTy).Contents (Elt Ideal)) (x10 : (⟨S8192x2048, .f32⟩ : BufTy).Contents (Elt Ideal)) (x11 : (⟨S2048x8, .f32⟩ : BufTy).Contents (Elt Ideal)) (x20 : (⟨S134x256, .f32⟩ : BufTy).Contents (Elt Ideal)) (x21 : (⟨S256, .f32⟩ : BufTy).Contents (Elt Ideal)) (x22 : (⟨S256x128, .f32⟩ : BufTy).Contents (Elt Ideal)) (x23 : (⟨S128, .f32⟩ : BufTy).Contents (Elt Ideal)) :
    val_main_v46 (F := Ideal) x3 x4 x5 x8 x9 x10 x11 x20 x21 x22 x23 = mm (x10) (val_main_v45 (F := Ideal) x3 x4 x5 x8 x9 x11 x20 x21 x22 x23) :=
  eq_mm _ _ _ lidx_main_v46 ridx_main_v46 (val_main_v46_apply x3 x4 x5 x8 x9 x10 x11 x20 x21 x22 x23)
    (fun i x => funext fun a => by match a with | ⟨0, _⟩ => rfl | ⟨1, _⟩ => rfl)
    (fun i x => funext fun a => by match a with | ⟨0, _⟩ => rfl | ⟨1, _⟩ => rfl)

theorem v47_eq (x3 : (⟨S8192x128, .f32⟩ : BufTy).Contents (Elt Ideal)) (x4 : (⟨S8192x2, .f32⟩ : BufTy).Contents (Elt Ideal)) (x5 : (⟨S8x4, .f32⟩ : BufTy).Contents (Elt Ideal)) (x8 : (⟨S8192x2048, .f32⟩ : BufTy).Contents (Elt Ideal)) (x9 : (⟨S2048x8192, .f32⟩ : BufTy).Contents (Elt Ideal)) (x10 : (⟨S8192x2048, .f32⟩ : BufTy).Contents (Elt Ideal)) (x11 : (⟨S2048x8, .f32⟩ : BufTy).Contents (Elt Ideal)) (x20 : (⟨S134x256, .f32⟩ : BufTy).Contents (Elt Ideal)) (x21 : (⟨S256, .f32⟩ : BufTy).Contents (Elt Ideal)) (x22 : (⟨S256x128, .f32⟩ : BufTy).Contents (Elt Ideal)) (x23 : (⟨S128, .f32⟩ : BufTy).Contents (Elt Ideal)) :
    val_main_v47 (F := Ideal) x3 x4 x5 x8 x9 x10 x11 x20 x21 x22 x23 = sub (val_main_v46 (F := Ideal) x3 x4 x5 x8 x9 x10 x11 x20 x21 x22 x23) (val_main_v44 (F := Ideal) x3 x4 x5 x8 x11 x20 x21 x22 x23) := rfl

/-! ## The transform of the aggregate -/

theorem v48_eq (x3 : (⟨S8192x128, .f32⟩ : BufTy).Contents (Elt Ideal)) (x4 : (⟨S8192x2, .f32⟩ : BufTy).Contents (Elt Ideal)) (x5 : (⟨S8x4, .f32⟩ : BufTy).Contents (Elt Ideal)) (x8 : (⟨S8192x2048, .f32⟩ : BufTy).Contents (Elt Ideal)) (x9 : (⟨S2048x8192, .f32⟩ : BufTy).Contents (Elt Ideal)) (x10 : (⟨S8192x2048, .f32⟩ : BufTy).Contents (Elt Ideal)) (x11 : (⟨S2048x8, .f32⟩ : BufTy).Contents (Elt Ideal)) (x20 : (⟨S134x256, .f32⟩ : BufTy).Contents (Elt Ideal)) (x21 : (⟨S256, .f32⟩ : BufTy).Contents (Elt Ideal)) (x22 : (⟨S256x128, .f32⟩ : BufTy).Contents (Elt Ideal)) (x23 : (⟨S128, .f32⟩ : BufTy).Contents (Elt Ideal)) :
    val_main_v48 (F := Ideal) x3 x4 x5 x8 x9 x10 x11 x20 x21 x22 x23 = hcat 130 rfl (val_main_v47 (F := Ideal) x3 x4 x5 x8 x9 x10 x11 x20 x21 x22 x23) x4 :=
  cat2_eq _ _

theorem v49_eq (x3 : (⟨S8192x128, .f32⟩ : BufTy).Contents (Elt Ideal)) (x4 : (⟨S8192x2, .f32⟩ : BufTy).Contents (Elt Ideal)) (x5 : (⟨S8x4, .f32⟩ : BufTy).Contents (Elt Ideal)) (x8 : (⟨S8192x2048, .f32⟩ : BufTy).Contents (Elt Ideal)) (x9 : (⟨S2048x8192, .f32⟩ : BufTy).Contents (Elt Ideal)) (x10 : (⟨S8192x2048, .f32⟩ : BufTy).Contents (Elt Ideal)) (x11 : (⟨S2048x8, .f32⟩ : BufTy).Contents (Elt Ideal)) (x20 : (⟨S134x256, .f32⟩ : BufTy).Contents (Elt Ideal)) (x21 : (⟨S256, .f32⟩ : BufTy).Contents (Elt Ideal)) (x22 : (⟨S256x128, .f32⟩ : BufTy).Contents (Elt Ideal)) (x23 : (⟨S128, .f32⟩ : BufTy).Contents (Elt Ideal)) (x24 : (⟨S130x128, .f32⟩ : BufTy).Contents (Elt Ideal)) :
    val_main_v49 (F := Ideal) x3 x4 x5 x8 x9 x10 x11 x20 x21 x22 x23 x24 = mm (val_main_v48 (F := Ideal) x3 x4 x5 x8 x9 x10 x11 x20 x21 x22 x23) (x24) :=
  eq_mm _ _ _ lidx_main_v49 ridx_main_v49 (val_main_v49_apply x3 x4 x5 x8 x9 x10 x11 x20 x21 x22 x23 x24)
    (fun i x => funext fun a => by match a with | ⟨0, _⟩ => rfl | ⟨1, _⟩ => rfl)
    (fun i x => funext fun a => by match a with | ⟨0, _⟩ => rfl | ⟨1, _⟩ => rfl)

theorem v52_eq (x3 : (⟨S8192x128, .f32⟩ : BufTy).Contents (Elt Ideal)) (x4 : (⟨S8192x2, .f32⟩ : BufTy).Contents (Elt Ideal)) (x5 : (⟨S8x4, .f32⟩ : BufTy).Contents (Elt Ideal)) (x8 : (⟨S8192x2048, .f32⟩ : BufTy).Contents (Elt Ideal)) (x9 : (⟨S2048x8192, .f32⟩ : BufTy).Contents (Elt Ideal)) (x10 : (⟨S8192x2048, .f32⟩ : BufTy).Contents (Elt Ideal)) (x11 : (⟨S2048x8, .f32⟩ : BufTy).Contents (Elt Ideal)) (x20 : (⟨S134x256, .f32⟩ : BufTy).Contents (Elt Ideal)) (x21 : (⟨S256, .f32⟩ : BufTy).Contents (Elt Ideal)) (x22 : (⟨S256x128, .f32⟩ : BufTy).Contents (Elt Ideal)) (x23 : (⟨S128, .f32⟩ : BufTy).Contents (Elt Ideal)) (x24 : (⟨S130x128, .f32⟩ : BufTy).Contents (Elt Ideal)) (x25 : (⟨S128, .f32⟩ : BufTy).Contents (Elt Ideal)) :
    val_main_v52 (F := Ideal) x3 x4 x5 x8 x9 x10 x11 x20 x21 x22 x23 x24 x25 = addRow (val_main_v49 (F := Ideal) x3 x4 x5 x8 x9 x10 x11 x20 x21 x22 x23 x24) (row x25) := by
  funext i
  have hidx : idx_main_v50 (idx_main_v51 i) = ix1 ((ix2 (0 : Fin 1) (i 1)) 1) :=
    funext fun a => by match a with | ⟨0, _⟩ => rfl
  rw [val_main_v52_apply, val_main_v51_apply, val_main_v50_apply, hidx]
  rfl

theorem v53_eq (x3 : (⟨S8192x128, .f32⟩ : BufTy).Contents (Elt Ideal)) (x4 : (⟨S8192x2, .f32⟩ : BufTy).Contents (Elt Ideal)) (x5 : (⟨S8x4, .f32⟩ : BufTy).Contents (Elt Ideal)) (x8 : (⟨S8192x2048, .f32⟩ : BufTy).Contents (Elt Ideal)) (x9 : (⟨S2048x8192, .f32⟩ : BufTy).Contents (Elt Ideal)) (x10 : (⟨S8192x2048, .f32⟩ : BufTy).Contents (Elt Ideal)) (x11 : (⟨S2048x8, .f32⟩ : BufTy).Contents (Elt Ideal)) (x20 : (⟨S134x256, .f32⟩ : BufTy).Contents (Elt Ideal)) (x21 : (⟨S256, .f32⟩ : BufTy).Contents (Elt Ideal)) (x22 : (⟨S256x128, .f32⟩ : BufTy).Contents (Elt Ideal)) (x23 : (⟨S128, .f32⟩ : BufTy).Contents (Elt Ideal)) (x24 : (⟨S130x128, .f32⟩ : BufTy).Contents (Elt Ideal)) (x25 : (⟨S128, .f32⟩ : BufTy).Contents (Elt Ideal)) :
    val_main_v53 (F := Ideal) x3 x4 x5 x8 x9 x10 x11 x20 x21 x22 x23 x24 x25 = relu (val_main_v52 (F := Ideal) x3 x4 x5 x8 x9 x10 x11 x20 x21 x22 x23 x24 x25) := by
  funext i
  rw [val_main_v53_apply, val_main_call3_v0_apply, val_main_call3_cst_apply]
  rfl

theorem v54_eq (x3 : (⟨S8192x128, .f32⟩ : BufTy).Contents (Elt Ideal)) (x4 : (⟨S8192x2, .f32⟩ : BufTy).Contents (Elt Ideal)) (x5 : (⟨S8x4, .f32⟩ : BufTy).Contents (Elt Ideal)) (x8 : (⟨S8192x2048, .f32⟩ : BufTy).Contents (Elt Ideal)) (x9 : (⟨S2048x8192, .f32⟩ : BufTy).Contents (Elt Ideal)) (x10 : (⟨S8192x2048, .f32⟩ : BufTy).Contents (Elt Ideal)) (x11 : (⟨S2048x8, .f32⟩ : BufTy).Contents (Elt Ideal)) (x20 : (⟨S134x256, .f32⟩ : BufTy).Contents (Elt Ideal)) (x21 : (⟨S256, .f32⟩ : BufTy).Contents (Elt Ideal)) (x22 : (⟨S256x128, .f32⟩ : BufTy).Contents (Elt Ideal)) (x23 : (⟨S128, .f32⟩ : BufTy).Contents (Elt Ideal)) (x24 : (⟨S130x128, .f32⟩ : BufTy).Contents (Elt Ideal)) (x25 : (⟨S128, .f32⟩ : BufTy).Contents (Elt Ideal)) (x26 : (⟨S128x128, .f32⟩ : BufTy).Contents (Elt Ideal)) :
    val_main_v54 (F := Ideal) x3 x4 x5 x8 x9 x10 x11 x20 x21 x22 x23 x24 x25 x26 = mm (val_main_v53 (F := Ideal) x3 x4 x5 x8 x9 x10 x11 x20 x21 x22 x23 x24 x25) (x26) :=
  eq_mm _ _ _ lidx_main_v54 ridx_main_v54 (val_main_v54_apply x3 x4 x5 x8 x9 x10 x11 x20 x21 x22 x23 x24 x25 x26)
    (fun i x => funext fun a => by match a with | ⟨0, _⟩ => rfl | ⟨1, _⟩ => rfl)
    (fun i x => funext fun a => by match a with | ⟨0, _⟩ => rfl | ⟨1, _⟩ => rfl)

theorem v57_eq (x3 : (⟨S8192x128, .f32⟩ : BufTy).Contents (Elt Ideal)) (x4 : (⟨S8192x2, .f32⟩ : BufTy).Contents (Elt Ideal)) (x5 : (⟨S8x4, .f32⟩ : BufTy).Contents (Elt Ideal)) (x8 : (⟨S8192x2048, .f32⟩ : BufTy).Contents (Elt Ideal)) (x9 : (⟨S2048x8192, .f32⟩ : BufTy).Contents (Elt Ideal)) (x10 : (⟨S8192x2048, .f32⟩ : BufTy).Contents (Elt Ideal)) (x11 : (⟨S2048x8, .f32⟩ : BufTy).Contents (Elt Ideal)) (x20 : (⟨S134x256, .f32⟩ : BufTy).Contents (Elt Ideal)) (x21 : (⟨S256, .f32⟩ : BufTy).Contents (Elt Ideal)) (x22 : (⟨S256x128, .f32⟩ : BufTy).Contents (Elt Ideal)) (x23 : (⟨S128, .f32⟩ : BufTy).Contents (Elt Ideal)) (x24 : (⟨S130x128, .f32⟩ : BufTy).Contents (Elt Ideal)) (x25 : (⟨S128, .f32⟩ : BufTy).Contents (Elt Ideal)) (x26 : (⟨S128x128, .f32⟩ : BufTy).Contents (Elt Ideal)) (x27 : (⟨S128, .f32⟩ : BufTy).Contents (Elt Ideal)) :
    val_main_v57 (F := Ideal) x3 x4 x5 x8 x9 x10 x11 x20 x21 x22 x23 x24 x25 x26 x27 = addRow (val_main_v54 (F := Ideal) x3 x4 x5 x8 x9 x10 x11 x20 x21 x22 x23 x24 x25 x26) (row x27) := by
  funext i
  have hidx : idx_main_v55 (idx_main_v56 i) = ix1 ((ix2 (0 : Fin 1) (i 1)) 1) :=
    funext fun a => by match a with | ⟨0, _⟩ => rfl
  rw [val_main_v57_apply, val_main_v56_apply, val_main_v55_apply, hidx]
  rfl

/-! ## The blend with the previous state under the mask column -/

theorem v64_blend (x0 x3 : (⟨S8192x128, .f32⟩ : BufTy).Contents (Elt Ideal)) (x4 : (⟨S8192x2, .f32⟩ : BufTy).Contents (Elt Ideal)) (x5 : (⟨S8x4, .f32⟩ : BufTy).Contents (Elt Ideal)) (x6 : (⟨S8x1, .i32⟩ : BufTy).Contents (Elt Ideal)) (x8 : (⟨S8192x2048, .f32⟩ : BufTy).Contents (Elt Ideal)) (x9 : (⟨S2048x8192, .f32⟩ : BufTy).Contents (Elt Ideal)) (x10 : (⟨S8192x2048, .f32⟩ : BufTy).Contents (Elt Ideal)) (x11 : (⟨S2048x8, .f32⟩ : BufTy).Contents (Elt Ideal)) (x20 : (⟨S134x256, .f32⟩ : BufTy).Contents (Elt Ideal)) (x21 : (⟨S256, .f32⟩ : BufTy).Contents (Elt Ideal)) (x22 : (⟨S256x128, .f32⟩ : BufTy).Contents (Elt Ideal)) (x23 : (⟨S128, .f32⟩ : BufTy).Contents (Elt Ideal)) (x24 : (⟨S130x128, .f32⟩ : BufTy).Contents (Elt Ideal)) (x25 : (⟨S128, .f32⟩ : BufTy).Contents (Elt Ideal)) (x26 : (⟨S128x128, .f32⟩ : BufTy).Contents (Elt Ideal)) (x27 : (⟨S128, .f32⟩ : BufTy).Contents (Elt Ideal)) :
    val_main_v64 (F := Ideal) x0 x3 x4 x5 x6 x8 x9 x10 x11 x20 x21 x22 x23 x24 x25 x26 x27 = fun i => val_main_v2 (F := Ideal) x6 x8 x11 (ix2 (i 0) (0 : Fin 1)) * val_main_v57 (F := Ideal) x3 x4 x5 x8 x9 x10 x11 x20 x21 x22 x23 x24 x25 x26 x27 i
      + (oneW - val_main_v2 (F := Ideal) x6 x8 x11 (ix2 (i 0) (0 : Fin 1))) * x0 i := by
  funext i
  have hidx : idx_main_v58 i = ix2 (i 0) (0 : Fin 1) :=
    funext fun a => by match a with | ⟨0, _⟩ => rfl | ⟨1, _⟩ => rfl
  have hidx' : idx_main_v62 i = ix2 (i 0) (0 : Fin 1) :=
    funext fun a => by match a with | ⟨0, _⟩ => rfl | ⟨1, _⟩ => rfl
  rw [val_main_v64_apply, val_main_v59_apply, val_main_v58_apply, val_main_v63_apply, val_main_v62_apply,
    val_main_v61_apply, val_main_v60_apply, val_main_cst_0_apply, hidx, hidx']
  rfl
/-- The per-edge transform, as one function of the arguments. -/
theorem v44_head (x3 : (⟨S8192x128, .f32⟩ : BufTy).Contents (Elt Ideal)) (x4 : (⟨S8192x2, .f32⟩ : BufTy).Contents (Elt Ideal)) (x5 : (⟨S8x4, .f32⟩ : BufTy).Contents (Elt Ideal)) (x8 : (⟨S8192x2048, .f32⟩ : BufTy).Contents (Elt Ideal)) (x11 : (⟨S2048x8, .f32⟩ : BufTy).Contents (Elt Ideal)) (x20 : (⟨S134x256, .f32⟩ : BufTy).Contents (Elt Ideal)) (x21 : (⟨S256, .f32⟩ : BufTy).Contents (Elt Ideal)) (x22 : (⟨S256x128, .f32⟩ : BufTy).Contents (Elt Ideal)) (x23 : (⟨S128, .f32⟩ : BufTy).Contents (Elt Ideal)) :
    val_main_v44 (F := Ideal) x3 x4 x5 x8 x11 x20 x21 x22 x23 = headMlp x3 x4 (mm x8 (mm x11 x5)) x20 (row x21) x22 (row x23) := by
  rw [v44_eq, v41_eq, v40_eq, v39_eq, v36_eq, v35_eq, v4_eq, v3_eq]
  rfl

/-- The result: the blend of the transformed aggregate with the previous state under the mask column. -/
theorem v64_eq (x0 x3 : (⟨S8192x128, .f32⟩ : BufTy).Contents (Elt Ideal)) (x4 : (⟨S8192x2, .f32⟩ : BufTy).Contents (Elt Ideal)) (x5 : (⟨S8x4, .f32⟩ : BufTy).Contents (Elt Ideal)) (x6 : (⟨S8x1, .i32⟩ : BufTy).Contents (Elt Ideal)) (x8 : (⟨S8192x2048, .f32⟩ : BufTy).Contents (Elt Ideal)) (x9 : (⟨S2048x8192, .f32⟩ : BufTy).Contents (Elt Ideal)) (x10 : (⟨S8192x2048, .f32⟩ : BufTy).Contents (Elt Ideal)) (x11 : (⟨S2048x8, .f32⟩ : BufTy).Contents (Elt Ideal)) (x20 : (⟨S134x256, .f32⟩ : BufTy).Contents (Elt Ideal)) (x21 : (⟨S256, .f32⟩ : BufTy).Contents (Elt Ideal)) (x22 : (⟨S256x128, .f32⟩ : BufTy).Contents (Elt Ideal)) (x23 : (⟨S128, .f32⟩ : BufTy).Contents (Elt Ideal)) (x24 : (⟨S130x128, .f32⟩ : BufTy).Contents (Elt Ideal)) (x25 : (⟨S128, .f32⟩ : BufTy).Contents (Elt Ideal)) (x26 : (⟨S128x128, .f32⟩ : BufTy).Contents (Elt Ideal)) (x27 : (⟨S128, .f32⟩ : BufTy).Contents (Elt Ideal)) :
    val_main_v64 (F := Ideal) x0 x3 x4 x5 x6 x8 x9 x10 x11 x20 x21 x22 x23 x24 x25 x26 x27
      = blend x10 (mm x9 (headMlp x3 x4 (mm x8 (mm x11 x5)) x20 (row x21) x22 (row x23))) (headMlp x3 x4 (mm x8 (mm x11 x5)) x20 (row x21) x22 (row x23)) x4
          (mm x8 (mm x11 (fun i => FloatOps.sitofp (F := Ideal) .f32 (x6 i)))) x0 x24 (row x25) x26 (row x27) := by
  rw [v64_blend, v57_eq, v54_eq, v53_eq, v52_eq, v49_eq, v48_eq, v47_eq, v46_eq, v45_eq, v44_head,
    v2_eq, v1_eq]
  rfl

end Cert.ReferenceIdeal.RefValue

end
-- ==== Proof.Bridge.lean ====
/-
  The reference's two results, written over the kernel's argument arrays. The reference computes each result as the
  blend of the previous state with the transform of the aggregate (the stage-by-stage reading of its program); when its
  argument arrays are the kernel's, that is word for word the function the kernel's last region of each branch leaves.
-/
import proofs.«122511_j30537217474923_2_alg».proof.Proof.RefStages
import proofs.«122511_j30537217474923_2_alg».proof.Proof.KValC

set_option maxRecDepth 16384

noncomputable section

namespace Cert.Bridge

open Cert.ReferenceIdeal Cert.ReferenceIdeal.RefValue Cert.Spec
open Idealize.ShloMosaic Idealize.ShloMosaic.TcCoe Idealize.SL.Sem

/-- The reading of the new variable-side state, carried along equations between the argument arrays. -/
theorem v64_congr (x0 x3 : (⟨S8192x128, .f32⟩ : BufTy).Contents (Elt Ideal)) (x4 : (⟨S8192x2, .f32⟩ : BufTy).Contents (Elt Ideal)) (x5 : (⟨S8x4, .f32⟩ : BufTy).Contents (Elt Ideal)) (x6 : (⟨S8x1, .i32⟩ : BufTy).Contents (Elt Ideal)) (x8 : (⟨S8192x2048, .f32⟩ : BufTy).Contents (Elt Ideal)) (x9 : (⟨S2048x8192, .f32⟩ : BufTy).Contents (Elt Ideal)) (x10 : (⟨S8192x2048, .f32⟩ : BufTy).Contents (Elt Ideal)) (x11 : (⟨S2048x8, .f32⟩ : BufTy).Contents (Elt Ideal)) (x20 : (⟨S134x256, .f32⟩ : BufTy).Contents (Elt Ideal)) (x21 : (⟨S256, .f32⟩ : BufTy).Contents (Elt Ideal)) (x22 : (⟨S256x128, .f32⟩ : BufTy).Contents (Elt Ideal)) (x23 : (⟨S128, .f32⟩ : BufTy).Contents (Elt Ideal)) (x24 : (⟨S130x128, .f32⟩ : BufTy).Contents (Elt Ideal)) (x25 : (⟨S128, .f32⟩ : BufTy).Contents (Elt Ideal)) (x26 : (⟨S128x128, .f32⟩ : BufTy).Contents (Elt Ideal)) (x27 : (⟨S128, .f32⟩ : BufTy).Contents (Elt Ideal))
    (y0 y3 : (⟨S8192x128, .f32⟩ : BufTy).Contents (Elt Ideal)) (y4 : (⟨S8192x2, .f32⟩ : BufTy).Contents (Elt Ideal)) (y5 : (⟨S8x4, .f32⟩ : BufTy).Contents (Elt Ideal)) (y6 : (⟨S8x1, .i32⟩ : BufTy).Contents (Elt Ideal)) (y8 : (⟨S8192x2048, .f32⟩ : BufTy).Contents (Elt Ideal)) (y9 : (⟨S2048x8192, .f32⟩ : BufTy).Contents (Elt Ideal)) (y10 : (⟨S8192x2048, .f32⟩ : BufTy).Contents (Elt Ideal)) (y11 : (⟨S2048x8, .f32⟩ : BufTy).Contents (Elt Ideal)) (y20 : (⟨S134x256, .f32⟩ : BufTy).Contents (Elt Ideal)) (y21 : (⟨S256, .f32⟩ : BufTy).Contents (Elt Ideal)) (y22 : (⟨S256x128, .f32⟩ : BufTy).Contents (Elt Ideal)) (y23 : (⟨S128, .f32⟩ : BufTy).Contents (Elt Ideal)) (y24 : (⟨S130x128, .f32⟩ : BufTy).Contents (Elt Ideal)) (y25 : (⟨S128, .f32⟩ : BufTy).Contents (Elt Ideal)) (y26 : (⟨S128x128, .f32⟩ : BufTy).Contents (Elt Ideal)) (y27 : (⟨S128, .f32⟩ : BufTy).Contents (Elt Ideal))
    (e0 : x0 = y0) (e3 : x3 = y3) (e4 : x4 = y4) (e5 : x5 = y5) (e6 : x6 = y6) (e8 : x8 = y8) (e9 : x9 = y9) (e10 : x10 = y10) (e11 : x11 = y11) (e20 : x20 = y20) (e21 : x21 = y21) (e22 : x22 = y22) (e23 : x23 = y23) (e24 : x24 = y24) (e25 : x25 = y25) (e26 : x26 = y26) (e27 : x27 = y27) :
    Read.val_main_v64 (F := Ideal) x0 x3 x4 x5 x6 x8 x9 x10 x11 x20 x21 x22 x23 x24 x25 x26 x27
      = blend y10 (mm y9 (headMlp y3 y4 (mm y8 (mm y11 y5)) y20 (row y21) y22 (row y23))) (headMlp y3 y4 (mm y8 (mm y11 y5)) y20 (row y21) y22 (row y23)) y4
          (mm y8 (mm y11 (fun i => FloatOps.sitofp (F := Ideal) .f32 (y6 i)))) y0 y24 (row y25) y26 (row y27) := by
  subst_vars
  exact v64_eq _ _ _ _ _ _ _ _ _ _ _ _ _ _ _ _ _

/-- The reading of the new clause-side state, carried along equations between the argument arrays. -/
theorem v34_congr (x1 x2 : (⟨S8192x128, .f32⟩ : BufTy).Contents (Elt Ideal)) (x4 : (⟨S8192x2, .f32⟩ : BufTy).Contents (Elt Ideal)) (x5 : (⟨S8x4, .f32⟩ : BufTy).Contents (Elt Ideal)) (x6 : (⟨S8x1, .i32⟩ : BufTy).Contents (Elt Ideal)) (x7 : (⟨S2048x8192, .f32⟩ : BufTy).Contents (Elt Ideal)) (x8 : (⟨S8192x2048, .f32⟩ : BufTy).Contents (Elt Ideal)) (x11 : (⟨S2048x8, .f32⟩ : BufTy).Contents (Elt Ideal)) (x12 : (⟨S134x256, .f32⟩ : BufTy).Contents (Elt Ideal)) (x13 : (⟨S256, .f32⟩ : BufTy).Contents (Elt Ideal)) (x14 : (⟨S256x128, .f32⟩ : BufTy).Contents (Elt Ideal)) (x15 : (⟨S128, .f32⟩ : BufTy).Contents (Elt Ideal)) (x16 : (⟨S130x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal))
    (y1 y2 : (⟨S8192x128, .f32⟩ : BufTy).Contents (Elt Ideal)) (y4 : (⟨S8192x2, .f32⟩ : BufTy).Contents (Elt Ideal)) (y5 : (⟨S8x4, .f32⟩ : BufTy).Contents (Elt Ideal)) (y6 : (⟨S8x1, .i32⟩ : BufTy).Contents (Elt Ideal)) (y7 : (⟨S2048x8192, .f32⟩ : BufTy).Contents (Elt Ideal)) (y8 : (⟨S8192x2048, .f32⟩ : BufTy).Contents (Elt Ideal)) (y11 : (⟨S2048x8, .f32⟩ : BufTy).Contents (Elt Ideal)) (y12 : (⟨S134x256, .f32⟩ : BufTy).Contents (Elt Ideal)) (y13 : (⟨S256, .f32⟩ : BufTy).Contents (Elt Ideal)) (y14 : (⟨S256x128, .f32⟩ : BufTy).Contents (Elt Ideal)) (y15 : (⟨S128, .f32⟩ : BufTy).Contents (Elt Ideal)) (y16 : (⟨S130x128, .f32⟩ : BufTy).Contents (Elt Ideal)) (y17 : (⟨S128, .f32⟩ : BufTy).Contents (Elt Ideal)) (y18 : (⟨S128x128, .f32⟩ : BufTy).Contents (Elt Ideal)) (y19 : (⟨S128, .f32⟩ : BufTy).Contents (Elt Ideal))
    (e1 : x1 = y1) (e2 : x2 = y2) (e4 : x4 = y4) (e5 : x5 = y5) (e6 : x6 = y6) (e7 : x7 = y7) (e8 : x8 = y8) (e11 : x11 = y11) (e12 : x12 = y12) (e13 : x13 = y13) (e14 : x14 = y14) (e15 : x15 = y15) (e16 : x16 = y16) (e17 : x17 = y17) (e18 : x18 = y18) (e19 : x19 = y19) :
    Read.val_main_v34 (F := Ideal) x1 x2 x4 x5 x6 x7 x8 x11 x12 x13 x14 x15 x16 x17 x18 x19
      = blend y8 (mm y7 (headMlp y2 y4 (mm y8 (mm y11 y5)) y12 (row y13) y14 (row y15))) (headMlp y2 y4 (mm y8 (mm y11 y5)) y12 (row y13) y14 (row y15)) y4
          (mm y8 (mm y11 (fun i => FloatOps.sitofp (F := Ideal) .f32 (y6 i)))) y1 y16 (row y17) y18 (row y19) := by
  subst_vars
  exact v34_eq _ _ _ _ _ _ _ _ _ _ _ _ _ _ _ _

/-- From argument arrays that agree with the kernel's, the reference's new variable-side state is the kernel's. -/
theorem ref_newV (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hag : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))
      ∧ (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))
      ∧ (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14))
      ∧ (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15))
      ∧ (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16))
      ∧ (m' ((c.tc : Thread Cert.ReferenceIdeal.nD Cert.ReferenceIdeal.τ).loc Cert.ReferenceIdeal.main_arg17)) = (m ((c.tc : Thread Cert.KernelIdeal.nD Cert.KernelIdeal.τ).loc Cert.KernelIdeal.main_arg17))
      ∧ (m' ((c.tc : Thread Cert.ReferenceIdeal.nD Cert.ReferenceIdeal.τ).loc Cert.ReferenceIdeal.main_arg18)) = (m ((c.tc : Thread Cert.KernelIdeal.nD Cert.KernelIdeal.τ).loc Cert.KernelIdeal.main_arg18))
      ∧ (m' ((c.tc : Thread Cert.ReferenceIdeal.nD Cert.ReferenceIdeal.τ).loc Cert.ReferenceIdeal.main_arg19)) = (m ((c.tc : Thread Cert.KernelIdeal.nD Cert.KernelIdeal.τ).loc Cert.KernelIdeal.main_arg19))
      ∧ (m' ((c.tc : Thread Cert.ReferenceIdeal.nD Cert.ReferenceIdeal.τ).loc Cert.ReferenceIdeal.main_arg20)) = (m ((c.tc : Thread Cert.KernelIdeal.nD Cert.KernelIdeal.τ).loc Cert.KernelIdeal.main_arg20))
      ∧ (m' ((c.tc : Thread Cert.ReferenceIdeal.nD Cert.ReferenceIdeal.τ).loc Cert.ReferenceIdeal.main_arg21)) = (m ((c.tc : Thread Cert.KernelIdeal.nD Cert.KernelIdeal.τ).loc Cert.KernelIdeal.main_arg21))
      ∧ (m' ((c.tc : Thread Cert.ReferenceIdeal.nD Cert.ReferenceIdeal.τ).loc Cert.ReferenceIdeal.main_arg22)) = (m ((c.tc : Thread Cert.KernelIdeal.nD Cert.KernelIdeal.τ).loc Cert.KernelIdeal.main_arg22))
      ∧ (m' ((c.tc : Thread Cert.ReferenceIdeal.nD Cert.ReferenceIdeal.τ).loc Cert.ReferenceIdeal.main_arg23)) = (m ((c.tc : Thread Cert.KernelIdeal.nD Cert.KernelIdeal.τ).loc Cert.KernelIdeal.main_arg23))
      ∧ (m' ((c.tc : Thread Cert.ReferenceIdeal.nD Cert.ReferenceIdeal.τ).loc Cert.ReferenceIdeal.main_arg24)) = (m ((c.tc : Thread Cert.KernelIdeal.nD Cert.KernelIdeal.τ).loc Cert.KernelIdeal.main_arg24))
      ∧ (m' ((c.tc : Thread Cert.ReferenceIdeal.nD Cert.ReferenceIdeal.τ).loc Cert.ReferenceIdeal.main_arg25)) = (m ((c.tc : Thread Cert.KernelIdeal.nD Cert.KernelIdeal.τ).loc Cert.KernelIdeal.main_arg25))
      ∧ (m' ((c.tc : Thread Cert.ReferenceIdeal.nD Cert.ReferenceIdeal.τ).loc Cert.ReferenceIdeal.main_arg26)) = (m ((c.tc : Thread Cert.KernelIdeal.nD Cert.KernelIdeal.τ).loc Cert.KernelIdeal.main_arg26))
      ∧ (m' ((c.tc : Thread Cert.ReferenceIdeal.nD Cert.ReferenceIdeal.τ).loc Cert.ReferenceIdeal.main_arg27)) = (m ((c.tc : Thread Cert.KernelIdeal.nD Cert.KernelIdeal.τ).loc Cert.KernelIdeal.main_arg27))) :
    Read.val_main_v64 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg20))
      (m' ((c.tc : Thread Cert.ReferenceIdeal.nD Cert.ReferenceIdeal.τ).loc Cert.ReferenceIdeal.main_arg21))
      (m' ((c.tc : Thread Cert.ReferenceIdeal.nD Cert.ReferenceIdeal.τ).loc Cert.ReferenceIdeal.main_arg22))
      (m' ((c.tc : Thread Cert.ReferenceIdeal.nD Cert.ReferenceIdeal.τ).loc Cert.ReferenceIdeal.main_arg23))
      (m' ((c.tc : Thread Cert.ReferenceIdeal.nD Cert.ReferenceIdeal.τ).loc Cert.ReferenceIdeal.main_arg24))
      (m' ((c.tc : Thread Cert.ReferenceIdeal.nD Cert.ReferenceIdeal.τ).loc Cert.ReferenceIdeal.main_arg25))
      (m' ((c.tc : Thread Cert.ReferenceIdeal.nD Cert.ReferenceIdeal.τ).loc Cert.ReferenceIdeal.main_arg26))
      (m' ((c.tc : Thread Cert.ReferenceIdeal.nD Cert.ReferenceIdeal.τ).loc Cert.ReferenceIdeal.main_arg27))
      = Cert.KernelIdeal.KVal.newV m c := by
  obtain ⟨h0, h1, h2, h3, h4, h5, h6, h7, h8, h9, h10, h11, h12, h13, h14, h15, h16, h17, h18, h19, h20, h21, h22, h23, h24, h25, h26, h27⟩ := hag
  exact (v64_congr (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10))
    (m' ((c.tc : Thread Cert.ReferenceIdeal.nD Cert.ReferenceIdeal.τ).loc Cert.ReferenceIdeal.main_arg11))
    (m' ((c.tc : Thread Cert.ReferenceIdeal.nD Cert.ReferenceIdeal.τ).loc Cert.ReferenceIdeal.main_arg20))
    (m' ((c.tc : Thread Cert.ReferenceIdeal.nD Cert.ReferenceIdeal.τ).loc Cert.ReferenceIdeal.main_arg21))
    (m' ((c.tc : Thread Cert.ReferenceIdeal.nD Cert.ReferenceIdeal.τ).loc Cert.ReferenceIdeal.main_arg22))
    (m' ((c.tc : Thread Cert.ReferenceIdeal.nD Cert.ReferenceIdeal.τ).loc Cert.ReferenceIdeal.main_arg23))
    (m' ((c.tc : Thread Cert.ReferenceIdeal.nD Cert.ReferenceIdeal.τ).loc Cert.ReferenceIdeal.main_arg24))
    (m' ((c.tc : Thread Cert.ReferenceIdeal.nD Cert.ReferenceIdeal.τ).loc Cert.ReferenceIdeal.main_arg25))
    (m' ((c.tc : Thread Cert.ReferenceIdeal.nD Cert.ReferenceIdeal.τ).loc Cert.ReferenceIdeal.main_arg26))
    (m' ((c.tc : Thread Cert.ReferenceIdeal.nD Cert.ReferenceIdeal.τ).loc Cert.ReferenceIdeal.main_arg27))
    (m ((c.tc : Thread Cert.KernelIdeal.nD Cert.KernelIdeal.τ).loc Cert.KernelIdeal.main_arg0))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg20))
    (m ((c.tc : Thread Cert.KernelIdeal.nD Cert.KernelIdeal.τ).loc Cert.KernelIdeal.main_arg21))
    (m ((c.tc : Thread Cert.KernelIdeal.nD Cert.KernelIdeal.τ).loc Cert.KernelIdeal.main_arg22))
    (m ((c.tc : Thread Cert.KernelIdeal.nD Cert.KernelIdeal.τ).loc Cert.KernelIdeal.main_arg23))
    (m ((c.tc : Thread Cert.KernelIdeal.nD Cert.KernelIdeal.τ).loc Cert.KernelIdeal.main_arg24))
    (m ((c.tc : Thread Cert.KernelIdeal.nD Cert.KernelIdeal.τ).loc Cert.KernelIdeal.main_arg25))
    (m ((c.tc : Thread Cert.KernelIdeal.nD Cert.KernelIdeal.τ).loc Cert.KernelIdeal.main_arg26))
    (m ((c.tc : Thread Cert.KernelIdeal.nD Cert.KernelIdeal.τ).loc Cert.KernelIdeal.main_arg27))
    h0 h3 h4 h5 h6 h8 h9 h10 h11 h20 h21 h22 h23 h24 h25 h26 h27).trans rfl

/-- From argument arrays that agree with the kernel's, the reference's new clause-side state is the kernel's. -/
theorem ref_newF (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hag : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))
      ∧ (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))
      ∧ (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14))
      ∧ (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15))
      ∧ (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16))
      ∧ (m' ((c.tc : Thread Cert.ReferenceIdeal.nD Cert.ReferenceIdeal.τ).loc Cert.ReferenceIdeal.main_arg17)) = (m ((c.tc : Thread Cert.KernelIdeal.nD Cert.KernelIdeal.τ).loc Cert.KernelIdeal.main_arg17))
      ∧ (m' ((c.tc : Thread Cert.ReferenceIdeal.nD Cert.ReferenceIdeal.τ).loc Cert.ReferenceIdeal.main_arg18)) = (m ((c.tc : Thread Cert.KernelIdeal.nD Cert.KernelIdeal.τ).loc Cert.KernelIdeal.main_arg18))
      ∧ (m' ((c.tc : Thread Cert.ReferenceIdeal.nD Cert.ReferenceIdeal.τ).loc Cert.ReferenceIdeal.main_arg19)) = (m ((c.tc : Thread Cert.KernelIdeal.nD Cert.KernelIdeal.τ).loc Cert.KernelIdeal.main_arg19))
      ∧ (m' ((c.tc : Thread Cert.ReferenceIdeal.nD Cert.ReferenceIdeal.τ).loc Cert.ReferenceIdeal.main_arg20)) = (m ((c.tc : Thread Cert.KernelIdeal.nD Cert.KernelIdeal.τ).loc Cert.KernelIdeal.main_arg20))
      ∧ (m' ((c.tc : Thread Cert.ReferenceIdeal.nD Cert.ReferenceIdeal.τ).loc Cert.ReferenceIdeal.main_arg21)) = (m ((c.tc : Thread Cert.KernelIdeal.nD Cert.KernelIdeal.τ).loc Cert.KernelIdeal.main_arg21))
      ∧ (m' ((c.tc : Thread Cert.ReferenceIdeal.nD Cert.ReferenceIdeal.τ).loc Cert.ReferenceIdeal.main_arg22)) = (m ((c.tc : Thread Cert.KernelIdeal.nD Cert.KernelIdeal.τ).loc Cert.KernelIdeal.main_arg22))
      ∧ (m' ((c.tc : Thread Cert.ReferenceIdeal.nD Cert.ReferenceIdeal.τ).loc Cert.ReferenceIdeal.main_arg23)) = (m ((c.tc : Thread Cert.KernelIdeal.nD Cert.KernelIdeal.τ).loc Cert.KernelIdeal.main_arg23))
      ∧ (m' ((c.tc : Thread Cert.ReferenceIdeal.nD Cert.ReferenceIdeal.τ).loc Cert.ReferenceIdeal.main_arg24)) = (m ((c.tc : Thread Cert.KernelIdeal.nD Cert.KernelIdeal.τ).loc Cert.KernelIdeal.main_arg24))
      ∧ (m' ((c.tc : Thread Cert.ReferenceIdeal.nD Cert.ReferenceIdeal.τ).loc Cert.ReferenceIdeal.main_arg25)) = (m ((c.tc : Thread Cert.KernelIdeal.nD Cert.KernelIdeal.τ).loc Cert.KernelIdeal.main_arg25))
      ∧ (m' ((c.tc : Thread Cert.ReferenceIdeal.nD Cert.ReferenceIdeal.τ).loc Cert.ReferenceIdeal.main_arg26)) = (m ((c.tc : Thread Cert.KernelIdeal.nD Cert.KernelIdeal.τ).loc Cert.KernelIdeal.main_arg26))
      ∧ (m' ((c.tc : Thread Cert.ReferenceIdeal.nD Cert.ReferenceIdeal.τ).loc Cert.ReferenceIdeal.main_arg27)) = (m ((c.tc : Thread Cert.KernelIdeal.nD Cert.KernelIdeal.τ).loc Cert.KernelIdeal.main_arg27))) :
    Read.val_main_v34 (F := Ideal) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      (m' ((c.tc : Thread Cert.ReferenceIdeal.nD Cert.ReferenceIdeal.τ).loc Cert.ReferenceIdeal.main_arg17))
      (m' ((c.tc : Thread Cert.ReferenceIdeal.nD Cert.ReferenceIdeal.τ).loc Cert.ReferenceIdeal.main_arg18))
      (m' ((c.tc : Thread Cert.ReferenceIdeal.nD Cert.ReferenceIdeal.τ).loc Cert.ReferenceIdeal.main_arg19))
      = Cert.KernelIdeal.KVal.newF m c := by
  obtain ⟨h0, h1, h2, h3, h4, h5, h6, h7, h8, h9, h10, h11, h12, h13, h14, h15, h16, h17, h18, h19, h20, h21, h22, h23, h24, h25, h26, h27⟩ := hag
  exact (v34_congr (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg11))
    (m' ((c.tc : Thread Cert.ReferenceIdeal.nD Cert.ReferenceIdeal.τ).loc Cert.ReferenceIdeal.main_arg12))
    (m' ((c.tc : Thread Cert.ReferenceIdeal.nD Cert.ReferenceIdeal.τ).loc Cert.ReferenceIdeal.main_arg13))
    (m' ((c.tc : Thread Cert.ReferenceIdeal.nD Cert.ReferenceIdeal.τ).loc Cert.ReferenceIdeal.main_arg14))
    (m' ((c.tc : Thread Cert.ReferenceIdeal.nD Cert.ReferenceIdeal.τ).loc Cert.ReferenceIdeal.main_arg15))
    (m' ((c.tc : Thread Cert.ReferenceIdeal.nD Cert.ReferenceIdeal.τ).loc Cert.ReferenceIdeal.main_arg16))
    (m' ((c.tc : Thread Cert.ReferenceIdeal.nD Cert.ReferenceIdeal.τ).loc Cert.ReferenceIdeal.main_arg17))
    (m' ((c.tc : Thread Cert.ReferenceIdeal.nD Cert.ReferenceIdeal.τ).loc Cert.ReferenceIdeal.main_arg18))
    (m' ((c.tc : Thread Cert.ReferenceIdeal.nD Cert.ReferenceIdeal.τ).loc Cert.ReferenceIdeal.main_arg19))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    (m ((c.tc : Thread Cert.KernelIdeal.nD Cert.KernelIdeal.τ).loc Cert.KernelIdeal.main_arg18))
    (m ((c.tc : Thread Cert.KernelIdeal.nD Cert.KernelIdeal.τ).loc Cert.KernelIdeal.main_arg19))
    h1 h2 h4 h5 h6 h7 h8 h11 h12 h13 h14 h15 h16 h17 h18 h19).trans rfl

end Cert.Bridge

end
-- ==== Proof.lean ====
/-
  One step of message passing on a bipartite graph of 8192 edges between 2048 variables and 2048 clauses, for 8 problems
  batched together. From the incidence matrices `Mv`, `Mf` (and their transposes), the per-problem data and the
  per-edge states, both programs compute

    mask  = Mvᵀ · (Bv · active)            (which edges belong to a problem still active),
    graph = Mvᵀ · (Bv · features)          (each edge's problem features),
    h     = relu([dec | edge | graph] · W₁ + b₁) · W₂ + b₂            (the per-edge message),
    agg   = Mᵀ · (M · h) − h                                          (the node's sum without the edge's own message),
    new   = relu([agg | edge] · A₁ + c₁) · A₂ + c₂,
    out   = mask · new + (1 − mask) · old,

  once with the variable-side matrices (the new clause-side state) and once with the clause-side ones (the new
  variable-side state). The kernel does this in seven tiled stages: every stage works on whole rows with the whole
  contracted axis in one block, so each entry it writes is the same sum the plain formula has, and the stages' row
  blocks tile their arrays. Over the extended reals the changes of float format are the identity. The only place the
  two texts differ is the first stage: the kernel multiplies `Bv` once by the joined matrix `[active | features]` and
  takes column 0 and columns 1..4 of `Mvᵀ` times the result, where the plain formula forms the two products
  separately; an entry of a product only sees its own column, so the two agree term by term. No law that could fail at
  an infinity (distributivity, cancellation) is used, and the finiteness of the inputs is never opened.

  The three frames are the generated ones (the reference's is its generated run with the results dropped); nothing was
  rewritten by the idealization, so that conjunct is trivial.
-/
import proofs.«122511_j30537217474923_2_alg».proof.Defs
import proofs.«122511_j30537217474923_2_alg».proof.Proof.Gen.Kernel
import proofs.«122511_j30537217474923_2_alg».proof.Proof.Gen.Kernel.Frame
import proofs.«122511_j30537217474923_2_alg».proof.Proof.Gen.KernelIdeal
import proofs.«122511_j30537217474923_2_alg».proof.Proof.Gen.KernelIdeal.Frame
import proofs.«122511_j30537217474923_2_alg».proof.Proof.Gen.ReferenceIdeal
import proofs.«122511_j30537217474923_2_alg».proof.Proof.Gen.ReferenceIdeal.Run
import proofs.«122511_j30537217474923_2_alg».proof.Proof.Gen.ReferenceIdeal.Read
import proofs.«122511_j30537217474923_2_alg».proof.Proof.Gen.Pre_finite_inputs
import proofs.«122511_j30537217474923_2_alg».proof.Proof.RunResults
import proofs.«122511_j30537217474923_2_alg».proof.Proof.KValC
import proofs.«122511_j30537217474923_2_alg».proof.Proof.RefStages
import proofs.«122511_j30537217474923_2_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both idealized programs end with the new variable-side state and the new clause-side state of the step, as the
    same functions of the (agreeing) argument arrays. -/
theorem algebraic : Cert.algebraic_KernelIdeal_ReferenceIdeal := by
  intro m ρ m' ρ' _ hagree
  refine ⟨fun c => Cert.KernelIdeal.KVal.newV m c, fun c => Cert.KernelIdeal.KVal.newF m c, ?_, ?_⟩
  · exact (θ_run Cert.KernelIdeal.defs _ _).mono
      (fun r h c => ⟨(h c).1.trans (Cert.KernelIdeal.KVal.v17_at12 m ρ c),
        (h c).2.1.trans (Cert.KernelIdeal.KVal.v10_at12 m ρ c), (h c).2.2⟩)
      (Cert.KernelIdeal.Results.run_results (F := Ideal) m ρ)
  · exact (θ_run Cert.ReferenceIdeal.defs _ _).mono
      (fun r h c => ⟨(h c).1.trans ((Cert.ReferenceIdeal.Read.val_main_v64_eq (F := Ideal) (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg20))
          (m' ((c.tc : Thread Cert.ReferenceIdeal.nD Cert.ReferenceIdeal.τ).loc Cert.ReferenceIdeal.main_arg21))
          (m' ((c.tc : Thread Cert.ReferenceIdeal.nD Cert.ReferenceIdeal.τ).loc Cert.ReferenceIdeal.main_arg22))
          (m' ((c.tc : Thread Cert.ReferenceIdeal.nD Cert.ReferenceIdeal.τ).loc Cert.ReferenceIdeal.main_arg23))
          (m' ((c.tc : Thread Cert.ReferenceIdeal.nD Cert.ReferenceIdeal.τ).loc Cert.ReferenceIdeal.main_arg24))
          (m' ((c.tc : Thread Cert.ReferenceIdeal.nD Cert.ReferenceIdeal.τ).loc Cert.ReferenceIdeal.main_arg25))
          (m' ((c.tc : Thread Cert.ReferenceIdeal.nD Cert.ReferenceIdeal.τ).loc Cert.ReferenceIdeal.main_arg26))
          (m' ((c.tc : Thread Cert.ReferenceIdeal.nD Cert.ReferenceIdeal.τ).loc Cert.ReferenceIdeal.main_arg27))).trans
            (Cert.Bridge.ref_newV m m' c (hagree c))),
        (h c).2.1.trans ((Cert.ReferenceIdeal.Read.val_main_v34_eq (F := Ideal) (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg12))
          (m' ((c.tc : Thread Cert.ReferenceIdeal.nD Cert.ReferenceIdeal.τ).loc Cert.ReferenceIdeal.main_arg13))
          (m' ((c.tc : Thread Cert.ReferenceIdeal.nD Cert.ReferenceIdeal.τ).loc Cert.ReferenceIdeal.main_arg14))
          (m' ((c.tc : Thread Cert.ReferenceIdeal.nD Cert.ReferenceIdeal.τ).loc Cert.ReferenceIdeal.main_arg15))
          (m' ((c.tc : Thread Cert.ReferenceIdeal.nD Cert.ReferenceIdeal.τ).loc Cert.ReferenceIdeal.main_arg16))
          (m' ((c.tc : Thread Cert.ReferenceIdeal.nD Cert.ReferenceIdeal.τ).loc Cert.ReferenceIdeal.main_arg17))
          (m' ((c.tc : Thread Cert.ReferenceIdeal.nD Cert.ReferenceIdeal.τ).loc Cert.ReferenceIdeal.main_arg18))
          (m' ((c.tc : Thread Cert.ReferenceIdeal.nD Cert.ReferenceIdeal.τ).loc Cert.ReferenceIdeal.main_arg19))).trans
            (Cert.Bridge.ref_newF m m' c (hagree c))),
        (h c).2.2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
